-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S65535x2x64 : Shape := ⟨3, ![65535, 2, 64]⟩
abbrev S65536x64 : Shape := ⟨2, ![65536, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S65535x2x64 : S_.BroadcastsInDim S65535x2x64 (![] : Fin 0 → Fin S65535x2x64.rank)
  reducesTo_S65535x2x64_S_d0_1_2 : S65535x2x64.ReducesTo [0, 1, 2] S_
  bcast_S_S65536x64 : S_.BroadcastsInDim S65536x64 (![] : Fin 0 → Fin S65536x64.rank)
  reducesTo_S65536x64_S_d0_1 : S65536x64.ReducesTo [0, 1] S_

variable [Facts]

def fn {F : FTy → Type} [FloatOps F] (main_arg0 : FVec F S2048x64 .f32) (main_arg1 : FVec F S65535x2x64 .f32) (main_arg2 : FVec F S65536x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S65535x2x64 .f32 := Host.absf main_arg1
  let main_cst_0 : FVec F S_ .f32 := constant S_ .f32 0x7F800000#32
  let main_v5 : FVec F S65535x2x64 .f32 := broadcastInDim S65535x2x64 ![] bcast_S_S65535x2x64 main_cst_0
  let main_v6 : IVec S65535x2x64 1 := cmpf .olt main_v4 main_v5
  let main_c_1 : IVec S_ 1 := constantI S_ 1 1#1
  let main_v7 : IVec S_ 1 := (fun x v => Host.reduce IntOp.andi x v reducesTo_S65535x2x64_S_d0_1_2 h_S_) main_v6 main_c_1
  let main_v8 : IVec S_ 1 := andi main_v3 main_v7
  let main_v9 : FVec F S65536x64 .f32 := Host.absf main_arg2
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  main_v13
-- ==== Kernel.lean ====
abbrev S2048x64 : Shape := ⟨2, ![2048, 64]⟩
abbrev S65535x2x64 : Shape := ⟨3, ![65535, 2, 64]⟩
abbrev S65536x64 : Shape := ⟨2, ![65536, 64]⟩
abbrev S127x2x64 : Shape := ⟨3, ![127, 2, 64]⟩
abbrev S128x2x64 : Shape := ⟨3, ![128, 2, 64]⟩
abbrev S128x1x2x64 : Shape := ⟨4, ![128, 1, 2, 64]⟩
abbrev S256x2x64 : Shape := ⟨3, ![256, 2, 64]⟩
abbrev S128x2x2x64 : Shape := ⟨4, ![128, 2, 2, 64]⟩
abbrev S512x2x64 : Shape := ⟨3, ![512, 2, 64]⟩
abbrev S128x4x2x64 : Shape := ⟨4, ![128, 4, 2, 64]⟩
abbrev S1024x2x64 : Shape := ⟨3, ![1024, 2, 64]⟩
abbrev S128x8x2x64 : Shape := ⟨4, ![128, 8, 2, 64]⟩
abbrev S2048x2x64 : Shape := ⟨3, ![2048, 2, 64]⟩
abbrev S128x16x2x64 : Shape := ⟨4, ![128, 16, 2, 64]⟩
abbrev S4096x2x64 : Shape := ⟨3, ![4096, 2, 64]⟩
abbrev S128x32x2x64 : Shape := ⟨4, ![128, 32, 2, 64]⟩
abbrev S8192x2x64 : Shape := ⟨3, ![8192, 2, 64]⟩
abbrev S128x64x2x64 : Shape := ⟨4, ![128, 64, 2, 64]⟩
abbrev S16384x2x64 : Shape := ⟨3, ![16384, 2, 64]⟩
abbrev S128x128x2x64 : Shape := ⟨4, ![128, 128, 2, 64]⟩
abbrev S32768x2x64 : Shape := ⟨3, ![32768, 2, 64]⟩
abbrev S128x256x2x64 : Shape := ⟨4, ![128, 256, 2, 64]⟩
abbrev S128x512x64 : Shape := ⟨3, ![128, 512, 64]⟩
abbrev S1024x64 : Shape := ⟨2, ![1024, 64]⟩
abbrev S1x1x2x64 : Shape := ⟨4, ![1, 1, 2, 64]⟩
abbrev S1x2x2x64 : Shape := ⟨4, ![1, 2, 2, 64]⟩
abbrev S1x4x2x64 : Shape := ⟨4, ![1, 4, 2, 64]⟩
abbrev S1x8x2x64 : Shape := ⟨4, ![1, 8, 2, 64]⟩
abbrev S1x16x2x64 : Shape := ⟨4, ![1, 16, 2, 64]⟩
abbrev S1x32x2x64 : Shape := ⟨4, ![1, 32, 2, 64]⟩
abbrev S1x64x2x64 : Shape := ⟨4, ![1, 64, 2, 64]⟩
abbrev S1x128x2x64 : Shape := ⟨4, ![1, 128, 2, 64]⟩
abbrev S1x256x2x64 : Shape := ⟨4, ![1, 256, 2, 64]⟩
abbrev S1x512x64 : Shape := ⟨3, ![1, 512, 64]⟩
abbrev S1024x128 : Shape := ⟨2, ![1024, 128]⟩
abbrev S1024x1 : Shape := ⟨2, ![1024, 1]⟩
abbrev S1x2x64 : Shape := ⟨3, ![1, 2, 64]⟩
abbrev S1x1x64 : Shape := ⟨3, ![1, 1, 64]⟩
abbrev S1x64 : Shape := ⟨2, ![1, 64]⟩
abbrev S64x1 : Shape := ⟨2, ![64, 1]⟩
abbrev S1024x2 : Shape := ⟨2, ![1024, 2]⟩
abbrev S2x2 : Shape := ⟨2, ![2, 2]⟩
abbrev S2x2x64 : Shape := ⟨3, ![2, 2, 64]⟩
abbrev S2x1x64 : Shape := ⟨3, ![2, 1, 64]⟩
abbrev S2x64 : Shape := ⟨2, ![2, 64]⟩
abbrev S64x2 : Shape := ⟨2, ![64, 2]⟩
abbrev S1024x4 : Shape := ⟨2, ![1024, 4]⟩
abbrev S4x4 : Shape := ⟨2, ![4, 4]⟩
abbrev S4x2x64 : Shape := ⟨3, ![4, 2, 64]⟩
abbrev S4x1x64 : Shape := ⟨3, ![4, 1, 64]⟩
abbrev S4x64 : Shape := ⟨2, ![4, 64]⟩
abbrev S64x4 : Shape := ⟨2, ![64, 4]⟩
abbrev S1024x8 : Shape := ⟨2, ![1024, 8]⟩
abbrev S8x8 : Shape := ⟨2, ![8, 8]⟩
abbrev S8x2x64 : Shape := ⟨3, ![8, 2, 64]⟩
abbrev S8x1x64 : Shape := ⟨3, ![8, 1, 64]⟩
abbrev S8x64 : Shape := ⟨2, ![8, 64]⟩
abbrev S64x8 : Shape := ⟨2, ![64, 8]⟩
abbrev S1024x16 : Shape := ⟨2, ![1024, 16]⟩
abbrev S16x16 : Shape := ⟨2, ![16, 16]⟩
abbrev S16x2x64 : Shape := ⟨3, ![16, 2, 64]⟩
abbrev S16x1x64 : Shape := ⟨3, ![16, 1, 64]⟩
abbrev S16x64 : Shape := ⟨2, ![16, 64]⟩
abbrev S64x16 : Shape := ⟨2, ![64, 16]⟩
abbrev S1024x32 : Shape := ⟨2, ![1024, 32]⟩
abbrev S32x32 : Shape := ⟨2, ![32, 32]⟩
abbrev S32x2x64 : Shape := ⟨3, ![32, 2, 64]⟩
abbrev S32x1x64 : Shape := ⟨3, ![32, 1, 64]⟩
abbrev S32x64 : Shape := ⟨2, ![32, 64]⟩
abbrev S64x32 : Shape := ⟨2, ![64, 32]⟩
abbrev S64x64 : Shape := ⟨2, ![64, 64]⟩
abbrev S64x2x64 : Shape := ⟨3, ![64, 2, 64]⟩
abbrev S64x1x64 : Shape := ⟨3, ![64, 1, 64]⟩
abbrev S128x128 : Shape := ⟨2, ![128, 128]⟩
abbrev S128x1x64 : Shape := ⟨3, ![128, 1, 64]⟩
abbrev S128x64 : Shape := ⟨2, ![128, 64]⟩
abbrev S64x128 : Shape := ⟨2, ![64, 128]⟩
abbrev S1024x256 : Shape := ⟨2, ![1024, 256]⟩
abbrev S256x256 : Shape := ⟨2, ![256, 256]⟩
abbrev S256x1x64 : Shape := ⟨3, ![256, 1, 64]⟩
abbrev S256x64 : Shape := ⟨2, ![256, 64]⟩
abbrev S64x256 : Shape := ⟨2, ![64, 256]⟩
abbrev S1024x512 : Shape := ⟨2, ![1024, 512]⟩
abbrev S512x512 : Shape := ⟨2, ![512, 512]⟩
abbrev S512x64 : Shape := ⟨2, ![512, 64]⟩
abbrev S1x128 : Shape := ⟨2, ![1, 128]⟩
abbrev S1024 : Shape := ⟨1, ![1024]⟩

abbrev nBuf : Space → Nat
  | .hbm => 24
  | .vmem => 26
  | .smem => 0
  | _ => 0

abbrev bufTy : (tb : Table) → Fin (tcTables nBuf tb) → BufTy
  | .hbm, ⟨0, _⟩ => ⟨S2048x64, .f32⟩
  | .hbm, ⟨1, _⟩ => ⟨S65535x2x64, .f32⟩
  | .hbm, ⟨2, _⟩ => ⟨S65536x64, .f32⟩
  | .hbm, ⟨3, _⟩ => ⟨S127x2x64, .f32⟩
  | .hbm, ⟨4, _⟩ => ⟨S128x2x64, .f32⟩
  | .hbm, ⟨5, _⟩ => ⟨S128x1x2x64, .f32⟩
  | .hbm, ⟨6, _⟩ => ⟨S256x2x64, .f32⟩
  | .hbm, ⟨7, _⟩ => ⟨S128x2x2x64, .f32⟩
  | .hbm, ⟨8, _⟩ => ⟨S512x2x64, .f32⟩
  | .hbm, ⟨9, _⟩ => ⟨S128x4x2x64, .f32⟩
  | .hbm, ⟨10, _⟩ => ⟨S1024x2x64, .f32⟩
  | .hbm, ⟨11, _⟩ => ⟨S128x8x2x64, .f32⟩
  | .hbm, ⟨12, _⟩ => ⟨S2048x2x64, .f32⟩
  | .hbm, ⟨13, _⟩ => ⟨S128x16x2x64, .f32⟩
  | .hbm, ⟨14, _⟩ => ⟨S4096x2x64, .f32⟩
  | .hbm, ⟨15, _⟩ => ⟨S128x32x2x64, .f32⟩
  | .hbm, ⟨16, _⟩ => ⟨S8192x2x64, .f32⟩
  | .hbm, ⟨17, _⟩ => ⟨S128x64x2x64, .f32⟩
  | .hbm, ⟨18, _⟩ => ⟨S16384x2x64, .f32⟩
  | .hbm, ⟨19, _⟩ => ⟨S128x128x2x64, .f32⟩
  | .hbm, ⟨20, _⟩ => ⟨S32768x2x64, .f32⟩
  | .hbm, ⟨21, _⟩ => ⟨S128x256x2x64, .f32⟩
  | .hbm, ⟨22, _⟩ => ⟨S128x512x64, .f32⟩
  | .hbm, ⟨23, _⟩ => ⟨S2048x64, .f32⟩
  | .local _ .vmem, ⟨0, _⟩ => ⟨S1024x64, .f32⟩
  | .local _ .vmem, ⟨1, _⟩ => ⟨S1024x64, .f32⟩
  | .local _ .vmem, ⟨2, _⟩ => ⟨S127x2x64, .f32⟩
  | .local _ .vmem, ⟨3, _⟩ => ⟨S1x1x2x64, .f32⟩
  | .local _ .vmem, ⟨4, _⟩ => ⟨S1x1x2x64, .f32⟩
  | .local _ .vmem, ⟨5, _⟩ => ⟨S1x2x2x64, .f32⟩
  | .local _ .vmem, ⟨6, _⟩ => ⟨S1x2x2x64, .f32⟩
  | .local _ .vmem, ⟨7, _⟩ => ⟨S1x4x2x64, .f32⟩
  | .local _ .vmem, ⟨8, _⟩ => ⟨S1x4x2x64, .f32⟩
  | .local _ .vmem, ⟨9, _⟩ => ⟨S1x8x2x64, .f32⟩
  | .local _ .vmem, ⟨10, _⟩ => ⟨S1x8x2x64, .f32⟩
  | .local _ .vmem, ⟨11, _⟩ => ⟨S1x16x2x64, .f32⟩
  | .local _ .vmem, ⟨12, _⟩ => ⟨S1x16x2x64, .f32⟩
  | .local _ .vmem, ⟨13, _⟩ => ⟨S1x32x2x64, .f32⟩
  | .local _ .vmem, ⟨14, _⟩ => ⟨S1x32x2x64, .f32⟩
  | .local _ .vmem, ⟨15, _⟩ => ⟨S1x64x2x64, .f32⟩
  | .local _ .vmem, ⟨16, _⟩ => ⟨S1x64x2x64, .f32⟩
  | .local _ .vmem, ⟨17, _⟩ => ⟨S1x128x2x64, .f32⟩
  | .local _ .vmem, ⟨18, _⟩ => ⟨S1x128x2x64, .f32⟩
  | .local _ .vmem, ⟨19, _⟩ => ⟨S1x256x2x64, .f32⟩
  | .local _ .vmem, ⟨20, _⟩ => ⟨S1x256x2x64, .f32⟩
  | .local _ .vmem, ⟨21, _⟩ => ⟨S1x512x64, .f32⟩
  | .local _ .vmem, ⟨22, _⟩ => ⟨S1x512x64, .f32⟩
  | .local _ .vmem, ⟨23, _⟩ => ⟨S1024x64, .f32⟩
  | .local _ .vmem, ⟨24, _⟩ => ⟨S1024x64, .f32⟩
  | .local _ .vmem, ⟨25, _⟩ => ⟨S1024x128, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S127x2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x2x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x2x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x16x2x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x32x2x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x64x2x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128x2x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x2x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  slices_S65535x2x64_S127x2x64_0_0_0 : S65535x2x64.Slices ![0, 0, 0] S127x2x64
  slices_S65535x2x64_S128x2x64_127_0_0 : S65535x2x64.Slices ![127, 0, 0] S128x2x64
  shapeCasts_S128x2x64_S128x1x2x64 : S128x2x64.ShapeCasts S128x1x2x64
  slices_S65535x2x64_S256x2x64_255_0_0 : S65535x2x64.Slices ![255, 0, 0] S256x2x64
  shapeCasts_S256x2x64_S128x2x2x64 : S256x2x64.ShapeCasts S128x2x2x64
  slices_S65535x2x64_S512x2x64_511_0_0 : S65535x2x64.Slices ![511, 0, 0] S512x2x64
  shapeCasts_S512x2x64_S128x4x2x64 : S512x2x64.ShapeCasts S128x4x2x64
  slices_S65535x2x64_S1024x2x64_1023_0_0 : S65535x2x64.Slices ![1023, 0, 0] S1024x2x64
  shapeCasts_S1024x2x64_S128x8x2x64 : S1024x2x64.ShapeCasts S128x8x2x64
  slices_S65535x2x64_S2048x2x64_2047_0_0 : S65535x2x64.Slices ![2047, 0, 0] S2048x2x64
  shapeCasts_S2048x2x64_S128x16x2x64 : S2048x2x64.ShapeCasts S128x16x2x64
  slices_S65535x2x64_S4096x2x64_4095_0_0 : S65535x2x64.Slices ![4095, 0, 0] S4096x2x64
  shapeCasts_S4096x2x64_S128x32x2x64 : S4096x2x64.ShapeCasts S128x32x2x64
  slices_S65535x2x64_S8192x2x64_8191_0_0 : S65535x2x64.Slices ![8191, 0, 0] S8192x2x64
  shapeCasts_S8192x2x64_S128x64x2x64 : S8192x2x64.ShapeCasts S128x64x2x64
  slices_S65535x2x64_S16384x2x64_16383_0_0 : S65535x2x64.Slices ![16383, 0, 0] S16384x2x64
  shapeCasts_S16384x2x64_S128x128x2x64 : S16384x2x64.ShapeCasts S128x128x2x64
  slices_S65535x2x64_S32768x2x64_32767_0_0 : S65535x2x64.Slices ![32767, 0, 0] S32768x2x64
  shapeCasts_S32768x2x64_S128x256x2x64 : S32768x2x64.ShapeCasts S128x256x2x64
  shapeCasts_S65536x64_S128x512x64 : S65536x64.ShapeCasts S128x512x64
  inb_S127x2x64_S1x2x64_0_0_0 : ∀ a, (![0, 0, 0] : Fin 3 → Nat) a + S1x2x64.size a ≤ S127x2x64.size a
  h_S1x2x64 : 0 < S1x2x64.numel
  shapeCasts_S1x2x64_S1x2x64 : S1x2x64.ShapeCasts S1x2x64
  slices_S1x2x64_o0_0_0_S1x1x64 : S1x2x64.Slices ![0, 0, 0] S1x1x64
  shapeCasts_S1x1x64_S1x64 : S1x1x64.ShapeCasts S1x64
  slices_S1x2x64_o0_1_0_S1x1x64 : S1x2x64.Slices ![0, 1, 0] S1x1x64
  inb_S1024x64_S1024x64_0_0 : ∀ a, (![0, 0] : Fin 2 → Nat) a + S1024x64.size a ≤ S1024x64.size a
  h_S1024x64 : 0 < S1024x64.numel
  transposes_S1x64_p1_0_S64x1 : S1x64.Transposes [1, 0] S64x1
  concatenates_S1024x1_S1024x1_S1024x2_d1 : Shape.Concatenates [S1024x1, S1024x1] S1024x2 1
  iota_S2x2_d0_w32 : S2x2.Iotas .tc 32 [0]
  iota_S2x2_d1_w32 : S2x2.Iotas .tc 32 [1]
  natLt_1_32 : 1 < 32
  inb_S127x2x64_S2x2x64_1_0_0 : ∀ a, (![1, 0, 0] : Fin 3 → Nat) a + S2x2x64.size a ≤ S127x2x64.size a
  h_S2x2x64 : 0 < S2x2x64.numel
  shapeCasts_S2x2x64_S2x2x64 : S2x2x64.ShapeCasts S2x2x64
  slices_S2x2x64_o0_0_0_S2x1x64 : S2x2x64.Slices ![0, 0, 0] S2x1x64
  shapeCasts_S2x1x64_S2x64 : S2x1x64.ShapeCasts S2x64
  slices_S2x2x64_o0_1_0_S2x1x64 : S2x2x64.Slices ![0, 1, 0] S2x1x64
  transposes_S2x64_p1_0_S64x2 : S2x64.Transposes [1, 0] S64x2
  concatenates_S1024x2_S1024x2_S1024x4_d1 : Shape.Concatenates [S1024x2, S1024x2] S1024x4 1
  iota_S4x4_d0_w32 : S4x4.Iotas .tc 32 [0]
  iota_S4x4_d1_w32 : S4x4.Iotas .tc 32 [1]
  inb_S127x2x64_S4x2x64_3_0_0 : ∀ a, (![3, 0, 0] : Fin 3 → Nat) a + S4x2x64.size a ≤ S127x2x64.size a
  h_S4x2x64 : 0 < S4x2x64.numel
  shapeCasts_S4x2x64_S4x2x64 : S4x2x64.ShapeCasts S4x2x64
  slices_S4x2x64_o0_0_0_S4x1x64 : S4x2x64.Slices ![0, 0, 0] S4x1x64
  shapeCasts_S4x1x64_S4x64 : S4x1x64.ShapeCasts S4x64
  slices_S4x2x64_o0_1_0_S4x1x64 : S4x2x64.Slices ![0, 1, 0] S4x1x64
  transposes_S4x64_p1_0_S64x4 : S4x64.Transposes [1, 0] S64x4
  concatenates_S1024x4_S1024x4_S1024x8_d1 : Shape.Concatenates [S1024x4, S1024x4] S1024x8 1
  iota_S8x8_d0_w32 : S8x8.Iotas .tc 32 [0]
  iota_S8x8_d1_w32 : S8x8.Iotas .tc 32 [1]
  inb_S127x2x64_S8x2x64_7_0_0 : ∀ a, (![7, 0, 0] : Fin 3 → Nat) a + S8x2x64.size a ≤ S127x2x64.size a
  h_S8x2x64 : 0 < S8x2x64.numel
  shapeCasts_S8x2x64_S8x2x64 : S8x2x64.ShapeCasts S8x2x64
  slices_S8x2x64_o0_0_0_S8x1x64 : S8x2x64.Slices ![0, 0, 0] S8x1x64
  shapeCasts_S8x1x64_S8x64 : S8x1x64.ShapeCasts S8x64
  slices_S8x2x64_o0_1_0_S8x1x64 : S8x2x64.Slices ![0, 1, 0] S8x1x64
  transposes_S8x64_p1_0_S64x8 : S8x64.Transposes [1, 0] S64x8
  concatenates_S1024x8_S1024x8_S1024x16_d1 : Shape.Concatenates [S1024x8, S1024x8] S1024x16 1
  iota_S16x16_d0_w32 : S16x16.Iotas .tc 32 [0]
  iota_S16x16_d1_w32 : S16x16.Iotas .tc 32 [1]
  inb_S127x2x64_S16x2x64_15_0_0 : ∀ a, (![15, 0, 0] : Fin 3 → Nat) a + S16x2x64.size a ≤ S127x2x64.size a
  h_S16x2x64 : 0 < S16x2x64.numel
  shapeCasts_S16x2x64_S16x2x64 : S16x2x64.ShapeCasts S16x2x64
  slices_S16x2x64_o0_0_0_S16x1x64 : S16x2x64.Slices ![0, 0, 0] S16x1x64
  shapeCasts_S16x1x64_S16x64 : S16x1x64.ShapeCasts S16x64
  slices_S16x2x64_o0_1_0_S16x1x64 : S16x2x64.Slices ![0, 1, 0] S16x1x64
  transposes_S16x64_p1_0_S64x16 : S16x64.Transposes [1, 0] S64x16
  concatenates_S1024x16_S1024x16_S1024x32_d1 : Shape.Concatenates [S1024x16, S1024x16] S1024x32 1
  iota_S32x32_d0_w32 : S32x32.Iotas .tc 32 [0]
  iota_S32x32_d1_w32 : S32x32.Iotas .tc 32 [1]
  inb_S127x2x64_S32x2x64_31_0_0 : ∀ a, (![31, 0, 0] : Fin 3 → Nat) a + S32x2x64.size a ≤ S127x2x64.size a
  h_S32x2x64 : 0 < S32x2x64.numel
  shapeCasts_S32x2x64_S32x2x64 : S32x2x64.ShapeCasts S32x2x64
  slices_S32x2x64_o0_0_0_S32x1x64 : S32x2x64.Slices ![0, 0, 0] S32x1x64
  shapeCasts_S32x1x64_S32x64 : S32x1x64.ShapeCasts S32x64
  slices_S32x2x64_o0_1_0_S32x1x64 : S32x2x64.Slices ![0, 1, 0] S32x1x64
  transposes_S32x64_p1_0_S64x32 : S32x64.Transposes [1, 0] S64x32
  concatenates_S1024x32_S1024x32_S1024x64_d1 : Shape.Concatenates [S1024x32, S1024x32] S1024x64 1
  iota_S64x64_d0_w32 : S64x64.Iotas .tc 32 [0]
  iota_S64x64_d1_w32 : S64x64.Iotas .tc 32 [1]
  inb_S127x2x64_S64x2x64_63_0_0 : ∀ a, (![63, 0, 0] : Fin 3 → Nat) a + S64x2x64.size a ≤ S127x2x64.size a
  h_S64x2x64 : 0 < S64x2x64.numel
  shapeCasts_S64x2x64_S64x2x64 : S64x2x64.ShapeCasts S64x2x64
  slices_S64x2x64_o0_0_0_S64x1x64 : S64x2x64.Slices ![0, 0, 0] S64x1x64
  shapeCasts_S64x1x64_S64x64 : S64x1x64.ShapeCasts S64x64
  slices_S64x2x64_o0_1_0_S64x1x64 : S64x2x64.Slices ![0, 1, 0] S64x1x64
  transposes_S64x64_p1_0_S64x64 : S64x64.Transposes [1, 0] S64x64
  concatenates_S1024x64_S1024x64_S1024x128_d1 : Shape.Concatenates [S1024x64, S1024x64] S1024x128 1
  iota_S128x128_d0_w32 : S128x128.Iotas .tc 32 [0]
  iota_S128x128_d1_w32 : S128x128.Iotas .tc 32 [1]
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1x2x64_S1x1x2x64_0_0_0_0 : ∀ a, (![0, 0, 0, 0] : Fin 4 → Nat) a + S1x1x2x64.size a ≤ S1x1x2x64.size a
  h_S1x1x2x64 : 0 < S1x1x2x64.numel
  shapeCasts_S1x1x2x64_S1x2x64 : S1x1x2x64.ShapeCasts S1x2x64
  inb_S1x2x2x64_S1x2x2x64_0_0_0_0 : ∀ a, (![0, 0, 0, 0] : Fin 4 → Nat) a + S1x2x2x64.size a ≤ S1x2x2x64.size a
  h_S1x2x2x64 : 0 < S1x2x2x64.numel
  shapeCasts_S1x2x2x64_S2x2x64 : S1x2x2x64.ShapeCasts S2x2x64
  inb_S1x4x2x64_S1x4x2x64_0_0_0_0 : ∀ a, (![0, 0, 0, 0] : Fin 4 → Nat) a + S1x4x2x64.size a ≤ S1x4x2x64.size a
  h_S1x4x2x64 : 0 < S1x4x2x64.numel
  shapeCasts_S1x4x2x64_S4x2x64 : S1x4x2x64.ShapeCasts S4x2x64
  inb_S1x8x2x64_S1x8x2x64_0_0_0_0 : ∀ a, (![0, 0, 0, 0] : Fin 4 → Nat) a + S1x8x2x64.size a ≤ S1x8x2x64.size a
  h_S1x8x2x64 : 0 < S1x8x2x64.numel
  shapeCasts_S1x8x2x64_S8x2x64 : S1x8x2x64.ShapeCasts S8x2x64
  inb_S1x16x2x64_S1x16x2x64_0_0_0_0 : ∀ a, (![0, 0, 0, 0] : Fin 4 → Nat) a + S1x16x2x64.size a ≤ S1x16x2x64.size a
  h_S1x16x2x64 : 0 < S1x16x2x64.numel
  shapeCasts_S1x16x2x64_S16x2x64 : S1x16x2x64.ShapeCasts S16x2x64
  inb_S1x32x2x64_S1x32x2x64_0_0_0_0 : ∀ a, (![0, 0, 0, 0] : Fin 4 → Nat) a + S1x32x2x64.size a ≤ S1x32x2x64.size a
  h_S1x32x2x64 : 0 < S1x32x2x64.numel
  shapeCasts_S1x32x2x64_S32x2x64 : S1x32x2x64.ShapeCasts S32x2x64
  inb_S1x64x2x64_S1x64x2x64_0_0_0_0 : ∀ a, (![0, 0, 0, 0] : Fin 4 → Nat) a + S1x64x2x64.size a ≤ S1x64x2x64.size a
  h_S1x64x2x64 : 0 < S1x64x2x64.numel
  shapeCasts_S1x64x2x64_S64x2x64 : S1x64x2x64.ShapeCasts S64x2x64
  inb_S1x128x2x64_S1x128x2x64_0_0_0_0 : ∀ a, (![0, 0, 0, 0] : Fin 4 → Nat) a + S1x128x2x64.size a ≤ S1x128x2x64.size a
  h_S1x128x2x64 : 0 < S1x128x2x64.numel
  shapeCasts_S1x128x2x64_S128x2x64 : S1x128x2x64.ShapeCasts S128x2x64
  slices_S128x2x64_o0_0_0_S128x1x64 : S128x2x64.Slices ![0, 0, 0] S128x1x64
  shapeCasts_S128x1x64_S128x64 : S128x1x64.ShapeCasts S128x64
  slices_S128x2x64_o0_1_0_S128x1x64 : S128x2x64.Slices ![0, 1, 0] S128x1x64
  transposes_S128x64_p1_0_S64x128 : S128x64.Transposes [1, 0] S64x128
  concatenates_S1024x128_S1024x128_S1024x256_d1 : Shape.Concatenates [S1024x128, S1024x128] S1024x256 1
  iota_S256x256_d0_w32 : S256x256.Iotas .tc 32 [0]
  iota_S256x256_d1_w32 : S256x256.Iotas .tc 32 [1]
  inb_S1x256x2x64_S1x256x2x64_0_0_0_0 : ∀ a, (![0, 0, 0, 0] : Fin 4 → Nat) a + S1x256x2x64.size a ≤ S1x256x2x64.size a
  h_S1x256x2x64 : 0 < S1x256x2x64.numel
  shapeCasts_S1x256x2x64_S256x2x64 : S1x256x2x64.ShapeCasts S256x2x64
  slices_S256x2x64_o0_0_0_S256x1x64 : S256x2x64.Slices ![0, 0, 0] S256x1x64
  shapeCasts_S256x1x64_S256x64 : S256x1x64.ShapeCasts S256x64
  slices_S256x2x64_o0_1_0_S256x1x64 : S256x2x64.Slices ![0, 1, 0] S256x1x64
  transposes_S256x64_p1_0_S64x256 : S256x64.Transposes [1, 0] S64x256
  concatenates_S1024x256_S1024x256_S1024x512_d1 : Shape.Concatenates [S1024x256, S1024x256] S1024x512 1
  iota_S512x512_d0_w32 : S512x512.Iotas .tc 32 [0]
  iota_S512x512_d1_w32 : S512x512.Iotas .tc 32 [1]
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  iota_S1x128_d1_w32 : S1x128.Iotas .tc 32 [1]
  broadcasts_S1x128_S1024x128 : S1x128.Broadcasts S1024x128
  reduces_S1024x128_S1024 : S1024x128.Reduces [1] S1024
  shapeCasts_S1024_S1024x1 : S1024.ShapeCasts S1024x1
  broadcasts_S1024x1_S1024x64 : S1024x1.Broadcasts S1024x64
  shapeCasts_S1024x64_S1024x64 : S1024x64.ShapeCasts S1024x64
  dot_S1024x64_S64x1_S1024x1_1_0_0_1_n_n_wf : DotDims.WF S1024x64 S64x1 S1024x1 [1] [0] [0] [1] [] []
  dot_S1024x2_S2x2_S1024x2_1_0_0_1_n_n_wf : DotDims.WF S1024x2 S2x2 S1024x2 [1] [0] [0] [1] [] []
  dot_S1024x64_S64x2_S1024x2_1_0_0_1_n_n_wf : DotDims.WF S1024x64 S64x2 S1024x2 [1] [0] [0] [1] [] []
  dot_S1024x4_S4x4_S1024x4_1_0_0_1_n_n_wf : DotDims.WF S1024x4 S4x4 S1024x4 [1] [0] [0] [1] [] []
  dot_S1024x64_S64x4_S1024x4_1_0_0_1_n_n_wf : DotDims.WF S1024x64 S64x4 S1024x4 [1] [0] [0] [1] [] []
  dot_S1024x8_S8x8_S1024x8_1_0_0_1_n_n_wf : DotDims.WF S1024x8 S8x8 S1024x8 [1] [0] [0] [1] [] []
  dot_S1024x64_S64x8_S1024x8_1_0_0_1_n_n_wf : DotDims.WF S1024x64 S64x8 S1024x8 [1] [0] [0] [1] [] []
  dot_S1024x16_S16x16_S1024x16_1_0_0_1_n_n_wf : DotDims.WF S1024x16 S16x16 S1024x16 [1] [0] [0] [1] [] []
  dot_S1024x64_S64x16_S1024x16_1_0_0_1_n_n_wf : DotDims.WF S1024x64 S64x16 S1024x16 [1] [0] [0] [1] [] []
  dot_S1024x32_S32x32_S1024x32_1_0_0_1_n_n_wf : DotDims.WF S1024x32 S32x32 S1024x32 [1] [0] [0] [1] [] []
  dot_S1024x64_S64x32_S1024x32_1_0_0_1_n_n_wf : DotDims.WF S1024x64 S64x32 S1024x32 [1] [0] [0] [1] [] []
  dot_S1024x64_S64x64_S1024x64_1_0_0_1_n_n_wf : DotDims.WF S1024x64 S64x64 S1024x64 [1] [0] [0] [1] [] []
  dot_S1024x128_S128x128_S1024x128_1_0_0_1_n_n_wf : DotDims.WF S1024x128 S128x128 S1024x128 [1] [0] [0] [1] [] []
  dot_S1024x64_S64x128_S1024x128_1_0_0_1_n_n_wf : DotDims.WF S1024x64 S64x128 S1024x128 [1] [0] [0] [1] [] []
  dot_S1024x256_S256x256_S1024x256_1_0_0_1_n_n_wf : DotDims.WF S1024x256 S256x256 S1024x256 [1] [0] [0] [1] [] []
  dot_S1024x64_S64x256_S1024x256_1_0_0_1_n_n_wf : DotDims.WF S1024x64 S64x256 S1024x256 [1] [0] [0] [1] [] []
  dot_S1024x512_S512x512_S1024x512_1_0_0_1_n_n_wf : DotDims.WF S1024x512 S512x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S2048x64.size a
  hwx0_0 : ∀ i : grid0.Coords, EltTy.bits .f32 = 32 ∨ (Rect.block (s := S2048x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S127x2x64.size a ≤ S127x2x64.size a
  hwx0_1 : ∀ i : grid0.Coords, EltTy.bits .f32 = 32 ∨ (Rect.block (s := S127x2x64) S127x2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2x64.size a ≤ S128x1x2x64.size a
  hwx0_2 : ∀ i : grid0.Coords, EltTy.bits .f32 = 32 ∨ (Rect.block (s := S128x1x2x64) S1x1x2x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x2x64.size a ≤ S128x2x2x64.size a
  hwx0_3 : ∀ i : grid0.Coords, EltTy.bits .f32 = 32 ∨ (Rect.block (s := S128x2x2x64) S1x2x2x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x2x64.size a ≤ S128x4x2x64.size a
  hwx0_4 : ∀ i : grid0.Coords, EltTy.bits .f32 = 32 ∨ (Rect.block (s := S128x4x2x64) S1x4x2x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x2x64.size a ≤ S128x8x2x64.size a
  hwx0_5 : ∀ i : grid0.Coords, EltTy.bits .f32 = 32 ∨ (Rect.block (s := S128x8x2x64) S1x8x2x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x2x64.size a ≤ S128x16x2x64.size a
  hwx0_6 : ∀ i : grid0.Coords, EltTy.bits .f32 = 32 ∨ (Rect.block (s := S128x16x2x64) S1x16x2x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x2x64.size a ≤ S128x32x2x64.size a
  hwx0_7 : ∀ i : grid0.Coords, EltTy.bits .f32 = 32 ∨ (Rect.block (s := S128x32x2x64) S1x32x2x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x2x64.size a ≤ S128x64x2x64.size a
  hwx0_8 : ∀ i : grid0.Coords, EltTy.bits .f32 = 32 ∨ (Rect.block (s := S128x64x2x64) S1x64x2x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x2x64.size a ≤ S128x128x2x64.size a
  hwx0_9 : ∀ i : grid0.Coords, EltTy.bits .f32 = 32 ∨ (Rect.block (s := S128x128x2x64) S1x128x2x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x2x64.size a ≤ S128x256x2x64.size a
  hwx0_10 : ∀ i : grid0.Coords, EltTy.bits .f32 = 32 ∨ (Rect.block (s := S128x256x2x64) S1x256x2x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x64.size a ≤ S128x512x64.size a
  hwx0_11 : ∀ i : grid0.Coords, EltTy.bits .f32 = 32 ∨ (Rect.block (s := S128x512x64) S1x512x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x64.size a ≤ S2048x64.size a
  hwx0_12 : ∀ i : grid0.Coords, EltTy.bits .f32 = 32 ∨ (Rect.block (s := S2048x64) S1024x64.size (cc0_transform_12 i) (hinb0_12 i)).WholeWords (EltTy.packing .f32)

variable [Facts₀]

def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x2_S2x2_S1024x2_1_0_0_1_n_n : DotDims S1024x2 S2x2 S1024x2 where
  lhsContracting := [1]
  rhsContracting := [0]
  lhsNonContracting := [0]
  rhsNonContracting := [1]
  lhsBatch := []
  rhsBatch := []
  wf := dot_S1024x2_S2x2_S1024x2_1_0_0_1_n_n_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf
def dot_S1024x4_S4x4_S1024x4_1_0_0_1_n_n : DotDims S1024x4 S4x4 S1024x4 where
  lhsContracting := [1]
  rhsContracting := [0]
  lhsNonContracting := [0]
  rhsNonContracting := [1]
  lhsBatch := []
  rhsBatch := []
  wf := dot_S1024x4_S4x4_S1024x4_1_0_0_1_n_n_wf
def dot_S1024x64_S64x4_S1024x4_1_0_0_1_n_n : DotDims S1024x64 S64x4 S1024x4 where
  lhsContracting := [1]
  rhsContracting := [0]
  lhsNonContracting := [0]
  rhsNonContracting := [1]
  lhsBatch := []
  rhsBatch := []
  wf := dot_S1024x64_S64x4_S1024x4_1_0_0_1_n_n_wf
def dot_S1024x8_S8x8_S1024x8_1_0_0_1_n_n : DotDims S1024x8 S8x8 S1024x8 where
  lhsContracting := [1]
  rhsContracting := [0]
  lhsNonContracting := [0]
  rhsNonContracting := [1]
  lhsBatch := []
  rhsBatch := []
  wf := dot_S1024x8_S8x8_S1024x8_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S127x2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2x2x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4x2x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x8x2x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x16x2x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x32x2x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x64x2x64.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x128x2x64.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x256x2x64.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x512x64.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1024x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2048x64 : Shape := ⟨2, ![2048, 64]⟩
abbrev S65535x2x64 : Shape := ⟨3, ![65535, 2, 64]⟩
abbrev S65536x64 : Shape := ⟨2, ![65536, 64]⟩
abbrev S_ : Shape := ⟨0, ![]⟩
abbrev S2048x1 : Shape := ⟨2, ![2048, 1]⟩
abbrev S1x2x64 : Shape := ⟨3, ![1, 2, 64]⟩
abbrev S2048x1x2 : Shape := ⟨3, ![2048, 1, 2]⟩
abbrev S2048x1x1 : Shape := ⟨3, ![2048, 1, 1]⟩
abbrev S2048x2 : Shape := ⟨2, ![2048, 2]⟩
abbrev S2x2x64 : Shape := ⟨3, ![2, 2, 64]⟩
abbrev S2048x2x2 : Shape := ⟨3, ![2048, 2, 2]⟩
abbrev S2048x2x1 : Shape := ⟨3, ![2048, 2, 1]⟩
abbrev S2048x4 : Shape := ⟨2, ![2048, 4]⟩
abbrev S4x2x64 : Shape := ⟨3, ![4, 2, 64]⟩
abbrev S2048x4x2 : Shape := ⟨3, ![2048, 4, 2]⟩
abbrev S2048x4x1 : Shape := ⟨3, ![2048, 4, 1]⟩
abbrev S2048x8 : Shape := ⟨2, ![2048, 8]⟩
abbrev S8x2x64 : Shape := ⟨3, ![8, 2, 64]⟩
abbrev S2048x8x2 : Shape := ⟨3, ![2048, 8, 2]⟩
abbrev S2048x8x1 : Shape := ⟨3, ![2048, 8, 1]⟩
abbrev S2048x16 : Shape := ⟨2, ![2048, 16]⟩
abbrev S16x2x64 : Shape := ⟨3, ![16, 2, 64]⟩
abbrev S2048x16x2 : Shape := ⟨3, ![2048, 16, 2]⟩
abbrev S2048x16x1 : Shape := ⟨3, ![2048, 16, 1]⟩
abbrev S2048x32 : Shape := ⟨2, ![2048, 32]⟩
abbrev S32x2x64 : Shape := ⟨3, ![32, 2, 64]⟩
abbrev S2048x32x2 : Shape := ⟨3, ![2048, 32, 2]⟩
abbrev S2048x32x1 : Shape := ⟨3, ![2048, 32, 1]⟩
abbrev S64x2x64 : Shape := ⟨3, ![64, 2, 64]⟩
abbrev S2048x64x2 : Shape := ⟨3, ![2048, 64, 2]⟩
abbrev S2048x64x1 : Shape := ⟨3, ![2048, 64, 1]⟩
abbrev S2048x128 : Shape := ⟨2, ![2048, 128]⟩
abbrev S128x2x64 : Shape := ⟨3, ![128, 2, 64]⟩
abbrev S2048x128x2 : Shape := ⟨3, ![2048, 128, 2]⟩
abbrev S2048x128x1 : Shape := ⟨3, ![2048, 128, 1]⟩
abbrev S2048x256 : Shape := ⟨2, ![2048, 256]⟩
abbrev S256x2x64 : Shape := ⟨3, ![256, 2, 64]⟩
abbrev S2048x256x2 : Shape := ⟨3, ![2048, 256, 2]⟩
abbrev S2048x256x1 : Shape := ⟨3, ![2048, 256, 1]⟩
abbrev S2048x512 : Shape := ⟨2, ![2048, 512]⟩
abbrev S512x2x64 : Shape := ⟨3, ![512, 2, 64]⟩
abbrev S2048x512x2 : Shape := ⟨3, ![2048, 512, 2]⟩
abbrev S2048x512x1 : Shape := ⟨3, ![2048, 512, 1]⟩
abbrev S2048x1024 : Shape := ⟨2, ![2048, 1024]⟩
abbrev S1024x2x64 : Shape := ⟨3, ![1024, 2, 64]⟩
abbrev S2048x1024x2 : Shape := ⟨3, ![2048, 1024, 2]⟩
abbrev S2048x1024x1 : Shape := ⟨3, ![2048, 1024, 1]⟩
abbrev S2048x2048 : Shape := ⟨2, ![2048, 2048]⟩
abbrev S2048x2x64 : Shape := ⟨3, ![2048, 2, 64]⟩
abbrev S2048x2048x2 : Shape := ⟨3, ![2048, 2048, 2]⟩
abbrev S2048x2048x1 : Shape := ⟨3, ![2048, 2048, 1]⟩
abbrev S2048x4096 : Shape := ⟨2, ![2048, 4096]⟩
abbrev S4096x2x64 : Shape := ⟨3, ![4096, 2, 64]⟩
abbrev S2048x4096x2 : Shape := ⟨3, ![2048, 4096, 2]⟩
abbrev S2048x4096x1 : Shape := ⟨3, ![2048, 4096, 1]⟩
abbrev S2048x8192 : Shape := ⟨2, ![2048, 8192]⟩
abbrev S8192x2x64 : Shape := ⟨3, ![8192, 2, 64]⟩
abbrev S2048x8192x2 : Shape := ⟨3, ![2048, 8192, 2]⟩
abbrev S2048x8192x1 : Shape := ⟨3, ![2048, 8192, 1]⟩
abbrev S2048x16384 : Shape := ⟨2, ![2048, 16384]⟩
abbrev S16384x2x64 : Shape := ⟨3, ![16384, 2, 64]⟩
abbrev S2048x16384x2 : Shape := ⟨3, ![2048, 16384, 2]⟩
abbrev S2048x16384x1 : Shape := ⟨3, ![2048, 16384, 1]⟩
abbrev S2048x32768 : Shape := ⟨2, ![2048, 32768]⟩
abbrev S32768x2x64 : Shape := ⟨3, ![32768, 2, 64]⟩
abbrev S2048x32768x2 : Shape := ⟨3, ![2048, 32768, 2]⟩
abbrev S2048x32768x1 : Shape := ⟨3, ![2048, 32768, 1]⟩
abbrev S2048x65536 : Shape := ⟨2, ![2048, 65536]⟩

abbrev nBuf : Space → Nat
  | .hbm => 326
  | .vmem => 0
  | .smem => 0
  | _ => 0

abbrev hbmTy0_0 (i : Nat) : BufTy := match i % 128 with
  | 0 => ⟨S2048x64, .f32⟩
  | 1 => ⟨S65535x2x64, .f32⟩
  | 2 => ⟨S65536x64, .f32⟩
  | 3 => ⟨S_, .f32⟩
  | 4 => ⟨S2048x1, .f32⟩
  | 5 => ⟨S1x2x64, .f32⟩
  | 6 => ⟨S2048x1x2, .f32⟩
  | 7 => ⟨S_, .f32⟩
  | 8 => ⟨S2048x1, .f32⟩
  | 9 => ⟨S_, .f32⟩
  | 10 => ⟨S2048x1, .f32⟩
  | 11 => ⟨S2048x1, .f32⟩
  | 12 => ⟨S2048x1x1, .f32⟩
  | 13 => ⟨S2048x1x2, .f32⟩
  | 14 => ⟨S2048x1x2, .f32⟩
  | 15 => ⟨S2048x1x2, .f32⟩
  | 16 => ⟨S_, .f32⟩
  | 17 => ⟨S2048x1, .f32⟩
  | 18 => ⟨S2048x1x1, .f32⟩
  | 19 => ⟨S2048x1x2, .f32⟩
  | 20 => ⟨S2048x1x2, .f32⟩
  | 21 => ⟨S2048x1x1, .f32⟩
  | 22 => ⟨S2048x1x2, .f32⟩
  | 23 => ⟨S2048x1x2, .f32⟩
  | 24 => ⟨S2048x2, .f32⟩
  | 25 => ⟨S2x2x64, .f32⟩
  | 26 => ⟨S2048x2x2, .f32⟩
  | 27 => ⟨S_, .f32⟩
  | 28 => ⟨S2048x2, .f32⟩
  | 29 => ⟨S_, .f32⟩
  | 30 => ⟨S2048x2, .f32⟩
  | 31 => ⟨S2048x2, .f32⟩
  | 32 => ⟨S2048x2x1, .f32⟩
  | 33 => ⟨S2048x2x2, .f32⟩
  | 34 => ⟨S2048x2x2, .f32⟩
  | 35 => ⟨S2048x2x2, .f32⟩
  | 36 => ⟨S_, .f32⟩
  | 37 => ⟨S2048x2, .f32⟩
  | 38 => ⟨S2048x2x1, .f32⟩
  | 39 => ⟨S2048x2x2, .f32⟩
  | 40 => ⟨S2048x2x2, .f32⟩
  | 41 => ⟨S2048x2x1, .f32⟩
  | 42 => ⟨S2048x2x2, .f32⟩
  | 43 => ⟨S2048x2x2, .f32⟩
  | 44 => ⟨S2048x4, .f32⟩
  | 45 => ⟨S4x2x64, .f32⟩
  | 46 => ⟨S2048x4x2, .f32⟩
  | 47 => ⟨S_, .f32⟩
  | 48 => ⟨S2048x4, .f32⟩
  | 49 => ⟨S_, .f32⟩
  | 50 => ⟨S2048x4, .f32⟩
  | 51 => ⟨S2048x4, .f32⟩
  | 52 => ⟨S2048x4x1, .f32⟩
  | 53 => ⟨S2048x4x2, .f32⟩
  | 54 => ⟨S2048x4x2, .f32⟩
  | 55 => ⟨S2048x4x2, .f32⟩
  | 56 => ⟨S_, .f32⟩
  | 57 => ⟨S2048x4, .f32⟩
  | 58 => ⟨S2048x4x1, .f32⟩
  | 59 => ⟨S2048x4x2, .f32⟩
  | 60 => ⟨S2048x4x2, .f32⟩
  | 61 => ⟨S2048x4x1, .f32⟩
  | 62 => ⟨S2048x4x2, .f32⟩
  | 63 => ⟨S2048x4x2, .f32⟩
  | 64 => ⟨S2048x8, .f32⟩
  | 65 => ⟨S8x2x64, .f32⟩
  | 66 => ⟨S2048x8x2, .f32⟩
  | 67 => ⟨S_, .f32⟩
  | 68 => ⟨S2048x8, .f32⟩
  | 69 => ⟨S_, .f32⟩
  | 70 => ⟨S2048x8, .f32⟩
  | 71 => ⟨S2048x8, .f32⟩
  | 72 => ⟨S2048x8x1, .f32⟩
  | 73 => ⟨S2048x8x2, .f32⟩
  | 74 => ⟨S2048x8x2, .f32⟩
  | 75 => ⟨S2048x8x2, .f32⟩
  | 76 => ⟨S_, .f32⟩
  | 77 => ⟨S2048x8, .f32⟩
  | 78 => ⟨S2048x8x1, .f32⟩
  | 79 => ⟨S2048x8x2, .f32⟩
  | 80 => ⟨S2048x8x2, .f32⟩
  | 81 => ⟨S2048x8x1, .f32⟩
  | 82 => ⟨S2048x8x2, .f32⟩
  | 83 => ⟨S2048x8x2, .f32⟩
  | 84 => ⟨S2048x16, .f32⟩
  | 85 => ⟨S16x2x64, .f32⟩
  | 86 => ⟨S2048x16x2, .f32⟩
  | 87 => ⟨S_, .f32⟩
  | 88 => ⟨S2048x16, .f32⟩
  | 89 => ⟨S_, .f32⟩
  | 90 => ⟨S2048x16, .f32⟩
  | 91 => ⟨S2048x16, .f32⟩
  | 92 => ⟨S2048x16x1, .f32⟩
  | 93 => ⟨S2048x16x2, .f32⟩
  | 94 => ⟨S2048x16x2, .f32⟩
  | 95 => ⟨S2048x16x2, .f32⟩
  | 96 => ⟨S_, .f32⟩
  | 97 => ⟨S2048x16, .f32⟩
  | 98 => ⟨S2048x16x1, .f32⟩
  | 99 => ⟨S2048x16x2, .f32⟩
  | 100 => ⟨S2048x16x2, .f32⟩
  | 101 => ⟨S2048x16x1, .f32⟩
  | 102 => ⟨S2048x16x2, .f32⟩
  | 103 => ⟨S2048x16x2, .f32⟩
  | 104 => ⟨S2048x32, .f32⟩
  | 105 => ⟨S32x2x64, .f32⟩
  | 106 => ⟨S2048x32x2, .f32⟩
  | 107 => ⟨S_, .f32⟩
  | 108 => ⟨S2048x32, .f32⟩
  | 109 => ⟨S_, .f32⟩
  | 110 => ⟨S2048x32, .f32⟩
  | 111 => ⟨S2048x32, .f32⟩
  | 112 => ⟨S2048x32x1, .f32⟩
  | 113 => ⟨S2048x32x2, .f32⟩
  | 114 => ⟨S2048x32x2, .f32⟩
  | 115 => ⟨S2048x32x2, .f32⟩
  | 116 => ⟨S_, .f32⟩
  | 117 => ⟨S2048x32, .f32⟩
  | 118 => ⟨S2048x32x1, .f32⟩
  | 119 => ⟨S2048x32x2, .f32⟩
  | 120 => ⟨S2048x32x2, .f32⟩
  | 121 => ⟨S2048x32x1, .f32⟩
  | 122 => ⟨S2048x32x2, .f32⟩
  | 123 => ⟨S2048x32x2, .f32⟩
  | 124 => ⟨S2048x64, .f32⟩
  | 125 => ⟨S64x2x64, .f32⟩
  | 126 => ⟨S2048x64x2, .f32⟩
  | 127 => ⟨S_, .f32⟩
  | _ => ⟨S2048x64, .f32⟩

abbrev hbmTy0_1 (i : Nat) : BufTy := match i % 128 with
  | 0 => ⟨S2048x64, .f32⟩
  | 1 => ⟨S_, .f32⟩
  | 2 => ⟨S2048x64, .f32⟩
  | 3 => ⟨S2048x64, .f32⟩
  | 4 => ⟨S2048x64x1, .f32⟩
  | 5 => ⟨S2048x64x2, .f32⟩
  | 6 => ⟨S2048x64x2, .f32⟩
  | 7 => ⟨S2048x64x2, .f32⟩
  | 8 => ⟨S_, .f32⟩
  | 9 => ⟨S2048x64, .f32⟩
  | 10 => ⟨S2048x64x1, .f32⟩
  | 11 => ⟨S2048x64x2, .f32⟩
  | 12 => ⟨S2048x64x2, .f32⟩
  | 13 => ⟨S2048x64x1, .f32⟩
  | 14 => ⟨S2048x64x2, .f32⟩
  | 15 => ⟨S2048x64x2, .f32⟩
  | 16 => ⟨S2048x128, .f32⟩
  | 17 => ⟨S128x2x64, .f32⟩
  | 18 => ⟨S2048x128x2, .f32⟩
  | 19 => ⟨S_, .f32⟩
  | 20 => ⟨S2048x128, .f32⟩
  | 21 => ⟨S_, .f32⟩
  | 22 => ⟨S2048x128, .f32⟩
  | 23 => ⟨S2048x128, .f32⟩
  | 24 => ⟨S2048x128x1, .f32⟩
  | 25 => ⟨S2048x128x2, .f32⟩
  | 26 => ⟨S2048x128x2, .f32⟩
  | 27 => ⟨S2048x128x2, .f32⟩
  | 28 => ⟨S_, .f32⟩
  | 29 => ⟨S2048x128, .f32⟩
  | 30 => ⟨S2048x128x1, .f32⟩
  | 31 => ⟨S2048x128x2, .f32⟩
  | 32 => ⟨S2048x128x2, .f32⟩
  | 33 => ⟨S2048x128x1, .f32⟩
  | 34 => ⟨S2048x128x2, .f32⟩
  | 35 => ⟨S2048x128x2, .f32⟩
  | 36 => ⟨S2048x256, .f32⟩
  | 37 => ⟨S256x2x64, .f32⟩
  | 38 => ⟨S2048x256x2, .f32⟩
  | 39 => ⟨S_, .f32⟩
  | 40 => ⟨S2048x256, .f32⟩
  | 41 => ⟨S_, .f32⟩
  | 42 => ⟨S2048x256, .f32⟩
  | 43 => ⟨S2048x256, .f32⟩
  | 44 => ⟨S2048x256x1, .f32⟩
  | 45 => ⟨S2048x256x2, .f32⟩
  | 46 => ⟨S2048x256x2, .f32⟩
  | 47 => ⟨S2048x256x2, .f32⟩
  | 48 => ⟨S_, .f32⟩
  | 49 => ⟨S2048x256, .f32⟩
  | 50 => ⟨S2048x256x1, .f32⟩
  | 51 => ⟨S2048x256x2, .f32⟩
  | 52 => ⟨S2048x256x2, .f32⟩
  | 53 => ⟨S2048x256x1, .f32⟩
  | 54 => ⟨S2048x256x2, .f32⟩
  | 55 => ⟨S2048x256x2, .f32⟩
  | 56 => ⟨S2048x512, .f32⟩
  | 57 => ⟨S512x2x64, .f32⟩
  | 58 => ⟨S2048x512x2, .f32⟩
  | 59 => ⟨S_, .f32⟩
  | 60 => ⟨S2048x512, .f32⟩
  | 61 => ⟨S_, .f32⟩
  | 62 => ⟨S2048x512, .f32⟩
  | 63 => ⟨S2048x512, .f32⟩
  | 64 => ⟨S2048x512x1, .f32⟩
  | 65 => ⟨S2048x512x2, .f32⟩
  | 66 => ⟨S2048x512x2, .f32⟩
  | 67 => ⟨S2048x512x2, .f32⟩
  | 68 => ⟨S_, .f32⟩
  | 69 => ⟨S2048x512, .f32⟩
  | 70 => ⟨S2048x512x1, .f32⟩
  | 71 => ⟨S2048x512x2, .f32⟩
  | 72 => ⟨S2048x512x2, .f32⟩
  | 73 => ⟨S2048x512x1, .f32⟩
  | 74 => ⟨S2048x512x2, .f32⟩
  | 75 => ⟨S2048x512x2, .f32⟩
  | 76 => ⟨S2048x1024, .f32⟩
  | 77 => ⟨S1024x2x64, .f32⟩
  | 78 => ⟨S2048x1024x2, .f32⟩
  | 79 => ⟨S_, .f32⟩
  | 80 => ⟨S2048x1024, .f32⟩
  | 81 => ⟨S_, .f32⟩
  | 82 => ⟨S2048x1024, .f32⟩
  | 83 => ⟨S2048x1024, .f32⟩
  | 84 => ⟨S2048x1024x1, .f32⟩
  | 85 => ⟨S2048x1024x2, .f32⟩
  | 86 => ⟨S2048x1024x2, .f32⟩
  | 87 => ⟨S2048x1024x2, .f32⟩
  | 88 => ⟨S_, .f32⟩
  | 89 => ⟨S2048x1024, .f32⟩
  | 90 => ⟨S2048x1024x1, .f32⟩
  | 91 => ⟨S2048x1024x2, .f32⟩
  | 92 => ⟨S2048x1024x2, .f32⟩
  | 93 => ⟨S2048x1024x1, .f32⟩
  | 94 => ⟨S2048x1024x2, .f32⟩
  | 95 => ⟨S2048x1024x2, .f32⟩
  | 96 => ⟨S2048x2048, .f32⟩
  | 97 => ⟨S2048x2x64, .f32⟩
  | 98 => ⟨S2048x2048x2, .f32⟩
  | 99 => ⟨S_, .f32⟩
  | 100 => ⟨S2048x2048, .f32⟩
  | 101 => ⟨S_, .f32⟩
  | 102 => ⟨S2048x2048, .f32⟩
  | 103 => ⟨S2048x2048, .f32⟩
  | 104 => ⟨S2048x2048x1, .f32⟩
  | 105 => ⟨S2048x2048x2, .f32⟩
  | 106 => ⟨S2048x2048x2, .f32⟩
  | 107 => ⟨S2048x2048x2, .f32⟩
  | 108 => ⟨S_, .f32⟩
  | 109 => ⟨S2048x2048, .f32⟩
  | 110 => ⟨S2048x2048x1, .f32⟩
  | 111 => ⟨S2048x2048x2, .f32⟩
  | 112 => ⟨S2048x2048x2, .f32⟩
  | 113 => ⟨S2048x2048x1, .f32⟩
  | 114 => ⟨S2048x2048x2, .f32⟩
  | 115 => ⟨S2048x2048x2, .f32⟩
  | 116 => ⟨S2048x4096, .f32⟩
  | 117 => ⟨S4096x2x64, .f32⟩
  | 118 => ⟨S2048x4096x2, .f32⟩
  | 119 => ⟨S_, .f32⟩
  | 120 => ⟨S2048x4096, .f32⟩
  | 121 => ⟨S_, .f32⟩
  | 122 => ⟨S2048x4096, .f32⟩
  | 123 => ⟨S2048x4096, .f32⟩
  | 124 => ⟨S2048x4096x1, .f32⟩
  | 125 => ⟨S2048x4096x2, .f32⟩
  | 126 => ⟨S2048x4096x2, .f32⟩
  | 127 => ⟨S2048x4096x2, .f32⟩
  | _ => ⟨S2048x64, .f32⟩

abbrev hbmTy0_2 (i : Nat) : BufTy := match i % 128 with
  | 0 => ⟨S_, .f32⟩
  | 1 => ⟨S2048x4096, .f32⟩
  | 2 => ⟨S2048x4096x1, .f32⟩
  | 3 => ⟨S2048x4096x2, .f32⟩
  | 4 => ⟨S2048x4096x2, .f32⟩
  | 5 => ⟨S2048x4096x1, .f32⟩
  | 6 => ⟨S2048x4096x2, .f32⟩
  | 7 => ⟨S2048x4096x2, .f32⟩
  | 8 => ⟨S2048x8192, .f32⟩
  | 9 => ⟨S8192x2x64, .f32⟩
  | 10 => ⟨S2048x8192x2, .f32⟩
  | 11 => ⟨S_, .f32⟩
  | 12 => ⟨S2048x8192, .f32⟩
  | 13 => ⟨S_, .f32⟩
  | 14 => ⟨S2048x8192, .f32⟩
  | 15 => ⟨S2048x8192, .f32⟩
  | 16 => ⟨S2048x8192x1, .f32⟩
  | 17 => ⟨S2048x8192x2, .f32⟩
  | 18 => ⟨S2048x8192x2, .f32⟩
  | 19 => ⟨S2048x8192x2, .f32⟩
  | 20 => ⟨S_, .f32⟩
  | 21 => ⟨S2048x8192, .f32⟩
  | 22 => ⟨S2048x8192x1, .f32⟩
  | 23 => ⟨S2048x8192x2, .f32⟩
  | 24 => ⟨S2048x8192x2, .f32⟩
  | 25 => ⟨S2048x8192x1, .f32⟩
  | 26 => ⟨S2048x8192x2, .f32⟩
  | 27 => ⟨S2048x8192x2, .f32⟩
  | 28 => ⟨S2048x16384, .f32⟩
  | 29 => ⟨S16384x2x64, .f32⟩
  | 30 => ⟨S2048x16384x2, .f32⟩
  | 31 => ⟨S_, .f32⟩
  | 32 => ⟨S2048x16384, .f32⟩
  | 33 => ⟨S_, .f32⟩
  | 34 => ⟨S2048x16384, .f32⟩
  | 35 => ⟨S2048x16384, .f32⟩
  | 36 => ⟨S2048x16384x1, .f32⟩
  | 37 => ⟨S2048x16384x2, .f32⟩
  | 38 => ⟨S2048x16384x2, .f32⟩
  | 39 => ⟨S2048x16384x2, .f32⟩
  | 40 => ⟨S_, .f32⟩
  | 41 => ⟨S2048x16384, .f32⟩
  | 42 => ⟨S2048x16384x1, .f32⟩
  | 43 => ⟨S2048x16384x2, .f32⟩
  | 44 => ⟨S2048x16384x2, .f32⟩
  | 45 => ⟨S2048x16384x1, .f32⟩
  | 46 => ⟨S2048x16384x2, .f32⟩
  | 47 => ⟨S2048x16384x2, .f32⟩
  | 48 => ⟨S2048x32768, .f32⟩
  | 49 => ⟨S32768x2x64, .f32⟩
  | 50 => ⟨S2048x32768x2, .f32⟩
  | 51 => ⟨S_, .f32⟩
  | 52 => ⟨S2048x32768, .f32⟩
  | 53 => ⟨S_, .f32⟩
  | 54 => ⟨S2048x32768, .f32⟩
  | 55 => ⟨S2048x32768, .f32⟩
  | 56 => ⟨S2048x32768x1, .f32⟩
  | 57 => ⟨S2048x32768x2, .f32⟩
  | 58 => ⟨S2048x32768x2, .f32⟩
  | 59 => ⟨S2048x32768x2, .f32⟩
  | 60 => ⟨S_, .f32⟩
  | 61 => ⟨S2048x32768, .f32⟩
  | 62 => ⟨S2048x32768x1, .f32⟩
  | 63 => ⟨S2048x32768x2, .f32⟩
  | 64 => ⟨S2048x32768x2, .f32⟩
  | 65 => ⟨S2048x32768x1, .f32⟩
  | 66 => ⟨S2048x32768x2, .f32⟩
  | 67 => ⟨S2048x32768x2, .f32⟩
  | 68 => ⟨S2048x65536, .f32⟩
  | 69 => ⟨S2048x64, .f32⟩
  | _ => ⟨S2048x64, .f32⟩

abbrev hbmTy (i : Nat) : BufTy := match i / 128 with
  | 0 => hbmTy0_0 i
  | 1 => hbmTy0_1 i
  | 2 => hbmTy0_2 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_14 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_15 : Ref sig .tc := ⟨.hbm, 107, rfl⟩
abbrev main_v88 : Ref sig .tc := ⟨.hbm, 108, rfl⟩
abbrev main_cst_16 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_17 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_18 : Ref sig .tc := ⟨.hbm, 127, rfl⟩
abbrev main_v105 : Ref sig .tc := ⟨.hbm, 128, rfl⟩
abbrev main_cst_19 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_20 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_21 : Ref sig .tc := ⟨.hbm, 147, rfl⟩
abbrev main_v122 : Ref sig .tc := ⟨.hbm, 148, rfl⟩
abbrev main_cst_22 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_23 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_24 : Ref sig .tc := ⟨.hbm, 167, rfl⟩
abbrev main_v139 : Ref sig .tc := ⟨.hbm, 168, rfl⟩
abbrev main_cst_25 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_26 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_27 : Ref sig .tc := ⟨.hbm, 187, rfl⟩
abbrev main_v156 : Ref sig .tc := ⟨.hbm, 188, rfl⟩
abbrev main_cst_28 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_29 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_cst_30 : Ref sig .tc := ⟨.hbm, 207, rfl⟩
abbrev main_v173 : Ref sig .tc := ⟨.hbm, 208, rfl⟩
abbrev main_cst_31 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_32 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_cst_33 : Ref sig .tc := ⟨.hbm, 227, rfl⟩
abbrev main_v190 : Ref sig .tc := ⟨.hbm, 228, rfl⟩
abbrev main_cst_34 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_cst_35 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_cst_36 : Ref sig .tc := ⟨.hbm, 247, rfl⟩
abbrev main_v207 : Ref sig .tc := ⟨.hbm, 248, rfl⟩
abbrev main_cst_37 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_cst_38 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_cst_39 : Ref sig .tc := ⟨.hbm, 267, rfl⟩
abbrev main_v224 : Ref sig .tc := ⟨.hbm, 268, rfl⟩
abbrev main_cst_40 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_cst_41 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_cst_42 : Ref sig .tc := ⟨.hbm, 287, rfl⟩
abbrev main_v241 : Ref sig .tc := ⟨.hbm, 288, rfl⟩
abbrev main_cst_43 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_cst_44 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_cst_45 : Ref sig .tc := ⟨.hbm, 307, rfl⟩
abbrev main_v258 : Ref sig .tc := ⟨.hbm, 308, rfl⟩
abbrev main_cst_46 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_cst_47 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩

abbrev nD : Nat := 1
abbrev τ : Topo := Topo.v7x

variable {F : FTy → Type} [FloatOps F]

class Facts₀ : Prop where
  bcast_S_S2048x1 : S_.BroadcastsInDim S2048x1 (![] : Fin 0 → Fin S2048x1.rank)
  slices_S65535x2x64_S1x2x64_0_0_0 : S65535x2x64.Slices ![0, 0, 0] S1x2x64
  reducesTo_S2048x1x2_S2048x1_d2 : S2048x1x2.ReducesTo [2] S2048x1
  h_S_ : 0 < S_.numel
  bcast_S2048x1_S2048x1x1_0_1 : S2048x1.BroadcastsInDim S2048x1x1 (![0, 1] : Fin 2 → Fin S2048x1x1.rank)
  bcast_S2048x1x1_S2048x1x2_0_1_2 : S2048x1x1.BroadcastsInDim S2048x1x2 (![0, 1, 2] : Fin 3 → Fin S2048x1x2.rank)
  shapeCasts_S2048x1x2_S2048x2 : S2048x1x2.ShapeCasts S2048x2
  slices_S65535x2x64_S2x2x64_1_0_0 : S65535x2x64.Slices ![1, 0, 0] S2x2x64
  reducesTo_S2048x2x2_S2048x2_d2 : S2048x2x2.ReducesTo [2] S2048x2
  bcast_S_S2048x2 : S_.BroadcastsInDim S2048x2 (![] : Fin 0 → Fin S2048x2.rank)
  bcast_S2048x2_S2048x2x1_0_1 : S2048x2.BroadcastsInDim S2048x2x1 (![0, 1] : Fin 2 → Fin S2048x2x1.rank)
  bcast_S2048x2x1_S2048x2x2_0_1_2 : S2048x2x1.BroadcastsInDim S2048x2x2 (![0, 1, 2] : Fin 3 → Fin S2048x2x2.rank)
  shapeCasts_S2048x2x2_S2048x4 : S2048x2x2.ShapeCasts S2048x4
  slices_S65535x2x64_S4x2x64_3_0_0 : S65535x2x64.Slices ![3, 0, 0] S4x2x64
  reducesTo_S2048x4x2_S2048x4_d2 : S2048x4x2.ReducesTo [2] S2048x4
  bcast_S_S2048x4 : S_.BroadcastsInDim S2048x4 (![] : Fin 0 → Fin S2048x4.rank)
  bcast_S2048x4_S2048x4x1_0_1 : S2048x4.BroadcastsInDim S2048x4x1 (![0, 1] : Fin 2 → Fin S2048x4x1.rank)
  bcast_S2048x4x1_S2048x4x2_0_1_2 : S2048x4x1.BroadcastsInDim S2048x4x2 (![0, 1, 2] : Fin 3 → Fin S2048x4x2.rank)
  shapeCasts_S2048x4x2_S2048x8 : S2048x4x2.ShapeCasts S2048x8
  slices_S65535x2x64_S8x2x64_7_0_0 : S65535x2x64.Slices ![7, 0, 0] S8x2x64
  reducesTo_S2048x8x2_S2048x8_d2 : S2048x8x2.ReducesTo [2] S2048x8
  bcast_S_S2048x8 : S_.BroadcastsInDim S2048x8 (![] : Fin 0 → Fin S2048x8.rank)
  bcast_S2048x8_S2048x8x1_0_1 : S2048x8.BroadcastsInDim S2048x8x1 (![0, 1] : Fin 2 → Fin S2048x8x1.rank)
  bcast_S2048x8x1_S2048x8x2_0_1_2 : S2048x8x1.BroadcastsInDim S2048x8x2 (![0, 1, 2] : Fin 3 → Fin S2048x8x2.rank)
  shapeCasts_S2048x8x2_S2048x16 : S2048x8x2.ShapeCasts S2048x16
  slices_S65535x2x64_S16x2x64_15_0_0 : S65535x2x64.Slices ![15, 0, 0] S16x2x64
  reducesTo_S2048x16x2_S2048x16_d2 : S2048x16x2.ReducesTo [2] S2048x16
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  bcast_S2048x16x1_S2048x16x2_0_1_2 : S2048x16x1.BroadcastsInDim S2048x16x2 (![0, 1, 2] : Fin 3 → Fin S2048x16x2.rank)
  shapeCasts_S2048x16x2_S2048x32 : S2048x16x2.ShapeCasts S2048x32
  slices_S65535x2x64_S32x2x64_31_0_0 : S65535x2x64.Slices ![31, 0, 0] S32x2x64
  reducesTo_S2048x32x2_S2048x32_d2 : S2048x32x2.ReducesTo [2] S2048x32
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S2048x32x1_S2048x32x2_0_1_2 : S2048x32x1.BroadcastsInDim S2048x32x2 (![0, 1, 2] : Fin 3 → Fin S2048x32x2.rank)
  shapeCasts_S2048x32x2_S2048x64 : S2048x32x2.ShapeCasts S2048x64
  slices_S65535x2x64_S64x2x64_63_0_0 : S65535x2x64.Slices ![63, 0, 0] S64x2x64
  reducesTo_S2048x64x2_S2048x64_d2 : S2048x64x2.ReducesTo [2] S2048x64
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  bcast_S2048x64x1_S2048x64x2_0_1_2 : S2048x64x1.BroadcastsInDim S2048x64x2 (![0, 1, 2] : Fin 3 → Fin S2048x64x2.rank)
  shapeCasts_S2048x64x2_S2048x128 : S2048x64x2.ShapeCasts S2048x128
  slices_S65535x2x64_S128x2x64_127_0_0 : S65535x2x64.Slices ![127, 0, 0] S128x2x64
  reducesTo_S2048x128x2_S2048x128_d2 : S2048x128x2.ReducesTo [2] S2048x128
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  bcast_S2048x128x1_S2048x128x2_0_1_2 : S2048x128x1.BroadcastsInDim S2048x128x2 (![0, 1, 2] : Fin 3 → Fin S2048x128x2.rank)
  shapeCasts_S2048x128x2_S2048x256 : S2048x128x2.ShapeCasts S2048x256
  slices_S65535x2x64_S256x2x64_255_0_0 : S65535x2x64.Slices ![255, 0, 0] S256x2x64
  reducesTo_S2048x256x2_S2048x256_d2 : S2048x256x2.ReducesTo [2] S2048x256
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  bcast_S2048x256x1_S2048x256x2_0_1_2 : S2048x256x1.BroadcastsInDim S2048x256x2 (![0, 1, 2] : Fin 3 → Fin S2048x256x2.rank)
  shapeCasts_S2048x256x2_S2048x512 : S2048x256x2.ShapeCasts S2048x512
  slices_S65535x2x64_S512x2x64_511_0_0 : S65535x2x64.Slices ![511, 0, 0] S512x2x64
  reducesTo_S2048x512x2_S2048x512_d2 : S2048x512x2.ReducesTo [2] S2048x512
  bcast_S_S2048x512 : S_.BroadcastsInDim S2048x512 (![] : Fin 0 → Fin S2048x512.rank)
  bcast_S2048x512_S2048x512x1_0_1 : S2048x512.BroadcastsInDim S2048x512x1 (![0, 1] : Fin 2 → Fin S2048x512x1.rank)
  bcast_S2048x512x1_S2048x512x2_0_1_2 : S2048x512x1.BroadcastsInDim S2048x512x2 (![0, 1, 2] : Fin 3 → Fin S2048x512x2.rank)
  shapeCasts_S2048x512x2_S2048x1024 : S2048x512x2.ShapeCasts S2048x1024
  slices_S65535x2x64_S1024x2x64_1023_0_0 : S65535x2x64.Slices ![1023, 0, 0] S1024x2x64
  reducesTo_S2048x1024x2_S2048x1024_d2 : S2048x1024x2.ReducesTo [2] S2048x1024
  bcast_S_S2048x1024 : S_.BroadcastsInDim S2048x1024 (![] : Fin 0 → Fin S2048x1024.rank)
  bcast_S2048x1024_S2048x1024x1_0_1 : S2048x1024.BroadcastsInDim S2048x1024x1 (![0, 1] : Fin 2 → Fin S2048x1024x1.rank)
  bcast_S2048x1024x1_S2048x1024x2_0_1_2 : S2048x1024x1.BroadcastsInDim S2048x1024x2 (![0, 1, 2] : Fin 3 → Fin S2048x1024x2.rank)
  shapeCasts_S2048x1024x2_S2048x2048 : S2048x1024x2.ShapeCasts S2048x2048
  slices_S65535x2x64_S2048x2x64_2047_0_0 : S65535x2x64.Slices ![2047, 0, 0] S2048x2x64
  reducesTo_S2048x2048x2_S2048x2048_d2 : S2048x2048x2.ReducesTo [2] S2048x2048
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048x2048x1_S2048x2048x2_0_1_2 : S2048x2048x1.BroadcastsInDim S2048x2048x2 (![0, 1, 2] : Fin 3 → Fin S2048x2048x2.rank)
  shapeCasts_S2048x2048x2_S2048x4096 : S2048x2048x2.ShapeCasts S2048x4096
  slices_S65535x2x64_S4096x2x64_4095_0_0 : S65535x2x64.Slices ![4095, 0, 0] S4096x2x64
  reducesTo_S2048x4096x2_S2048x4096_d2 : S2048x4096x2.ReducesTo [2] S2048x4096
  bcast_S_S2048x4096 : S_.BroadcastsInDim S2048x4096 (![] : Fin 0 → Fin S2048x4096.rank)
  bcast_S2048x4096_S2048x4096x1_0_1 : S2048x4096.BroadcastsInDim S2048x4096x1 (![0, 1] : Fin 2 → Fin S2048x4096x1.rank)
  bcast_S2048x4096x1_S2048x4096x2_0_1_2 : S2048x4096x1.BroadcastsInDim S2048x4096x2 (![0, 1, 2] : Fin 3 → Fin S2048x4096x2.rank)
  shapeCasts_S2048x4096x2_S2048x8192 : S2048x4096x2.ShapeCasts S2048x8192
  slices_S65535x2x64_S8192x2x64_8191_0_0 : S65535x2x64.Slices ![8191, 0, 0] S8192x2x64
  reducesTo_S2048x8192x2_S2048x8192_d2 : S2048x8192x2.ReducesTo [2] S2048x8192
  bcast_S_S2048x8192 : S_.BroadcastsInDim S2048x8192 (![] : Fin 0 → Fin S2048x8192.rank)
  bcast_S2048x8192_S2048x8192x1_0_1 : S2048x8192.BroadcastsInDim S2048x8192x1 (![0, 1] : Fin 2 → Fin S2048x8192x1.rank)
  bcast_S2048x8192x1_S2048x8192x2_0_1_2 : S2048x8192x1.BroadcastsInDim S2048x8192x2 (![0, 1, 2] : Fin 3 → Fin S2048x8192x2.rank)
  shapeCasts_S2048x8192x2_S2048x16384 : S2048x8192x2.ShapeCasts S2048x16384
  slices_S65535x2x64_S16384x2x64_16383_0_0 : S65535x2x64.Slices ![16383, 0, 0] S16384x2x64
  reducesTo_S2048x16384x2_S2048x16384_d2 : S2048x16384x2.ReducesTo [2] S2048x16384
  bcast_S_S2048x16384 : S_.BroadcastsInDim S2048x16384 (![] : Fin 0 → Fin S2048x16384.rank)
  bcast_S2048x16384_S2048x16384x1_0_1 : S2048x16384.BroadcastsInDim S2048x16384x1 (![0, 1] : Fin 2 → Fin S2048x16384x1.rank)
  bcast_S2048x16384x1_S2048x16384x2_0_1_2 : S2048x16384x1.BroadcastsInDim S2048x16384x2 (![0, 1, 2] : Fin 3 → Fin S2048x16384x2.rank)
  shapeCasts_S2048x16384x2_S2048x32768 : S2048x16384x2.ShapeCasts S2048x32768
  slices_S65535x2x64_S32768x2x64_32767_0_0 : S65535x2x64.Slices ![32767, 0, 0] S32768x2x64
  reducesTo_S2048x32768x2_S2048x32768_d2 : S2048x32768x2.ReducesTo [2] S2048x32768
  bcast_S_S2048x32768 : S_.BroadcastsInDim S2048x32768 (![] : Fin 0 → Fin S2048x32768.rank)
  bcast_S2048x32768_S2048x32768x1_0_1 : S2048x32768.BroadcastsInDim S2048x32768x1 (![0, 1] : Fin 2 → Fin S2048x32768x1.rank)
  bcast_S2048x32768x1_S2048x32768x2_0_1_2 : S2048x32768x1.BroadcastsInDim S2048x32768x2 (![0, 1, 2] : Fin 3 → Fin S2048x32768x2.rank)
  shapeCasts_S2048x32768x2_S2048x65536 : S2048x32768x2.ShapeCasts S2048x65536
  dot_S2048x64_S1x2x64_S2048x1x2_1_2_0_01_n_n_wf : DotDims.WF S2048x64 S1x2x64 S2048x1x2 [1] [2] [0] [0, 1] [] []
  dot_S2048x64_S2x2x64_S2048x2x2_1_2_0_01_n_n_wf : DotDims.WF S2048x64 S2x2x64 S2048x2x2 [1] [2] [0] [0, 1] [] []
  dot_S2048x64_S4x2x64_S2048x4x2_1_2_0_01_n_n_wf : DotDims.WF S2048x64 S4x2x64 S2048x4x2 [1] [2] [0] [0, 1] [] []
  dot_S2048x64_S8x2x64_S2048x8x2_1_2_0_01_n_n_wf : DotDims.WF S2048x64 S8x2x64 S2048x8x2 [1] [2] [0] [0, 1] [] []
  dot_S2048x64_S16x2x64_S2048x16x2_1_2_0_01_n_n_wf : DotDims.WF S2048x64 S16x2x64 S2048x16x2 [1] [2] [0] [0, 1] [] []
  dot_S2048x64_S32x2x64_S2048x32x2_1_2_0_01_n_n_wf : DotDims.WF S2048x64 S32x2x64 S2048x32x2 [1] [2] [0] [0, 1] [] []
  dot_S2048x64_S64x2x64_S2048x64x2_1_2_0_01_n_n_wf : DotDims.WF S2048x64 S64x2x64 S2048x64x2 [1] [2] [0] [0, 1] [] []
  dot_S2048x64_S128x2x64_S2048x128x2_1_2_0_01_n_n_wf : DotDims.WF S2048x64 S128x2x64 S2048x128x2 [1] [2] [0] [0, 1] [] []
  dot_S2048x64_S256x2x64_S2048x256x2_1_2_0_01_n_n_wf : DotDims.WF S2048x64 S256x2x64 S2048x256x2 [1] [2] [0] [0, 1] [] []
  dot_S2048x64_S512x2x64_S2048x512x2_1_2_0_01_n_n_wf : DotDims.WF S2048x64 S512x2x64 S2048x512x2 [1] [2] [0] [0, 1] [] []
  dot_S2048x64_S1024x2x64_S2048x1024x2_1_2_0_01_n_n_wf : DotDims.WF S2048x64 S1024x2x64 S2048x1024x2 [1] [2] [0] [0, 1] [] []
  dot_S2048x64_S2048x2x64_S2048x2048x2_1_2_0_01_n_n_wf : DotDims.WF S2048x64 S2048x2x64 S2048x2048x2 [1] [2] [0] [0, 1] [] []
  dot_S2048x64_S4096x2x64_S2048x4096x2_1_2_0_01_n_n_wf : DotDims.WF S2048x64 S4096x2x64 S2048x4096x2 [1] [2] [0] [0, 1] [] []
  dot_S2048x64_S8192x2x64_S2048x8192x2_1_2_0_01_n_n_wf : DotDims.WF S2048x64 S8192x2x64 S2048x8192x2 [1] [2] [0] [0, 1] [] []
  dot_S2048x64_S16384x2x64_S2048x16384x2_1_2_0_01_n_n_wf : DotDims.WF S2048x64 S16384x2x64 S2048x16384x2 [1] [2] [0] [0, 1] [] []
  dot_S2048x64_S32768x2x64_S2048x32768x2_1_2_0_01_n_n_wf : DotDims.WF S2048x64 S32768x2x64 S2048x32768x2 [1] [2] [0] [0, 1] [] []
  dot_S2048x65536_S65536x64_S2048x64_1_0_0_1_n_n_wf : DotDims.WF S2048x65536 S65536x64 S2048x64 [1] [0] [0] [1] [] []

variable [Facts₀]

def dot_S2048x64_S1x2x64_S2048x1x2_1_2_0_01_n_n : DotDims S2048x64 S1x2x64 S2048x1x2 where
  lhsContracting := [1]
  rhsContracting := [2]
  lhsNonContracting := [0]
  rhsNonContracting := [0, 1]
  lhsBatch := []
  rhsBatch := []
  wf := dot_S2048x64_S1x2x64_S2048x1x2_1_2_0_01_n_n_wf
def dot_S2048x64_S2x2x64_S2048x2x2_1_2_0_01_n_n : DotDims S2048x64 S2x2x64 S2048x2x2 where
  lhsContracting := [1]
  rhsContracting := [2]
  lhsNonContracting := [0]
  rhsNonContracting := [0, 1]
  lhsBatch := []
  rhsBatch := []
  wf := dot_S2048x64_S2x2x64_S2048x2x2_1_2_0_01_n_n_wf
def dot_S2048x64_S4x2x64_S2048x4x2_1_2_0_01_n_n : DotDims S2048x64 S4x2x64 S2048x4x2 where
  lhsContracting := [1]
  rhsContracting := [2]
  lhsNonContracting := [0]
  rhsNonContracting := [0, 1]
  lhsBatch := []
  rhsBatch := []
  wf := dot_S2048x64_S4x2x64_S2048x4x2_1_2_0_01_n_n_wf
def dot_S2048x64_S8x2x64_S2048x8x2_1_2_0_01_n_n : DotDims S2048x64 S8x2x64 S2048x8x2 where
  lhsContracting := [1]
  rhsContracting := [2]
  lhsNonContracting := [0]
  rhsNonContracting := [0, 1]
  lhsBatch := []
  rhsBatch := []
  wf := dot_S2048x64_S8x2x64_S2048x8x2_1_2_0_01_n_n_wf
def dot_S2048x64_S16x2x64_S2048x16x2_1_2_0_01_n_n : DotDims S2048x64 S16x2x64 S2048x16x2 where
  lhsContracting := [1]
  rhsContracting := [2]
  lhsNonContracting := [0]
  rhsNonContracting := [0, 1]
  lhsBatch := []
  rhsBatch := []
  wf := dot_S2048x64_S16x2x64_S2048x16x2_1_2_0_01_n_n_wf
def dot_S2048x64_S32x2x64_S2048x32x2_1_2_0_01_n_n : DotDims S2048x64 S32x2x64 S2048x32x2 where
  lhsContracting := [1]
  rhsContracting := [2]
  lhsNonContracting := [0]
  rhsNonContracting := [0, 1]
  lhsBatch := []
  rhsBatch := []
  wf := dot_S2048x64_S32x2x64_S2048x32x2_1_2_0_01_n_n_wf
def dot_S2048x64_S64x2x64_S2048x64x2_1_2_0_01_n_n : DotDims S2048x64 S64x2x64 S2048x64x2 where
  lhsContracting := [1]
  rhsContracting := [2]
  lhsNonContracting := [0]
  rhsNonContracting := [0, 1]
  lhsBatch := []
  rhsBatch := []
  wf := dot_S2048x64_S64x2x64_S2048x64x2_1_2_0_01_n_n_wf
def dot_S2048x64_S128x2x64_S2048x128x2_1_2_0_01_n_n : DotDims S2048x64 S128x2x64 S2048x128x2 where
  lhsContracting := [1]
  rhsContracting := [2]
  lhsNonContracting := [0]
  rhsNonContracting := [0, 1]
  lhsBatch := []
  rhsBatch := []
  wf := dot_S2048x64_S128x2x64_S2048x128x2_1_2_0_01_n_n_wf
def dot_S2048x64_S256x2x64_S2048x256x2_1_2_0_01_n_n : DotDims S2048x64 S256x2x64 S2048x256x2 where
  lhsContracting := [1]
  rhsContracting := [2]
  lhsNonContracting := [0]
  rhsNonContracting := [0, 1]
  lhsBatch := []
  rhsBatch := []
  wf := dot_S2048x64_S256x2x64_S2048x256x2_1_2_0_01_n_n_wf
def dot_S2048x64_S512x2x64_S2048x512x2_1_2_0_01_n_n : DotDims S2048x64 S512x2x64 S2048x512x2 where
  lhsContracting := [1]
  rhsContracting := [2]
  lhsNonContracting := [0]
  rhsNonContracting := [0, 1]
  lhsBatch := []
  rhsBatch := []
  wf := dot_S2048x64_S512x2x64_S2048x512x2_1_2_0_01_n_n_wf
def dot_S2048x64_S1024x2x64_S2048x1024x2_1_2_0_01_n_n : DotDims S2048x64 S1024x2x64 S2048x1024x2 where
  lhsContracting := [1]
  rhsContracting := [2]
  lhsNonContracting := [0]
  rhsNonContracting := [0, 1]
  lhsBatch := []
  rhsBatch := []
  wf := dot_S2048x64_S1024x2x64_S2048x1024x2_1_2_0_01_n_n_wf
def dot_S2048x64_S2048x2x64_S2048x2048x2_1_2_0_01_n_n : DotDims S2048x64 S2048x2x64 S2048x2048x2 where
  lhsContracting := [1]
  rhsContracting := [2]
  lhsNonContracting := [0]
  rhsNonContracting := [0, 1]
  lhsBatch := []
  rhsBatch := []
  wf := dot_S2048x64_S2048x2x64_S2048x2048x2_1_2_0_01_n_n_wf
def dot_S2048x64_S4096x2x64_S2048x4096x2_1_2_0_01_n_n : DotDims S2048x64 S4096x2x64 S2048x4096x2 where
  lhsContracting := [1]
  rhsContracting := [2]
  lhsNonContracting := [0]
  rhsNonContracting := [0, 1]
  lhsBatch := []
  rhsBatch := []
  wf := dot_S2048x64_S4096x2x64_S2048x4096x2_1_2_0_01_n_n_wf
def dot_S2048x64_S8192x2x64_S2048x8192x2_1_2_0_01_n_n : DotDims S2048x64 S8192x2x64 S2048x8192x2 where
  lhsContracting := [1]
  rhsContracting := [2]
  lhsNonContracting := [0]
  rhsNonContracting := [0, 1]
  lhsBatch := []
  rhsBatch := []
  wf := dot_S2048x64_S8192x2x64_S2048x8192x2_1_2_0_01_n_n_wf
def dot_S2048x64_S16384x2x64_S2048x16384x2_1_2_0_01_n_n : DotDims S2048x64 S16384x2x64 S2048x16384x2 where
  lhsContracting := [1]
  rhsContracting := [2]
  lhsNonContracting := [0]
  rhsNonContracting := [0, 1]
  lhsBatch := []
  rhsBatch := []
  wf := dot_S2048x64_S16384x2x64_S2048x16384x2_1_2_0_01_n_n_wf
def dot_S2048x64_S32768x2x64_S2048x32768x2_1_2_0_01_n_n : DotDims S2048x64 S32768x2x64 S2048x32768x2 where
  lhsContracting := [1]
  rhsContracting := [2]
  lhsNonContracting := [0]
  rhsNonContracting := [0, 1]
  lhsBatch := []
  rhsBatch := []
  wf := dot_S2048x64_S32768x2x64_S2048x32768x2_1_2_0_01_n_n_wf
def dot_S2048x65536_S65536x64_S2048x64_1_0_0_1_n_n : DotDims S2048x65536 S65536x64 S2048x64 where
  lhsContracting := [1]
  rhsContracting := [0]
  lhsNonContracting := [0]
  rhsNonContracting := [1]
  lhsBatch := []
  rhsBatch := []
  wf := dot_S2048x65536_S65536x64_S2048x64_1_0_0_1_n_n_wf

class Facts : Prop extends Facts₀ where

variable [Facts]
-- ==== Proof.LibTreeWeights.lean ====
/-
  Path weights in a complete binary tree stored level by level, over the extended reals.

  Level `d` of the tree has the nodes `2^d - 1 + j`, `j < 2^d`; node `j` of level `d` has the children
  `2 j` and `2 j + 1` of level `d + 1`.  Every internal node splits its weight between its two children
  (`split node 0`, `split node 1`); the weight of a node is the product of the splits along its path from
  the root (`pathW`).  Cutting the tree after level `P`, the weight of a node below the cut is the weight
  of its ancestor `t` at the cut times its weight inside the subtree of `t` (`localW`): `pathW_factor`,
  by associativity of the product alone.  A weighted sum over the last level is then the sum over the
  subtrees of (the subtree's weight) times (the weighted sum inside the subtree): `sum_leaves_eq`; moving
  the subtree's weight out of the inner sum is distributivity, which on the extended reals needs the
  summands to be real numbers — that is its only hypothesis.
-/
import Idealize.ShloMosaic.PureOps.Ideal

noncomputable section

namespace TreeWeights

open Finset Idealize.ShloMosaic

/-! ## Sums of real numbers inside the extended reals -/

/-- A finite sum of real numbers, taken in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An extended real that is a real number. -/
def IsReal (x : EReal) : Prop := ∃ r : ℝ, x = (r : EReal)

theorem IsReal.coe (r : ℝ) : IsReal (r : EReal) := ⟨r, rfl⟩
theorem IsReal.one : IsReal (1 : EReal) := ⟨1, by simp⟩
theorem IsReal.zero : IsReal (0 : EReal) := ⟨0, by simp⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type*} (s : Finset ι) (a : ι → EReal) (h : ∀ i ∈ s, IsReal (a i)) :
    IsReal (∑ i ∈ s, a i) := by
  classical
  induction s using Finset.induction_on with
  | empty => simpa using IsReal.zero
  | insert b s hb ih =>
    rw [Finset.sum_insert hb]
    exact (h b (Finset.mem_insert_self b s)).add (ih fun i hi => h i (Finset.mem_insert_of_mem hi))

/-- A real factor distributes over a finite sum of real numbers, in the extended reals. -/
theorem mul_sum_of_isReal {ι : Type*} (s : Finset ι) (x : EReal) (a : ι → EReal) (hx : IsReal x)
    (ha : ∀ i ∈ s, IsReal (a i)) : x * ∑ i ∈ s, a i = ∑ i ∈ s, x * a i := by
  classical
  obtain ⟨r, rfl⟩ := hx
  induction s using Finset.induction_on with
  | empty => simp
  | insert b s hb ih =>
    have hs : ∀ i ∈ s, IsReal (a i) := fun i hi => ha i (Finset.mem_insert_of_mem hi)
    obtain ⟨u, hu⟩ := ha b (Finset.mem_insert_self b s)
    obtain ⟨v, hv⟩ := IsReal.sum s a hs
    rw [Finset.sum_insert hb, Finset.sum_insert hb, ← ih hs, hu, hv, ← EReal.coe_add, ← EReal.coe_mul, mul_add,
      EReal.coe_add, EReal.coe_mul, EReal.coe_mul]

/-! ## A sum over `a * b` indices, block by block -/

theorem sum_range_mul_blocks {M : Type*} [AddCommMonoid M] (f : ℕ → M) (a b : ℕ) :
    ∑ i ∈ range (a * b), f i = ∑ t ∈ range a, ∑ l ∈ range b, f (t * b + l) := by
  induction a with
  | zero => simp
  | succ a ih => rw [Nat.succ_mul, Finset.sum_range_add, ih, Finset.sum_range_succ]

/-! ## Path weights -/

/-- The weight of node `j` of level `d`: the product of the splits on its path from the root. -/
def pathW (split : ℕ → ℕ → EReal) : ℕ → ℕ → EReal
  | 0, _ => 1
  | d + 1, j => pathW split d (j / 2) * split (2 ^ d - 1 + j / 2) (j % 2)

/-- The weight of node `j` of level `l` INSIDE the subtree rooted at node `t` of level `P`: that node is
    node `t * 2^l + j` of level `P + l` of the whole tree. -/
def localW (split : ℕ → ℕ → EReal) (P t : ℕ) : ℕ → ℕ → EReal
  | 0, _ => 1
  | l + 1, j => localW split P t l (j / 2) * split (2 ^ (P + l) - 1 + (t * 2 ^ l + j / 2)) (j % 2)

@[simp] theorem pathW_zero (split : ℕ → ℕ → EReal) (j : ℕ) : pathW split 0 j = 1 := rfl
theorem pathW_succ (split : ℕ → ℕ → EReal) (d j : ℕ) :
    pathW split (d + 1) j = pathW split d (j / 2) * split (2 ^ d - 1 + j / 2) (j % 2) := rfl
@[simp] theorem localW_zero (split : ℕ → ℕ → EReal) (P t j : ℕ) : localW split P t 0 j = 1 := rfl
theorem localW_succ (split : ℕ → ℕ → EReal) (P t l j : ℕ) :
    localW split P t (l + 1) j
      = localW split P t l (j / 2) * split (2 ^ (P + l) - 1 + (t * 2 ^ l + j / 2)) (j % 2) := rfl

/-- Below a cut at level `P`, a node's weight is its ancestor's at the cut times its weight inside that
    ancestor's subtree. -/
theorem pathW_factor (split : ℕ → ℕ → EReal) (P t : ℕ) : ∀ (l j : ℕ),
    pathW split (P + l) (t * 2 ^ l + j) = pathW split P t * localW split P t l (j) ∨ 2 ^ l ≤ j := by
  intro l
  induction l with
  | zero =>
    intro j
    rcases Nat.eq_zero_or_pos j with rfl | hj
    · left; simp
    · right; rw [pow_zero]; omega
  | succ l ih =>
    intro j
    by_cases hj : j < 2 ^ (l + 1)
    · left
      have hpow : 2 ^ (l + 1) = 2 * 2 ^ l := by rw [pow_succ]; ring
      have e1 : (t * 2 ^ (l + 1) + j) / 2 = t * 2 ^ l + j / 2 := by
        rw [hpow, show t * (2 * 2 ^ l) + j = j + 2 * (t * 2 ^ l) by ring, Nat.add_mul_div_left _ _ (by norm_num : 0 < 2)]
        ring
      have e2 : (t * 2 ^ (l + 1) + j) % 2 = j % 2 := by
        rw [hpow, show t * (2 * 2 ^ l) + j = j + 2 * (t * 2 ^ l) by ring, Nat.add_mul_mod_self_left]
      have hj2 : j / 2 < 2 ^ l := by omega
      rcases ih (j / 2) with h | h
      · show pathW split (P + l + 1) (t * 2 ^ (l + 1) + j) = _
        rw [pathW_succ, localW_succ, e1, e2, h, mul_assoc]
      · exact absurd h (not_le.mpr hj2)
    · right; exact not_lt.mp hj

theorem pathW_factor' (split : ℕ → ℕ → EReal) (P t l j : ℕ) (hj : j < 2 ^ l) :
    pathW split (P + l) (t * 2 ^ l + j) = pathW split P t * localW split P t l j :=
  (pathW_factor split P t l j).resolve_right (not_le.mpr hj)

/-- The weighted sum over the last level, regrouped by the subtrees of a cut: one factor per subtree
    times the weighted sum inside it. Distributing the subtree's weight over the inner sum is the one step
    that needs real numbers. -/
theorem sum_leaves_eq (split : ℕ → ℕ → EReal) (val : ℕ → EReal) (P L : ℕ)
    (hgate : ∀ t < 2 ^ P, IsReal (pathW split P t))
    (hterm : ∀ t < 2 ^ P, ∀ l < 2 ^ L, IsReal (localW split P t L l * val (t * 2 ^ L + l))) :
    ∑ leaf ∈ range (2 ^ (P + L)), pathW split (P + L) leaf * val leaf
      = ∑ t ∈ range (2 ^ P), pathW split P t * ∑ l ∈ range (2 ^ L), localW split P t L l * val (t * 2 ^ L + l) := by
  rw [pow_add, sum_range_mul_blocks]
  refine Finset.sum_congr rfl fun t ht => ?_
  rw [mul_sum_of_isReal _ _ _ (hgate t (Finset.mem_range.mp ht))
    (fun l hl => hterm t (Finset.mem_range.mp ht) l (Finset.mem_range.mp hl))]
  refine Finset.sum_congr rfl fun l hl => ?_
  rw [pathW_factor' split P t L l (Finset.mem_range.mp hl), mul_assoc]

/-! ## The two-way split: a softmax over two logits, the larger one subtracted first -/

/-- The share of the logit `a` against the logit `b`. -/
def share (a b : EReal) : EReal :=
  Ideal.div (Ideal.exp (a - max a b)) (Ideal.exp (a - max a b) + Ideal.exp (b - max a b))

/-- The larger of two real numbers, taken in the extended reals, is the real maximum. -/
theorem coe_max (x y : ℝ) : max (x : EReal) (y : EReal) = ((max x y : ℝ) : EReal) :=
  (EReal.coe_strictMono.monotone.map_max (a := x) (b := y)).symm

/-- At real logits the share is a real number. -/
theorem share_isReal {a b : EReal} (ha : IsReal a) (hb : IsReal b) : IsReal (share a b) := by
  obtain ⟨x, rfl⟩ := ha; obtain ⟨y, rfl⟩ := hb
  unfold share
  rw [coe_max, ← EReal.coe_sub, ← EReal.coe_sub, Ideal.exp_coe, Ideal.exp_coe, ← EReal.coe_add,
    Ideal.div_coe (by positivity : Real.exp (x - max x y) + Real.exp (y - max x y) ≠ 0), ← EReal.coe_mul]
  exact ⟨_, rfl⟩

/-- The share of child `c` (0: the first, otherwise the second) of a node whose children have the logits `l0`, `l1`. -/
def share2 (l0 l1 : EReal) (c : ℕ) : EReal := if c = 0 then share l0 l1 else share l1 l0

theorem share2_zero (l0 l1 : EReal) : share2 l0 l1 0 = share l0 l1 := if_pos rfl
theorem share2_one (l0 l1 : EReal) : share2 l0 l1 1 = share l1 l0 := if_neg (by decide)

theorem share2_isReal {l0 l1 : EReal} (h0 : IsReal l0) (h1 : IsReal l1) (c : ℕ) : IsReal (share2 l0 l1 c) := by
  unfold share2; split_ifs
  · exact share_isReal h0 h1
  · exact share_isReal h1 h0

/-- The second child's share, written over the pair's maximum and sum in the first child's order. -/
theorem share_swap (l0 l1 : EReal) :
    Ideal.div (Ideal.exp (l1 - max l0 l1)) (Ideal.exp (l0 - max l0 l1) + Ideal.exp (l1 - max l0 l1)) = share l1 l0 := by
  unfold share; rw [max_comm l1 l0, add_comm]

/-- Path weights are real when every split is. -/
theorem pathW_isReal (split : ℕ → ℕ → EReal) (h : ∀ node c, IsReal (split node c)) : ∀ d j, IsReal (pathW split d j)
  | 0, _ => IsReal.one
  | d + 1, j => (pathW_isReal split h d (j / 2)).mul (h _ _)

theorem localW_isReal (split : ℕ → ℕ → EReal) (h : ∀ node c, IsReal (split node c)) (P t : ℕ) :
    ∀ l j, IsReal (localW split P t l j)
  | 0, _ => IsReal.one
  | l + 1, j => (localW_isReal split h P t l (j / 2)).mul (h _ _)

end TreeWeights

end
-- ==== Proof.LibTreeLevel.lean ====
/-
  One level of a two-way tree softmax, as a host program computes it, read at an index (at the extended reals).

  The level holds, for each row `b` and each node `i` of the level, two logits `L (b, i, 0)`, `L (b, i, 1)`
  and the node's weight `P (b, i)`.  The program subtracts from each logit the larger of the node's two, takes
  exponentials, divides each by the sum of the node's two, multiplies by the node's weight and lays the
  [rows, nodes, 2] result out as [rows, 2 * nodes]: column `j` of the result belongs to child `j % 2` of node
  `j / 2`.  Read at (b, j) the result is `P (b, j / 2)` times the share of logit `j % 2` of node `j / 2`.
  Everything here is generic in the number of rows and of nodes; the structural facts about the shapes are
  hypotheses, which a caller discharges at its literal shapes.
-/
import Idealize.ShloMosaic.PureOps.Ideal.Laws
import Idealize.ShloMosaic.PureOps.Reduce
import Idealize.ShloMosaic.Lib.ValueIdx
import Idealize.ShloMosaic.Lib.Pipeline.Value
import proofs.«171282_j44032004719312_2_alg».proof.Proof.LibTreeWeights

noncomputable section

namespace TreeLevel

open Idealize.ShloMosaic Idealize.ShloMosaic.ValueIdx TreeWeights

/-- [rows, nodes, 2]: the two children of every node of a level. -/
abbrev T3 (B n : ℕ) : Shape := ⟨3, ![B, n, 2]⟩
/-- [rows, nodes]. -/
abbrev T2 (B n : ℕ) : Shape := ⟨2, ![B, n]⟩
/-- [rows, nodes, 1]: a per-node quantity kept as a column. -/
abbrev T31 (B n : ℕ) : Shape := ⟨3, ![B, n, 1]⟩
/-- The shape of a scalar. -/
abbrev T0 : Shape := ⟨0, ![]⟩

variable {B n : ℕ}

/-- A scalar constant broadcast to [rows, nodes] is that constant everywhere. -/
theorem bcast_scalar_apply (w : BitVec 32) (h : T0.BroadcastsInDim (T2 B n) ![])
    (j : (T2 B n).Idx) :
    broadcastInDim (T2 B n) ![] h (constant (F := Ideal) T0 .f32 w) j = Ideal.ofBits .f32 w :=
  broadcastInDim_apply ![] h _ j ix0 (fun a => a.elim0)

/-- A per-node quantity, kept as a column and then repeated for the two children, read at (b, i, c) is the
    quantity at (b, i). -/
theorem bcast_keep_apply (x : (T2 B n).Idx → EReal)
    (h1 : (T2 B n).BroadcastsInDim (T31 B n) ![0, 1]) (h2 : (T31 B n).BroadcastsInDim (T3 B n) ![0, 1, 2])
    (b : Fin B) (i : Fin n) (c : Fin 2) :
    broadcastInDim (T3 B n) ![0, 1, 2] h2 (broadcastInDim (T31 B n) ![0, 1] h1 x) (ix3 b i c) = x (ix2 b i) := by
  refine (broadcastInDim_apply ![0, 1, 2] h2 _ (ix3 b i c) (ix3 b i (0 : Fin 1)) ?_).trans
    (broadcastInDim_apply ![0, 1] h1 x (ix3 b i (0 : Fin 1)) (ix2 b i) ?_)
  · intro a
    match a with
    | ⟨0, _⟩ =>
      show (b : ℕ) = if B = 1 then 0 else (b : ℕ)
      split_ifs with hB
      · have := b.isLt; omega
      · rfl
    | ⟨1, _⟩ =>
      show (i : ℕ) = if n = 1 then 0 else (i : ℕ)
      split_ifs with hn
      · have := i.isLt; omega
      · rfl
    | ⟨2, _⟩ => rfl
  · intro a
    match a with
    | ⟨0, _⟩ =>
      show (b : ℕ) = if B = 1 then 0 else (b : ℕ)
      split_ifs with hB
      · have := b.isLt; omega
      · rfl
    | ⟨1, _⟩ =>
      show (i : ℕ) = if n = 1 then 0 else (i : ℕ)
      split_ifs with hn
      · have := i.isLt; omega
      · rfl

/-- The layout [rows, nodes, 2] → [rows, 2 * nodes] read at (b, j): the entry of child `j % 2` of node `j / 2`. -/
theorem interleave_apply {m : ℕ} (x : (T3 B n).Idx → EReal) (h : (T3 B n).ShapeCasts (T2 B m)) (hm : m = 2 * n)
    (b : Fin B) (j : Fin m) :
    shapeCast (T2 B m) x h (ix2 b j)
      = x (ix3 b ⟨j.val / 2, by have := j.isLt; omega⟩ ⟨j.val % 2, Nat.mod_lt _ (by norm_num)⟩) := by
  refine shapeCast_apply x h (ix2 b j) _ ?_
  rw [Shape.rowMajor_val_three, Shape.rowMajor_val_two]
  show ((b : ℕ) * n + j.val / 2) * 2 + j.val % 2 = (b : ℕ) * m + j.val
  subst hm
  have e : ((b : ℕ) * n + j.val / 2) * 2 = (b : ℕ) * (2 * n) + 2 * (j.val / 2) := by ring
  rw [e]
  omega

theorem ofBits_neg_inf : Ideal.ofBits .f32 0xFF800000#32 = (⊥ : EReal) := by simp [Ideal.ofBits, Ideal.ieee]

/-- A fold over a pair. -/
theorem fold_pair {α : Type*} (op : α → α → α) [Std.Commutative op] [Std.Associative op] (f : Fin 2 → α) (i : α) :
    (Finset.univ : Finset (Fin 2)).fold op i f = op (f 0) (op (f 1) i) := by
  rw [show (Finset.univ : Finset (Fin 2)) = {0, 1} from rfl, Finset.fold_insert (by decide), Finset.fold_singleton]

/-- The larger of a node's two logits, as the program takes it (a maximum over the pair started from -∞, then
    once more against -∞). -/
theorem pair_max_apply (L : (T3 B n).Idx → EReal) (hb0 : T0.BroadcastsInDim (T2 B n) ![])
    (hR : (T3 B n).ReducesTo [2] (T2 B n)) (hR' : (T3 B n).Reduces [2] (T2 B n)) (hS : 0 < T0.numel)
    (b : Fin B) (i : Fin n) :
    maximumf (broadcastInDim (T2 B n) ![] hb0 (constant (F := Ideal) T0 .f32 0xFF800000#32))
        (Host.reduce FloatOps.maximumf L (constant (F := Ideal) T0 .f32 0xFF800000#32) hR hS) (ix2 b i)
      = max (L (ix3 b i 0)) (L (ix3 b i 1)) := by
  have hlift : ∀ c : Fin 2, hR'.lift (ix2 b i) c = ix3 b i c := fun c =>
    funext fun a => Fin.ext (by match a with | ⟨0, _⟩ => rfl | ⟨1, _⟩ => rfl | ⟨2, _⟩ => rfl)
  have hfold := Host.reduce_eq_fold_single (a := (2 : Fin 3)) FloatOps.maximumf L
    (constant (F := Ideal) T0 .f32 0xFF800000#32) hR hR' hS (ix2 b i)
  rw [maximumf_apply, bcast_scalar_apply, hfold]
  refine (congrArg (max _) (fold_pair (FloatOps.maximumf (F := Ideal) (φ := .f32)) (L ∘ hR'.lift (ix2 b i)) _)).trans ?_
  show max (Ideal.ofBits .f32 0xFF800000#32)
      (max (L (hR'.lift (ix2 b i) (0 : Fin 2))) (max (L (hR'.lift (ix2 b i) (1 : Fin 2))) (Ideal.ofBits .f32 0xFF800000#32))) = _
  rw [hlift 0, hlift 1, ofBits_neg_inf]
  simp

/-- The sum of a node's pair, as the program takes it (a sum over the pair started from 0). -/
theorem pair_sum_apply (E : (T3 B n).Idx → EReal)
    (hR : (T3 B n).ReducesTo [2] (T2 B n)) (hR' : (T3 B n).Reduces [2] (T2 B n)) (hS : 0 < T0.numel)
    (b : Fin B) (i : Fin n) :
    Host.reduceAdd (F := Ideal) (φ := .f32) E (constant (F := Ideal) T0 .f32 0x00000000#32) hR hS (ix2 b i)
      = E (ix3 b i 0) + E (ix3 b i 1) := by
  have hlift : ∀ c : Fin 2, hR'.lift (ix2 b i) c = ix3 b i c := fun c =>
    funext fun a => Fin.ext (by match a with | ⟨0, _⟩ => rfl | ⟨1, _⟩ => rfl | ⟨2, _⟩ => rfl)
  show Ideal.hostReduceAdd hR E (Ideal.ofBits .f32 0x00000000#32) (ix2 b i) = _
  rw [Ideal.hostReduceAdd_single (a := (2 : Fin 3)) hR hR' E (Ideal.ofBits .f32 0x00000000#32) (ix2 b i),
    Ideal.ofBits_zero_f32, zero_add]
  show ∑ k : Fin 2, E (hR'.lift (ix2 b i) k) = _
  rw [Fin.sum_univ_two, hlift 0, hlift 1]

/-- The logits of a level: row `b`'s query against the key of child `c` of node `i`, a sum over the query's
    coordinates. -/
theorem logits_apply {Q : ℕ} (wf : DotDims.WF (T2 B Q) ⟨3, ![n, 2, Q]⟩ (T3 B n) [1] [2] [0] [0, 1] [] [])
    (q : FVec Ideal (T2 B Q) .f32) (K : FVec Ideal ⟨3, ![n, 2, Q]⟩ .f32) (b : Fin B) (i : Fin n) (c : Fin 2) :
    Host.dotGeneral (⟨[1], [2], [0], [0, 1], [], [], wf⟩ : DotDims (T2 B Q) ⟨3, ![n, 2, Q]⟩ (T3 B n)) none q K (ix3 b i c)
      = ∑ k : Fin Q, q (ix2 b k) * K (ix3 i c k) := by
  generalize hd : (⟨[1], [2], [0], [0, 1], [], [], wf⟩ : DotDims (T2 B Q) ⟨3, ![n, 2, Q]⟩ (T3 B n)) = d
  have hl : d.lhsContracting = [1] := by subst hd; rfl
  have hrc : d.rhsContracting = [2] := by subst hd; rfl
  have hr : d.contr.rank = 1 := by subst hd; rfl
  have hs : d.contr.size ⟨0, by omega⟩ = Q := by subst hd; rfl
  refine (Ideal.dotGeneral_apply d none _ q K (ix3 b i c)).trans ?_
  refine ((contrEquiv1 d Q hr hs).symm.sum_comp _).symm.trans ?_
  refine Finset.sum_congr rfl fun k _ => ?_
  have e1 : d.lhsIdx (ix3 b i c) ((contrEquiv1 d Q hr hs).symm k) = ix2 b k := by
    funext a
    refine Fin.ext ?_
    match a with
    | ⟨0, _⟩ => subst hd; rfl
    | ⟨1, _⟩ => exact (d.lhsIdx_val_of_single (cl := 1) hl _ _).trans (contrEquiv1_symm_val d Q hr hs k)
  have e2 : d.rhsIdx (ix3 b i c) ((contrEquiv1 d Q hr hs).symm k) = ix3 i c k := by
    funext a
    refine Fin.ext ?_
    match a with
    | ⟨0, _⟩ => subst hd; rfl
    | ⟨1, _⟩ => subst hd; rfl
    | ⟨2, _⟩ => exact (d.rhsIdx_val_of_single (cr := 2) hrc _ _).trans (contrEquiv1_symm_val d Q hr hs k)
  rw [e1, e2]

/-- The exponentials of a level's logits, each less the larger of its node's two. -/
def expShift (L : FVec Ideal (T3 B n) .f32) (hb0 : T0.BroadcastsInDim (T2 B n) ![])
    (hb1 : (T2 B n).BroadcastsInDim (T31 B n) ![0, 1]) (hb2 : (T31 B n).BroadcastsInDim (T3 B n) ![0, 1, 2])
    (hR : (T3 B n).ReducesTo [2] (T2 B n)) (hS : 0 < T0.numel) : FVec Ideal (T3 B n) .f32 :=
  Host.exp (subf L (broadcastInDim (T3 B n) ![0, 1, 2] hb2 (broadcastInDim (T31 B n) ![0, 1] hb1
    (maximumf (broadcastInDim (T2 B n) ![] hb0 (constant (F := Ideal) T0 .f32 0xFF800000#32))
      (Host.reduce FloatOps.maximumf L (constant (F := Ideal) T0 .f32 0xFF800000#32) hR hS)))))

theorem expShift_apply (L : FVec Ideal (T3 B n) .f32) (hb0 : T0.BroadcastsInDim (T2 B n) ![])
    (hb1 : (T2 B n).BroadcastsInDim (T31 B n) ![0, 1]) (hb2 : (T31 B n).BroadcastsInDim (T3 B n) ![0, 1, 2])
    (hR : (T3 B n).ReducesTo [2] (T2 B n)) (hR' : (T3 B n).Reduces [2] (T2 B n)) (hS : 0 < T0.numel)
    (b : Fin B) (i : Fin n) (c : Fin 2) :
    expShift L hb0 hb1 hb2 hR hS (ix3 b i c)
      = Ideal.exp (L (ix3 b i c) - max (L (ix3 b i 0)) (L (ix3 b i 1))) := by
  show Ideal.exp (L (ix3 b i c) - broadcastInDim (T3 B n) ![0, 1, 2] hb2 (broadcastInDim (T31 B n) ![0, 1] hb1
    (maximumf (broadcastInDim (T2 B n) ![] hb0 (constant (F := Ideal) T0 .f32 0xFF800000#32))
      (Host.reduce FloatOps.maximumf L (constant (F := Ideal) T0 .f32 0xFF800000#32) hR hS))) (ix3 b i c)) = _
  rw [bcast_keep_apply _ hb1 hb2 b i c, pair_max_apply L hb0 hR hR' hS b i]

/-- One level read at (b, j): the weight of node `j / 2` times the exponential of child `j % 2` over the sum of
    the node's two exponentials. -/
theorem level_apply {m : ℕ} (P : FVec Ideal (T2 B n) .f32) (E : FVec Ideal (T3 B n) .f32)
    (hb1 : (T2 B n).BroadcastsInDim (T31 B n) ![0, 1]) (hb2 : (T31 B n).BroadcastsInDim (T3 B n) ![0, 1, 2])
    (hR : (T3 B n).ReducesTo [2] (T2 B n)) (hR' : (T3 B n).Reduces [2] (T2 B n)) (hS : 0 < T0.numel)
    (hc : (T3 B n).ShapeCasts (T2 B m)) (hm : m = 2 * n) (b : Fin B) (j : Fin m) :
    shapeCast (T2 B m) (mulf (broadcastInDim (T3 B n) ![0, 1, 2] hb2 (broadcastInDim (T31 B n) ![0, 1] hb1 P))
        (Host.divf E (broadcastInDim (T3 B n) ![0, 1, 2] hb2 (broadcastInDim (T31 B n) ![0, 1] hb1
          (Host.reduceAdd (F := Ideal) (φ := .f32) E (constant (F := Ideal) T0 .f32 0x00000000#32) hR hS))))) hc (ix2 b j)
      = P (ix2 b ⟨j.val / 2, by have := j.isLt; omega⟩)
        * Ideal.div (E (ix3 b ⟨j.val / 2, by have := j.isLt; omega⟩ ⟨j.val % 2, Nat.mod_lt _ (by norm_num)⟩))
            (E (ix3 b ⟨j.val / 2, by have := j.isLt; omega⟩ 0) + E (ix3 b ⟨j.val / 2, by have := j.isLt; omega⟩ 1)) := by
  rw [interleave_apply _ hc hm b j]
  show broadcastInDim (T3 B n) ![0, 1, 2] hb2 (broadcastInDim (T31 B n) ![0, 1] hb1 P) (ix3 b _ _)
      * Ideal.div (E (ix3 b _ _)) (broadcastInDim (T3 B n) ![0, 1, 2] hb2 (broadcastInDim (T31 B n) ![0, 1] hb1
          (Host.reduceAdd (F := Ideal) (φ := .f32) E (constant (F := Ideal) T0 .f32 0x00000000#32) hR hS)) (ix3 b _ _)) = _
  rw [bcast_keep_apply P hb1 hb2, bcast_keep_apply _ hb1 hb2, pair_sum_apply E hR hR' hS]

/-- The exponential of child `c` over the sum of the node's two exponentials is the child's share. -/
theorem level_share_apply (L : FVec Ideal (T3 B n) .f32) (hb0 : T0.BroadcastsInDim (T2 B n) ![])
    (hb1 : (T2 B n).BroadcastsInDim (T31 B n) ![0, 1]) (hb2 : (T31 B n).BroadcastsInDim (T3 B n) ![0, 1, 2])
    (hR : (T3 B n).ReducesTo [2] (T2 B n)) (hR' : (T3 B n).Reduces [2] (T2 B n)) (hS : 0 < T0.numel)
    (b : Fin B) (i : Fin n) (c : Fin 2) :
    Ideal.div (expShift L hb0 hb1 hb2 hR hS (ix3 b i c))
        (expShift L hb0 hb1 hb2 hR hS (ix3 b i 0) + expShift L hb0 hb1 hb2 hR hS (ix3 b i 1))
      = share2 (L (ix3 b i 0)) (L (ix3 b i 1)) c.val := by
  rw [expShift_apply L hb0 hb1 hb2 hR hR' hS b i c, expShift_apply L hb0 hb1 hb2 hR hR' hS b i 0,
    expShift_apply L hb0 hb1 hb2 hR hR' hS b i 1]
  match c with
  | ⟨0, _⟩ => exact (share2_zero _ _).symm
  | ⟨1, _⟩ => exact (share_swap _ _).trans (share2_one _ _).symm

/-- A level's keys are a run of consecutive nodes of the whole key table. -/
theorem keys_slice_apply {N Q start : ℕ} (K : (⟨3, ![N, 2, Q]⟩ : Shape).Idx → EReal)
    (h : (⟨3, ![N, 2, Q]⟩ : Shape).Slices ![start, 0, 0] ⟨3, ![n, 2, Q]⟩) (hN : start + n ≤ N)
    (i : Fin n) (c : Fin 2) (k : Fin Q) :
    extractStridedSlice ⟨3, ![n, 2, Q]⟩ ![start, 0, 0] K h (ix3 i c k)
      = K (ix3 ⟨start + i.val, by have := i.isLt; omega⟩ c k) := by
  refine extractStridedSlice_apply ![start, 0, 0] K h (ix3 i c k) _ fun a => ?_
  match a with
  | ⟨0, _⟩ => rfl
  | ⟨1, _⟩ => show (c : ℕ) = 0 + (c : ℕ); omega
  | ⟨2, _⟩ => show (k : ℕ) = 0 + (k : ℕ); omega

/-- The logits of a level against its run of the key table. -/
theorem level_logits_apply {N Q start : ℕ}
    (wf : DotDims.WF (T2 B Q) ⟨3, ![n, 2, Q]⟩ (T3 B n) [1] [2] [0] [0, 1] [] [])
    (q : FVec Ideal (T2 B Q) .f32) (K : FVec Ideal ⟨3, ![N, 2, Q]⟩ .f32)
    (h : (⟨3, ![N, 2, Q]⟩ : Shape).Slices ![start, 0, 0] ⟨3, ![n, 2, Q]⟩) (hN : start + n ≤ N)
    (b : Fin B) (i : Fin n) (c : Fin 2) :
    Host.dotGeneral (⟨[1], [2], [0], [0, 1], [], [], wf⟩ : DotDims (T2 B Q) ⟨3, ![n, 2, Q]⟩ (T3 B n)) none q
        (extractStridedSlice ⟨3, ![n, 2, Q]⟩ ![start, 0, 0] K h) (ix3 b i c)
      = ∑ k : Fin Q, q (ix2 b k) * K (ix3 ⟨start + i.val, by have := i.isLt; omega⟩ c k) := by
  rw [logits_apply wf q _ b i c]
  exact Finset.sum_congr rfl fun k _ => congrArg (q (ix2 b k) * ·) (keys_slice_apply K h hN i c k)

/-- The weighted sum over the leaves: a plain matrix product read at (b, v). -/
theorem leaves_dot_apply {N V : ℕ} (wf : DotDims.WF (T2 B N) (T2 N V) (T2 B V) [1] [0] [0] [1] [] [])
    (P : FVec Ideal (T2 B N) .f32) (X : FVec Ideal (T2 N V) .f32) (b : Fin B) (v : Fin V) :
    Host.dotGeneral (⟨[1], [0], [0], [1], [], [], wf⟩ : DotDims (T2 B N) (T2 N V) (T2 B V)) none P X (ix2 b v)
      = ∑ k : Fin N, P (ix2 b k) * X (ix2 k v) := by
  generalize hd : (⟨[1], [0], [0], [1], [], [], wf⟩ : DotDims (T2 B N) (T2 N V) (T2 B V)) = d
  have hl : d.lhsContracting = [1] := by subst hd; rfl
  have hrc : d.rhsContracting = [0] := by subst hd; rfl
  have hr : d.contr.rank = 1 := by subst hd; rfl
  have hs : d.contr.size ⟨0, by omega⟩ = N := by subst hd; rfl
  refine (Ideal.dotGeneral_apply d none _ P X (ix2 b v)).trans ?_
  refine ((contrEquiv1 d N hr hs).symm.sum_comp _).symm.trans ?_
  refine Finset.sum_congr rfl fun k _ => ?_
  have e1 : d.lhsIdx (ix2 b v) ((contrEquiv1 d N hr hs).symm k) = ix2 b k := by
    funext a
    refine Fin.ext ?_
    match a with
    | ⟨0, _⟩ => subst hd; rfl
    | ⟨1, _⟩ => exact (d.lhsIdx_val_of_single (cl := 1) hl _ _).trans (contrEquiv1_symm_val d N hr hs k)
  have e2 : d.rhsIdx (ix2 b v) ((contrEquiv1 d N hr hs).symm k) = ix2 k v := by
    funext a
    refine Fin.ext ?_
    match a with
    | ⟨0, _⟩ => exact (d.rhsIdx_val_of_single (cr := 0) hrc _ _).trans (contrEquiv1_symm_val d N hr hs k)
    | ⟨1, _⟩ => subst hd; rfl
  rw [e1, e2]

end TreeLevel

end
-- ==== Proof.TreeSpec.lean ====
/-
  The specification both programs meet: the weights of a depth-16 binary tree of two-way softmaxes.

  `q` holds one query per row, `K` the two child keys of every internal node (the nodes level by level, level
  `d` at the positions `2^d - 1 + i`), `X` one value vector per leaf.  The logit of child `c` of a node for
  row `b` is the inner product of the row's query with that child's key; the node splits its weight between
  its children by their shares; the result at (b, v) is the sum over the leaves of the leaf's path weight
  times coordinate `v` of its value.
-/
import Idealize.ShloMosaic.Lib.ValueIdx
import proofs.«171282_j44032004719312_2_alg».proof.Proof.LibTreeWeights

noncomputable section

namespace TreeSpec

open Idealize.ShloMosaic Idealize.ShloMosaic.ValueIdx TreeWeights

abbrev SQ : Shape := ⟨2, ![2048, 64]⟩
abbrev SK : Shape := ⟨3, ![65535, 2, 64]⟩
abbrev SX : Shape := ⟨2, ![65536, 64]⟩

/-- Row `b`'s logit for child `c` of node `node` (0 past the table, where no node is). -/
def logit (q : SQ.Idx → EReal) (K : SK.Idx → EReal) (b : Fin 2048) (node c : ℕ) : EReal :=
  if h : node < 65535 then
    ∑ k : Fin 64, q (ix2 b k) * K (ix3 (⟨node, h⟩ : Fin 65535) (⟨c % 2, Nat.mod_lt _ (by norm_num)⟩ : Fin 2) k)
  else 0

/-- Row `b`'s split at a node: the shares of its two children. -/
def split (q : SQ.Idx → EReal) (K : SK.Idx → EReal) (b : Fin 2048) (node c : ℕ) : EReal :=
  share2 (logit q K b node 0) (logit q K b node 1) c

/-- The result at (b, v): the leaves' values weighted by their path weights. -/
def result (q : SQ.Idx → EReal) (K : SK.Idx → EReal) (X : SX.Idx → EReal) (b : Fin 2048) (v : Fin 64) : EReal :=
  ∑ leaf : Fin 65536, pathW (split q K b) 16 leaf.val * X (ix2 leaf v)

/-- The whole result array: entry (b, v) is `result … b v`. -/
def out (q : SQ.Idx → EReal) (K : SK.Idx → EReal) (X : SX.Idx → EReal) : SQ.Idx → EReal :=
  fun i => result q K X (i 0) (i 1)

theorem out_apply (q : SQ.Idx → EReal) (K : SK.Idx → EReal) (X : SX.Idx → EReal) (b : Fin 2048) (v : Fin 64) :
    out q K X (ix2 b v) = result q K X b v := rfl

/-- With real queries and keys every logit is real. -/
theorem logit_isReal (q : SQ.Idx → EReal) (K : SK.Idx → EReal) (hq : ∀ i, IsReal (q i)) (hK : ∀ i, IsReal (K i))
    (b : Fin 2048) (node c : ℕ) : IsReal (logit q K b node c) := by
  unfold logit
  split_ifs
  · exact IsReal.sum _ _ fun k _ => (hq _).mul (hK _)
  · exact IsReal.zero

theorem split_isReal (q : SQ.Idx → EReal) (K : SK.Idx → EReal) (hq : ∀ i, IsReal (q i)) (hK : ∀ i, IsReal (K i))
    (b : Fin 2048) (node c : ℕ) : IsReal (split q K b node c) :=
  share2_isReal (logit_isReal q K hq hK b node 0) (logit_isReal q K hq hK b node 1) c

end TreeSpec

end
-- ==== Proof.RefTree.lean ====
/-
  The reference's weights, level by level: after level `d` the program holds, for every row, the path weights of
  the `2^(d+1)` nodes of level `d + 1` of the tree (`TreeWeights.pathW` over the row's splits), and its result is
  the leaves' values weighted by the path weights of level 16.
-/
import proofs.«171282_j44032004719312_2_alg».proof.Proof.Gen.ReferenceIdeal.Run
import proofs.«171282_j44032004719312_2_alg».proof.Proof.LibTreeLevel
import proofs.«171282_j44032004719312_2_alg».proof.Proof.TreeSpec

set_option maxRecDepth 16384

noncomputable section

namespace Cert.ReferenceIdeal.RefTree

open Cert.ReferenceIdeal Cert.ReferenceIdeal.Gen Cert.ReferenceIdeal.Value
open Idealize.ShloMosaic Idealize.ShloMosaic.TcCoe Idealize.ShloMosaic.StableHlo Idealize.ShloMosaic.ValueIdx
open TreeWeights TreeLevel TreeSpec

variable (V0 : Valuation τ sig (Elt Ideal))

theorem ofBits_one : Ideal.ofBits .f32 0x3F800000#32 = (1 : EReal) := by
  simp [Ideal.ofBits, Ideal.ieee, -EReal.coe_mul]; norm_num

/-- The queries, the key table and the leaf values as the program finds them. -/
abbrev qOf : FVec Ideal S2048x64 .f32 := V0 (Proc.devRef .tc main_arg0)
abbrev kOf : FVec Ideal S65535x2x64 .f32 := V0 (Proc.devRef .tc main_arg1)
abbrev xOf : FVec Ideal S65536x64 .f32 := V0 (Proc.devRef .tc main_arg2)

/-! ## Level 0: 1 node, at the positions 0 … 0 of the key table -/

/-- Level 0's logits and their shifted exponentials, as the program names them. -/
abbrev L0 : FVec Ideal S2048x1x2 .f32 := res_main_v2 V0
abbrev E0 : FVec Ideal S2048x1x2 .f32 := res_main_v9 V0

theorem logits0 (b : Fin 2048) (i : Fin 1) (c : Fin 2) :
    L0 V0 (ix3 b i c) = logit (qOf V0) (kOf V0) b (0 + i.val) c.val := by
  refine (level_logits_apply (B := 2048) (n := 1) (N := 65535) (Q := 64) (start := 0)
    Facts₀.dot_S2048x64_S1x2x64_S2048x1x2_1_2_0_01_n_n_wf (qOf V0) (kOf V0)
    Facts₀.slices_S65535x2x64_S1x2x64_0_0_0 (by norm_num) b i c).trans ?_
  unfold logit
  rw [dif_pos (by have := i.isLt; omega)]
  match c with
  | ⟨0, _⟩ => rfl
  | ⟨1, _⟩ => rfl

theorem share0 (b : Fin 2048) (i : Fin 1) (c : Fin 2) :
    Ideal.div (E0 V0 (ix3 b i c))
        (E0 V0 (ix3 b i 0) + E0 V0 (ix3 b i 1))
      = split (qOf V0) (kOf V0) b (0 + i.val) c.val := by
  have hE : E0 V0
      = expShift (B := 2048) (n := 1) (L0 V0) Facts₀.bcast_S_S2048x1 Facts₀.bcast_S2048x1_S2048x1x1_0_1
          Facts₀.bcast_S2048x1x1_S2048x1x2_0_1_2 Facts₀.reducesTo_S2048x1x2_S2048x1_d2 Facts₀.h_S_ := rfl
  rw [hE, level_share_apply (B := 2048) (n := 1) _ _ _ _ _ (by decide) _ b i c, logits0 V0 b i 0, logits0 V0 b i 1]
  rfl

/-- The weights after level 0. -/
def W0 : FVec Ideal S2048x2 .f32 :=
  shapeCast _ (mulf (broadcastInDim S2048x1x2 ![0, 1, 2] Facts₀.bcast_S2048x1x1_S2048x1x2_0_1_2 (broadcastInDim S2048x1x1 ![0, 1] Facts₀.bcast_S2048x1_S2048x1x1_0_1 (broadcastInDim S2048x1 ![] Facts₀.bcast_S_S2048x1 (constant S_ .f32 0x3F800000#32))))
    (Host.divf (res_main_v9 V0) (broadcastInDim S2048x1x2 ![0, 1, 2] Facts₀.bcast_S2048x1x1_S2048x1x2_0_1_2 (broadcastInDim S2048x1x1 ![0, 1] Facts₀.bcast_S2048x1_S2048x1x1_0_1 (Host.reduceAdd (res_main_v9 V0) (constant S_ .f32 0x00000000#32) Facts₀.reducesTo_S2048x1x2_S2048x1_d2 Facts₀.h_S_))))) Facts₀.shapeCasts_S2048x1x2_S2048x2

theorem W0_apply (b : Fin 2048) (j : Fin 2) :
    W0 V0 (ix2 b j) = pathW (split (qOf V0) (kOf V0) b) 1 j.val := by
  have hj : j.val / 2 < 1 := by have := j.isLt; omega
  refine (level_apply (B := 2048) (n := 1) (m := 2) (broadcastInDim S2048x1 ![] Facts₀.bcast_S_S2048x1 (constant S_ .f32 0x3F800000#32)) (res_main_v9 V0)
    Facts₀.bcast_S2048x1_S2048x1x1_0_1 Facts₀.bcast_S2048x1x1_S2048x1x2_0_1_2 Facts₀.reducesTo_S2048x1x2_S2048x1_d2
    (by decide) Facts₀.h_S_ Facts₀.shapeCasts_S2048x1x2_S2048x2 rfl b j).trans ?_
  rw [bcast_scalar_apply, ofBits_one, share0 V0 b ⟨j.val / 2, hj⟩ ⟨j.val % 2, Nat.mod_lt _ (by norm_num)⟩]
  exact (pathW_succ (split (qOf V0) (kOf V0) b) 0 j.val).symm

/-! ## Level 1: 2 nodes, at the positions 1 … 2 of the key table -/

/-- Level 1's logits and their shifted exponentials, as the program names them. -/
abbrev L1 : FVec Ideal S2048x2x2 .f32 := res_main_v19 V0
abbrev E1 : FVec Ideal S2048x2x2 .f32 := res_main_v26 V0

theorem logits1 (b : Fin 2048) (i : Fin 2) (c : Fin 2) :
    L1 V0 (ix3 b i c) = logit (qOf V0) (kOf V0) b (1 + i.val) c.val := by
  refine (level_logits_apply (B := 2048) (n := 2) (N := 65535) (Q := 64) (start := 1)
    Facts₀.dot_S2048x64_S2x2x64_S2048x2x2_1_2_0_01_n_n_wf (qOf V0) (kOf V0)
    Facts₀.slices_S65535x2x64_S2x2x64_1_0_0 (by norm_num) b i c).trans ?_
  unfold logit
  rw [dif_pos (by have := i.isLt; omega)]
  match c with
  | ⟨0, _⟩ => rfl
  | ⟨1, _⟩ => rfl

theorem share1 (b : Fin 2048) (i : Fin 2) (c : Fin 2) :
    Ideal.div (E1 V0 (ix3 b i c))
        (E1 V0 (ix3 b i 0) + E1 V0 (ix3 b i 1))
      = split (qOf V0) (kOf V0) b (1 + i.val) c.val := by
  have hE : E1 V0
      = expShift (B := 2048) (n := 2) (L1 V0) Facts₀.bcast_S_S2048x2 Facts₀.bcast_S2048x2_S2048x2x1_0_1
          Facts₀.bcast_S2048x2x1_S2048x2x2_0_1_2 Facts₀.reducesTo_S2048x2x2_S2048x2_d2 Facts₀.h_S_ := rfl
  rw [hE, level_share_apply (B := 2048) (n := 2) _ _ _ _ _ (by decide) _ b i c, logits1 V0 b i 0, logits1 V0 b i 1]
  rfl

/-- The weights after level 1. -/
def W1 : FVec Ideal S2048x4 .f32 :=
  shapeCast _ (mulf (broadcastInDim S2048x2x2 ![0, 1, 2] Facts₀.bcast_S2048x2x1_S2048x2x2_0_1_2 (broadcastInDim S2048x2x1 ![0, 1] Facts₀.bcast_S2048x2_S2048x2x1_0_1 (W0 V0)))
    (Host.divf (res_main_v26 V0) (broadcastInDim S2048x2x2 ![0, 1, 2] Facts₀.bcast_S2048x2x1_S2048x2x2_0_1_2 (broadcastInDim S2048x2x1 ![0, 1] Facts₀.bcast_S2048x2_S2048x2x1_0_1 (Host.reduceAdd (res_main_v26 V0) (constant S_ .f32 0x00000000#32) Facts₀.reducesTo_S2048x2x2_S2048x2_d2 Facts₀.h_S_))))) Facts₀.shapeCasts_S2048x2x2_S2048x4

theorem W1_apply (b : Fin 2048) (j : Fin 4) :
    W1 V0 (ix2 b j) = pathW (split (qOf V0) (kOf V0) b) 2 j.val := by
  have hj : j.val / 2 < 2 := by have := j.isLt; omega
  refine (level_apply (B := 2048) (n := 2) (m := 4) (W0 V0) (res_main_v26 V0)
    Facts₀.bcast_S2048x2_S2048x2x1_0_1 Facts₀.bcast_S2048x2x1_S2048x2x2_0_1_2 Facts₀.reducesTo_S2048x2x2_S2048x2_d2
    (by decide) Facts₀.h_S_ Facts₀.shapeCasts_S2048x2x2_S2048x4 rfl b j).trans ?_
  rw [W0_apply V0 b ⟨j.val / 2, hj⟩, share1 V0 b ⟨j.val / 2, hj⟩ ⟨j.val % 2, Nat.mod_lt _ (by norm_num)⟩]
  exact (pathW_succ (split (qOf V0) (kOf V0) b) 1 j.val).symm

/-! ## Level 2: 4 nodes, at the positions 3 … 6 of the key table -/

/-- Level 2's logits and their shifted exponentials, as the program names them. -/
abbrev L2 : FVec Ideal S2048x4x2 .f32 := res_main_v36 V0
abbrev E2 : FVec Ideal S2048x4x2 .f32 := res_main_v43 V0

theorem logits2 (b : Fin 2048) (i : Fin 4) (c : Fin 2) :
    L2 V0 (ix3 b i c) = logit (qOf V0) (kOf V0) b (3 + i.val) c.val := by
  refine (level_logits_apply (B := 2048) (n := 4) (N := 65535) (Q := 64) (start := 3)
    Facts₀.dot_S2048x64_S4x2x64_S2048x4x2_1_2_0_01_n_n_wf (qOf V0) (kOf V0)
    Facts₀.slices_S65535x2x64_S4x2x64_3_0_0 (by norm_num) b i c).trans ?_
  unfold logit
  rw [dif_pos (by have := i.isLt; omega)]
  match c with
  | ⟨0, _⟩ => rfl
  | ⟨1, _⟩ => rfl

theorem share2 (b : Fin 2048) (i : Fin 4) (c : Fin 2) :
    Ideal.div (E2 V0 (ix3 b i c))
        (E2 V0 (ix3 b i 0) + E2 V0 (ix3 b i 1))
      = split (qOf V0) (kOf V0) b (3 + i.val) c.val := by
  have hE : E2 V0
      = expShift (B := 2048) (n := 4) (L2 V0) Facts₀.bcast_S_S2048x4 Facts₀.bcast_S2048x4_S2048x4x1_0_1
          Facts₀.bcast_S2048x4x1_S2048x4x2_0_1_2 Facts₀.reducesTo_S2048x4x2_S2048x4_d2 Facts₀.h_S_ := rfl
  rw [hE, level_share_apply (B := 2048) (n := 4) _ _ _ _ _ (by decide) _ b i c, logits2 V0 b i 0, logits2 V0 b i 1]
  rfl

/-- The weights after level 2. -/
def W2 : FVec Ideal S2048x8 .f32 :=
  shapeCast _ (mulf (broadcastInDim S2048x4x2 ![0, 1, 2] Facts₀.bcast_S2048x4x1_S2048x4x2_0_1_2 (broadcastInDim S2048x4x1 ![0, 1] Facts₀.bcast_S2048x4_S2048x4x1_0_1 (W1 V0)))
    (Host.divf (res_main_v43 V0) (broadcastInDim S2048x4x2 ![0, 1, 2] Facts₀.bcast_S2048x4x1_S2048x4x2_0_1_2 (broadcastInDim S2048x4x1 ![0, 1] Facts₀.bcast_S2048x4_S2048x4x1_0_1 (Host.reduceAdd (res_main_v43 V0) (constant S_ .f32 0x00000000#32) Facts₀.reducesTo_S2048x4x2_S2048x4_d2 Facts₀.h_S_))))) Facts₀.shapeCasts_S2048x4x2_S2048x8

theorem W2_apply (b : Fin 2048) (j : Fin 8) :
    W2 V0 (ix2 b j) = pathW (split (qOf V0) (kOf V0) b) 3 j.val := by
  have hj : j.val / 2 < 4 := by have := j.isLt; omega
  refine (level_apply (B := 2048) (n := 4) (m := 8) (W1 V0) (res_main_v43 V0)
    Facts₀.bcast_S2048x4_S2048x4x1_0_1 Facts₀.bcast_S2048x4x1_S2048x4x2_0_1_2 Facts₀.reducesTo_S2048x4x2_S2048x4_d2
    (by decide) Facts₀.h_S_ Facts₀.shapeCasts_S2048x4x2_S2048x8 rfl b j).trans ?_
  rw [W1_apply V0 b ⟨j.val / 2, hj⟩, share2 V0 b ⟨j.val / 2, hj⟩ ⟨j.val % 2, Nat.mod_lt _ (by norm_num)⟩]
  exact (pathW_succ (split (qOf V0) (kOf V0) b) 2 j.val).symm

/-! ## Level 3: 8 nodes, at the positions 7 … 14 of the key table -/

/-- Level 3's logits and their shifted exponentials, as the program names them. -/
abbrev L3 : FVec Ideal S2048x8x2 .f32 := res_main_v53 V0
abbrev E3 : FVec Ideal S2048x8x2 .f32 := res_main_v60 V0

theorem logits3 (b : Fin 2048) (i : Fin 8) (c : Fin 2) :
    L3 V0 (ix3 b i c) = logit (qOf V0) (kOf V0) b (7 + i.val) c.val := by
  refine (level_logits_apply (B := 2048) (n := 8) (N := 65535) (Q := 64) (start := 7)
    Facts₀.dot_S2048x64_S8x2x64_S2048x8x2_1_2_0_01_n_n_wf (qOf V0) (kOf V0)
    Facts₀.slices_S65535x2x64_S8x2x64_7_0_0 (by norm_num) b i c).trans ?_
  unfold logit
  rw [dif_pos (by have := i.isLt; omega)]
  match c with
  | ⟨0, _⟩ => rfl
  | ⟨1, _⟩ => rfl

theorem share3 (b : Fin 2048) (i : Fin 8) (c : Fin 2) :
    Ideal.div (E3 V0 (ix3 b i c))
        (E3 V0 (ix3 b i 0) + E3 V0 (ix3 b i 1))
      = split (qOf V0) (kOf V0) b (7 + i.val) c.val := by
  have hE : E3 V0
      = expShift (B := 2048) (n := 8) (L3 V0) Facts₀.bcast_S_S2048x8 Facts₀.bcast_S2048x8_S2048x8x1_0_1
          Facts₀.bcast_S2048x8x1_S2048x8x2_0_1_2 Facts₀.reducesTo_S2048x8x2_S2048x8_d2 Facts₀.h_S_ := rfl
  rw [hE, level_share_apply (B := 2048) (n := 8) _ _ _ _ _ (by decide) _ b i c, logits3 V0 b i 0, logits3 V0 b i 1]
  rfl

/-- The weights after level 3. -/
def W3 : FVec Ideal S2048x16 .f32 :=
  shapeCast _ (mulf (broadcastInDim S2048x8x2 ![0, 1, 2] Facts₀.bcast_S2048x8x1_S2048x8x2_0_1_2 (broadcastInDim S2048x8x1 ![0, 1] Facts₀.bcast_S2048x8_S2048x8x1_0_1 (W2 V0)))
    (Host.divf (res_main_v60 V0) (broadcastInDim S2048x8x2 ![0, 1, 2] Facts₀.bcast_S2048x8x1_S2048x8x2_0_1_2 (broadcastInDim S2048x8x1 ![0, 1] Facts₀.bcast_S2048x8_S2048x8x1_0_1 (Host.reduceAdd (res_main_v60 V0) (constant S_ .f32 0x00000000#32) Facts₀.reducesTo_S2048x8x2_S2048x8_d2 Facts₀.h_S_))))) Facts₀.shapeCasts_S2048x8x2_S2048x16

theorem W3_apply (b : Fin 2048) (j : Fin 16) :
    W3 V0 (ix2 b j) = pathW (split (qOf V0) (kOf V0) b) 4 j.val := by
  have hj : j.val / 2 < 8 := by have := j.isLt; omega
  refine (level_apply (B := 2048) (n := 8) (m := 16) (W2 V0) (res_main_v60 V0)
    Facts₀.bcast_S2048x8_S2048x8x1_0_1 Facts₀.bcast_S2048x8x1_S2048x8x2_0_1_2 Facts₀.reducesTo_S2048x8x2_S2048x8_d2
    (by decide) Facts₀.h_S_ Facts₀.shapeCasts_S2048x8x2_S2048x16 rfl b j).trans ?_
  rw [W2_apply V0 b ⟨j.val / 2, hj⟩, share3 V0 b ⟨j.val / 2, hj⟩ ⟨j.val % 2, Nat.mod_lt _ (by norm_num)⟩]
  exact (pathW_succ (split (qOf V0) (kOf V0) b) 3 j.val).symm

/-! ## Level 4: 16 nodes, at the positions 15 … 30 of the key table -/

/-- Level 4's logits and their shifted exponentials, as the program names them. -/
abbrev L4 : FVec Ideal S2048x16x2 .f32 := res_main_v70 V0
abbrev E4 : FVec Ideal S2048x16x2 .f32 := res_main_v77 V0

theorem logits4 (b : Fin 2048) (i : Fin 16) (c : Fin 2) :
    L4 V0 (ix3 b i c) = logit (qOf V0) (kOf V0) b (15 + i.val) c.val := by
  refine (level_logits_apply (B := 2048) (n := 16) (N := 65535) (Q := 64) (start := 15)
    Facts₀.dot_S2048x64_S16x2x64_S2048x16x2_1_2_0_01_n_n_wf (qOf V0) (kOf V0)
    Facts₀.slices_S65535x2x64_S16x2x64_15_0_0 (by norm_num) b i c).trans ?_
  unfold logit
  rw [dif_pos (by have := i.isLt; omega)]
  match c with
  | ⟨0, _⟩ => rfl
  | ⟨1, _⟩ => rfl

theorem share4 (b : Fin 2048) (i : Fin 16) (c : Fin 2) :
    Ideal.div (E4 V0 (ix3 b i c))
        (E4 V0 (ix3 b i 0) + E4 V0 (ix3 b i 1))
      = split (qOf V0) (kOf V0) b (15 + i.val) c.val := by
  have hE : E4 V0
      = expShift (B := 2048) (n := 16) (L4 V0) Facts₀.bcast_S_S2048x16 Facts₀.bcast_S2048x16_S2048x16x1_0_1
          Facts₀.bcast_S2048x16x1_S2048x16x2_0_1_2 Facts₀.reducesTo_S2048x16x2_S2048x16_d2 Facts₀.h_S_ := rfl
  rw [hE, level_share_apply (B := 2048) (n := 16) _ _ _ _ _ (by decide) _ b i c, logits4 V0 b i 0, logits4 V0 b i 1]
  rfl

/-- The weights after level 4. -/
def W4 : FVec Ideal S2048x32 .f32 :=
  shapeCast _ (mulf (broadcastInDim S2048x16x2 ![0, 1, 2] Facts₀.bcast_S2048x16x1_S2048x16x2_0_1_2 (broadcastInDim S2048x16x1 ![0, 1] Facts₀.bcast_S2048x16_S2048x16x1_0_1 (W3 V0)))
    (Host.divf (res_main_v77 V0) (broadcastInDim S2048x16x2 ![0, 1, 2] Facts₀.bcast_S2048x16x1_S2048x16x2_0_1_2 (broadcastInDim S2048x16x1 ![0, 1] Facts₀.bcast_S2048x16_S2048x16x1_0_1 (Host.reduceAdd (res_main_v77 V0) (constant S_ .f32 0x00000000#32) Facts₀.reducesTo_S2048x16x2_S2048x16_d2 Facts₀.h_S_))))) Facts₀.shapeCasts_S2048x16x2_S2048x32

theorem W4_apply (b : Fin 2048) (j : Fin 32) :
    W4 V0 (ix2 b j) = pathW (split (qOf V0) (kOf V0) b) 5 j.val := by
  have hj : j.val / 2 < 16 := by have := j.isLt; omega
  refine (level_apply (B := 2048) (n := 16) (m := 32) (W3 V0) (res_main_v77 V0)
    Facts₀.bcast_S2048x16_S2048x16x1_0_1 Facts₀.bcast_S2048x16x1_S2048x16x2_0_1_2 Facts₀.reducesTo_S2048x16x2_S2048x16_d2
    (by decide) Facts₀.h_S_ Facts₀.shapeCasts_S2048x16x2_S2048x32 rfl b j).trans ?_
  rw [W3_apply V0 b ⟨j.val / 2, hj⟩, share4 V0 b ⟨j.val / 2, hj⟩ ⟨j.val % 2, Nat.mod_lt _ (by norm_num)⟩]
  exact (pathW_succ (split (qOf V0) (kOf V0) b) 4 j.val).symm

/-! ## Level 5: 32 nodes, at the positions 31 … 62 of the key table -/

/-- Level 5's logits and their shifted exponentials, as the program names them. -/
abbrev L5 : FVec Ideal S2048x32x2 .f32 := res_main_v87 V0
abbrev E5 : FVec Ideal S2048x32x2 .f32 := res_main_v94 V0

theorem logits5 (b : Fin 2048) (i : Fin 32) (c : Fin 2) :
    L5 V0 (ix3 b i c) = logit (qOf V0) (kOf V0) b (31 + i.val) c.val := by
  refine (level_logits_apply (B := 2048) (n := 32) (N := 65535) (Q := 64) (start := 31)
    Facts₀.dot_S2048x64_S32x2x64_S2048x32x2_1_2_0_01_n_n_wf (qOf V0) (kOf V0)
    Facts₀.slices_S65535x2x64_S32x2x64_31_0_0 (by norm_num) b i c).trans ?_
  unfold logit
  rw [dif_pos (by have := i.isLt; omega)]
  match c with
  | ⟨0, _⟩ => rfl
  | ⟨1, _⟩ => rfl

theorem share5 (b : Fin 2048) (i : Fin 32) (c : Fin 2) :
    Ideal.div (E5 V0 (ix3 b i c))
        (E5 V0 (ix3 b i 0) + E5 V0 (ix3 b i 1))
      = split (qOf V0) (kOf V0) b (31 + i.val) c.val := by
  have hE : E5 V0
      = expShift (B := 2048) (n := 32) (L5 V0) Facts₀.bcast_S_S2048x32 Facts₀.bcast_S2048x32_S2048x32x1_0_1
          Facts₀.bcast_S2048x32x1_S2048x32x2_0_1_2 Facts₀.reducesTo_S2048x32x2_S2048x32_d2 Facts₀.h_S_ := rfl
  rw [hE, level_share_apply (B := 2048) (n := 32) _ _ _ _ _ (by decide) _ b i c, logits5 V0 b i 0, logits5 V0 b i 1]
  rfl

/-- The weights after level 5. -/
def W5 : FVec Ideal S2048x64 .f32 :=
  shapeCast _ (mulf (broadcastInDim S2048x32x2 ![0, 1, 2] Facts₀.bcast_S2048x32x1_S2048x32x2_0_1_2 (broadcastInDim S2048x32x1 ![0, 1] Facts₀.bcast_S2048x32_S2048x32x1_0_1 (W4 V0)))
    (Host.divf (res_main_v94 V0) (broadcastInDim S2048x32x2 ![0, 1, 2] Facts₀.bcast_S2048x32x1_S2048x32x2_0_1_2 (broadcastInDim S2048x32x1 ![0, 1] Facts₀.bcast_S2048x32_S2048x32x1_0_1 (Host.reduceAdd (res_main_v94 V0) (constant S_ .f32 0x00000000#32) Facts₀.reducesTo_S2048x32x2_S2048x32_d2 Facts₀.h_S_))))) Facts₀.shapeCasts_S2048x32x2_S2048x64

theorem W5_apply (b : Fin 2048) (j : Fin 64) :
    W5 V0 (ix2 b j) = pathW (split (qOf V0) (kOf V0) b) 6 j.val := by
  have hj : j.val / 2 < 32 := by have := j.isLt; omega
  refine (level_apply (B := 2048) (n := 32) (m := 64) (W4 V0) (res_main_v94 V0)
    Facts₀.bcast_S2048x32_S2048x32x1_0_1 Facts₀.bcast_S2048x32x1_S2048x32x2_0_1_2 Facts₀.reducesTo_S2048x32x2_S2048x32_d2
    (by decide) Facts₀.h_S_ Facts₀.shapeCasts_S2048x32x2_S2048x64 rfl b j).trans ?_
  rw [W4_apply V0 b ⟨j.val / 2, hj⟩, share5 V0 b ⟨j.val / 2, hj⟩ ⟨j.val % 2, Nat.mod_lt _ (by norm_num)⟩]
  exact (pathW_succ (split (qOf V0) (kOf V0) b) 5 j.val).symm

/-! ## Level 6: 64 nodes, at the positions 63 … 126 of the key table -/

/-- Level 6's logits and their shifted exponentials, as the program names them. -/
abbrev L6 : FVec Ideal S2048x64x2 .f32 := res_main_v104 V0
abbrev E6 : FVec Ideal S2048x64x2 .f32 := res_main_v111 V0

theorem logits6 (b : Fin 2048) (i : Fin 64) (c : Fin 2) :
    L6 V0 (ix3 b i c) = logit (qOf V0) (kOf V0) b (63 + i.val) c.val := by
  refine (level_logits_apply (B := 2048) (n := 64) (N := 65535) (Q := 64) (start := 63)
    Facts₀.dot_S2048x64_S64x2x64_S2048x64x2_1_2_0_01_n_n_wf (qOf V0) (kOf V0)
    Facts₀.slices_S65535x2x64_S64x2x64_63_0_0 (by norm_num) b i c).trans ?_
  unfold logit
  rw [dif_pos (by have := i.isLt; omega)]
  match c with
  | ⟨0, _⟩ => rfl
  | ⟨1, _⟩ => rfl

theorem share6 (b : Fin 2048) (i : Fin 64) (c : Fin 2) :
    Ideal.div (E6 V0 (ix3 b i c))
        (E6 V0 (ix3 b i 0) + E6 V0 (ix3 b i 1))
      = split (qOf V0) (kOf V0) b (63 + i.val) c.val := by
  have hE : E6 V0
      = expShift (B := 2048) (n := 64) (L6 V0) Facts₀.bcast_S_S2048x64 Facts₀.bcast_S2048x64_S2048x64x1_0_1
          Facts₀.bcast_S2048x64x1_S2048x64x2_0_1_2 Facts₀.reducesTo_S2048x64x2_S2048x64_d2 Facts₀.h_S_ := rfl
  rw [hE, level_share_apply (B := 2048) (n := 64) _ _ _ _ _ (by decide) _ b i c, logits6 V0 b i 0, logits6 V0 b i 1]
  rfl

/-- The weights after level 6. -/
def W6 : FVec Ideal S2048x128 .f32 :=
  shapeCast _ (mulf (broadcastInDim S2048x64x2 ![0, 1, 2] Facts₀.bcast_S2048x64x1_S2048x64x2_0_1_2 (broadcastInDim S2048x64x1 ![0, 1] Facts₀.bcast_S2048x64_S2048x64x1_0_1 (W5 V0)))
    (Host.divf (res_main_v111 V0) (broadcastInDim S2048x64x2 ![0, 1, 2] Facts₀.bcast_S2048x64x1_S2048x64x2_0_1_2 (broadcastInDim S2048x64x1 ![0, 1] Facts₀.bcast_S2048x64_S2048x64x1_0_1 (Host.reduceAdd (res_main_v111 V0) (constant S_ .f32 0x00000000#32) Facts₀.reducesTo_S2048x64x2_S2048x64_d2 Facts₀.h_S_))))) Facts₀.shapeCasts_S2048x64x2_S2048x128

theorem W6_apply (b : Fin 2048) (j : Fin 128) :
    W6 V0 (ix2 b j) = pathW (split (qOf V0) (kOf V0) b) 7 j.val := by
  have hj : j.val / 2 < 64 := by have := j.isLt; omega
  refine (level_apply (B := 2048) (n := 64) (m := 128) (W5 V0) (res_main_v111 V0)
    Facts₀.bcast_S2048x64_S2048x64x1_0_1 Facts₀.bcast_S2048x64x1_S2048x64x2_0_1_2 Facts₀.reducesTo_S2048x64x2_S2048x64_d2
    (by decide) Facts₀.h_S_ Facts₀.shapeCasts_S2048x64x2_S2048x128 rfl b j).trans ?_
  rw [W5_apply V0 b ⟨j.val / 2, hj⟩, share6 V0 b ⟨j.val / 2, hj⟩ ⟨j.val % 2, Nat.mod_lt _ (by norm_num)⟩]
  exact (pathW_succ (split (qOf V0) (kOf V0) b) 6 j.val).symm

/-! ## Level 7: 128 nodes, at the positions 127 … 254 of the key table -/

/-- Level 7's logits and their shifted exponentials, as the program names them. -/
abbrev L7 : FVec Ideal S2048x128x2 .f32 := res_main_v121 V0
abbrev E7 : FVec Ideal S2048x128x2 .f32 := res_main_v128 V0

theorem logits7 (b : Fin 2048) (i : Fin 128) (c : Fin 2) :
    L7 V0 (ix3 b i c) = logit (qOf V0) (kOf V0) b (127 + i.val) c.val := by
  refine (level_logits_apply (B := 2048) (n := 128) (N := 65535) (Q := 64) (start := 127)
    Facts₀.dot_S2048x64_S128x2x64_S2048x128x2_1_2_0_01_n_n_wf (qOf V0) (kOf V0)
    Facts₀.slices_S65535x2x64_S128x2x64_127_0_0 (by norm_num) b i c).trans ?_
  unfold logit
  rw [dif_pos (by have := i.isLt; omega)]
  match c with
  | ⟨0, _⟩ => rfl
  | ⟨1, _⟩ => rfl

theorem share7 (b : Fin 2048) (i : Fin 128) (c : Fin 2) :
    Ideal.div (E7 V0 (ix3 b i c))
        (E7 V0 (ix3 b i 0) + E7 V0 (ix3 b i 1))
      = split (qOf V0) (kOf V0) b (127 + i.val) c.val := by
  have hE : E7 V0
      = expShift (B := 2048) (n := 128) (L7 V0) Facts₀.bcast_S_S2048x128 Facts₀.bcast_S2048x128_S2048x128x1_0_1
          Facts₀.bcast_S2048x128x1_S2048x128x2_0_1_2 Facts₀.reducesTo_S2048x128x2_S2048x128_d2 Facts₀.h_S_ := rfl
  rw [hE, level_share_apply (B := 2048) (n := 128) _ _ _ _ _ (by decide) _ b i c, logits7 V0 b i 0, logits7 V0 b i 1]
  rfl

/-- The weights after level 7. -/
def W7 : FVec Ideal S2048x256 .f32 :=
  shapeCast _ (mulf (broadcastInDim S2048x128x2 ![0, 1, 2] Facts₀.bcast_S2048x128x1_S2048x128x2_0_1_2 (broadcastInDim S2048x128x1 ![0, 1] Facts₀.bcast_S2048x128_S2048x128x1_0_1 (W6 V0)))
    (Host.divf (res_main_v128 V0) (broadcastInDim S2048x128x2 ![0, 1, 2] Facts₀.bcast_S2048x128x1_S2048x128x2_0_1_2 (broadcastInDim S2048x128x1 ![0, 1] Facts₀.bcast_S2048x128_S2048x128x1_0_1 (Host.reduceAdd (res_main_v128 V0) (constant S_ .f32 0x00000000#32) Facts₀.reducesTo_S2048x128x2_S2048x128_d2 Facts₀.h_S_))))) Facts₀.shapeCasts_S2048x128x2_S2048x256

theorem W7_apply (b : Fin 2048) (j : Fin 256) :
    W7 V0 (ix2 b j) = pathW (split (qOf V0) (kOf V0) b) 8 j.val := by
  have hj : j.val / 2 < 128 := by have := j.isLt; omega
  refine (level_apply (B := 2048) (n := 128) (m := 256) (W6 V0) (res_main_v128 V0)
    Facts₀.bcast_S2048x128_S2048x128x1_0_1 Facts₀.bcast_S2048x128x1_S2048x128x2_0_1_2 Facts₀.reducesTo_S2048x128x2_S2048x128_d2
    (by decide) Facts₀.h_S_ Facts₀.shapeCasts_S2048x128x2_S2048x256 rfl b j).trans ?_
  rw [W6_apply V0 b ⟨j.val / 2, hj⟩, share7 V0 b ⟨j.val / 2, hj⟩ ⟨j.val % 2, Nat.mod_lt _ (by norm_num)⟩]
  exact (pathW_succ (split (qOf V0) (kOf V0) b) 7 j.val).symm

/-! ## Level 8: 256 nodes, at the positions 255 … 510 of the key table -/

/-- Level 8's logits and their shifted exponentials, as the program names them. -/
abbrev L8 : FVec Ideal S2048x256x2 .f32 := res_main_v138 V0
abbrev E8 : FVec Ideal S2048x256x2 .f32 := res_main_v145 V0

theorem logits8 (b : Fin 2048) (i : Fin 256) (c : Fin 2) :
    L8 V0 (ix3 b i c) = logit (qOf V0) (kOf V0) b (255 + i.val) c.val := by
  refine (level_logits_apply (B := 2048) (n := 256) (N := 65535) (Q := 64) (start := 255)
    Facts₀.dot_S2048x64_S256x2x64_S2048x256x2_1_2_0_01_n_n_wf (qOf V0) (kOf V0)
    Facts₀.slices_S65535x2x64_S256x2x64_255_0_0 (by norm_num) b i c).trans ?_
  unfold logit
  rw [dif_pos (by have := i.isLt; omega)]
  match c with
  | ⟨0, _⟩ => rfl
  | ⟨1, _⟩ => rfl

theorem share8 (b : Fin 2048) (i : Fin 256) (c : Fin 2) :
    Ideal.div (E8 V0 (ix3 b i c))
        (E8 V0 (ix3 b i 0) + E8 V0 (ix3 b i 1))
      = split (qOf V0) (kOf V0) b (255 + i.val) c.val := by
  have hE : E8 V0
      = expShift (B := 2048) (n := 256) (L8 V0) Facts₀.bcast_S_S2048x256 Facts₀.bcast_S2048x256_S2048x256x1_0_1
          Facts₀.bcast_S2048x256x1_S2048x256x2_0_1_2 Facts₀.reducesTo_S2048x256x2_S2048x256_d2 Facts₀.h_S_ := rfl
  rw [hE, level_share_apply (B := 2048) (n := 256) _ _ _ _ _ (by decide) _ b i c, logits8 V0 b i 0, logits8 V0 b i 1]
  rfl

/-- The weights after level 8. -/
def W8 : FVec Ideal S2048x512 .f32 :=
  shapeCast _ (res_main_v152 V0) Facts₀.shapeCasts_S2048x256x2_S2048x512

theorem W8_apply (b : Fin 2048) (j : Fin 512) :
    W8 V0 (ix2 b j) = pathW (split (qOf V0) (kOf V0) b) 9 j.val := by
  have hj : j.val / 2 < 256 := by have := j.isLt; omega
  refine (level_apply (B := 2048) (n := 256) (m := 512) (W7 V0) (res_main_v145 V0)
    Facts₀.bcast_S2048x256_S2048x256x1_0_1 Facts₀.bcast_S2048x256x1_S2048x256x2_0_1_2 Facts₀.reducesTo_S2048x256x2_S2048x256_d2
    (by decide) Facts₀.h_S_ Facts₀.shapeCasts_S2048x256x2_S2048x512 rfl b j).trans ?_
  rw [W7_apply V0 b ⟨j.val / 2, hj⟩, share8 V0 b ⟨j.val / 2, hj⟩ ⟨j.val % 2, Nat.mod_lt _ (by norm_num)⟩]
  exact (pathW_succ (split (qOf V0) (kOf V0) b) 8 j.val).symm

/-! ## Level 9: 512 nodes, at the positions 511 … 1022 of the key table -/

/-- Level 9's logits and their shifted exponentials, as the program names them. -/
abbrev L9 : FVec Ideal S2048x512x2 .f32 := res_main_v155 V0
abbrev E9 : FVec Ideal S2048x512x2 .f32 := res_main_v162 V0

theorem logits9 (b : Fin 2048) (i : Fin 512) (c : Fin 2) :
    L9 V0 (ix3 b i c) = logit (qOf V0) (kOf V0) b (511 + i.val) c.val := by
  refine (level_logits_apply (B := 2048) (n := 512) (N := 65535) (Q := 64) (start := 511)
    Facts₀.dot_S2048x64_S512x2x64_S2048x512x2_1_2_0_01_n_n_wf (qOf V0) (kOf V0)
    Facts₀.slices_S65535x2x64_S512x2x64_511_0_0 (by norm_num) b i c).trans ?_
  unfold logit
  rw [dif_pos (by have := i.isLt; omega)]
  match c with
  | ⟨0, _⟩ => rfl
  | ⟨1, _⟩ => rfl

theorem share9 (b : Fin 2048) (i : Fin 512) (c : Fin 2) :
    Ideal.div (E9 V0 (ix3 b i c))
        (E9 V0 (ix3 b i 0) + E9 V0 (ix3 b i 1))
      = split (qOf V0) (kOf V0) b (511 + i.val) c.val := by
  have hE : E9 V0
      = expShift (B := 2048) (n := 512) (L9 V0) Facts₀.bcast_S_S2048x512 Facts₀.bcast_S2048x512_S2048x512x1_0_1
          Facts₀.bcast_S2048x512x1_S2048x512x2_0_1_2 Facts₀.reducesTo_S2048x512x2_S2048x512_d2 Facts₀.h_S_ := rfl
  rw [hE, level_share_apply (B := 2048) (n := 512) _ _ _ _ _ (by decide) _ b i c, logits9 V0 b i 0, logits9 V0 b i 1]
  rfl

/-- The weights after level 9. -/
def W9 : FVec Ideal S2048x1024 .f32 :=
  shapeCast _ (mulf (broadcastInDim S2048x512x2 ![0, 1, 2] Facts₀.bcast_S2048x512x1_S2048x512x2_0_1_2 (broadcastInDim S2048x512x1 ![0, 1] Facts₀.bcast_S2048x512_S2048x512x1_0_1 (W8 V0)))
    (Host.divf (res_main_v162 V0) (broadcastInDim S2048x512x2 ![0, 1, 2] Facts₀.bcast_S2048x512x1_S2048x512x2_0_1_2 (broadcastInDim S2048x512x1 ![0, 1] Facts₀.bcast_S2048x512_S2048x512x1_0_1 (Host.reduceAdd (res_main_v162 V0) (constant S_ .f32 0x00000000#32) Facts₀.reducesTo_S2048x512x2_S2048x512_d2 Facts₀.h_S_))))) Facts₀.shapeCasts_S2048x512x2_S2048x1024

theorem W9_apply (b : Fin 2048) (j : Fin 1024) :
    W9 V0 (ix2 b j) = pathW (split (qOf V0) (kOf V0) b) 10 j.val := by
  have hj : j.val / 2 < 512 := by have := j.isLt; omega
  refine (level_apply (B := 2048) (n := 512) (m := 1024) (W8 V0) (res_main_v162 V0)
    Facts₀.bcast_S2048x512_S2048x512x1_0_1 Facts₀.bcast_S2048x512x1_S2048x512x2_0_1_2 Facts₀.reducesTo_S2048x512x2_S2048x512_d2
    (by decide) Facts₀.h_S_ Facts₀.shapeCasts_S2048x512x2_S2048x1024 rfl b j).trans ?_
  rw [W8_apply V0 b ⟨j.val / 2, hj⟩, share9 V0 b ⟨j.val / 2, hj⟩ ⟨j.val % 2, Nat.mod_lt _ (by norm_num)⟩]
  exact (pathW_succ (split (qOf V0) (kOf V0) b) 9 j.val).symm

/-! ## Level 10: 1024 nodes, at the positions 1023 … 2046 of the key table -/

/-- Level 10's logits and their shifted exponentials, as the program names them. -/
abbrev L10 : FVec Ideal S2048x1024x2 .f32 := res_main_v172 V0
abbrev E10 : FVec Ideal S2048x1024x2 .f32 := res_main_v179 V0

theorem logits10 (b : Fin 2048) (i : Fin 1024) (c : Fin 2) :
    L10 V0 (ix3 b i c) = logit (qOf V0) (kOf V0) b (1023 + i.val) c.val := by
  refine (level_logits_apply (B := 2048) (n := 1024) (N := 65535) (Q := 64) (start := 1023)
    Facts₀.dot_S2048x64_S1024x2x64_S2048x1024x2_1_2_0_01_n_n_wf (qOf V0) (kOf V0)
    Facts₀.slices_S65535x2x64_S1024x2x64_1023_0_0 (by norm_num) b i c).trans ?_
  unfold logit
  rw [dif_pos (by have := i.isLt; omega)]
  match c with
  | ⟨0, _⟩ => rfl
  | ⟨1, _⟩ => rfl

theorem share10 (b : Fin 2048) (i : Fin 1024) (c : Fin 2) :
    Ideal.div (E10 V0 (ix3 b i c))
        (E10 V0 (ix3 b i 0) + E10 V0 (ix3 b i 1))
      = split (qOf V0) (kOf V0) b (1023 + i.val) c.val := by
  have hE : E10 V0
      = expShift (B := 2048) (n := 1024) (L10 V0) Facts₀.bcast_S_S2048x1024 Facts₀.bcast_S2048x1024_S2048x1024x1_0_1
          Facts₀.bcast_S2048x1024x1_S2048x1024x2_0_1_2 Facts₀.reducesTo_S2048x1024x2_S2048x1024_d2 Facts₀.h_S_ := rfl
  rw [hE, level_share_apply (B := 2048) (n := 1024) _ _ _ _ _ (by decide) _ b i c, logits10 V0 b i 0, logits10 V0 b i 1]
  rfl

/-- The weights after level 10. -/
def W10 : FVec Ideal S2048x2048 .f32 :=
  shapeCast _ (mulf (broadcastInDim S2048x1024x2 ![0, 1, 2] Facts₀.bcast_S2048x1024x1_S2048x1024x2_0_1_2 (broadcastInDim S2048x1024x1 ![0, 1] Facts₀.bcast_S2048x1024_S2048x1024x1_0_1 (W9 V0)))
    (Host.divf (res_main_v179 V0) (broadcastInDim S2048x1024x2 ![0, 1, 2] Facts₀.bcast_S2048x1024x1_S2048x1024x2_0_1_2 (broadcastInDim S2048x1024x1 ![0, 1] Facts₀.bcast_S2048x1024_S2048x1024x1_0_1 (Host.reduceAdd (res_main_v179 V0) (constant S_ .f32 0x00000000#32) Facts₀.reducesTo_S2048x1024x2_S2048x1024_d2 Facts₀.h_S_))))) Facts₀.shapeCasts_S2048x1024x2_S2048x2048

theorem W10_apply (b : Fin 2048) (j : Fin 2048) :
    W10 V0 (ix2 b j) = pathW (split (qOf V0) (kOf V0) b) 11 j.val := by
  have hj : j.val / 2 < 1024 := by have := j.isLt; omega
  refine (level_apply (B := 2048) (n := 1024) (m := 2048) (W9 V0) (res_main_v179 V0)
    Facts₀.bcast_S2048x1024_S2048x1024x1_0_1 Facts₀.bcast_S2048x1024x1_S2048x1024x2_0_1_2 Facts₀.reducesTo_S2048x1024x2_S2048x1024_d2
    (by decide) Facts₀.h_S_ Facts₀.shapeCasts_S2048x1024x2_S2048x2048 rfl b j).trans ?_
  rw [W9_apply V0 b ⟨j.val / 2, hj⟩, share10 V0 b ⟨j.val / 2, hj⟩ ⟨j.val % 2, Nat.mod_lt _ (by norm_num)⟩]
  exact (pathW_succ (split (qOf V0) (kOf V0) b) 10 j.val).symm

/-! ## Level 11: 2048 nodes, at the positions 2047 … 4094 of the key table -/

/-- Level 11's logits and their shifted exponentials, as the program names them. -/
abbrev L11 : FVec Ideal S2048x2048x2 .f32 := res_main_v189 V0
abbrev E11 : FVec Ideal S2048x2048x2 .f32 := res_main_v196 V0

theorem logits11 (b : Fin 2048) (i : Fin 2048) (c : Fin 2) :
    L11 V0 (ix3 b i c) = logit (qOf V0) (kOf V0) b (2047 + i.val) c.val := by
  refine (level_logits_apply (B := 2048) (n := 2048) (N := 65535) (Q := 64) (start := 2047)
    Facts₀.dot_S2048x64_S2048x2x64_S2048x2048x2_1_2_0_01_n_n_wf (qOf V0) (kOf V0)
    Facts₀.slices_S65535x2x64_S2048x2x64_2047_0_0 (by norm_num) b i c).trans ?_
  unfold logit
  rw [dif_pos (by have := i.isLt; omega)]
  match c with
  | ⟨0, _⟩ => rfl
  | ⟨1, _⟩ => rfl

theorem share11 (b : Fin 2048) (i : Fin 2048) (c : Fin 2) :
    Ideal.div (E11 V0 (ix3 b i c))
        (E11 V0 (ix3 b i 0) + E11 V0 (ix3 b i 1))
      = split (qOf V0) (kOf V0) b (2047 + i.val) c.val := by
  have hE : E11 V0
      = expShift (B := 2048) (n := 2048) (L11 V0) Facts₀.bcast_S_S2048x2048 Facts₀.bcast_S2048x2048_S2048x2048x1_0_1
          Facts₀.bcast_S2048x2048x1_S2048x2048x2_0_1_2 Facts₀.reducesTo_S2048x2048x2_S2048x2048_d2 Facts₀.h_S_ := rfl
  rw [hE, level_share_apply (B := 2048) (n := 2048) _ _ _ _ _ (by decide) _ b i c, logits11 V0 b i 0, logits11 V0 b i 1]
  rfl

/-- The weights after level 11. -/
def W11 : FVec Ideal S2048x4096 .f32 :=
  shapeCast _ (mulf (broadcastInDim S2048x2048x2 ![0, 1, 2] Facts₀.bcast_S2048x2048x1_S2048x2048x2_0_1_2 (broadcastInDim S2048x2048x1 ![0, 1] Facts₀.bcast_S2048x2048_S2048x2048x1_0_1 (W10 V0)))
    (Host.divf (res_main_v196 V0) (broadcastInDim S2048x2048x2 ![0, 1, 2] Facts₀.bcast_S2048x2048x1_S2048x2048x2_0_1_2 (broadcastInDim S2048x2048x1 ![0, 1] Facts₀.bcast_S2048x2048_S2048x2048x1_0_1 (Host.reduceAdd (res_main_v196 V0) (constant S_ .f32 0x00000000#32) Facts₀.reducesTo_S2048x2048x2_S2048x2048_d2 Facts₀.h_S_))))) Facts₀.shapeCasts_S2048x2048x2_S2048x4096

theorem W11_apply (b : Fin 2048) (j : Fin 4096) :
    W11 V0 (ix2 b j) = pathW (split (qOf V0) (kOf V0) b) 12 j.val := by
  have hj : j.val / 2 < 2048 := by have := j.isLt; omega
  refine (level_apply (B := 2048) (n := 2048) (m := 4096) (W10 V0) (res_main_v196 V0)
    Facts₀.bcast_S2048x2048_S2048x2048x1_0_1 Facts₀.bcast_S2048x2048x1_S2048x2048x2_0_1_2 Facts₀.reducesTo_S2048x2048x2_S2048x2048_d2
    (by decide) Facts₀.h_S_ Facts₀.shapeCasts_S2048x2048x2_S2048x4096 rfl b j).trans ?_
  rw [W10_apply V0 b ⟨j.val / 2, hj⟩, share11 V0 b ⟨j.val / 2, hj⟩ ⟨j.val % 2, Nat.mod_lt _ (by norm_num)⟩]
  exact (pathW_succ (split (qOf V0) (kOf V0) b) 11 j.val).symm

/-! ## Level 12: 4096 nodes, at the positions 4095 … 8190 of the key table -/

/-- Level 12's logits and their shifted exponentials, as the program names them. -/
abbrev L12 : FVec Ideal S2048x4096x2 .f32 := res_main_v206 V0
abbrev E12 : FVec Ideal S2048x4096x2 .f32 := res_main_v213 V0

theorem logits12 (b : Fin 2048) (i : Fin 4096) (c : Fin 2) :
    L12 V0 (ix3 b i c) = logit (qOf V0) (kOf V0) b (4095 + i.val) c.val := by
  refine (level_logits_apply (B := 2048) (n := 4096) (N := 65535) (Q := 64) (start := 4095)
    Facts₀.dot_S2048x64_S4096x2x64_S2048x4096x2_1_2_0_01_n_n_wf (qOf V0) (kOf V0)
    Facts₀.slices_S65535x2x64_S4096x2x64_4095_0_0 (by norm_num) b i c).trans ?_
  unfold logit
  rw [dif_pos (by have := i.isLt; omega)]
  match c with
  | ⟨0, _⟩ => rfl
  | ⟨1, _⟩ => rfl

theorem share12 (b : Fin 2048) (i : Fin 4096) (c : Fin 2) :
    Ideal.div (E12 V0 (ix3 b i c))
        (E12 V0 (ix3 b i 0) + E12 V0 (ix3 b i 1))
      = split (qOf V0) (kOf V0) b (4095 + i.val) c.val := by
  have hE : E12 V0
      = expShift (B := 2048) (n := 4096) (L12 V0) Facts₀.bcast_S_S2048x4096 Facts₀.bcast_S2048x4096_S2048x4096x1_0_1
          Facts₀.bcast_S2048x4096x1_S2048x4096x2_0_1_2 Facts₀.reducesTo_S2048x4096x2_S2048x4096_d2 Facts₀.h_S_ := rfl
  rw [hE, level_share_apply (B := 2048) (n := 4096) _ _ _ _ _ (by decide) _ b i c, logits12 V0 b i 0, logits12 V0 b i 1]
  rfl

/-- The weights after level 12. -/
def W12 : FVec Ideal S2048x8192 .f32 :=
  shapeCast _ (mulf (broadcastInDim S2048x4096x2 ![0, 1, 2] Facts₀.bcast_S2048x4096x1_S2048x4096x2_0_1_2 (broadcastInDim S2048x4096x1 ![0, 1] Facts₀.bcast_S2048x4096_S2048x4096x1_0_1 (W11 V0)))
    (Host.divf (res_main_v213 V0) (broadcastInDim S2048x4096x2 ![0, 1, 2] Facts₀.bcast_S2048x4096x1_S2048x4096x2_0_1_2 (broadcastInDim S2048x4096x1 ![0, 1] Facts₀.bcast_S2048x4096_S2048x4096x1_0_1 (Host.reduceAdd (res_main_v213 V0) (constant S_ .f32 0x00000000#32) Facts₀.reducesTo_S2048x4096x2_S2048x4096_d2 Facts₀.h_S_))))) Facts₀.shapeCasts_S2048x4096x2_S2048x8192

theorem W12_apply (b : Fin 2048) (j : Fin 8192) :
    W12 V0 (ix2 b j) = pathW (split (qOf V0) (kOf V0) b) 13 j.val := by
  have hj : j.val / 2 < 4096 := by have := j.isLt; omega
  refine (level_apply (B := 2048) (n := 4096) (m := 8192) (W11 V0) (res_main_v213 V0)
    Facts₀.bcast_S2048x4096_S2048x4096x1_0_1 Facts₀.bcast_S2048x4096x1_S2048x4096x2_0_1_2 Facts₀.reducesTo_S2048x4096x2_S2048x4096_d2
    (by decide) Facts₀.h_S_ Facts₀.shapeCasts_S2048x4096x2_S2048x8192 rfl b j).trans ?_
  rw [W11_apply V0 b ⟨j.val / 2, hj⟩, share12 V0 b ⟨j.val / 2, hj⟩ ⟨j.val % 2, Nat.mod_lt _ (by norm_num)⟩]
  exact (pathW_succ (split (qOf V0) (kOf V0) b) 12 j.val).symm

/-! ## Level 13: 8192 nodes, at the positions 8191 … 16382 of the key table -/

/-- Level 13's logits and their shifted exponentials, as the program names them. -/
abbrev L13 : FVec Ideal S2048x8192x2 .f32 := res_main_v223 V0
abbrev E13 : FVec Ideal S2048x8192x2 .f32 := res_main_v230 V0

theorem logits13 (b : Fin 2048) (i : Fin 8192) (c : Fin 2) :
    L13 V0 (ix3 b i c) = logit (qOf V0) (kOf V0) b (8191 + i.val) c.val := by
  refine (level_logits_apply (B := 2048) (n := 8192) (N := 65535) (Q := 64) (start := 8191)
    Facts₀.dot_S2048x64_S8192x2x64_S2048x8192x2_1_2_0_01_n_n_wf (qOf V0) (kOf V0)
    Facts₀.slices_S65535x2x64_S8192x2x64_8191_0_0 (by norm_num) b i c).trans ?_
  unfold logit
  rw [dif_pos (by have := i.isLt; omega)]
  match c with
  | ⟨0, _⟩ => rfl
  | ⟨1, _⟩ => rfl

theorem share13 (b : Fin 2048) (i : Fin 8192) (c : Fin 2) :
    Ideal.div (E13 V0 (ix3 b i c))
        (E13 V0 (ix3 b i 0) + E13 V0 (ix3 b i 1))
      = split (qOf V0) (kOf V0) b (8191 + i.val) c.val := by
  have hE : E13 V0
      = expShift (B := 2048) (n := 8192) (L13 V0) Facts₀.bcast_S_S2048x8192 Facts₀.bcast_S2048x8192_S2048x8192x1_0_1
          Facts₀.bcast_S2048x8192x1_S2048x8192x2_0_1_2 Facts₀.reducesTo_S2048x8192x2_S2048x8192_d2 Facts₀.h_S_ := rfl
  rw [hE, level_share_apply (B := 2048) (n := 8192) _ _ _ _ _ (by decide) _ b i c, logits13 V0 b i 0, logits13 V0 b i 1]
  rfl

/-- The weights after level 13. -/
def W13 : FVec Ideal S2048x16384 .f32 :=
  shapeCast _ (mulf (broadcastInDim S2048x8192x2 ![0, 1, 2] Facts₀.bcast_S2048x8192x1_S2048x8192x2_0_1_2 (broadcastInDim S2048x8192x1 ![0, 1] Facts₀.bcast_S2048x8192_S2048x8192x1_0_1 (W12 V0)))
    (Host.divf (res_main_v230 V0) (broadcastInDim S2048x8192x2 ![0, 1, 2] Facts₀.bcast_S2048x8192x1_S2048x8192x2_0_1_2 (broadcastInDim S2048x8192x1 ![0, 1] Facts₀.bcast_S2048x8192_S2048x8192x1_0_1 (Host.reduceAdd (res_main_v230 V0) (constant S_ .f32 0x00000000#32) Facts₀.reducesTo_S2048x8192x2_S2048x8192_d2 Facts₀.h_S_))))) Facts₀.shapeCasts_S2048x8192x2_S2048x16384

theorem W13_apply (b : Fin 2048) (j : Fin 16384) :
    W13 V0 (ix2 b j) = pathW (split (qOf V0) (kOf V0) b) 14 j.val := by
  have hj : j.val / 2 < 8192 := by have := j.isLt; omega
  refine (level_apply (B := 2048) (n := 8192) (m := 16384) (W12 V0) (res_main_v230 V0)
    Facts₀.bcast_S2048x8192_S2048x8192x1_0_1 Facts₀.bcast_S2048x8192x1_S2048x8192x2_0_1_2 Facts₀.reducesTo_S2048x8192x2_S2048x8192_d2
    (by decide) Facts₀.h_S_ Facts₀.shapeCasts_S2048x8192x2_S2048x16384 rfl b j).trans ?_
  rw [W12_apply V0 b ⟨j.val / 2, hj⟩, share13 V0 b ⟨j.val / 2, hj⟩ ⟨j.val % 2, Nat.mod_lt _ (by norm_num)⟩]
  exact (pathW_succ (split (qOf V0) (kOf V0) b) 13 j.val).symm

/-! ## Level 14: 16384 nodes, at the positions 16383 … 32766 of the key table -/

/-- Level 14's logits and their shifted exponentials, as the program names them. -/
abbrev L14 : FVec Ideal S2048x16384x2 .f32 := res_main_v240 V0
abbrev E14 : FVec Ideal S2048x16384x2 .f32 := res_main_v247 V0

theorem logits14 (b : Fin 2048) (i : Fin 16384) (c : Fin 2) :
    L14 V0 (ix3 b i c) = logit (qOf V0) (kOf V0) b (16383 + i.val) c.val := by
  refine (level_logits_apply (B := 2048) (n := 16384) (N := 65535) (Q := 64) (start := 16383)
    Facts₀.dot_S2048x64_S16384x2x64_S2048x16384x2_1_2_0_01_n_n_wf (qOf V0) (kOf V0)
    Facts₀.slices_S65535x2x64_S16384x2x64_16383_0_0 (by norm_num) b i c).trans ?_
  unfold logit
  rw [dif_pos (by have := i.isLt; omega)]
  match c with
  | ⟨0, _⟩ => rfl
  | ⟨1, _⟩ => rfl

theorem share14 (b : Fin 2048) (i : Fin 16384) (c : Fin 2) :
    Ideal.div (E14 V0 (ix3 b i c))
        (E14 V0 (ix3 b i 0) + E14 V0 (ix3 b i 1))
      = split (qOf V0) (kOf V0) b (16383 + i.val) c.val := by
  have hE : E14 V0
      = expShift (B := 2048) (n := 16384) (L14 V0) Facts₀.bcast_S_S2048x16384 Facts₀.bcast_S2048x16384_S2048x16384x1_0_1
          Facts₀.bcast_S2048x16384x1_S2048x16384x2_0_1_2 Facts₀.reducesTo_S2048x16384x2_S2048x16384_d2 Facts₀.h_S_ := rfl
  rw [hE, level_share_apply (B := 2048) (n := 16384) _ _ _ _ _ (by decide) _ b i c, logits14 V0 b i 0, logits14 V0 b i 1]
  rfl

/-- The weights after level 14. -/
def W14 : FVec Ideal S2048x32768 .f32 :=
  shapeCast _ (mulf (broadcastInDim S2048x16384x2 ![0, 1, 2] Facts₀.bcast_S2048x16384x1_S2048x16384x2_0_1_2 (broadcastInDim S2048x16384x1 ![0, 1] Facts₀.bcast_S2048x16384_S2048x16384x1_0_1 (W13 V0)))
    (Host.divf (res_main_v247 V0) (broadcastInDim S2048x16384x2 ![0, 1, 2] Facts₀.bcast_S2048x16384x1_S2048x16384x2_0_1_2 (broadcastInDim S2048x16384x1 ![0, 1] Facts₀.bcast_S2048x16384_S2048x16384x1_0_1 (Host.reduceAdd (res_main_v247 V0) (constant S_ .f32 0x00000000#32) Facts₀.reducesTo_S2048x16384x2_S2048x16384_d2 Facts₀.h_S_))))) Facts₀.shapeCasts_S2048x16384x2_S2048x32768

theorem W14_apply (b : Fin 2048) (j : Fin 32768) :
    W14 V0 (ix2 b j) = pathW (split (qOf V0) (kOf V0) b) 15 j.val := by
  have hj : j.val / 2 < 16384 := by have := j.isLt; omega
  refine (level_apply (B := 2048) (n := 16384) (m := 32768) (W13 V0) (res_main_v247 V0)
    Facts₀.bcast_S2048x16384_S2048x16384x1_0_1 Facts₀.bcast_S2048x16384x1_S2048x16384x2_0_1_2 Facts₀.reducesTo_S2048x16384x2_S2048x16384_d2
    (by decide) Facts₀.h_S_ Facts₀.shapeCasts_S2048x16384x2_S2048x32768 rfl b j).trans ?_
  rw [W13_apply V0 b ⟨j.val / 2, hj⟩, share14 V0 b ⟨j.val / 2, hj⟩ ⟨j.val % 2, Nat.mod_lt _ (by norm_num)⟩]
  exact (pathW_succ (split (qOf V0) (kOf V0) b) 14 j.val).symm

/-! ## Level 15: 32768 nodes, at the positions 32767 … 65534 of the key table -/

/-- Level 15's logits and their shifted exponentials, as the program names them. -/
abbrev L15 : FVec Ideal S2048x32768x2 .f32 := res_main_v257 V0
abbrev E15 : FVec Ideal S2048x32768x2 .f32 := res_main_v264 V0

theorem logits15 (b : Fin 2048) (i : Fin 32768) (c : Fin 2) :
    L15 V0 (ix3 b i c) = logit (qOf V0) (kOf V0) b (32767 + i.val) c.val := by
  refine (level_logits_apply (B := 2048) (n := 32768) (N := 65535) (Q := 64) (start := 32767)
    Facts₀.dot_S2048x64_S32768x2x64_S2048x32768x2_1_2_0_01_n_n_wf (qOf V0) (kOf V0)
    Facts₀.slices_S65535x2x64_S32768x2x64_32767_0_0 (by norm_num) b i c).trans ?_
  unfold logit
  rw [dif_pos (by have := i.isLt; omega)]
  match c with
  | ⟨0, _⟩ => rfl
  | ⟨1, _⟩ => rfl

theorem share15 (b : Fin 2048) (i : Fin 32768) (c : Fin 2) :
    Ideal.div (E15 V0 (ix3 b i c))
        (E15 V0 (ix3 b i 0) + E15 V0 (ix3 b i 1))
      = split (qOf V0) (kOf V0) b (32767 + i.val) c.val := by
  have hE : E15 V0
      = expShift (B := 2048) (n := 32768) (L15 V0) Facts₀.bcast_S_S2048x32768 Facts₀.bcast_S2048x32768_S2048x32768x1_0_1
          Facts₀.bcast_S2048x32768x1_S2048x32768x2_0_1_2 Facts₀.reducesTo_S2048x32768x2_S2048x32768_d2 Facts₀.h_S_ := rfl
  rw [hE, level_share_apply (B := 2048) (n := 32768) _ _ _ _ _ (by decide) _ b i c, logits15 V0 b i 0, logits15 V0 b i 1]
  rfl

/-- The weights after level 15. -/
def W15 : FVec Ideal S2048x65536 .f32 :=
  shapeCast _ (mulf (broadcastInDim S2048x32768x2 ![0, 1, 2] Facts₀.bcast_S2048x32768x1_S2048x32768x2_0_1_2 (broadcastInDim S2048x32768x1 ![0, 1] Facts₀.bcast_S2048x32768_S2048x32768x1_0_1 (W14 V0)))
    (Host.divf (res_main_v264 V0) (broadcastInDim S2048x32768x2 ![0, 1, 2] Facts₀.bcast_S2048x32768x1_S2048x32768x2_0_1_2 (broadcastInDim S2048x32768x1 ![0, 1] Facts₀.bcast_S2048x32768_S2048x32768x1_0_1 (Host.reduceAdd (res_main_v264 V0) (constant S_ .f32 0x00000000#32) Facts₀.reducesTo_S2048x32768x2_S2048x32768_d2 Facts₀.h_S_))))) Facts₀.shapeCasts_S2048x32768x2_S2048x65536

theorem W15_apply (b : Fin 2048) (j : Fin 65536) :
    W15 V0 (ix2 b j) = pathW (split (qOf V0) (kOf V0) b) 16 j.val := by
  have hj : j.val / 2 < 32768 := by have := j.isLt; omega
  refine (level_apply (B := 2048) (n := 32768) (m := 65536) (W14 V0) (res_main_v264 V0)
    Facts₀.bcast_S2048x32768_S2048x32768x1_0_1 Facts₀.bcast_S2048x32768x1_S2048x32768x2_0_1_2 Facts₀.reducesTo_S2048x32768x2_S2048x32768_d2
    (by decide) Facts₀.h_S_ Facts₀.shapeCasts_S2048x32768x2_S2048x65536 rfl b j).trans ?_
  rw [W14_apply V0 b ⟨j.val / 2, hj⟩, share15 V0 b ⟨j.val / 2, hj⟩ ⟨j.val % 2, Nat.mod_lt _ (by norm_num)⟩]
  exact (pathW_succ (split (qOf V0) (kOf V0) b) 15 j.val).symm

/-! ## The result -/

/-- The program's result at (b, v): the leaves' values weighted by their path weights. -/
theorem result_apply (b : Fin 2048) (v : Fin 64) :
    (Host.dotGeneral dot_S2048x65536_S65536x64_S2048x64_1_0_0_1_n_n none (W15 V0) (xOf V0) : FVec Ideal S2048x64 .f32) (ix2 b v)
      = TreeSpec.result (qOf V0) (kOf V0) (xOf V0) b v := by
  refine (leaves_dot_apply (B := 2048) (N := 65536) (V := 64)
    Facts₀.dot_S2048x65536_S65536x64_S2048x64_1_0_0_1_n_n_wf (W15 V0) (xOf V0) b v).trans ?_
  unfold TreeSpec.result
  exact Finset.sum_congr rfl fun leaf _ => congrArg (· * _) (W15_apply V0 b leaf)

end Cert.ReferenceIdeal.RefTree

end
-- ==== Proof.RefRun.lean ====
/-
  The reference's run, with its result stated by the specification: every execution ends with the result array
  at `TreeSpec.out` of the argument arrays, the arguments unchanged.
-/
import proofs.«171282_j44032004719312_2_alg».proof.Proof.RefTree

set_option maxRecDepth 16384

noncomputable section

namespace Cert.ReferenceIdeal.RefTree

open Cert.ReferenceIdeal Cert.ReferenceIdeal.Gen Cert.ReferenceIdeal.Value
open Idealize.ShloMosaic Idealize.ShloMosaic.TcCoe Idealize.ShloMosaic.StableHlo Idealize.ShloMosaic.ValueIdx Idealize.SL.Sem
open TreeWeights TreeLevel TreeSpec

/-- The weighted sum over the leaves of the last level's weights is the specification's array. -/
theorem result_eq (V0 : Valuation τ sig (Elt Ideal)) :
    (Host.dotGeneral dot_S2048x65536_S65536x64_S2048x64_1_0_0_1_n_n none (W15 V0) (xOf V0) : FVec Ideal S2048x64 .f32)
      = TreeSpec.out (qOf V0) (kOf V0) (xOf V0) := by
  funext i
  rw [eq_ix2 i]
  exact result_apply V0 (i 0) (i 1)

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v273)
          = TreeSpec.out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result_eq (launchContents m c)), (h c).2⟩)
    (Cert.ReferenceIdeal.Value.run (F := Ideal) m ρ)

end Cert.ReferenceIdeal.RefTree

end
-- ==== Proof.LibKernelLevel.lean ====
/-
  One level of a two-way tree softmax as a kernel computes it on whole vectors, read at an index (at the
  extended reals): the logits as products with the transposed child keys; each child's exponential over the
  pair's sum, times the node's weight; the two children's arrays laid side by side and brought into interleaved
  order by a product with a 0/1 matrix that the kernel builds from index comparisons on 32-bit words.  The
  product with that matrix has, in every column, one term times 1 and all others times 0, so it is a selection
  (on the extended reals a product with 0 is 0 whatever the other factor).  Generic in the numbers of rows,
  nodes and query coordinates.
-/
import Idealize.ShloMosaic.PureOps.Ideal.Laws
import Idealize.ShloMosaic.Lib.ValueIdx
import Idealize.ShloMosaic.Lib.Pipeline.Value
import Idealize.ShloMosaic.Lib.Affine
import proofs.«171282_j44032004719312_2_alg».proof.Proof.LibTreeWeights

noncomputable section

namespace KernelLevel

open Idealize.ShloMosaic Idealize.ShloMosaic.ValueIdx TreeWeights

/-- The column of the interleaved array that column `i` of the block-ordered array [left | right] goes to:
    left column `i` to `2 i`, right column `i - n` to `2 (i - n) + 1`. -/
def dest (n i : ℕ) : ℕ := if i < n then 2 * i else 2 * (i - n) + 1

/-- A small natural number, as a 32-bit word read signed, is itself. -/
theorem toInt_ofNat_small (k : ℕ) (hk : k < 2 ^ 30) : (BitVec.ofNat 32 k).toInt = (k : ℤ) := by
  have h30 : (2 : ℕ) ^ 30 = 1073741824 := by norm_num
  have hmod : k % 4294967296 = k := Nat.mod_eq_of_lt (by omega)
  rw [BitVec.toInt_eq_toNat_of_lt (by rw [BitVec.toNat_ofNat]; omega), BitVec.toNat_ofNat]
  show ((k % 4294967296 : ℕ) : ℤ) = k
  rw [hmod]

/-- The entry (i, j) of the 0/1 matrix the kernel builds from index comparisons, as a one-bit word. -/
theorem perm_word (n i j : ℕ) (hn : 2 * n ≤ 2 ^ 30) (hi : i < 2 * n) (hj : j < 2 * n) :
    IntOp.cmpi .eq (BitVec.ofNat 32 j)
      (Scalar.select (IntOp.cmpi .slt (BitVec.ofNat 32 i) (BitVec.ofNat 32 n))
        (IntOp.muli (BitVec.ofNat 32 2) (BitVec.ofNat 32 i))
        (IntOp.addi (IntOp.muli (BitVec.ofNat 32 2) (IntOp.subi (BitVec.ofNat 32 i) (BitVec.ofNat 32 n))) (BitVec.ofNat 32 1)))
      = if j = dest n i then 1#1 else 0#1 := by
  have h30 : (2 : ℕ) ^ 30 = 1073741824 := by norm_num
  unfold dest
  by_cases hlt : i < n
  · have hs : IntOp.cmpi .slt (BitVec.ofNat 32 i) (BitVec.ofNat 32 n) = 1#1 := by
      rw [IntOp.cmpi_slt, toInt_ofNat_small i (by omega), toInt_ofNat_small n (by omega)]
      omega
    rw [hs, if_pos hlt]
    show IntOp.cmpi .eq (BitVec.ofNat 32 j) (BitVec.ofNat 32 2 * BitVec.ofNat 32 i) = _
    split_ifs with hji
    · rw [IntOp.cmpi_eq]; subst hji; bv_omega
    · have : ¬ IntOp.cmpi .eq (BitVec.ofNat 32 j) (BitVec.ofNat 32 2 * BitVec.ofNat 32 i) = 1#1 := by
        rw [IntOp.cmpi_eq]; intro h; apply hji; bv_omega
      rcases BitVec.eq_zero_or_eq_one (IntOp.cmpi .eq (BitVec.ofNat 32 j) (BitVec.ofNat 32 2 * BitVec.ofNat 32 i)) with h | h
      · exact h
      · exact absurd h this
  · have hs : IntOp.cmpi .slt (BitVec.ofNat 32 i) (BitVec.ofNat 32 n) = 0#1 := by
      have : ¬ IntOp.cmpi .slt (BitVec.ofNat 32 i) (BitVec.ofNat 32 n) = 1#1 := by
        rw [IntOp.cmpi_slt, toInt_ofNat_small i (by omega), toInt_ofNat_small n (by omega)]; omega
      rcases BitVec.eq_zero_or_eq_one (IntOp.cmpi .slt (BitVec.ofNat 32 i) (BitVec.ofNat 32 n)) with h | h
      · exact h
      · exact absurd h this
    rw [hs, if_neg hlt]
    show IntOp.cmpi .eq (BitVec.ofNat 32 j) (BitVec.ofNat 32 2 * (BitVec.ofNat 32 i - BitVec.ofNat 32 n) + BitVec.ofNat 32 1) = _
    split_ifs with hji
    · rw [IntOp.cmpi_eq]; subst hji; bv_omega
    · have : ¬ IntOp.cmpi .eq (BitVec.ofNat 32 j) (BitVec.ofNat 32 2 * (BitVec.ofNat 32 i - BitVec.ofNat 32 n) + BitVec.ofNat 32 1) = 1#1 := by
        rw [IntOp.cmpi_eq]; intro h; apply hji; bv_omega
      rcases BitVec.eq_zero_or_eq_one (IntOp.cmpi .eq (BitVec.ofNat 32 j) (BitVec.ofNat 32 2 * (BitVec.ofNat 32 i - BitVec.ofNat 32 n) + BitVec.ofNat 32 1)) with h | h
      · exact h
      · exact absurd h this

/-- A one-bit word widened to 32 bits and converted to a float is 1 or 0. -/
theorem bit_to_float (b : BitVec 1) :
    FloatOps.sitofp (F := Ideal) .f32 (b.setWidth 32) = if b = 1#1 then (1 : EReal) else 0 := by
  rcases BitVec.eq_zero_or_eq_one b with h | h <;> subst h <;> simp [FloatOps.sitofp] <;> rfl

/-- [rows, columns]. -/
abbrev M2 (a b : ℕ) : Shape := ⟨2, ![a, b]⟩

/-- A plain matrix product onto a zero accumulator, read at (b, v). -/
theorem matmul_plain_apply {B N V : ℕ} (wf : DotDims.WF (M2 B N) (M2 N V) (M2 B V) [1] [0] [0] [1] [] [])
    (prec : Option ContractPrecision) (P : FVec Ideal (M2 B N) .f32) (X : FVec Ideal (M2 N V) .f32) (b : Fin B) (v : Fin V) :
    matmul (⟨[1], [0], [0], [1], [], [], wf⟩ : DotDims (M2 B N) (M2 N V) (M2 B V)) prec P X
        (constant (F := Ideal) (M2 B V) .f32 0x00000000#32) (ix2 b v)
      = ∑ k : Fin N, P (ix2 b k) * X (ix2 k v) := by
  generalize hd : (⟨[1], [0], [0], [1], [], [], wf⟩ : DotDims (M2 B N) (M2 N V) (M2 B V)) = d
  have hl : d.lhsContracting = [1] := by subst hd; rfl
  have hrc : d.rhsContracting = [0] := by subst hd; rfl
  have hr : d.contr.rank = 1 := by subst hd; rfl
  have hs : d.contr.size ⟨0, by omega⟩ = N := by subst hd; rfl
  refine (Ideal.matmul_constant_zero_apply d prec P X (ix2 b v)).trans ?_
  refine ((contrEquiv1 d N hr hs).symm.sum_comp _).symm.trans ?_
  refine Finset.sum_congr rfl fun k _ => ?_
  have e1 : d.lhsIdx (ix2 b v) ((contrEquiv1 d N hr hs).symm k) = ix2 b k := by
    funext a
    refine Fin.ext ?_
    match a with
    | ⟨0, _⟩ => subst hd; rfl
    | ⟨1, _⟩ => exact (d.lhsIdx_val_of_single (cl := 1) hl _ _).trans (contrEquiv1_symm_val d N hr hs k)
  have e2 : d.rhsIdx (ix2 b v) ((contrEquiv1 d N hr hs).symm k) = ix2 k v := by
    funext a
    refine Fin.ext ?_
    match a with
    | ⟨0, _⟩ => exact (d.rhsIdx_val_of_single (cr := 0) hrc _ _).trans (contrEquiv1_symm_val d N hr hs k)
    | ⟨1, _⟩ => subst hd; rfl
  rw [e1, e2]

/-- The logits against keys given row by row: the product with the transposed key matrix. -/
theorem logitT_apply {B n Q : ℕ} (wf : DotDims.WF (M2 B Q) (M2 Q n) (M2 B n) [1] [0] [0] [1] [] [])
    (prec : Option ContractPrecision) (q : FVec Ideal (M2 B Q) .f32) (k : FVec Ideal (M2 n Q) .f32)
    (hT : (M2 n Q).Transposes [1, 0] (M2 Q n)) (b : Fin B) (i : Fin n) :
    matmul (⟨[1], [0], [0], [1], [], [], wf⟩ : DotDims (M2 B Q) (M2 Q n) (M2 B n)) prec q
        (transpose (M2 Q n) [1, 0] k hT) (constant (F := Ideal) (M2 B n) .f32 0x00000000#32) (ix2 b i)
      = ∑ x : Fin Q, q (ix2 b x) * k (ix2 i x) := by
  rw [matmul_plain_apply wf prec q _ b i]
  refine Finset.sum_congr rfl fun x _ => congrArg (q (ix2 b x) * ·) ?_
  refine transpose_apply [1, 0] k hT (ix2 x i) (ix2 i x) fun a => ?_
  match a with
  | ⟨0, _⟩ => rfl
  | ⟨1, _⟩ => rfl

/-- The column of the block-ordered array [left | right] that column `j` of the interleaved array comes from. -/
def srcOf (n j : ℕ) : ℕ := if j % 2 = 0 then j / 2 else n + j / 2

theorem dest_srcOf (n j : ℕ) (hj : j < 2 * n) : dest n (srcOf n j) = j := by
  unfold dest srcOf; split_ifs <;> omega

theorem srcOf_lt (n j : ℕ) (hj : j < 2 * n) : srcOf n j < 2 * n := by
  unfold srcOf; split_ifs <;> omega

theorem eq_srcOf_of_dest (n i j : ℕ) (hi : i < 2 * n) (h : j = dest n i) : i = srcOf n j := by
  unfold dest at h; unfold srcOf; split_ifs at h ⊢ <;> omega

/-- The 0/1 matrix of the interleaving, as the kernel builds it from index comparisons. -/
def permMat (m n : ℕ) (h0 : (M2 m m).Iotas .tc 32 [0]) (h1 : (M2 m m).Iotas .tc 32 [1]) (hw : 1 < 32) :
    FVec Ideal (M2 m m) .f32 :=
  sitofp .f32 (extui 32 (cmpi .eq (iota .tc (M2 m m) 32 [1] h1)
    (select (cmpi .slt (iota .tc (M2 m m) 32 [0] h0) (broadcast (M2 m m) (BitVec.ofNat 32 n)))
      (muli (broadcast (M2 m m) (BitVec.ofNat 32 2)) (iota .tc (M2 m m) 32 [0] h0))
      (addi (muli (broadcast (M2 m m) (BitVec.ofNat 32 2)) (subi (iota .tc (M2 m m) 32 [0] h0) (broadcast (M2 m m) (BitVec.ofNat 32 n))))
        (broadcast (M2 m m) (BitVec.ofNat 32 1))))) hw)

theorem permMat_apply (m n : ℕ) (h0 : (M2 m m).Iotas .tc 32 [0]) (h1 : (M2 m m).Iotas .tc 32 [1]) (hw : 1 < 32)
    (hm : m = 2 * n) (hn : m ≤ 2 ^ 30) (i j : Fin m) :
    permMat m n h0 h1 hw (ix2 i j) = if j.val = dest n i.val then (1 : EReal) else 0 := by
  have e0 : iota .tc (M2 m m) 32 [0] h0 (ix2 i j) = BitVec.ofNat 32 i.val := iota_single_apply .tc (M2 m m) 32 0 h0 (ix2 i j)
  have e1 : iota .tc (M2 m m) 32 [1] h1 (ix2 i j) = BitVec.ofNat 32 j.val := iota_single_apply .tc (M2 m m) 32 1 h1 (ix2 i j)
  show FloatOps.sitofp (F := Ideal) .f32 ((IntOp.cmpi .eq (iota .tc (M2 m m) 32 [1] h1 (ix2 i j))
    (Scalar.select (IntOp.cmpi .slt (iota .tc (M2 m m) 32 [0] h0 (ix2 i j)) (BitVec.ofNat 32 n))
      (IntOp.muli (BitVec.ofNat 32 2) (iota .tc (M2 m m) 32 [0] h0 (ix2 i j)))
      (IntOp.addi (IntOp.muli (BitVec.ofNat 32 2) (IntOp.subi (iota .tc (M2 m m) 32 [0] h0 (ix2 i j)) (BitVec.ofNat 32 n)))
        (BitVec.ofNat 32 1)))).setWidth 32) = _
  rw [e0, e1, perm_word n i.val j.val (by omega) (by have := i.isLt; omega) (by have := j.isLt; omega), bit_to_float]
  split_ifs <;> simp_all

/-- The product with the 0/1 matrix picks, for column `j` of the result, column `srcOf n j` of the block-ordered array:
    every other term of the sum is a product with 0. -/
theorem interleave_matmul_apply {B m : ℕ} (n : ℕ) (hm : m = 2 * n)
    (wf : DotDims.WF (M2 B m) (M2 m m) (M2 B m) [1] [0] [0] [1] [] []) (prec : Option ContractPrecision)
    (C : FVec Ideal (M2 B m) .f32) (Pm : FVec Ideal (M2 m m) .f32)
    (hP : ∀ i j : Fin m, Pm (ix2 i j) = if j.val = dest n i.val then (1 : EReal) else 0) (r : Fin B) (j : Fin m) :
    matmul (⟨[1], [0], [0], [1], [], [], wf⟩ : DotDims (M2 B m) (M2 m m) (M2 B m)) prec C Pm
        (constant (F := Ideal) (M2 B m) .f32 0x00000000#32) (ix2 r j)
      = C (ix2 r ⟨srcOf n j.val, by have := j.isLt; have := srcOf_lt n j.val (by omega); omega⟩) := by
  rw [matmul_plain_apply wf prec C Pm r j]
  have hj : j.val < 2 * n := by have := j.isLt; omega
  rw [Finset.sum_eq_single (⟨srcOf n j.val, by have := srcOf_lt n j.val hj; omega⟩ : Fin m)]
  · rw [hP, if_pos (dest_srcOf n j.val hj).symm, mul_one]
  · intro i _ hne
    rw [hP, if_neg, mul_zero]
    intro h
    exact hne (Fin.ext (eq_srcOf_of_dest n i.val j.val (by have := i.isLt; omega) h))
  · intro h; exact absurd (Finset.mem_univ _) h

theorem exp_apply {s : Shape} (a : FVec Ideal s .f32) (i : s.Idx) : exp a i = Ideal.exp (a i) := rfl

/-- Two arrays side by side, read at (r, j): the left one for the first `n` columns, the right one after. -/
theorem cat_pair_apply {B n m : ℕ} (hm : m = 2 * n) (left right : FVec Ideal (M2 B n) .f32)
    (hC : Shape.Concatenates [M2 B n, M2 B n] (M2 B m) 1) (r : Fin B) (j : Fin m) :
    concatenate (M2 B m) 1 [⟨M2 B n, left⟩, ⟨M2 B n, right⟩] hC (ix2 r j)
      = if h : j.val < n then left (ix2 r ⟨j.val, h⟩) else right (ix2 r ⟨j.val - n, by have := j.isLt; omega⟩) := by
  split_ifs with h
  · refine concatenate_pair_apply_left 1 left right hC (ix2 r j) rfl (ix2 r ⟨j.val, h⟩) fun b => ?_
    match b with
    | ⟨0, _⟩ => rfl
    | ⟨1, _⟩ => rfl
  · refine concatenate_pair_apply_right 1 left right hC (ix2 r j) rfl rfl (ix2 r ⟨j.val - n, by have := j.isLt; omega⟩)
      (fun b hb => ?_) ?_
    · match b with
      | ⟨0, _⟩ => rfl
      | ⟨1, _⟩ => exact absurd rfl hb
    · show (j.val - n) + n = j.val
      omega

/-- Two arrays side by side, multiplied by the 0/1 matrix of the interleaving: column `j` of the result is column
    `j / 2` of the left array for even `j`, of the right array for odd `j`. -/
theorem interleave_pair_apply {B n m : ℕ} (hm : m = 2 * n)
    (wf : DotDims.WF (M2 B m) (M2 m m) (M2 B m) [1] [0] [0] [1] [] []) (prec : Option ContractPrecision)
    (left right : FVec Ideal (M2 B n) .f32) (hC : Shape.Concatenates [M2 B n, M2 B n] (M2 B m) 1)
    (Pm : FVec Ideal (M2 m m) .f32)
    (hP : ∀ i j : Fin m, Pm (ix2 i j) = if j.val = dest n i.val then (1 : EReal) else 0) (r : Fin B) (j : Fin m) :
    matmul (⟨[1], [0], [0], [1], [], [], wf⟩ : DotDims (M2 B m) (M2 m m) (M2 B m)) prec
        (concatenate (M2 B m) 1 [⟨M2 B n, left⟩, ⟨M2 B n, right⟩] hC) Pm
        (constant (F := Ideal) (M2 B m) .f32 0x00000000#32) (ix2 r j)
      = if j.val % 2 = 0 then left (ix2 r ⟨j.val / 2, by have := j.isLt; omega⟩)
        else right (ix2 r ⟨j.val / 2, by have := j.isLt; omega⟩) := by
  rw [interleave_matmul_apply n hm wf prec _ Pm hP r j, cat_pair_apply hm left right hC]
  have hj := j.isLt
  by_cases h : j.val % 2 = 0
  · have hs : srcOf n j.val = j.val / 2 := by unfold srcOf; rw [if_pos h]
    rw [if_pos h, dif_pos (show srcOf n j.val < n by rw [hs]; omega)]
    exact congrArg left (congrArg (ix2 r) (Fin.ext hs))
  · have hs : srcOf n j.val = n + j.val / 2 := by unfold srcOf; rw [if_neg h]
    rw [if_neg h, dif_neg (show ¬ srcOf n j.val < n by rw [hs]; omega)]
    refine congrArg right (congrArg (ix2 r) (Fin.ext ?_))
    show srcOf n j.val - n = j.val / 2
    rw [hs]; omega

/-- One level of the tree as the kernel computes it, over the level's two logit arrays: node weights times the two
    children's shares, laid side by side and interleaved by the 0/1 matrix. Read at (r, j): the weight of node
    `j / 2` times the share of child `j % 2`. -/
theorem klevel_core {B n m : ℕ} (hm : m = 2 * n)
    (wf : DotDims.WF (M2 B m) (M2 m m) (M2 B m) [1] [0] [0] [1] [] []) (prec : Option ContractPrecision)
    (P LL LR : FVec Ideal (M2 B n) .f32) (hC : Shape.Concatenates [M2 B n, M2 B n] (M2 B m) 1)
    (Pm : FVec Ideal (M2 m m) .f32)
    (hP : ∀ i j : Fin m, Pm (ix2 i j) = if j.val = dest n i.val then (1 : EReal) else 0) (r : Fin B) (j : Fin m) :
    matmul (⟨[1], [0], [0], [1], [], [], wf⟩ : DotDims (M2 B m) (M2 m m) (M2 B m)) prec
        (concatenate (M2 B m) 1
          [⟨M2 B n, mulf P (divf (exp (subf LL (maximumf LL LR)))
              (addf (exp (subf LL (maximumf LL LR))) (exp (subf LR (maximumf LL LR)))))⟩,
            ⟨M2 B n, mulf P (divf (exp (subf LR (maximumf LL LR)))
              (addf (exp (subf LL (maximumf LL LR))) (exp (subf LR (maximumf LL LR)))))⟩] hC) Pm
        (constant (F := Ideal) (M2 B m) .f32 0x00000000#32) (ix2 r j)
      = P (ix2 r ⟨j.val / 2, by have := j.isLt; omega⟩)
        * share2 (LL (ix2 r ⟨j.val / 2, by have := j.isLt; omega⟩)) (LR (ix2 r ⟨j.val / 2, by have := j.isLt; omega⟩))
            (j.val % 2) := by
  rw [interleave_pair_apply hm wf prec _ _ hC Pm hP r j]
  by_cases h : j.val % 2 = 0
  · rw [if_pos h, h, share2_zero]; rfl
  · have h1 : j.val % 2 = 1 := by omega
    rw [if_neg h, h1, share2_one, ← share_swap]; rfl

/-- The keys of one child, row by row, out of a level's [nodes, 2, coordinates] keys. -/
theorem child_keys_apply {n Q : ℕ} (c : ℕ) (hc : c < 2) (K : (⟨3, ![n, 2, Q]⟩ : Shape).Idx → EReal)
    (hS : (⟨3, ![n, 2, Q]⟩ : Shape).Slices ![0, c, 0] ⟨3, ![n, 1, Q]⟩)
    (hc1 : (⟨3, ![n, 1, Q]⟩ : Shape).ShapeCasts (M2 n Q)) (i : Fin n) (x : Fin Q) :
    shapeCast (M2 n Q) (extractStridedSlice ⟨3, ![n, 1, Q]⟩ ![0, c, 0] K hS) hc1 (ix2 i x) = K (ix3 i ⟨c, hc⟩ x) := by
  refine (shapeCast_apply _ hc1 (ix2 i x) (ix3 i (0 : Fin 1) x) ?_).trans
    (extractStridedSlice_apply ![0, c, 0] K hS (ix3 i (0 : Fin 1) x) (ix3 i ⟨c, hc⟩ x) fun a => ?_)
  · rw [Shape.rowMajor_val_three, Shape.rowMajor_val_two]
    show ((i : ℕ) * 1 + 0) * Q + (x : ℕ) = (i : ℕ) * Q + (x : ℕ)
    ring
  · match a with
    | ⟨0, _⟩ => show (i : ℕ) = 0 + (i : ℕ); omega
    | ⟨1, _⟩ => show c = c + 0; omega
    | ⟨2, _⟩ => show (x : ℕ) = 0 + (x : ℕ); omega

/-- A block [1, nodes, 2, coordinates] viewed [nodes, 2, coordinates]. -/
theorem drop_unit_apply {n Q : ℕ} (X : (⟨4, ![1, n, 2, Q]⟩ : Shape).Idx → EReal)
    (h : (⟨4, ![1, n, 2, Q]⟩ : Shape).ShapeCasts ⟨3, ![n, 2, Q]⟩) (i : Fin n) (c : Fin 2) (x : Fin Q) :
    shapeCast ⟨3, ![n, 2, Q]⟩ X h (ix3 i c x) = X (ix4 (0 : Fin 1) i c x) := by
  refine shapeCast_apply X h (ix3 i c x) _ ?_
  rw [Shape.rowMajor_val_four, Shape.rowMajor_val_three]
  show (((0 : ℕ) * n + (i : ℕ)) * 2 + (c : ℕ)) * Q + (x : ℕ) = ((i : ℕ) * 2 + (c : ℕ)) * Q + (x : ℕ)
  ring

/-- The same with the two children's numerators and their common denominator given as arrays: the weight of node
    `j / 2` times child `j % 2`'s numerator over the denominator. -/
theorem kden_core {B n m : ℕ} (hm : m = 2 * n)
    (wf : DotDims.WF (M2 B m) (M2 m m) (M2 B m) [1] [0] [0] [1] [] []) (prec : Option ContractPrecision)
    (P EL ER DEN : FVec Ideal (M2 B n) .f32) (hC : Shape.Concatenates [M2 B n, M2 B n] (M2 B m) 1)
    (Pm : FVec Ideal (M2 m m) .f32)
    (hP : ∀ i j : Fin m, Pm (ix2 i j) = if j.val = dest n i.val then (1 : EReal) else 0) (r : Fin B) (j : Fin m) :
    matmul (⟨[1], [0], [0], [1], [], [], wf⟩ : DotDims (M2 B m) (M2 m m) (M2 B m)) prec
        (concatenate (M2 B m) 1 [⟨M2 B n, mulf P (divf EL DEN)⟩, ⟨M2 B n, mulf P (divf ER DEN)⟩] hC) Pm
        (constant (F := Ideal) (M2 B m) .f32 0x00000000#32) (ix2 r j)
      = P (ix2 r ⟨j.val / 2, by have := j.isLt; omega⟩)
        * Ideal.div ((if j.val % 2 = 0 then EL else ER) (ix2 r ⟨j.val / 2, by have := j.isLt; omega⟩))
            (DEN (ix2 r ⟨j.val / 2, by have := j.isLt; omega⟩)) := by
  rw [interleave_pair_apply hm wf prec _ _ hC Pm hP r j]
  split_ifs <;> rfl

/-- The two children's arrays side by side, before the interleaving, with numerators and denominator given. -/
theorem kcat_core {B n m : ℕ} (hm : m = 2 * n) (P EL ER DEN : FVec Ideal (M2 B n) .f32)
    (hC : Shape.Concatenates [M2 B n, M2 B n] (M2 B m) 1) (r : Fin B) (j : Fin m) :
    concatenate (M2 B m) 1 [⟨M2 B n, mulf P (divf EL DEN)⟩, ⟨M2 B n, mulf P (divf ER DEN)⟩] hC (ix2 r j)
      = if h : j.val < n then P (ix2 r ⟨j.val, h⟩) * Ideal.div (EL (ix2 r ⟨j.val, h⟩)) (DEN (ix2 r ⟨j.val, h⟩))
        else P (ix2 r ⟨j.val - n, by have := j.isLt; omega⟩)
          * Ideal.div (ER (ix2 r ⟨j.val - n, by have := j.isLt; omega⟩)) (DEN (ix2 r ⟨j.val - n, by have := j.isLt; omega⟩)) := by
  rw [cat_pair_apply hm _ _ hC r j]
  split_ifs <;> rfl

/-- The two children's arrays side by side with the shares written out over the two logit arrays. -/
theorem kcat_soft {B n m : ℕ} (hm : m = 2 * n) (P LL LR : FVec Ideal (M2 B n) .f32)
    (hC : Shape.Concatenates [M2 B n, M2 B n] (M2 B m) 1) (r : Fin B) (j : Fin m) :
    concatenate (M2 B m) 1
        [⟨M2 B n, mulf P (divf (exp (subf LL (maximumf LL LR)))
            (addf (exp (subf LL (maximumf LL LR))) (exp (subf LR (maximumf LL LR)))))⟩,
          ⟨M2 B n, mulf P (divf (exp (subf LR (maximumf LL LR)))
            (addf (exp (subf LL (maximumf LL LR))) (exp (subf LR (maximumf LL LR)))))⟩] hC (ix2 r j)
      = if h : j.val < n then P (ix2 r ⟨j.val, h⟩) * share (LL (ix2 r ⟨j.val, h⟩)) (LR (ix2 r ⟨j.val, h⟩))
        else P (ix2 r ⟨j.val - n, by have := j.isLt; omega⟩)
          * share (LR (ix2 r ⟨j.val - n, by have := j.isLt; omega⟩)) (LL (ix2 r ⟨j.val - n, by have := j.isLt; omega⟩)) := by
  rw [cat_pair_apply hm _ _ hC r j]
  split_ifs with h
  · rfl
  · rw [← share_swap]; rfl

/-! ## The same, over functions of natural numbers (one row of the arrays) -/

/-- One step down the tree: node `j / 2`'s weight times child `j % 2`'s share. -/
def stepN (P l0 l1 : ℕ → EReal) (j : ℕ) : EReal := P (j / 2) * share2 (l0 (j / 2)) (l1 (j / 2)) (j % 2)

/-- The same step before the interleaving: the `n` first children, then the `n` second children. -/
def catN (n : ℕ) (P l0 l1 : ℕ → EReal) (j : ℕ) : EReal :=
  if j < n then P j * share (l0 j) (l1 j) else P (j - n) * share (l1 (j - n)) (l0 (j - n))

/-- Reading the side-by-side form at the column the interleaving takes column `j` from gives the step. -/
theorem catN_srcOf (n : ℕ) (P l0 l1 : ℕ → EReal) (j : ℕ) (hj : j < 2 * n) :
    catN n P l0 l1 (srcOf n j) = stepN P l0 l1 j := by
  unfold catN stepN srcOf
  by_cases h : j % 2 = 0
  · rw [if_pos h, if_pos (by omega), h, share2_zero]
  · have h1 : j % 2 = 1 := by omega
    rw [if_neg h, if_neg (by omega), h1, share2_one, show n + j / 2 - n = j / 2 by omega]

/-- Row `r` of an array, as a function of the column number (0 past the last column). -/
def rowOf {B m : ℕ} (A : FVec Ideal (M2 B m) .f32) (r : Fin B) (i : ℕ) : EReal :=
  if h : i < m then A (ix2 r ⟨i, h⟩) else 0

theorem rowOf_apply {B m : ℕ} (A : FVec Ideal (M2 B m) .f32) (r : Fin B) (i : ℕ) (h : i < m) :
    rowOf A r i = A (ix2 r ⟨i, h⟩) := dif_pos h

/-- The weights inside a subtree, level by level, from the subtree's own logits `lg level node child`. -/
def lw (lg : ℕ → ℕ → ℕ → EReal) : ℕ → ℕ → EReal
  | 0, _ => 1
  | l + 1, j => lw lg l (j / 2) * share2 (lg l (j / 2) 0) (lg l (j / 2) 1) (j % 2)

theorem lw_succ (lg : ℕ → ℕ → ℕ → EReal) (l j : ℕ) :
    lw lg (l + 1) j = stepN (lw lg l) (fun i => lg l i 0) (fun i => lg l i 1) j := rfl

/-- The logits against child `c`'s keys taken out of a block [1, nodes, 2, coordinates]. -/
theorem block_logit_apply {B n Q : ℕ} (c : ℕ) (hc : c < 2)
    (wf : DotDims.WF (M2 B Q) (M2 Q n) (M2 B n) [1] [0] [0] [1] [] []) (prec : Option ContractPrecision)
    (q : FVec Ideal (M2 B Q) .f32) (X : FVec Ideal ⟨4, ![1, n, 2, Q]⟩ .f32)
    (h1 : (⟨4, ![1, n, 2, Q]⟩ : Shape).ShapeCasts ⟨3, ![n, 2, Q]⟩)
    (hS : (⟨3, ![n, 2, Q]⟩ : Shape).Slices ![0, c, 0] ⟨3, ![n, 1, Q]⟩)
    (hC : (⟨3, ![n, 1, Q]⟩ : Shape).ShapeCasts (M2 n Q)) (hT : (M2 n Q).Transposes [1, 0] (M2 Q n))
    (b : Fin B) (i : Fin n) :
    matmul (⟨[1], [0], [0], [1], [], [], wf⟩ : DotDims (M2 B Q) (M2 Q n) (M2 B n)) prec q
        (transpose (M2 Q n) [1, 0] (shapeCast (M2 n Q)
          (extractStridedSlice ⟨3, ![n, 1, Q]⟩ ![0, c, 0] (shapeCast ⟨3, ![n, 2, Q]⟩ X h1) hS) hC) hT)
        (constant (F := Ideal) (M2 B n) .f32 0x00000000#32) (ix2 b i)
      = ∑ x : Fin Q, q (ix2 b x) * X (ix4 (0 : Fin 1) i ⟨c, hc⟩ x) :=
  (logitT_apply wf prec q _ hT b i).trans (Finset.sum_congr rfl fun x _ => congrArg (q (ix2 b x) * ·)
    ((child_keys_apply c hc _ hS hC i x).trans (drop_unit_apply X h1 i ⟨c, hc⟩ x)))

/-- The logits against child `c`'s keys taken out of keys [nodes, 2, coordinates] (behind a cast to their own shape). -/
theorem keys_logit_apply {B n Q : ℕ} (c : ℕ) (hc : c < 2)
    (wf : DotDims.WF (M2 B Q) (M2 Q n) (M2 B n) [1] [0] [0] [1] [] []) (prec : Option ContractPrecision)
    (q : FVec Ideal (M2 B Q) .f32) (K : FVec Ideal ⟨3, ![n, 2, Q]⟩ .f32)
    (h1 : (⟨3, ![n, 2, Q]⟩ : Shape).ShapeCasts ⟨3, ![n, 2, Q]⟩)
    (hS : (⟨3, ![n, 2, Q]⟩ : Shape).Slices ![0, c, 0] ⟨3, ![n, 1, Q]⟩)
    (hC : (⟨3, ![n, 1, Q]⟩ : Shape).ShapeCasts (M2 n Q)) (hT : (M2 n Q).Transposes [1, 0] (M2 Q n))
    (b : Fin B) (i : Fin n) :
    matmul (⟨[1], [0], [0], [1], [], [], wf⟩ : DotDims (M2 B Q) (M2 Q n) (M2 B n)) prec q
        (transpose (M2 Q n) [1, 0] (shapeCast (M2 n Q)
          (extractStridedSlice ⟨3, ![n, 1, Q]⟩ ![0, c, 0] (shapeCast ⟨3, ![n, 2, Q]⟩ K h1) hS) hC) hT)
        (constant (F := Ideal) (M2 B n) .f32 0x00000000#32) (ix2 b i)
      = ∑ x : Fin Q, q (ix2 b x) * K (ix3 i ⟨c, hc⟩ x) := by
  rw [shapeCast_self K h1]
  exact (logitT_apply wf prec q _ hT b i).trans (Finset.sum_congr rfl fun x _ => congrArg (q (ix2 b x) * ·)
    (child_keys_apply c hc K hS hC i x))

end KernelLevel

end
-- ==== Proof.BodySpec.lean ====
/-
  The kernel body's values as the run composes them, named: the subtree weights of the first seven levels
  (`gateTerm`), the last nine levels inside one subtree up to the side-by-side form of their last step
  (`localCatTerm`), and the accumulated output (`outTerm`), each over whole key blocks and the query block.
-/
import proofs.«171282_j44032004719312_2_alg».proof.Proof.Gen.KernelIdeal.Skeleton
import proofs.«171282_j44032004719312_2_alg».proof.Proof.LibKernelLevel

set_option maxRecDepth 16384

noncomputable section

namespace Cert.KernelIdeal.Body

open Cert.KernelIdeal Cert.KernelIdeal.Gen Idealize.ShloMosaic Idealize.ShloMosaic.ValueIdx TreeWeights KernelLevel

/-- The weights of the 128 subtrees: the first seven levels, from the key rows of each level and the queries. -/
def gateTerm (K0 : Vec Ideal S1x2x64 .f32) (K1 : Vec Ideal S2x2x64 .f32) (K2 : Vec Ideal S4x2x64 .f32) (K3 : Vec Ideal S8x2x64 .f32) (K4 : Vec Ideal S16x2x64 .f32) (K5 : Vec Ideal S32x2x64 .f32) (K6 : Vec Ideal S64x2x64 .f32) (Qv : Vec Ideal S1024x64 .f32) : FVec Ideal S1024x128 .f32 :=
  k0_pay25 (k0_pay21 (k0_pay18 (k0_pay17 (k0_pay10 (k0_pay6 (k0_pay3 K0 Qv) (k0_pay4 K1) (k0_pay5 K1) Qv)
      (k0_pay8 K2) Qv (k0_pay9 K2) (constant S1024x4 .f32 0#32)) (k0_pay15 K3 Qv) (k0_pay16 K3 Qv) K4 Qv)
      (iota .tc S32x32 32 [0] iota_S32x32_d0_w32) K5 Qv)
      (iota .tc S64x64 32 [0] iota_S64x64_d0_w32) (iota .tc S64x64 32 [1] iota_S64x64_d1_w32) k0_pay19 k0_pay20 (32#32) K6 Qv)
    (iota .tc S128x128 32 [1] iota_S128x128_d1_w32) k0_pay22 k0_pay23 k0_pay24

/-- The last nine levels inside one subtree, up to the side-by-side form of the ninth step. -/
def localCatTerm (X2 : Vec Ideal S1x1x2x64 .f32) (X3 : Vec Ideal S1x2x2x64 .f32) (X4 : Vec Ideal S1x4x2x64 .f32) (X5 : Vec Ideal S1x8x2x64 .f32) (X6 : Vec Ideal S1x16x2x64 .f32) (X7 : Vec Ideal S1x32x2x64 .f32) (X8 : Vec Ideal S1x64x2x64 .f32) (X9 : Vec Ideal S1x128x2x64 .f32) (X10 : Vec Ideal S1x256x2x64 .f32) (Qv : Vec Ideal S1024x64 .f32) : FVec Ideal S1024x512 .f32 :=
  k0_pay49 (k0_pay46 (k0_pay45 (k0_pay37 (k0_pay33 (k0_pay29 (k0_pay28 (k0_pay26 X2 Qv) k0_pay27 X3 Qv) X4 Qv)
      (k0_pay31 X5) (k0_pay32 X5) Qv) Qv (k0_pay35 X6 Qv) (k0_pay36 X6) (constant S1024x16 .f32 0#32))
      (k0_pay42 X7 Qv) (k0_pay43 X7 Qv) (k0_pay44 X7 Qv) X8 Qv)
      (iota .tc S128x128 32 [0] iota_S128x128_d0_w32) (iota .tc S128x128 32 [1] iota_S128x128_d1_w32) X9 Qv)
    (iota .tc S256x256 32 [0] iota_S256x256_d0_w32) (iota .tc S256x256 32 [1] iota_S256x256_d1_w32) k0_pay47 k0_pay48 (128#32) X10 Qv

/-- The output block after a point: what it held, plus the subtree's weight times the subtree's weighted leaf values. -/
def outTerm (t : BitVec 32) (C8 : FVec Ideal S1024x512 .f32) (X11 : Vec Ideal S1x512x64 .f32)
    (XS : Vec Ideal S1024x128 .f32) (XO : Vec Ideal S1024x64 .f32) : FVec Ideal S1024x64 .f32 :=
  k0_pay2 t C8 (iota .tc S512x512 32 [1] iota_S512x512_d1_w32) k0_pay50 k0_pay51 k0_pay52 k0_pay53 X11 XS XO

end Cert.KernelIdeal.Body

end
-- ==== Proof.Pieces.lean ====
/-
  What the body leaves in its output block and in the carried subtree weights, in the two cases of its condition
  (the first point of a batch tile, and the others), as the named terms of the body applied to the blocks' loads.
-/
import proofs.«171282_j44032004719312_2_alg».proof.Proof.Gen.KernelIdeal.Frame
import proofs.«171282_j44032004719312_2_alg».proof.Proof.BodySpec

set_option maxRecDepth 16384

noncomputable section

namespace Cert.KernelIdeal.Body

open Cert.KernelIdeal Cert.KernelIdeal.Gen Idealize.ShloMosaic Idealize.ShloMosaic.TcCoe Idealize.ShloMosaic.Tactic
open Idealize.ShloMosaic.ValueIdx Idealize.SL Idealize.SL.Sem

theorem zero2 : (![0, 0] : Fin 2 → ℕ) = fun _ => 0 := by
  funext a; match a with | ⟨0, _⟩ => rfl | ⟨1, _⟩ => rfl

/-- At the first point of a batch tile the carried scratch is left at the subtree weights. -/
theorem sout_A_eq (c : Dev nD) (i : grid0.Coords) (arg2 : Memref sig .tc .vmem S1024x64 .f32) (harg2 : arg2.IsWhole) (arg3 : Memref sig .tc .vmem S127x2x64 .f32) (harg3 : arg3.IsWhole) (arg4 : Memref sig .tc .vmem S1x1x2x64 .f32) (harg4 : arg4.IsWhole) (arg5 : Memref sig .tc .vmem S1x2x2x64 .f32) (harg5 : arg5.IsWhole) (arg6 : Memref sig .tc .vmem S1x4x2x64 .f32) (harg6 : arg6.IsWhole) (arg7 : Memref sig .tc .vmem S1x8x2x64 .f32) (harg7 : arg7.IsWhole) (arg8 : Memref sig .tc .vmem S1x16x2x64 .f32) (harg8 : arg8.IsWhole) (arg9 : Memref sig .tc .vmem S1x32x2x64 .f32) (harg9 : arg9.IsWhole) (arg10 : Memref sig .tc .vmem S1x64x2x64 .f32) (harg10 : arg10.IsWhole) (arg11 : Memref sig .tc .vmem S1x128x2x64 .f32) (harg11 : arg11.IsWhole) (arg12 : Memref sig .tc .vmem S1x256x2x64 .f32) (harg12 : arg12.IsWhole) (arg13 : Memref sig .tc .vmem S1x512x64 .f32) (harg13 : arg13.IsWhole) (arg14 : Memref sig .tc .vmem S1024x64 .f32) (harg14 : arg14.IsWhole) (arg15 : Memref sig .tc .vmem S1024x128 .f32) (harg15 : arg15.IsWhole) (hc0 : cond0_0 i) (hc1 : cond0_1 i) (x0 : Vec Ideal S1024x64 .f32) (x1 : Vec Ideal S127x2x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (x11 : Vec Ideal S1x512x64 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11
      = gateTerm (View.readAt (Elt Ideal) arg3.view (Rect.unit (s := S127x2x64) ![0, 0, 0] S1x2x64.size inb_S127x2x64_S1x2x64_0_0_0).toLoadRect (harg3.unread x1)) (View.readAt (Elt Ideal) arg3.view (Rect.unit (s := S127x2x64) ![1, 0, 0] S2x2x64.size inb_S127x2x64_S2x2x64_1_0_0).toLoadRect (harg3.unread x1)) (View.readAt (Elt Ideal) arg3.view (Rect.unit (s := S127x2x64) ![3, 0, 0] S4x2x64.size inb_S127x2x64_S4x2x64_3_0_0).toLoadRect (harg3.unread x1)) (View.readAt (Elt Ideal) arg3.view (Rect.unit (s := S127x2x64) ![7, 0, 0] S8x2x64.size inb_S127x2x64_S8x2x64_7_0_0).toLoadRect (harg3.unread x1)) (View.readAt (Elt Ideal) arg3.view (Rect.unit (s := S127x2x64) ![15, 0, 0] S16x2x64.size inb_S127x2x64_S16x2x64_15_0_0).toLoadRect (harg3.unread x1)) (View.readAt (Elt Ideal) arg3.view (Rect.unit (s := S127x2x64) ![31, 0, 0] S32x2x64.size inb_S127x2x64_S32x2x64_31_0_0).toLoadRect (harg3.unread x1)) (View.readAt (Elt Ideal) arg3.view (Rect.unit (s := S127x2x64) ![63, 0, 0] S64x2x64.size inb_S127x2x64_S64x2x64_63_0_0).toLoadRect (harg3.unread x1)) (View.readAt (Elt Ideal) arg2.view (Rect.unit (s := S1024x64) ![0, 0] S1024x64.size inb_S1024x64_S1024x64_0_0).toLoadRect (harg2.unread x0)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11)]
  unfold kernelRun0_A
  dsimp only
  sl_unfold_run_names
  rw [View.canon_unit_zero zero2]
  rfl

/-- At any other point the output block is left at the accumulated term over what it held and the carried weights. -/
theorem out_B_eq (c : Dev nD) (i : grid0.Coords) (arg2 : Memref sig .tc .vmem S1024x64 .f32) (harg2 : arg2.IsWhole) (arg3 : Memref sig .tc .vmem S127x2x64 .f32) (harg3 : arg3.IsWhole) (arg4 : Memref sig .tc .vmem S1x1x2x64 .f32) (harg4 : arg4.IsWhole) (arg5 : Memref sig .tc .vmem S1x2x2x64 .f32) (harg5 : arg5.IsWhole) (arg6 : Memref sig .tc .vmem S1x4x2x64 .f32) (harg6 : arg6.IsWhole) (arg7 : Memref sig .tc .vmem S1x8x2x64 .f32) (harg7 : arg7.IsWhole) (arg8 : Memref sig .tc .vmem S1x16x2x64 .f32) (harg8 : arg8.IsWhole) (arg9 : Memref sig .tc .vmem S1x32x2x64 .f32) (harg9 : arg9.IsWhole) (arg10 : Memref sig .tc .vmem S1x64x2x64 .f32) (harg10 : arg10.IsWhole) (arg11 : Memref sig .tc .vmem S1x128x2x64 .f32) (harg11 : arg11.IsWhole) (arg12 : Memref sig .tc .vmem S1x256x2x64 .f32) (harg12 : arg12.IsWhole) (arg13 : Memref sig .tc .vmem S1x512x64 .f32) (harg13 : arg13.IsWhole) (arg14 : Memref sig .tc .vmem S1024x64 .f32) (harg14 : arg14.IsWhole) (arg15 : Memref sig .tc .vmem S1024x128 .f32) (harg15 : arg15.IsWhole) (hc0 : ¬cond0_0 i) (hc1 : ¬cond0_1 i) (x0 : Vec Ideal S1024x64 .f32) (x1 : Vec Ideal S127x2x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (x11 : Vec Ideal S1x512x64 .f32)
    (xo12 : Vec Ideal S1024x64 .f32) (xs0 : Vec Ideal S1024x128 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xo12 xs0
      = outTerm (BitVec.ofNat 32 (i 1).val)
          (localCatTerm (View.readAt (Elt Ideal) arg4.view (Rect.unit (s := S1x1x2x64) ![0, 0, 0, 0] S1x1x2x64.size inb_S1x1x2x64_S1x1x2x64_0_0_0_0).toLoadRect (harg4.unread x2)) (View.readAt (Elt Ideal) arg5.view (Rect.unit (s := S1x2x2x64) ![0, 0, 0, 0] S1x2x2x64.size inb_S1x2x2x64_S1x2x2x64_0_0_0_0).toLoadRect (harg5.unread x3)) (View.readAt (Elt Ideal) arg6.view (Rect.unit (s := S1x4x2x64) ![0, 0, 0, 0] S1x4x2x64.size inb_S1x4x2x64_S1x4x2x64_0_0_0_0).toLoadRect (harg6.unread x4)) (View.readAt (Elt Ideal) arg7.view (Rect.unit (s := S1x8x2x64) ![0, 0, 0, 0] S1x8x2x64.size inb_S1x8x2x64_S1x8x2x64_0_0_0_0).toLoadRect (harg7.unread x5)) (View.readAt (Elt Ideal) arg8.view (Rect.unit (s := S1x16x2x64) ![0, 0, 0, 0] S1x16x2x64.size inb_S1x16x2x64_S1x16x2x64_0_0_0_0).toLoadRect (harg8.unread x6)) (View.readAt (Elt Ideal) arg9.view (Rect.unit (s := S1x32x2x64) ![0, 0, 0, 0] S1x32x2x64.size inb_S1x32x2x64_S1x32x2x64_0_0_0_0).toLoadRect (harg9.unread x7)) (View.readAt (Elt Ideal) arg10.view (Rect.unit (s := S1x64x2x64) ![0, 0, 0, 0] S1x64x2x64.size inb_S1x64x2x64_S1x64x2x64_0_0_0_0).toLoadRect (harg10.unread x8)) (View.readAt (Elt Ideal) arg11.view (Rect.unit (s := S1x128x2x64) ![0, 0, 0, 0] S1x128x2x64.size inb_S1x128x2x64_S1x128x2x64_0_0_0_0).toLoadRect (harg11.unread x9)) (View.readAt (Elt Ideal) arg12.view (Rect.unit (s := S1x256x2x64) ![0, 0, 0, 0] S1x256x2x64.size inb_S1x256x2x64_S1x256x2x64_0_0_0_0).toLoadRect (harg12.unread x10)) (View.readAt (Elt Ideal) arg2.view (Rect.unit (s := S1024x64) ![0, 0] S1024x64.size inb_S1024x64_S1024x64_0_0).toLoadRect (harg2.unread x0)))
          (View.readAt (Elt Ideal) arg13.view (Rect.unit (s := S1x512x64) ![0, 0, 0] S1x512x64.size inb_S1x512x64_S1x512x64_0_0_0).toLoadRect (harg13.unread x11))
          (View.readAt (Elt Ideal) arg15.view (Rect.unit (s := S1024x128) ![0, 0] S1024x128.size inb_S1024x128_S1024x128_0_0).toLoadRect (harg15.unread xs0))
          (View.readAt (Elt Ideal) arg14.view (Rect.unit (s := S1024x64) ![0, 0] S1024x64.size inb_S1024x64_S1024x64_0_0).toLoadRect (harg14.unread xo12)) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xo12 xs0)]
  unfold kernelRun0_B
  dsimp only
  sl_unfold_run_names
  rw [View.canon_unit_zero zero2]
  rfl

/-- At the first point of a batch tile the output block is left at the accumulated term over zeros and the subtree
    weights just computed (both read back from what the body itself stored). -/
theorem out_A_eq (c : Dev nD) (i : grid0.Coords) (arg2 : Memref sig .tc .vmem S1024x64 .f32) (harg2 : arg2.IsWhole) (arg3 : Memref sig .tc .vmem S127x2x64 .f32) (harg3 : arg3.IsWhole) (arg4 : Memref sig .tc .vmem S1x1x2x64 .f32) (harg4 : arg4.IsWhole) (arg5 : Memref sig .tc .vmem S1x2x2x64 .f32) (harg5 : arg5.IsWhole) (arg6 : Memref sig .tc .vmem S1x4x2x64 .f32) (harg6 : arg6.IsWhole) (arg7 : Memref sig .tc .vmem S1x8x2x64 .f32) (harg7 : arg7.IsWhole) (arg8 : Memref sig .tc .vmem S1x16x2x64 .f32) (harg8 : arg8.IsWhole) (arg9 : Memref sig .tc .vmem S1x32x2x64 .f32) (harg9 : arg9.IsWhole) (arg10 : Memref sig .tc .vmem S1x64x2x64 .f32) (harg10 : arg10.IsWhole) (arg11 : Memref sig .tc .vmem S1x128x2x64 .f32) (harg11 : arg11.IsWhole) (arg12 : Memref sig .tc .vmem S1x256x2x64 .f32) (harg12 : arg12.IsWhole) (arg13 : Memref sig .tc .vmem S1x512x64 .f32) (harg13 : arg13.IsWhole) (arg14 : Memref sig .tc .vmem S1024x64 .f32) (harg14 : arg14.IsWhole) (arg15 : Memref sig .tc .vmem S1024x128 .f32) (harg15 : arg15.IsWhole) (hc0 : cond0_0 i) (hc1 : cond0_1 i) (x0 : Vec Ideal S1024x64 .f32) (x1 : Vec Ideal S127x2x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (x11 : Vec Ideal S1x512x64 .f32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11
      = outTerm (BitVec.ofNat 32 (i 1).val)
          (localCatTerm (View.readAt (Elt Ideal) arg4.view (Rect.unit (s := S1x1x2x64) ![0, 0, 0, 0] S1x1x2x64.size inb_S1x1x2x64_S1x1x2x64_0_0_0_0).toLoadRect (harg4.unread x2)) (View.readAt (Elt Ideal) arg5.view (Rect.unit (s := S1x2x2x64) ![0, 0, 0, 0] S1x2x2x64.size inb_S1x2x2x64_S1x2x2x64_0_0_0_0).toLoadRect (harg5.unread x3)) (View.readAt (Elt Ideal) arg6.view (Rect.unit (s := S1x4x2x64) ![0, 0, 0, 0] S1x4x2x64.size inb_S1x4x2x64_S1x4x2x64_0_0_0_0).toLoadRect (harg6.unread x4)) (View.readAt (Elt Ideal) arg7.view (Rect.unit (s := S1x8x2x64) ![0, 0, 0, 0] S1x8x2x64.size inb_S1x8x2x64_S1x8x2x64_0_0_0_0).toLoadRect (harg7.unread x5)) (View.readAt (Elt Ideal) arg8.view (Rect.unit (s := S1x16x2x64) ![0, 0, 0, 0] S1x16x2x64.size inb_S1x16x2x64_S1x16x2x64_0_0_0_0).toLoadRect (harg8.unread x6)) (View.readAt (Elt Ideal) arg9.view (Rect.unit (s := S1x32x2x64) ![0, 0, 0, 0] S1x32x2x64.size inb_S1x32x2x64_S1x32x2x64_0_0_0_0).toLoadRect (harg9.unread x7)) (View.readAt (Elt Ideal) arg10.view (Rect.unit (s := S1x64x2x64) ![0, 0, 0, 0] S1x64x2x64.size inb_S1x64x2x64_S1x64x2x64_0_0_0_0).toLoadRect (harg10.unread x8)) (View.readAt (Elt Ideal) arg11.view (Rect.unit (s := S1x128x2x64) ![0, 0, 0, 0] S1x128x2x64.size inb_S1x128x2x64_S1x128x2x64_0_0_0_0).toLoadRect (harg11.unread x9)) (View.readAt (Elt Ideal) arg12.view (Rect.unit (s := S1x256x2x64) ![0, 0, 0, 0] S1x256x2x64.size inb_S1x256x2x64_S1x256x2x64_0_0_0_0).toLoadRect (harg12.unread x10)) (View.readAt (Elt Ideal) arg2.view (Rect.unit (s := S1024x64) ![0, 0] S1024x64.size inb_S1024x64_S1024x64_0_0).toLoadRect (harg2.unread x0)))
          (View.readAt (Elt Ideal) arg13.view (Rect.unit (s := S1x512x64) ![0, 0, 0] S1x512x64.size inb_S1x512x64_S1x512x64_0_0_0).toLoadRect (harg13.unread x11))
          (gateTerm (View.readAt (Elt Ideal) arg3.view (Rect.unit (s := S127x2x64) ![0, 0, 0] S1x2x64.size inb_S127x2x64_S1x2x64_0_0_0).toLoadRect (harg3.unread x1)) (View.readAt (Elt Ideal) arg3.view (Rect.unit (s := S127x2x64) ![1, 0, 0] S2x2x64.size inb_S127x2x64_S2x2x64_1_0_0).toLoadRect (harg3.unread x1)) (View.readAt (Elt Ideal) arg3.view (Rect.unit (s := S127x2x64) ![3, 0, 0] S4x2x64.size inb_S127x2x64_S4x2x64_3_0_0).toLoadRect (harg3.unread x1)) (View.readAt (Elt Ideal) arg3.view (Rect.unit (s := S127x2x64) ![7, 0, 0] S8x2x64.size inb_S127x2x64_S8x2x64_7_0_0).toLoadRect (harg3.unread x1)) (View.readAt (Elt Ideal) arg3.view (Rect.unit (s := S127x2x64) ![15, 0, 0] S16x2x64.size inb_S127x2x64_S16x2x64_15_0_0).toLoadRect (harg3.unread x1)) (View.readAt (Elt Ideal) arg3.view (Rect.unit (s := S127x2x64) ![31, 0, 0] S32x2x64.size inb_S127x2x64_S32x2x64_31_0_0).toLoadRect (harg3.unread x1)) (View.readAt (Elt Ideal) arg3.view (Rect.unit (s := S127x2x64) ![63, 0, 0] S64x2x64.size inb_S127x2x64_S64x2x64_63_0_0).toLoadRect (harg3.unread x1)) (View.readAt (Elt Ideal) arg2.view (Rect.unit (s := S1024x64) ![0, 0] S1024x64.size inb_S1024x64_S1024x64_0_0).toLoadRect (harg2.unread x0)))
          (k0_pay1 (F := Ideal)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11)]
  unfold kernelRun0_A
  dsimp only
  sl_unfold_run_names
  rw [View.canon_cons_unit_zero zero2, View.readCov_unit_zero _ zero2, View.readCov_unit_zero _ zero2]
  rfl

end Cert.KernelIdeal.Body

end
-- ==== Proof.GateBody.lean ====
/-
  The subtree weights the kernel computes are the path weights of level 7 of the tree.
-/
import proofs.«171282_j44032004719312_2_alg».proof.Proof.BodySpec

set_option maxRecDepth 16384

noncomputable section

namespace Cert.KernelIdeal.Body

open Cert.KernelIdeal Cert.KernelIdeal.Gen Idealize.ShloMosaic Idealize.ShloMosaic.ValueIdx TreeWeights KernelLevel

/-- The 32-bit pattern 0x3F800000 is the number 1. -/
theorem one_bits : Ideal.ofBits .f32 0x3F800000#32 = 1 := by
  simp [Ideal.ofBits, Ideal.ieee, -EReal.coe_mul]; norm_num

/-- Level 0, read at (r, j): the constant weight 1 times the share of child `j % 2` of the root. -/
theorem pay3_row (K : Vec Ideal S1x2x64 .f32) (Qv : Vec Ideal S1024x64 .f32) (r : Fin 1024)
    (l : ℕ → ℕ → EReal)
    (hl : ∀ (i : Fin 1) (c : Fin 2), (∑ x : Fin 64, Qv (ix2 r x) * K (ix3 i c x) : EReal) = l i.val c.val)
    (j : Fin 2) :
    k0_pay3 K Qv (ix2 r j) = stepN (fun _ => 1) (fun i => l i 0) (fun i => l i 1) j.val := by
  unfold k0_pay3
  refine (klevel_core (B := 1024) (n := 1) (m := 2) rfl _ _ _ _ _ _ _
    (permMat_apply 2 1 _ _ _ rfl (by norm_num)) r j).trans ?_
  show _ = (1 : EReal) * share2 (l (j.val / 2) 0) (l (j.val / 2) 1) (j.val % 2)
  exact congrArg₂ (· * ·) one_bits
    (congrArg₂ (fun a b => share2 a b (j.val % 2))
      ((keys_logit_apply 0 (by norm_num) _ _ Qv K _ _ _ _ r _).trans (hl ⟨j.val / 2, by have := j.isLt; omega⟩ ⟨0, by norm_num⟩))
      ((keys_logit_apply 1 (by norm_num) _ _ Qv K _ _ _ _ r _).trans (hl ⟨j.val / 2, by have := j.isLt; omega⟩ ⟨1, by norm_num⟩)))

/-- Level 1, read at (r, j): the weight of node `j / 2` times the share of its child `j % 2`. -/
theorem pay6_row (P : FVec Ideal S1024x2 .f32) (K : Vec Ideal S2x2x64 .f32) (Qv : Vec Ideal S1024x64 .f32) (r : Fin 1024)
    (W : ℕ → EReal) (l : ℕ → ℕ → EReal) (hP : ∀ i : Fin 2, P (ix2 r i) = W i.val)
    (hl : ∀ (i : Fin 2) (c : Fin 2), (∑ x : Fin 64, Qv (ix2 r x) * K (ix3 i c x) : EReal) = l i.val c.val)
    (j : Fin 4) :
    k0_pay6 P (k0_pay4 K) (k0_pay5 K) Qv (ix2 r j) = stepN W (fun i => l i 0) (fun i => l i 1) j.val := by
  unfold k0_pay6 k0_pay5 k0_pay4
  refine (klevel_core (B := 1024) (n := 2) (m := 4) rfl _ _ P _ _ _ _
    (permMat_apply 4 2 _ _ _ rfl (by norm_num)) r j).trans ?_
  show _ = W (j.val / 2) * share2 (l (j.val / 2) 0) (l (j.val / 2) 1) (j.val % 2)
  exact congrArg₂ (· * ·) (hP ⟨j.val / 2, by have := j.isLt; omega⟩)
    (congrArg₂ (fun a b => share2 a b (j.val % 2))
      ((keys_logit_apply 0 (by norm_num) _ _ Qv K _ _ _ _ r _).trans (hl ⟨j.val / 2, by have := j.isLt; omega⟩ ⟨0, by norm_num⟩))
      ((keys_logit_apply 1 (by norm_num) _ _ Qv K _ _ _ _ r _).trans (hl ⟨j.val / 2, by have := j.isLt; omega⟩ ⟨1, by norm_num⟩)))

/-- Level 2, read at (r, j). -/
theorem pay10_row (P : FVec Ideal S1024x4 .f32) (K : Vec Ideal S4x2x64 .f32) (Qv : Vec Ideal S1024x64 .f32) (r : Fin 1024)
    (W : ℕ → EReal) (l : ℕ → ℕ → EReal) (hP : ∀ i : Fin 4, P (ix2 r i) = W i.val)
    (hl : ∀ (i : Fin 4) (c : Fin 2), (∑ x : Fin 64, Qv (ix2 r x) * K (ix3 i c x) : EReal) = l i.val c.val)
    (j : Fin 8) :
    k0_pay10 P (k0_pay8 K) Qv (k0_pay9 K) (constant S1024x4 .f32 0#32) (ix2 r j)
      = stepN W (fun i => l i 0) (fun i => l i 1) j.val := by
  unfold k0_pay10 k0_pay9 k0_pay8 k0_pay7
  refine (klevel_core (B := 1024) (n := 4) (m := 8) rfl _ _ P _ _ _ _
    (permMat_apply 8 4 _ _ _ rfl (by norm_num)) r j).trans ?_
  show _ = W (j.val / 2) * share2 (l (j.val / 2) 0) (l (j.val / 2) 1) (j.val % 2)
  exact congrArg₂ (· * ·) (hP ⟨j.val / 2, by have := j.isLt; omega⟩)
    (congrArg₂ (fun a b => share2 a b (j.val % 2))
      ((keys_logit_apply 0 (by norm_num) _ _ Qv K _ _ _ _ r _).trans (hl ⟨j.val / 2, by have := j.isLt; omega⟩ ⟨0, by norm_num⟩))
      ((keys_logit_apply 1 (by norm_num) _ _ Qv K _ _ _ _ r _).trans (hl ⟨j.val / 2, by have := j.isLt; omega⟩ ⟨1, by norm_num⟩)))

/-! ## One tree step on a row, from what the arrays hold on that row -/

/-- The side-by-side form of a step, read on row `r`: from the node weights and the two logit arrays on that row. -/
theorem kcat_soft_row {B n m : ℕ} (hm : m = 2 * n) (P LL LR : FVec Ideal (M2 B n) .f32)
    (hC : Shape.Concatenates [M2 B n, M2 B n] (M2 B m) 1) (r : Fin B) (W a b : ℕ → EReal)
    (hP : ∀ i : Fin n, P (ix2 r i) = W i.val) (hLL : ∀ i : Fin n, LL (ix2 r i) = a i.val)
    (hLR : ∀ i : Fin n, LR (ix2 r i) = b i.val) (j : Fin m) :
    concatenate (M2 B m) 1
        [⟨M2 B n, mulf P (divf (exp (subf LL (maximumf LL LR)))
            (addf (exp (subf LL (maximumf LL LR))) (exp (subf LR (maximumf LL LR)))))⟩,
          ⟨M2 B n, mulf P (divf (exp (subf LR (maximumf LL LR)))
            (addf (exp (subf LL (maximumf LL LR))) (exp (subf LR (maximumf LL LR)))))⟩] hC (ix2 r j)
      = catN n W a b j.val := by
  rw [kcat_soft hm P LL LR hC r j]
  unfold catN
  split_ifs with h
  · rw [hP, hLL, hLR]
  · rw [hP, hLL, hLR]

/-- A whole step (side by side, then interleaved), read on row `r`. -/
theorem klevel_row {B n m : ℕ} (hm : m = 2 * n)
    (wf : DotDims.WF (M2 B m) (M2 m m) (M2 B m) [1] [0] [0] [1] [] []) (prec : Option ContractPrecision)
    (P LL LR : FVec Ideal (M2 B n) .f32) (hC : Shape.Concatenates [M2 B n, M2 B n] (M2 B m) 1)
    (Pm : FVec Ideal (M2 m m) .f32)
    (hPm : ∀ i j : Fin m, Pm (ix2 i j) = if j.val = dest n i.val then (1 : EReal) else 0) (r : Fin B)
    (W a b : ℕ → EReal)
    (hP : ∀ i : Fin n, P (ix2 r i) = W i.val) (hLL : ∀ i : Fin n, LL (ix2 r i) = a i.val)
    (hLR : ∀ i : Fin n, LR (ix2 r i) = b i.val) (j : Fin m) :
    matmul (⟨[1], [0], [0], [1], [], [], wf⟩ : DotDims (M2 B m) (M2 m m) (M2 B m)) prec
        (concatenate (M2 B m) 1
          [⟨M2 B n, mulf P (divf (exp (subf LL (maximumf LL LR)))
              (addf (exp (subf LL (maximumf LL LR))) (exp (subf LR (maximumf LL LR)))))⟩,
            ⟨M2 B n, mulf P (divf (exp (subf LR (maximumf LL LR)))
              (addf (exp (subf LL (maximumf LL LR))) (exp (subf LR (maximumf LL LR)))))⟩] hC) Pm
        (constant (F := Ideal) (M2 B m) .f32 0x00000000#32) (ix2 r j)
      = stepN W a b j.val := by
  rw [klevel_core hm wf prec P LL LR hC Pm hPm r j, hP, hLL, hLR]
  rfl

/-- The interleaving of a side-by-side form, read on row `r`, is the step. -/
theorem interleave_row {B m : ℕ} (n : ℕ) (hm : m = 2 * n)
    (wf : DotDims.WF (M2 B m) (M2 m m) (M2 B m) [1] [0] [0] [1] [] []) (prec : Option ContractPrecision)
    (C : FVec Ideal (M2 B m) .f32) (Pm : FVec Ideal (M2 m m) .f32)
    (hPm : ∀ i j : Fin m, Pm (ix2 i j) = if j.val = dest n i.val then (1 : EReal) else 0) (r : Fin B)
    (W a b : ℕ → EReal) (hC : ∀ i : Fin m, C (ix2 r i) = catN n W a b i.val) (j : Fin m) :
    matmul (⟨[1], [0], [0], [1], [], [], wf⟩ : DotDims (M2 B m) (M2 m m) (M2 B m)) prec C Pm
        (constant (F := Ideal) (M2 B m) .f32 0x00000000#32) (ix2 r j)
      = stepN W a b j.val := by
  rw [interleave_matmul_apply n hm wf prec C Pm hPm r j, hC]
  exact catN_srcOf n W a b j.val (by have := j.isLt; omega)

/-- Level 3 finished from its two exponent arrays, then level 4 up to the side-by-side form, read at (r, j). -/
theorem pay17_row (P : FVec Ideal S1024x8 .f32) (K3 : Vec Ideal S8x2x64 .f32) (K4 : Vec Ideal S16x2x64 .f32)
    (Qv : Vec Ideal S1024x64 .f32) (r : Fin 1024) (W : ℕ → EReal) (l3 l4 : ℕ → ℕ → EReal)
    (hP : ∀ i : Fin 8, P (ix2 r i) = W i.val)
    (hl3 : ∀ (i : Fin 8) (c : Fin 2), (∑ x : Fin 64, Qv (ix2 r x) * K3 (ix3 i c x) : EReal) = l3 i.val c.val)
    (hl4 : ∀ (i : Fin 16) (c : Fin 2), (∑ x : Fin 64, Qv (ix2 r x) * K4 (ix3 i c x) : EReal) = l4 i.val c.val)
    (j : Fin 32) :
    k0_pay17 P (k0_pay15 K3 Qv) (k0_pay16 K3 Qv) K4 Qv (ix2 r j)
      = catN 16 (stepN W (fun i => l3 i 0) (fun i => l3 i 1)) (fun i => l4 i 0) (fun i => l4 i 1) j.val := by
  unfold k0_pay17 k0_pay16 k0_pay15 k0_pay14 k0_pay13 k0_pay12 k0_pay11
  refine kcat_soft_row (B := 1024) (n := 16) (m := 32) rfl _ _ _ _ r _ _ _ ?_ ?_ ?_ j
  · intro i
    exact klevel_row (B := 1024) (n := 8) (m := 16) rfl _ _ P _ _ _ _
      (permMat_apply 16 8 _ _ _ rfl (by norm_num)) r W _ _ hP
      (fun i => (keys_logit_apply 0 (by norm_num) _ _ Qv K3 _ _ _ _ r i).trans (hl3 i ⟨0, by norm_num⟩))
      (fun i => (keys_logit_apply 1 (by norm_num) _ _ Qv K3 _ _ _ _ r i).trans (hl3 i ⟨1, by norm_num⟩)) i
  · intro i
    exact (keys_logit_apply 0 (by norm_num) _ _ Qv K4 _ _ _ _ r i).trans (hl4 i ⟨0, by norm_num⟩)
  · intro i
    exact (keys_logit_apply 1 (by norm_num) _ _ Qv K4 _ _ _ _ r i).trans (hl4 i ⟨1, by norm_num⟩)

/-- Level 4's interleaving, then level 5 up to the side-by-side form, read at (r, j). -/
theorem pay18_row (C : FVec Ideal S1024x32 .f32) (K5 : Vec Ideal S32x2x64 .f32) (Qv : Vec Ideal S1024x64 .f32)
    (r : Fin 1024) (W a b : ℕ → EReal) (l5 : ℕ → ℕ → EReal)
    (hC : ∀ i : Fin 32, C (ix2 r i) = catN 16 W a b i.val)
    (hl5 : ∀ (i : Fin 32) (c : Fin 2), (∑ x : Fin 64, Qv (ix2 r x) * K5 (ix3 i c x) : EReal) = l5 i.val c.val)
    (j : Fin 64) :
    k0_pay18 C (iota .tc S32x32 32 [0] iota_S32x32_d0_w32) K5 Qv (ix2 r j)
      = catN 32 (stepN W a b) (fun i => l5 i 0) (fun i => l5 i 1) j.val := by
  unfold k0_pay18
  refine kcat_soft_row (B := 1024) (n := 32) (m := 64) rfl _ _ _ _ r _ _ _ ?_ ?_ ?_ j
  · intro i
    exact interleave_row (B := 1024) (m := 32) 16 rfl _ _ C _
      (permMat_apply 32 16 _ _ _ rfl (by norm_num)) r W a b hC i
  · intro i
    exact (keys_logit_apply 0 (by norm_num) _ _ Qv K5 _ _ _ _ r i).trans (hl5 i ⟨0, by norm_num⟩)
  · intro i
    exact (keys_logit_apply 1 (by norm_num) _ _ Qv K5 _ _ _ _ r i).trans (hl5 i ⟨1, by norm_num⟩)

/-- Level 5's interleaving, then level 6 up to the side-by-side form, read at (r, j). -/
theorem pay21_row (C : FVec Ideal S1024x64 .f32) (K6 : Vec Ideal S64x2x64 .f32) (Qv : Vec Ideal S1024x64 .f32)
    (r : Fin 1024) (W a b : ℕ → EReal) (l6 : ℕ → ℕ → EReal)
    (hC : ∀ i : Fin 64, C (ix2 r i) = catN 32 W a b i.val)
    (hl6 : ∀ (i : Fin 64) (c : Fin 2), (∑ x : Fin 64, Qv (ix2 r x) * K6 (ix3 i c x) : EReal) = l6 i.val c.val)
    (j : Fin 128) :
    k0_pay21 C (iota .tc S64x64 32 [0] iota_S64x64_d0_w32) (iota .tc S64x64 32 [1] iota_S64x64_d1_w32)
        k0_pay19 k0_pay20 (32#32) K6 Qv (ix2 r j)
      = catN 64 (stepN W a b) (fun i => l6 i 0) (fun i => l6 i 1) j.val := by
  unfold k0_pay21 k0_pay20 k0_pay19
  refine kcat_soft_row (B := 1024) (n := 64) (m := 128) rfl _ _ _ _ r _ _ _ ?_ ?_ ?_ j
  · intro i
    exact interleave_row (B := 1024) (m := 64) 32 rfl _ _ C _
      (permMat_apply 64 32 _ _ _ rfl (by norm_num)) r W a b hC i
  · intro i
    exact (keys_logit_apply 0 (by norm_num) _ _ Qv K6 _ _ _ _ r i).trans (hl6 i ⟨0, by norm_num⟩)
  · intro i
    exact (keys_logit_apply 1 (by norm_num) _ _ Qv K6 _ _ _ _ r i).trans (hl6 i ⟨1, by norm_num⟩)

/-- Level 6's interleaving (behind a cast to its own shape), read at (r, j). -/
theorem pay25_row (C : FVec Ideal S1024x128 .f32) (r : Fin 1024) (W a b : ℕ → EReal)
    (hC : ∀ i : Fin 128, C (ix2 r i) = catN 64 W a b i.val) (j : Fin 128) :
    k0_pay25 C (iota .tc S128x128 32 [1] iota_S128x128_d1_w32) k0_pay22 k0_pay23 k0_pay24 (ix2 r j)
      = stepN W a b j.val := by
  unfold k0_pay25 k0_pay24 k0_pay23 k0_pay22
  refine (congrFun (shapeCast_self _ _) (ix2 r j)).trans ?_
  exact interleave_row (B := 1024) (m := 128) 64 rfl _ _ C _
    (permMat_apply 128 64 _ _ _ rfl (by norm_num)) r W a b hC j

/-! ## Folding the steps into path weights -/

/-- One step down from level `d`, whose first node has the number `off = 2^d - 1`, gives level `d + 1`'s path weights. -/
theorem pathW_step (lg : ℕ → ℕ → EReal) (d off : ℕ) (h : 2 ^ d - 1 = off) (j : ℕ) :
    stepN (pathW (fun node c => share2 (lg node 0) (lg node 1) c) d) (fun i => lg (off + i) 0) (fun i => lg (off + i) 1) j
      = pathW (fun node c => share2 (lg node 0) (lg node 1) c) (d + 1) j := by
  subst h; rfl

/-- The same inside the side-by-side form of the following step. -/
theorem catN_pathW_step (lg : ℕ → ℕ → EReal) (n d off : ℕ) (h : 2 ^ d - 1 = off) (a b : ℕ → EReal) (j : ℕ) :
    catN n (stepN (pathW (fun node c => share2 (lg node 0) (lg node 1) c) d) (fun i => lg (off + i) 0)
        (fun i => lg (off + i) 1)) a b j
      = catN n (pathW (fun node c => share2 (lg node 0) (lg node 1) c) (d + 1)) a b j :=
  congrArg (fun W => catN n W a b j) (funext (pathW_step lg d off h))

/-- Row `r` of the subtree weights: with `lg node c` the row's logit for child `c` of node `node` (level `d`'s
    nodes at `2^d - 1 + i`), entry `j` is the path weight of node `j` of level 7. -/
theorem gateTerm_apply (K0 : Vec Ideal S1x2x64 .f32) (K1 : Vec Ideal S2x2x64 .f32) (K2 : Vec Ideal S4x2x64 .f32) (K3 : Vec Ideal S8x2x64 .f32) (K4 : Vec Ideal S16x2x64 .f32) (K5 : Vec Ideal S32x2x64 .f32) (K6 : Vec Ideal S64x2x64 .f32) (Qv : Vec Ideal S1024x64 .f32) (r : Fin 1024) (lg : ℕ → ℕ → EReal)
    (h0 : ∀ (i : Fin 1) (c : Fin 2), (∑ x : Fin 64, Qv (ix2 r x) * K0 (ix3 i c x) : EReal) = lg (0 + i.val) c.val)
    (h1 : ∀ (i : Fin 2) (c : Fin 2), (∑ x : Fin 64, Qv (ix2 r x) * K1 (ix3 i c x) : EReal) = lg (1 + i.val) c.val)
    (h2 : ∀ (i : Fin 4) (c : Fin 2), (∑ x : Fin 64, Qv (ix2 r x) * K2 (ix3 i c x) : EReal) = lg (3 + i.val) c.val)
    (h3 : ∀ (i : Fin 8) (c : Fin 2), (∑ x : Fin 64, Qv (ix2 r x) * K3 (ix3 i c x) : EReal) = lg (7 + i.val) c.val)
    (h4 : ∀ (i : Fin 16) (c : Fin 2), (∑ x : Fin 64, Qv (ix2 r x) * K4 (ix3 i c x) : EReal) = lg (15 + i.val) c.val)
    (h5 : ∀ (i : Fin 32) (c : Fin 2), (∑ x : Fin 64, Qv (ix2 r x) * K5 (ix3 i c x) : EReal) = lg (31 + i.val) c.val)
    (h6 : ∀ (i : Fin 64) (c : Fin 2), (∑ x : Fin 64, Qv (ix2 r x) * K6 (ix3 i c x) : EReal) = lg (63 + i.val) c.val)
    (j : Fin 128) :
    gateTerm K0 K1 K2 K3 K4 K5 K6 Qv (ix2 r j) = pathW (fun node c => share2 (lg node 0) (lg node 1) c) 7 j.val := by
  unfold gateTerm
  -- from the outermost array inwards: each stage turns what the previous one holds on row `r` into the next tree step
  refine (pay25_row _ r (pathW _ 6) (fun i => lg (63 + i) 0) (fun i => lg (63 + i) 1) (fun i6 => ?_) j).trans
    (pathW_step lg 6 63 (by norm_num) j.val)
  refine (pay21_row _ K6 Qv r (pathW _ 5) (fun i => lg (31 + i) 0) (fun i => lg (31 + i) 1)
    (fun i c => lg (63 + i) c) (fun i5 => ?_) h6 i6).trans (catN_pathW_step lg 64 5 31 (by norm_num) _ _ i6.val)
  refine (pay18_row _ K5 Qv r (pathW _ 4) (fun i => lg (15 + i) 0) (fun i => lg (15 + i) 1)
    (fun i c => lg (31 + i) c) (fun i4 => ?_) h5 i5).trans (catN_pathW_step lg 32 4 15 (by norm_num) _ _ i5.val)
  refine (pay17_row _ K3 K4 Qv r (pathW _ 3) (fun i c => lg (7 + i) c) (fun i c => lg (15 + i) c)
    (fun i3 => ?_) h3 h4 i4).trans (catN_pathW_step lg 16 3 7 (by norm_num) _ _ i4.val)
  refine (pay10_row _ K2 Qv r (pathW _ 2) (fun i c => lg (3 + i) c) (fun i2 => ?_) h2 i3).trans
    (pathW_step lg 2 3 (by norm_num) i3.val)
  refine (pay6_row _ K1 Qv r (pathW _ 1) (fun i c => lg (1 + i) c) (fun i1 => ?_) h1 i2).trans
    (pathW_step lg 1 1 (by norm_num) i2.val)
  exact (pay3_row K0 Qv r (fun i c => lg (0 + i) c) h0 i1).trans (pathW_step lg 0 0 (by norm_num) i1.val)

end Cert.KernelIdeal.Body

end
-- ==== Proof.LocalBody.lean ====
/-
  The nine levels inside one subtree: the side-by-side form of the ninth step over the weights of the eighth.
-/
import proofs.«171282_j44032004719312_2_alg».proof.Proof.BodySpec

set_option maxRecDepth 16384

noncomputable section

namespace Cert.KernelIdeal.Body

open Cert.KernelIdeal Cert.KernelIdeal.Gen Idealize.ShloMosaic Idealize.ShloMosaic.ValueIdx TreeWeights KernelLevel

/-! ## One level over one row: the arrays read through functions of the column number -/

/-- A step only reads the node weights at the parent. -/
theorem stepN_congr (P P' l0 l1 : ℕ → EReal) (j : ℕ) (h : P (j / 2) = P' (j / 2)) :
    stepN P l0 l1 j = stepN P' l0 l1 j := by
  unfold stepN; rw [h]

/-- The interleaving product over one row: column `j` of the result is column `srcOf n j` of the row. -/
theorem interleave_row_loc {B m : ℕ} (n : ℕ) (hm : m = 2 * n)
    (wf : DotDims.WF (M2 B m) (M2 m m) (M2 B m) [1] [0] [0] [1] [] []) (prec : Option ContractPrecision)
    (C : FVec Ideal (M2 B m) .f32) (Pm : FVec Ideal (M2 m m) .f32)
    (hP : ∀ i j : Fin m, Pm (ix2 i j) = if j.val = dest n i.val then (1 : EReal) else 0) (r : Fin B) (j : Fin m)
    (Cf : ℕ → EReal) (hC : ∀ i : Fin m, C (ix2 r i) = Cf i.val) :
    matmul (⟨[1], [0], [0], [1], [], [], wf⟩ : DotDims (M2 B m) (M2 m m) (M2 B m)) prec C Pm
        (constant (F := Ideal) (M2 B m) .f32 0x00000000#32) (ix2 r j)
      = Cf (srcOf n j.val) := by
  rw [interleave_matmul_apply n hm wf prec C Pm hP r j, hC]

/-- One whole level over one row: a step. -/
theorem klevel_row_loc {B n m : ℕ} (hm : m = 2 * n)
    (wf : DotDims.WF (M2 B m) (M2 m m) (M2 B m) [1] [0] [0] [1] [] []) (prec : Option ContractPrecision)
    (P LL LR : FVec Ideal (M2 B n) .f32) (hC : Shape.Concatenates [M2 B n, M2 B n] (M2 B m) 1)
    (Pm : FVec Ideal (M2 m m) .f32)
    (hP : ∀ i j : Fin m, Pm (ix2 i j) = if j.val = dest n i.val then (1 : EReal) else 0) (r : Fin B) (j : Fin m)
    (Pf l0 l1 : ℕ → EReal) (hPf : ∀ i : Fin n, P (ix2 r i) = Pf i.val)
    (h0 : ∀ i : Fin n, LL (ix2 r i) = l0 i.val) (h1 : ∀ i : Fin n, LR (ix2 r i) = l1 i.val) :
    matmul (⟨[1], [0], [0], [1], [], [], wf⟩ : DotDims (M2 B m) (M2 m m) (M2 B m)) prec
        (concatenate (M2 B m) 1
          [⟨M2 B n, mulf P (divf (exp (subf LL (maximumf LL LR)))
              (addf (exp (subf LL (maximumf LL LR))) (exp (subf LR (maximumf LL LR)))))⟩,
            ⟨M2 B n, mulf P (divf (exp (subf LR (maximumf LL LR)))
              (addf (exp (subf LL (maximumf LL LR))) (exp (subf LR (maximumf LL LR)))))⟩] hC) Pm
        (constant (F := Ideal) (M2 B m) .f32 0x00000000#32) (ix2 r j)
      = stepN Pf l0 l1 j.val := by
  rw [klevel_core hm wf prec P LL LR hC Pm hP r j, hPf, h0, h1]
  rfl

/-- The side-by-side form of one level over one row. -/
theorem kcat_soft_row_loc {B n m : ℕ} (hm : m = 2 * n) (P LL LR : FVec Ideal (M2 B n) .f32)
    (hC : Shape.Concatenates [M2 B n, M2 B n] (M2 B m) 1) (r : Fin B) (j : Fin m)
    (Pf l0 l1 : ℕ → EReal) (hPf : ∀ i : Fin n, P (ix2 r i) = Pf i.val)
    (h0 : ∀ i : Fin n, LL (ix2 r i) = l0 i.val) (h1 : ∀ i : Fin n, LR (ix2 r i) = l1 i.val) :
    concatenate (M2 B m) 1
        [⟨M2 B n, mulf P (divf (exp (subf LL (maximumf LL LR)))
            (addf (exp (subf LL (maximumf LL LR))) (exp (subf LR (maximumf LL LR)))))⟩,
          ⟨M2 B n, mulf P (divf (exp (subf LR (maximumf LL LR)))
            (addf (exp (subf LL (maximumf LL LR))) (exp (subf LR (maximumf LL LR)))))⟩] hC (ix2 r j)
      = catN n Pf l0 l1 j.val := by
  rw [kcat_soft hm P LL LR hC r j]
  unfold catN
  by_cases h : j.val < n
  · rw [dif_pos h, if_pos h, hPf, h0, h1]
  · rw [dif_neg h, if_neg h, hPf, h0, h1]

/-- One level finished from the two numerators and the denominator, over one row: a step. -/
theorem kden_row {B n m : ℕ} (hm : m = 2 * n)
    (wf : DotDims.WF (M2 B m) (M2 m m) (M2 B m) [1] [0] [0] [1] [] []) (prec : Option ContractPrecision)
    (P EL ER DEN : FVec Ideal (M2 B n) .f32) (hC : Shape.Concatenates [M2 B n, M2 B n] (M2 B m) 1)
    (Pm : FVec Ideal (M2 m m) .f32)
    (hP : ∀ i j : Fin m, Pm (ix2 i j) = if j.val = dest n i.val then (1 : EReal) else 0) (r : Fin B) (j : Fin m)
    (Pf l0 l1 : ℕ → EReal) (hPf : ∀ i : Fin n, P (ix2 r i) = Pf i.val)
    (hEL : ∀ i : Fin n, EL (ix2 r i) = Ideal.exp (l0 i.val - max (l0 i.val) (l1 i.val)))
    (hER : ∀ i : Fin n, ER (ix2 r i) = Ideal.exp (l1 i.val - max (l0 i.val) (l1 i.val)))
    (hDEN : ∀ i : Fin n, DEN (ix2 r i)
      = Ideal.exp (l0 i.val - max (l0 i.val) (l1 i.val)) + Ideal.exp (l1 i.val - max (l0 i.val) (l1 i.val))) :
    matmul (⟨[1], [0], [0], [1], [], [], wf⟩ : DotDims (M2 B m) (M2 m m) (M2 B m)) prec
        (concatenate (M2 B m) 1 [⟨M2 B n, mulf P (divf EL DEN)⟩, ⟨M2 B n, mulf P (divf ER DEN)⟩] hC) Pm
        (constant (F := Ideal) (M2 B m) .f32 0x00000000#32) (ix2 r j)
      = stepN Pf l0 l1 j.val := by
  rw [kden_core hm wf prec P EL ER DEN hC Pm hP r j]
  unfold stepN
  by_cases h : j.val % 2 = 0
  · rw [if_pos h, hPf, hEL, hDEN, h, share2_zero]; rfl
  · have h1 : j.val % 2 = 1 := by omega
    rw [if_neg h, hPf, hER, hDEN, h1, share2_one, ← share_swap]

/-- The float 1. -/
theorem one_bits_loc : Ideal.ofBits .f32 0x3F800000#32 = 1 := by
  simp [Ideal.ofBits, Ideal.ieee, -EReal.coe_mul]; norm_num

/-! ## The body's named values, each read at one row -/

/-- Level 0 up to the side-by-side form; the root's weight is the constant 1. -/
theorem pay26_row (X : Vec Ideal S1x1x2x64 .f32) (Qv : Vec Ideal S1024x64 .f32) (r : Fin 1024) (j : Fin 2)
    (l0 l1 : ℕ → EReal)
    (hl0 : ∀ i : Fin 1, (∑ x : Fin 64, Qv (ix2 r x) * X (ix4 (0 : Fin 1) i (0 : Fin 2) x) : EReal) = l0 i.val)
    (hl1 : ∀ i : Fin 1, (∑ x : Fin 64, Qv (ix2 r x) * X (ix4 (0 : Fin 1) i (1 : Fin 2) x) : EReal) = l1 i.val) :
    k0_pay26 X Qv (ix2 r j) = catN 1 (fun _ => 1) l0 l1 j.val := by
  unfold k0_pay26
  exact kcat_soft_row_loc (B := 1024) (n := 1) (m := 2) rfl _ _ _ _ r j (fun _ => 1) l0 l1 (fun _ => one_bits_loc)
    (fun i => (block_logit_apply 0 (by norm_num) _ _ Qv X _ _ _ _ r i).trans (hl0 i))
    (fun i => (block_logit_apply 1 (by norm_num) _ _ Qv X _ _ _ _ r i).trans (hl1 i))

/-- The 0/1 matrix of level 0's interleaving. -/
theorem pay27_apply (i j : Fin 2) :
    (sitofp .f32 k0_pay27 : FVec Ideal S2x2 .f32) (ix2 i j) = if j.val = dest 1 i.val then (1 : EReal) else 0 := by
  unfold k0_pay27
  exact permMat_apply 2 1 _ _ _ rfl (by norm_num) i j

/-- Level 0's interleaving, then level 1 whole. -/
theorem pay28_row (C : FVec Ideal S1024x2 .f32) (X : Vec Ideal S1x2x2x64 .f32) (Qv : Vec Ideal S1024x64 .f32)
    (r : Fin 1024) (j : Fin 4) (Cf l0 l1 : ℕ → EReal) (hC : ∀ i : Fin 2, C (ix2 r i) = Cf i.val)
    (hl0 : ∀ i : Fin 2, (∑ x : Fin 64, Qv (ix2 r x) * X (ix4 (0 : Fin 1) i (0 : Fin 2) x) : EReal) = l0 i.val)
    (hl1 : ∀ i : Fin 2, (∑ x : Fin 64, Qv (ix2 r x) * X (ix4 (0 : Fin 1) i (1 : Fin 2) x) : EReal) = l1 i.val) :
    k0_pay28 C k0_pay27 X Qv (ix2 r j) = stepN (fun i => Cf (srcOf 1 i)) l0 l1 j.val := by
  unfold k0_pay28
  exact klevel_row_loc (B := 1024) (n := 2) (m := 4) rfl _ _ _ _ _ _ _
    (permMat_apply 4 2 _ _ _ rfl (by norm_num)) r j (fun i => Cf (srcOf 1 i)) l0 l1
    (fun i => interleave_row_loc (B := 1024) (m := 2) 1 rfl _ _ C _ pay27_apply r i Cf hC)
    (fun i => (block_logit_apply 0 (by norm_num) _ _ Qv X _ _ _ _ r i).trans (hl0 i))
    (fun i => (block_logit_apply 1 (by norm_num) _ _ Qv X _ _ _ _ r i).trans (hl1 i))

/-- Level 2, whole. -/
theorem pay29_row (P : FVec Ideal S1024x4 .f32) (X : Vec Ideal S1x4x2x64 .f32) (Qv : Vec Ideal S1024x64 .f32)
    (r : Fin 1024) (j : Fin 8) (Pf l0 l1 : ℕ → EReal) (hP : ∀ i : Fin 4, P (ix2 r i) = Pf i.val)
    (hl0 : ∀ i : Fin 4, (∑ x : Fin 64, Qv (ix2 r x) * X (ix4 (0 : Fin 1) i (0 : Fin 2) x) : EReal) = l0 i.val)
    (hl1 : ∀ i : Fin 4, (∑ x : Fin 64, Qv (ix2 r x) * X (ix4 (0 : Fin 1) i (1 : Fin 2) x) : EReal) = l1 i.val) :
    k0_pay29 P X Qv (ix2 r j) = stepN Pf l0 l1 j.val := by
  unfold k0_pay29
  exact klevel_row_loc (B := 1024) (n := 4) (m := 8) rfl _ _ P _ _ _ _
    (permMat_apply 8 4 _ _ _ rfl (by norm_num)) r j Pf l0 l1 hP
    (fun i => (block_logit_apply 0 (by norm_num) _ _ Qv X _ _ _ _ r i).trans (hl0 i))
    (fun i => (block_logit_apply 1 (by norm_num) _ _ Qv X _ _ _ _ r i).trans (hl1 i))

/-- Level 3's first-child keys, row by row. -/
theorem pay31_apply (X : Vec Ideal S1x8x2x64 .f32) (i : Fin 8) (x : Fin 64) :
    k0_pay31 X (ix2 i x) = X (ix4 (0 : Fin 1) i (0 : Fin 2) x) := by
  unfold k0_pay31 k0_pay30
  exact (child_keys_apply 0 (by norm_num) _ _ _ i x).trans (drop_unit_apply X _ i _ x)

/-- Level 3's second-child keys, row by row. -/
theorem pay32_apply (X : Vec Ideal S1x8x2x64 .f32) (i : Fin 8) (x : Fin 64) :
    k0_pay32 X (ix2 i x) = X (ix4 (0 : Fin 1) i (1 : Fin 2) x) := by
  unfold k0_pay32 k0_pay30
  exact (child_keys_apply 1 (by norm_num) _ _ _ i x).trans (drop_unit_apply X _ i _ x)

/-- Level 3, whole, from the two children's keys given row by row. -/
theorem pay33_row (P : FVec Ideal S1024x8 .f32) (K0 K1 : FVec Ideal S8x64 .f32) (Qv : Vec Ideal S1024x64 .f32)
    (r : Fin 1024) (j : Fin 16) (Pf l0 l1 : ℕ → EReal) (hP : ∀ i : Fin 8, P (ix2 r i) = Pf i.val)
    (hl0 : ∀ i : Fin 8, (∑ x : Fin 64, Qv (ix2 r x) * K0 (ix2 i x) : EReal) = l0 i.val)
    (hl1 : ∀ i : Fin 8, (∑ x : Fin 64, Qv (ix2 r x) * K1 (ix2 i x) : EReal) = l1 i.val) :
    k0_pay33 P K0 K1 Qv (ix2 r j) = stepN Pf l0 l1 j.val := by
  unfold k0_pay33
  exact klevel_row_loc (B := 1024) (n := 8) (m := 16) rfl _ _ P _ _ _ _
    (permMat_apply 16 8 _ _ _ rfl (by norm_num)) r j Pf l0 l1 hP
    (fun i => (logitT_apply (B := 1024) (n := 8) (Q := 64) _ _ Qv K0 _ r i).trans (hl0 i))
    (fun i => (logitT_apply (B := 1024) (n := 8) (Q := 64) _ _ Qv K1 _ r i).trans (hl1 i))

/-- Level 4's first-child logits. -/
theorem pay35_apply (X : Vec Ideal S1x16x2x64 .f32) (Qv : Vec Ideal S1024x64 .f32) (r : Fin 1024) (i : Fin 16) :
    k0_pay35 X Qv (ix2 r i) = ∑ x : Fin 64, Qv (ix2 r x) * X (ix4 (0 : Fin 1) i (0 : Fin 2) x) := by
  unfold k0_pay35 k0_pay34
  exact block_logit_apply 0 (by norm_num) _ _ Qv X _ _ _ _ r i

/-- Level 4's second-child keys, transposed. -/
theorem pay36_apply (X : Vec Ideal S1x16x2x64 .f32) (x : Fin 64) (i : Fin 16) :
    k0_pay36 X (ix2 x i) = X (ix4 (0 : Fin 1) i (1 : Fin 2) x) := by
  unfold k0_pay36 k0_pay34
  refine (transpose_apply [1, 0] _ _ (ix2 x i) (ix2 i x) fun a => ?_).trans
    ((child_keys_apply 1 (by norm_num) _ _ _ i x).trans (drop_unit_apply X _ i _ x))
  match a with
  | ⟨0, _⟩ => rfl
  | ⟨1, _⟩ => rfl

/-- Level 4, whole, from the first-child logits and the transposed second-child keys. -/
theorem pay37_row (P : FVec Ideal S1024x16 .f32) (Qv : Vec Ideal S1024x64 .f32) (LL : FVec Ideal S1024x16 .f32)
    (KT : FVec Ideal S64x16 .f32) (r : Fin 1024) (j : Fin 32) (Pf l0 l1 : ℕ → EReal)
    (hP : ∀ i : Fin 16, P (ix2 r i) = Pf i.val) (hl0 : ∀ i : Fin 16, LL (ix2 r i) = l0 i.val)
    (hl1 : ∀ i : Fin 16, (∑ x : Fin 64, Qv (ix2 r x) * KT (ix2 x i) : EReal) = l1 i.val) :
    k0_pay37 P Qv LL KT (constant S1024x16 .f32 0#32) (ix2 r j) = stepN Pf l0 l1 j.val := by
  unfold k0_pay37
  exact klevel_row_loc (B := 1024) (n := 16) (m := 32) rfl _ _ P LL _ _ _
    (permMat_apply 32 16 _ _ _ rfl (by norm_num)) r j Pf l0 l1 hP hl0
    (fun i => (matmul_plain_apply (B := 1024) (N := 64) (V := 16) _ _ Qv KT r i).trans (hl1 i))

/-- Level 5's first-child logits. -/
theorem pay39_apply (X : Vec Ideal S1x32x2x64 .f32) (Qv : Vec Ideal S1024x64 .f32) (r : Fin 1024) (i : Fin 32) :
    k0_pay39 X Qv (ix2 r i) = ∑ x : Fin 64, Qv (ix2 r x) * X (ix4 (0 : Fin 1) i (0 : Fin 2) x) := by
  unfold k0_pay39 k0_pay38
  exact block_logit_apply 0 (by norm_num) _ _ Qv X _ _ _ _ r i

/-- Level 5's second-child logits. -/
theorem pay40_apply (X : Vec Ideal S1x32x2x64 .f32) (Qv : Vec Ideal S1024x64 .f32) (r : Fin 1024) (i : Fin 32) :
    k0_pay40 X Qv (ix2 r i) = ∑ x : Fin 64, Qv (ix2 r x) * X (ix4 (0 : Fin 1) i (1 : Fin 2) x) := by
  unfold k0_pay40 k0_pay38
  exact block_logit_apply 1 (by norm_num) _ _ Qv X _ _ _ _ r i

/-- Level 5's first numerator: the exponential of the first logit less the pair's maximum. -/
theorem pay42_apply (X : Vec Ideal S1x32x2x64 .f32) (Qv : Vec Ideal S1024x64 .f32) (r : Fin 1024) (i : Fin 32) :
    k0_pay42 X Qv (ix2 r i)
      = Ideal.exp (k0_pay39 X Qv (ix2 r i) - max (k0_pay39 X Qv (ix2 r i)) (k0_pay40 X Qv (ix2 r i))) := by
  unfold k0_pay42 k0_pay41
  rfl

/-- Level 5's second numerator. -/
theorem pay43_apply (X : Vec Ideal S1x32x2x64 .f32) (Qv : Vec Ideal S1024x64 .f32) (r : Fin 1024) (i : Fin 32) :
    k0_pay43 X Qv (ix2 r i)
      = Ideal.exp (k0_pay40 X Qv (ix2 r i) - max (k0_pay39 X Qv (ix2 r i)) (k0_pay40 X Qv (ix2 r i))) := by
  unfold k0_pay43 k0_pay41
  rfl

/-- Level 5's denominator: the sum of the two numerators. -/
theorem pay44_apply (X : Vec Ideal S1x32x2x64 .f32) (Qv : Vec Ideal S1024x64 .f32) (r : Fin 1024) (i : Fin 32) :
    k0_pay44 X Qv (ix2 r i) = k0_pay42 X Qv (ix2 r i) + k0_pay43 X Qv (ix2 r i) := by
  unfold k0_pay44
  rfl

/-- Level 5 finished from its numerators and denominator, then level 6 up to the side-by-side form. -/
theorem pay45_row (P EL ER DEN : FVec Ideal S1024x32 .f32) (X : Vec Ideal S1x64x2x64 .f32) (Qv : Vec Ideal S1024x64 .f32)
    (r : Fin 1024) (j : Fin 128) (Pf l0 l1 m0 m1 : ℕ → EReal) (hP : ∀ i : Fin 32, P (ix2 r i) = Pf i.val)
    (hEL : ∀ i : Fin 32, EL (ix2 r i) = Ideal.exp (l0 i.val - max (l0 i.val) (l1 i.val)))
    (hER : ∀ i : Fin 32, ER (ix2 r i) = Ideal.exp (l1 i.val - max (l0 i.val) (l1 i.val)))
    (hDEN : ∀ i : Fin 32, DEN (ix2 r i)
      = Ideal.exp (l0 i.val - max (l0 i.val) (l1 i.val)) + Ideal.exp (l1 i.val - max (l0 i.val) (l1 i.val)))
    (hm0 : ∀ i : Fin 64, (∑ x : Fin 64, Qv (ix2 r x) * X (ix4 (0 : Fin 1) i (0 : Fin 2) x) : EReal) = m0 i.val)
    (hm1 : ∀ i : Fin 64, (∑ x : Fin 64, Qv (ix2 r x) * X (ix4 (0 : Fin 1) i (1 : Fin 2) x) : EReal) = m1 i.val) :
    k0_pay45 P EL ER DEN X Qv (ix2 r j) = catN 64 (stepN Pf l0 l1) m0 m1 j.val := by
  unfold k0_pay45
  exact kcat_soft_row_loc (B := 1024) (n := 64) (m := 128) rfl _ _ _ _ r j (stepN Pf l0 l1) m0 m1
    (fun i => kden_row (B := 1024) (n := 32) (m := 64) rfl _ _ P EL ER DEN _ _
      (permMat_apply 64 32 _ _ _ rfl (by norm_num)) r i Pf l0 l1 hP hEL hER hDEN)
    (fun i => (block_logit_apply 0 (by norm_num) _ _ Qv X _ _ _ _ r i).trans (hm0 i))
    (fun i => (block_logit_apply 1 (by norm_num) _ _ Qv X _ _ _ _ r i).trans (hm1 i))

/-- Level 6's interleaving, then level 7 up to the side-by-side form. -/
theorem pay46_row (C : FVec Ideal S1024x128 .f32) (X : Vec Ideal S1x128x2x64 .f32) (Qv : Vec Ideal S1024x64 .f32)
    (r : Fin 1024) (j : Fin 256) (Cf l0 l1 : ℕ → EReal) (hC : ∀ i : Fin 128, C (ix2 r i) = Cf i.val)
    (hl0 : ∀ i : Fin 128, (∑ x : Fin 64, Qv (ix2 r x) * X (ix4 (0 : Fin 1) i (0 : Fin 2) x) : EReal) = l0 i.val)
    (hl1 : ∀ i : Fin 128, (∑ x : Fin 64, Qv (ix2 r x) * X (ix4 (0 : Fin 1) i (1 : Fin 2) x) : EReal) = l1 i.val) :
    k0_pay46 C (iota .tc S128x128 32 [0] iota_S128x128_d0_w32) (iota .tc S128x128 32 [1] iota_S128x128_d1_w32) X Qv
        (ix2 r j)
      = catN 128 (fun i => Cf (srcOf 64 i)) l0 l1 j.val := by
  unfold k0_pay46
  exact kcat_soft_row_loc (B := 1024) (n := 128) (m := 256) rfl _ _ _ _ r j (fun i => Cf (srcOf 64 i)) l0 l1
    (fun i => interleave_row_loc (B := 1024) (m := 128) 64 rfl _ _ C _
      (permMat_apply 128 64 _ _ _ rfl (by norm_num)) r i Cf hC)
    (fun i => (block_logit_apply 0 (by norm_num) _ _ Qv X _ _ _ _ r i).trans (hl0 i))
    (fun i => (block_logit_apply 1 (by norm_num) _ _ Qv X _ _ _ _ r i).trans (hl1 i))

/-- Level 7's interleaving, then level 8 up to the side-by-side form. -/
theorem pay49_row (C : FVec Ideal S1024x256 .f32) (X : Vec Ideal S1x256x2x64 .f32) (Qv : Vec Ideal S1024x64 .f32)
    (r : Fin 1024) (j : Fin 512) (Cf l0 l1 : ℕ → EReal) (hC : ∀ i : Fin 256, C (ix2 r i) = Cf i.val)
    (hl0 : ∀ i : Fin 256, (∑ x : Fin 64, Qv (ix2 r x) * X (ix4 (0 : Fin 1) i (0 : Fin 2) x) : EReal) = l0 i.val)
    (hl1 : ∀ i : Fin 256, (∑ x : Fin 64, Qv (ix2 r x) * X (ix4 (0 : Fin 1) i (1 : Fin 2) x) : EReal) = l1 i.val) :
    k0_pay49 C (iota .tc S256x256 32 [0] iota_S256x256_d0_w32) (iota .tc S256x256 32 [1] iota_S256x256_d1_w32)
        k0_pay47 k0_pay48 (128#32) X Qv (ix2 r j)
      = catN 256 (fun i => Cf (srcOf 128 i)) l0 l1 j.val := by
  unfold k0_pay49 k0_pay47 k0_pay48
  exact kcat_soft_row_loc (B := 1024) (n := 256) (m := 512) rfl _ _ _ _ r j (fun i => Cf (srcOf 128 i)) l0 l1
    (fun i => interleave_row_loc (B := 1024) (m := 256) 128 rfl _ _ C _
      (permMat_apply 256 128 _ _ _ rfl (by norm_num)) r i Cf hC)
    (fun i => (block_logit_apply 0 (by norm_num) _ _ Qv X _ _ _ _ r i).trans (hl0 i))
    (fun i => (block_logit_apply 1 (by norm_num) _ _ Qv X _ _ _ _ r i).trans (hl1 i))

/-- The side-by-side form only reads the node weights below `n`. -/
theorem catN_congr (n : ℕ) (P P' l0 l1 : ℕ → EReal) (j : ℕ) (hj : j < 2 * n) (h : ∀ i < n, P i = P' i) :
    catN n P l0 l1 j = catN n P' l0 l1 j := by
  unfold catN
  by_cases hlt : j < n
  · rw [if_pos hlt, if_pos hlt, h j hlt]
  · rw [if_neg hlt, if_neg hlt, h (j - n) (by omega)]

/-- Row `r` inside one subtree: with `lg l i c` the row's logit for child `c` of node `i` of the subtree's level `l`,
    entry `j` is the side-by-side form of the ninth step over the subtree weights `lw lg 8` of the eighth level. -/
theorem localCatTerm_apply (X2 : Vec Ideal S1x1x2x64 .f32) (X3 : Vec Ideal S1x2x2x64 .f32) (X4 : Vec Ideal S1x4x2x64 .f32) (X5 : Vec Ideal S1x8x2x64 .f32) (X6 : Vec Ideal S1x16x2x64 .f32) (X7 : Vec Ideal S1x32x2x64 .f32) (X8 : Vec Ideal S1x64x2x64 .f32) (X9 : Vec Ideal S1x128x2x64 .f32) (X10 : Vec Ideal S1x256x2x64 .f32) (Qv : Vec Ideal S1024x64 .f32) (r : Fin 1024) (lg : ℕ → ℕ → ℕ → EReal)
    (h0 : ∀ (i : Fin 1) (c : Fin 2), (∑ x : Fin 64, Qv (ix2 r x) * X2 (ix4 (0 : Fin 1) i c x) : EReal) = lg 0 i.val c.val)
    (h1 : ∀ (i : Fin 2) (c : Fin 2), (∑ x : Fin 64, Qv (ix2 r x) * X3 (ix4 (0 : Fin 1) i c x) : EReal) = lg 1 i.val c.val)
    (h2 : ∀ (i : Fin 4) (c : Fin 2), (∑ x : Fin 64, Qv (ix2 r x) * X4 (ix4 (0 : Fin 1) i c x) : EReal) = lg 2 i.val c.val)
    (h3 : ∀ (i : Fin 8) (c : Fin 2), (∑ x : Fin 64, Qv (ix2 r x) * X5 (ix4 (0 : Fin 1) i c x) : EReal) = lg 3 i.val c.val)
    (h4 : ∀ (i : Fin 16) (c : Fin 2), (∑ x : Fin 64, Qv (ix2 r x) * X6 (ix4 (0 : Fin 1) i c x) : EReal) = lg 4 i.val c.val)
    (h5 : ∀ (i : Fin 32) (c : Fin 2), (∑ x : Fin 64, Qv (ix2 r x) * X7 (ix4 (0 : Fin 1) i c x) : EReal) = lg 5 i.val c.val)
    (h6 : ∀ (i : Fin 64) (c : Fin 2), (∑ x : Fin 64, Qv (ix2 r x) * X8 (ix4 (0 : Fin 1) i c x) : EReal) = lg 6 i.val c.val)
    (h7 : ∀ (i : Fin 128) (c : Fin 2), (∑ x : Fin 64, Qv (ix2 r x) * X9 (ix4 (0 : Fin 1) i c x) : EReal) = lg 7 i.val c.val)
    (h8 : ∀ (i : Fin 256) (c : Fin 2), (∑ x : Fin 64, Qv (ix2 r x) * X10 (ix4 (0 : Fin 1) i c x) : EReal) = lg 8 i.val c.val)
    (j : Fin 512) :
    localCatTerm X2 X3 X4 X5 X6 X7 X8 X9 X10 Qv (ix2 r j)
      = catN 256 (lw lg 8) (fun i => lg 8 i 0) (fun i => lg 8 i 1) j.val := by
  have e39 : ∀ i : Fin 32, k0_pay39 X7 Qv (ix2 r i) = lg 5 i.val 0 := fun i => (pay39_apply X7 Qv r i).trans (h5 i 0)
  have e40 : ∀ i : Fin 32, k0_pay40 X7 Qv (ix2 r i) = lg 5 i.val 1 := fun i => (pay40_apply X7 Qv r i).trans (h5 i 1)
  have e42 : ∀ i : Fin 32, k0_pay42 X7 Qv (ix2 r i)
      = Ideal.exp (lg 5 i.val 0 - max (lg 5 i.val 0) (lg 5 i.val 1)) := fun i => by
    rw [pay42_apply, e39, e40]
  have e43 : ∀ i : Fin 32, k0_pay43 X7 Qv (ix2 r i)
      = Ideal.exp (lg 5 i.val 1 - max (lg 5 i.val 0) (lg 5 i.val 1)) := fun i => by
    rw [pay43_apply, e39, e40]
  have e44 : ∀ i : Fin 32, k0_pay44 X7 Qv (ix2 r i)
      = Ideal.exp (lg 5 i.val 0 - max (lg 5 i.val 0) (lg 5 i.val 1))
        + Ideal.exp (lg 5 i.val 1 - max (lg 5 i.val 0) (lg 5 i.val 1)) := fun i => by
    rw [pay44_apply, e42, e43]
  unfold localCatTerm
  -- level 8's side-by-side form over level 7's interleaving
  refine (pay49_row _ X10 Qv r j (catN 128 (lw lg 7) (fun i => lg 7 i 0) (fun i => lg 7 i 1))
    (fun i => lg 8 i 0) (fun i => lg 8 i 1) (fun j7 => ?_) (fun i => h8 i 0) (fun i => h8 i 1)).trans
    (catN_congr 256 _ _ _ _ j.val (by have := j.isLt; omega) fun i hi =>
      (catN_srcOf 128 _ _ _ i (by omega)).trans (lw_succ lg 7 i).symm)
  -- level 7's side-by-side form over level 6's interleaving
  refine (pay46_row _ X9 Qv r j7 (catN 64 (lw lg 6) (fun i => lg 6 i 0) (fun i => lg 6 i 1))
    (fun i => lg 7 i 0) (fun i => lg 7 i 1) (fun j6 => ?_) (fun i => h7 i 0) (fun i => h7 i 1)).trans
    (catN_congr 128 _ _ _ _ j7.val (by have := j7.isLt; omega) fun i hi =>
      (catN_srcOf 64 _ _ _ i (by omega)).trans (lw_succ lg 6 i).symm)
  -- level 6's side-by-side form over level 5
  refine (pay45_row _ _ _ _ X8 Qv r j6 (lw lg 5) (fun i => lg 5 i 0) (fun i => lg 5 i 1)
    (fun i => lg 6 i 0) (fun i => lg 6 i 1) (fun j5 => ?_) e42 e43 e44 (fun i => h6 i 0) (fun i => h6 i 1)).trans
    (catN_congr 64 _ _ _ _ j6.val (by have := j6.isLt; omega) fun i _ => (lw_succ lg 5 i).symm)
  -- level 4
  refine (pay37_row _ Qv _ _ r j5 (lw lg 4) (fun i => lg 4 i 0) (fun i => lg 4 i 1) (fun j4 => ?_)
    (fun i => (pay35_apply X6 Qv r i).trans (h4 i 0))
    (fun i => (Finset.sum_congr rfl fun x _ => congrArg (Qv (ix2 r x) * ·) (pay36_apply X6 x i)).trans (h4 i 1))).trans
    (lw_succ lg 4 j5.val).symm
  -- level 3
  refine (pay33_row _ _ _ Qv r j4 (lw lg 3) (fun i => lg 3 i 0) (fun i => lg 3 i 1) (fun j3 => ?_)
    (fun i => (Finset.sum_congr rfl fun x _ => congrArg (Qv (ix2 r x) * ·) (pay31_apply X5 i x)).trans (h3 i 0))
    (fun i => (Finset.sum_congr rfl fun x _ => congrArg (Qv (ix2 r x) * ·) (pay32_apply X5 i x)).trans (h3 i 1))).trans
    (lw_succ lg 3 j4.val).symm
  -- level 2
  refine (pay29_row _ X4 Qv r j3 (lw lg 2) (fun i => lg 2 i 0) (fun i => lg 2 i 1) (fun j2 => ?_)
    (fun i => h2 i 0) (fun i => h2 i 1)).trans (lw_succ lg 2 j3.val).symm
  -- level 1 over level 0's interleaving
  refine (pay28_row _ X3 Qv r j2 (catN 1 (lw lg 0) (fun i => lg 0 i 0) (fun i => lg 0 i 1))
    (fun i => lg 1 i 0) (fun i => lg 1 i 1) (fun j1 => ?_) (fun i => h1 i 0) (fun i => h1 i 1)).trans
    ((stepN_congr _ (lw lg 1) _ _ j2.val
      ((catN_srcOf 1 _ _ _ (j2.val / 2) (by have := j2.isLt; omega)).trans (lw_succ lg 0 _).symm)).trans
      (lw_succ lg 1 j2.val).symm)
  -- level 0's side-by-side form; the root's weight is 1
  exact (pay26_row X2 Qv r j1 _ _ (fun i => h0 i 0) (fun i => h0 i 1)).trans
    (catN_congr 1 _ _ _ _ j1.val (by have := j1.isLt; omega) fun i _ => rfl)

end Cert.KernelIdeal.Body

end
-- ==== Proof.OutBody.lean ====
/-
  The output block after a point, read at (r, v): what the block held before, plus the subtree's weight — column
  `t` of the stored subtree weights, taken out by multiplying with a 0/1 row and summing — times the sum over the
  subtree's leaves of the leaf's weight inside the subtree times coordinate `v` of the leaf's value.
-/
import proofs.«171282_j44032004719312_2_alg».proof.Proof.BodySpec
import Idealize.ShloMosaic.Lib.ValueLayout

set_option maxRecDepth 16384

noncomputable section

namespace Cert.KernelIdeal.Body

open Cert.KernelIdeal Cert.KernelIdeal.Gen Idealize.ShloMosaic Idealize.ShloMosaic.ValueIdx TreeWeights KernelLevel

/-- The 0/1 row that marks column `t`, read at column `j`. -/
theorem mask_apply (t : BitVec 32) (hI : S1x128.Iotas .tc 32 [1]) (hw : 1 < 32) (j : Fin 128) :
    (sitofp .f32 (extui 32 (cmpi .eq (iota .tc S1x128 32 [1] hI) (broadcast S1x128 t)) hw) : FVec Ideal S1x128 .f32)
        (ix2 (0 : Fin 1) j)
      = if BitVec.ofNat 32 j.val = t then (1 : EReal) else 0 := by
  have e1 : iota .tc S1x128 32 [1] hI (ix2 (0 : Fin 1) j) = BitVec.ofNat 32 j.val :=
    iota_single_apply .tc S1x128 32 1 hI (ix2 (0 : Fin 1) j)
  show FloatOps.sitofp (F := Ideal) .f32 ((IntOp.cmpi .eq (iota .tc S1x128 32 [1] hI (ix2 (0 : Fin 1) j)) t).setWidth 32) = _
  rw [e1, bit_to_float]
  by_cases h : BitVec.ofNat 32 j.val = t
  · rw [if_pos h, if_pos (IntOp.cmpi_eq.mpr h)]
  · rw [if_neg h, if_neg (fun hh => h (IntOp.cmpi_eq.mp hh))]

theorem outTerm_apply (t : BitVec 32) (C8 : FVec Ideal S1024x512 .f32) (X11 : Vec Ideal S1x512x64 .f32)
    (XS : Vec Ideal S1024x128 .f32) (XO : Vec Ideal S1024x64 .f32) (r : Fin 1024) (v : Fin 64) :
    outTerm t C8 X11 XS XO (ix2 r v)
      = XO (ix2 r v)
        + (∑ j : Fin 128, XS (ix2 r j) * (if BitVec.ofNat 32 j.val = t then (1 : EReal) else 0))
          * ∑ l : Fin 512, C8 (ix2 r ⟨srcOf 256 l.val, by have := l.isLt; have := srcOf_lt 256 l.val (by omega); omega⟩)
              * X11 (ix3 (0 : Fin 1) l v) := by
  unfold outTerm k0_pay2
  refine congrArg₂ (· + ·) ?_ (congrArg₂ (· * ·) ?_ ?_)
  · exact congrFun (shapeCast_self XO _) _
  · refine (broadcastTo_apply _ _ (ix2 r v) (ix2 r (0 : Fin 1)) ?_).trans ?_
    · intro a
      match a with
      | ⟨0, _⟩ => rfl
      | ⟨1, _⟩ => rfl
    refine (shapeCast_apply _ _ (ix2 r (0 : Fin 1)) (ix1 r) ?_).trans ?_
    · rw [Shape.rowMajor_val_one, Shape.rowMajor_val_two]
      show (r : ℕ) = (r : ℕ) * 1 + 0
      omega
    refine (Ideal.multiReduction_add_single _ 0x00000000#32 _ _ _ (ix1 r)).trans ?_
    show ∑ j : Fin 128, _ = _
    refine Finset.sum_congr rfl fun j _ => ?_
    have hl : ∀ (h : S1024x128.Reduces [1] S1024), h.lift (ix1 r) j = ix2 r j := fun h =>
      funext fun a => Fin.ext (by match a with | ⟨0, _⟩ => rfl | ⟨1, _⟩ => rfl)
    rw [hl]
    show XS (ix2 r j) * broadcastTo S1024x128 _ _ (ix2 r j) = _
    rw [broadcastTo_1b_ab_apply, mask_apply]
  · refine (matmul_plain_apply (B := 1024) (N := 512) (V := 64) _ _ _ _ r v).trans ?_
    refine Finset.sum_congr rfl fun l _ => congrArg₂ (· * ·) ?_ ?_
    · exact interleave_matmul_apply 256 rfl _ _ C8 _ (permMat_apply 512 256 _ _ _ rfl (by norm_num)) r l
    · exact shapeCast_1ab_ab_apply X11 _ l v

end Cert.KernelIdeal.Body

end
-- ==== Proof.BodySem.lean ====
/-
  What the body leaves, in terms of the blocks it is given.  For row `r` of the batch tile: the carried scratch
  holds, at column `j`, the path weight of node `j` of level 7 over the row's logits against the top keys; the
  output block gains the scratch's column `t` times the sum over the subtree's 512 leaves of the leaf's weight
  inside the subtree times the leaf's value.
-/
import proofs.«171282_j44032004719312_2_alg».proof.Proof.Pieces
import proofs.«171282_j44032004719312_2_alg».proof.Proof.GateBody
import proofs.«171282_j44032004719312_2_alg».proof.Proof.LocalBody
import proofs.«171282_j44032004719312_2_alg».proof.Proof.OutBody
import Idealize.ShloMosaic.Lib.WholeRead

set_option maxRecDepth 16384

noncomputable section

namespace Cert.KernelIdeal.Body

open Cert.KernelIdeal Cert.KernelIdeal.Gen Idealize.ShloMosaic Idealize.ShloMosaic.TcCoe
open Idealize.ShloMosaic.ValueIdx Idealize.SL Idealize.SL.Sem TreeWeights KernelLevel

theorem zero3 : (![0, 0, 0] : Fin 3 → ℕ) = fun _ => 0 := by
  funext a; match a with | ⟨0, _⟩ => rfl | ⟨1, _⟩ => rfl | ⟨2, _⟩ => rfl
theorem zero4 : (![0, 0, 0, 0] : Fin 4 → ℕ) = fun _ => 0 := by
  funext a; match a with | ⟨0, _⟩ => rfl | ⟨1, _⟩ => rfl | ⟨2, _⟩ => rfl | ⟨3, _⟩ => rfl

/-- A load of a whole block held in a staging buffer reads the block. -/
theorem load_whole {S : Shape} (arg : Memref sig .tc .vmem S .f32) (harg : arg.IsWhole) (x : Vec Ideal S .f32)
    {off : Fin S.rank → ℕ} (hz : off = fun _ => 0) (inb : ∀ a, off a + S.size a ≤ S.size a) :
    View.readAt (Elt Ideal) arg.view (Rect.unit (s := S) off S.size inb).toLoadRect (harg.unread x) = x := by
  rw [View.readAt_eq_ld, harg.read_unread, View.ld_unit_zero hz]

/-- A load of `n` consecutive nodes' keys out of the held top keys reads those nodes. -/
theorem load_rows {n : ℕ} (o : ℕ) (arg3 : Memref sig .tc .vmem S127x2x64 .f32) (harg3 : arg3.IsWhole)
    (x1 : Vec Ideal S127x2x64 .f32) (inb : ∀ a, (![o, 0, 0] : Fin 3 → ℕ) a + (⟨3, ![n, 2, 64]⟩ : Shape).size a ≤ S127x2x64.size a)
    (ho : o + n ≤ 127) (i : Fin n) (cc : Fin 2) (x : Fin 64) :
    View.readAt (Elt Ideal) arg3.view (Rect.unit (s := S127x2x64) ![o, 0, 0] (⟨3, ![n, 2, 64]⟩ : Shape).size inb).toLoadRect
        (harg3.unread x1) (ix3 i cc x)
      = x1 (ix3 ⟨o + i.val, by have := i.isLt; omega⟩ cc x) := by
  refine (harg3.readAt_unread x1 (Rect.unit (s := S127x2x64) ![o, 0, 0] (⟨3, ![n, 2, 64]⟩ : Shape).size inb).toLoadRect (ix3 i cc x)).trans
    (congrArg x1 (funext fun a => Fin.ext ?_))
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + (cc : ℕ) = cc; omega
  | ⟨2, _⟩ => simp only [LoadRect.idx_apply, Rect.emb_apply, Rect.off_unit, Rect.stride_unit, Nat.one_mul]; show 0 + (x : ℕ) = x; omega

/-- Row `r`'s logit for child `c` of top node `node` (0 past the top keys). -/
def glg (x0 : Vec Ideal S1024x64 .f32) (x1 : Vec Ideal S127x2x64 .f32) (r : Fin 1024) (node c : ℕ) : EReal :=
  if h : node < 127 then
    ∑ x : Fin 64, x0 (ix2 r x) * x1 (ix3 (⟨node, h⟩ : Fin 127) (⟨c % 2, Nat.mod_lt _ (by norm_num)⟩ : Fin 2) x)
  else 0

/-- The split at a top node for row `r`. -/
def gsplit (x0 : Vec Ideal S1024x64 .f32) (x1 : Vec Ideal S127x2x64 .f32) (r : Fin 1024) (node c : ℕ) : EReal :=
  share2 (glg x0 x1 r node 0) (glg x0 x1 r node 1) c

theorem glg_of_lt (x0 : Vec Ideal S1024x64 .f32) (x1 : Vec Ideal S127x2x64 .f32) (r : Fin 1024) (node : ℕ) (h : node < 127)
    (cc : Fin 2) :
    (∑ x : Fin 64, x0 (ix2 r x) * x1 (ix3 (⟨node, h⟩ : Fin 127) cc x) : EReal) = glg x0 x1 r node cc.val := by
  unfold glg
  rw [dif_pos h]
  match cc with
  | ⟨0, _⟩ => rfl
  | ⟨1, _⟩ => rfl

/-- Row `r`'s logit for child `c` of node `i` of the subtree's level `l`, out of the nine local key blocks. -/
def llg (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (l i c : ℕ) : EReal :=
  match l with
  | 0 => if h : i < 1 then ∑ x : Fin 64, x0 (ix2 r x) * x2 (ix4 (0 : Fin 1) (⟨i, h⟩ : Fin 1) (⟨c % 2, Nat.mod_lt _ (by norm_num)⟩ : Fin 2) x) else 0
  | 1 => if h : i < 2 then ∑ x : Fin 64, x0 (ix2 r x) * x3 (ix4 (0 : Fin 1) (⟨i, h⟩ : Fin 2) (⟨c % 2, Nat.mod_lt _ (by norm_num)⟩ : Fin 2) x) else 0
  | 2 => if h : i < 4 then ∑ x : Fin 64, x0 (ix2 r x) * x4 (ix4 (0 : Fin 1) (⟨i, h⟩ : Fin 4) (⟨c % 2, Nat.mod_lt _ (by norm_num)⟩ : Fin 2) x) else 0
  | 3 => if h : i < 8 then ∑ x : Fin 64, x0 (ix2 r x) * x5 (ix4 (0 : Fin 1) (⟨i, h⟩ : Fin 8) (⟨c % 2, Nat.mod_lt _ (by norm_num)⟩ : Fin 2) x) else 0
  | 4 => if h : i < 16 then ∑ x : Fin 64, x0 (ix2 r x) * x6 (ix4 (0 : Fin 1) (⟨i, h⟩ : Fin 16) (⟨c % 2, Nat.mod_lt _ (by norm_num)⟩ : Fin 2) x) else 0
  | 5 => if h : i < 32 then ∑ x : Fin 64, x0 (ix2 r x) * x7 (ix4 (0 : Fin 1) (⟨i, h⟩ : Fin 32) (⟨c % 2, Nat.mod_lt _ (by norm_num)⟩ : Fin 2) x) else 0
  | 6 => if h : i < 64 then ∑ x : Fin 64, x0 (ix2 r x) * x8 (ix4 (0 : Fin 1) (⟨i, h⟩ : Fin 64) (⟨c % 2, Nat.mod_lt _ (by norm_num)⟩ : Fin 2) x) else 0
  | 7 => if h : i < 128 then ∑ x : Fin 64, x0 (ix2 r x) * x9 (ix4 (0 : Fin 1) (⟨i, h⟩ : Fin 128) (⟨c % 2, Nat.mod_lt _ (by norm_num)⟩ : Fin 2) x) else 0
  | 8 => if h : i < 256 then ∑ x : Fin 64, x0 (ix2 r x) * x10 (ix4 (0 : Fin 1) (⟨i, h⟩ : Fin 256) (⟨c % 2, Nat.mod_lt _ (by norm_num)⟩ : Fin 2) x) else 0
  | _ => 0

theorem llg0 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 1) (cc : Fin 2) :
    (∑ x : Fin 64, x0 (ix2 r x) * x2 (ix4 (0 : Fin 1) i cc x) : EReal) = llg x0 x2 x3 x4 x5 x6 x7 x8 x9 x10 r 0 i.val cc.val := by
  show _ = if h : i.val < 1 then _ else _
  rw [dif_pos i.isLt]
  match cc with
  | ⟨0, _⟩ => rfl
  | ⟨1, _⟩ => rfl

theorem llg1 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 2) (cc : Fin 2) :
    (∑ x : Fin 64, x0 (ix2 r x) * x3 (ix4 (0 : Fin 1) i cc x) : EReal) = llg x0 x2 x3 x4 x5 x6 x7 x8 x9 x10 r 1 i.val cc.val := by
  show _ = if h : i.val < 2 then _ else _
  rw [dif_pos i.isLt]
  match cc with
  | ⟨0, _⟩ => rfl
  | ⟨1, _⟩ => rfl

theorem llg2 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 4) (cc : Fin 2) :
    (∑ x : Fin 64, x0 (ix2 r x) * x4 (ix4 (0 : Fin 1) i cc x) : EReal) = llg x0 x2 x3 x4 x5 x6 x7 x8 x9 x10 r 2 i.val cc.val := by
  show _ = if h : i.val < 4 then _ else _
  rw [dif_pos i.isLt]
  match cc with
  | ⟨0, _⟩ => rfl
  | ⟨1, _⟩ => rfl

theorem llg3 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 8) (cc : Fin 2) :
    (∑ x : Fin 64, x0 (ix2 r x) * x5 (ix4 (0 : Fin 1) i cc x) : EReal) = llg x0 x2 x3 x4 x5 x6 x7 x8 x9 x10 r 3 i.val cc.val := by
  show _ = if h : i.val < 8 then _ else _
  rw [dif_pos i.isLt]
  match cc with
  | ⟨0, _⟩ => rfl
  | ⟨1, _⟩ => rfl

theorem llg4 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 16) (cc : Fin 2) :
    (∑ x : Fin 64, x0 (ix2 r x) * x6 (ix4 (0 : Fin 1) i cc x) : EReal) = llg x0 x2 x3 x4 x5 x6 x7 x8 x9 x10 r 4 i.val cc.val := by
  show _ = if h : i.val < 16 then _ else _
  rw [dif_pos i.isLt]
  match cc with
  | ⟨0, _⟩ => rfl
  | ⟨1, _⟩ => rfl

theorem llg5 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 32) (cc : Fin 2) :
    (∑ x : Fin 64, x0 (ix2 r x) * x7 (ix4 (0 : Fin 1) i cc x) : EReal) = llg x0 x2 x3 x4 x5 x6 x7 x8 x9 x10 r 5 i.val cc.val := by
  show _ = if h : i.val < 32 then _ else _
  rw [dif_pos i.isLt]
  match cc with
  | ⟨0, _⟩ => rfl
  | ⟨1, _⟩ => rfl

theorem llg6 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 64) (cc : Fin 2) :
    (∑ x : Fin 64, x0 (ix2 r x) * x8 (ix4 (0 : Fin 1) i cc x) : EReal) = llg x0 x2 x3 x4 x5 x6 x7 x8 x9 x10 r 6 i.val cc.val := by
  show _ = if h : i.val < 64 then _ else _
  rw [dif_pos i.isLt]
  match cc with
  | ⟨0, _⟩ => rfl
  | ⟨1, _⟩ => rfl

theorem llg7 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 128) (cc : Fin 2) :
    (∑ x : Fin 64, x0 (ix2 r x) * x9 (ix4 (0 : Fin 1) i cc x) : EReal) = llg x0 x2 x3 x4 x5 x6 x7 x8 x9 x10 r 7 i.val cc.val := by
  show _ = if h : i.val < 128 then _ else _
  rw [dif_pos i.isLt]
  match cc with
  | ⟨0, _⟩ => rfl
  | ⟨1, _⟩ => rfl

theorem llg8 (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (r : Fin 1024) (i : Fin 256) (cc : Fin 2) :
    (∑ x : Fin 64, x0 (ix2 r x) * x10 (ix4 (0 : Fin 1) i cc x) : EReal) = llg x0 x2 x3 x4 x5 x6 x7 x8 x9 x10 r 8 i.val cc.val := by
  show _ = if h : i.val < 256 then _ else _
  rw [dif_pos i.isLt]
  match cc with
  | ⟨0, _⟩ => rfl
  | ⟨1, _⟩ => rfl

/-- A sum against the 0/1 row that marks column `t` is the entry at column `t`. -/
theorem mask_sum (A : Fin 128 → EReal) (t : ℕ) (ht : t < 128) :
    ∑ j : Fin 128, A j * (if BitVec.ofNat 32 j.val = BitVec.ofNat 32 t then (1 : EReal) else 0) = A ⟨t, ht⟩ := by
  rw [Finset.sum_eq_single (⟨t, ht⟩ : Fin 128)]
  · rw [if_pos rfl, mul_one]
  · intro j _ hne
    rw [if_neg, mul_zero]
    intro h
    apply hne
    apply Fin.ext
    have h1 := congrArg BitVec.toNat h
    rw [BitVec.toNat_ofNat, BitVec.toNat_ofNat] at h1
    have := j.isLt
    show j.val = t
    omega
  · intro h; exact absurd (Finset.mem_univ _) h

/-- The subtree weights computed from the held blocks: row `r`, column `j` is the path weight of node `j` of level 7
    over the row's splits at the top nodes. -/
theorem gate_loads_apply (arg3 : Memref sig .tc .vmem S127x2x64 .f32) (harg3 : arg3.IsWhole)
    (x0 : Vec Ideal S1024x64 .f32) (x1 : Vec Ideal S127x2x64 .f32) (r : Fin 1024) (j : Fin 128) :
    gateTerm (View.readAt (Elt Ideal) arg3.view (Rect.unit (s := S127x2x64) ![0, 0, 0] S1x2x64.size inb_S127x2x64_S1x2x64_0_0_0).toLoadRect (harg3.unread x1)) (View.readAt (Elt Ideal) arg3.view (Rect.unit (s := S127x2x64) ![1, 0, 0] S2x2x64.size inb_S127x2x64_S2x2x64_1_0_0).toLoadRect (harg3.unread x1)) (View.readAt (Elt Ideal) arg3.view (Rect.unit (s := S127x2x64) ![3, 0, 0] S4x2x64.size inb_S127x2x64_S4x2x64_3_0_0).toLoadRect (harg3.unread x1)) (View.readAt (Elt Ideal) arg3.view (Rect.unit (s := S127x2x64) ![7, 0, 0] S8x2x64.size inb_S127x2x64_S8x2x64_7_0_0).toLoadRect (harg3.unread x1)) (View.readAt (Elt Ideal) arg3.view (Rect.unit (s := S127x2x64) ![15, 0, 0] S16x2x64.size inb_S127x2x64_S16x2x64_15_0_0).toLoadRect (harg3.unread x1)) (View.readAt (Elt Ideal) arg3.view (Rect.unit (s := S127x2x64) ![31, 0, 0] S32x2x64.size inb_S127x2x64_S32x2x64_31_0_0).toLoadRect (harg3.unread x1)) (View.readAt (Elt Ideal) arg3.view (Rect.unit (s := S127x2x64) ![63, 0, 0] S64x2x64.size inb_S127x2x64_S64x2x64_63_0_0).toLoadRect (harg3.unread x1)) x0 (ix2 r j) = pathW (gsplit x0 x1 r) 7 j.val :=
  gateTerm_apply _ _ _ _ _ _ _ x0 r (glg x0 x1 r)
    (fun i cc => (Finset.sum_congr rfl fun x _ => congrArg (x0 (ix2 r x) * ·)
      (load_rows (n := 1) 0 arg3 harg3 x1 _ (by norm_num) i cc x)).trans (glg_of_lt x0 x1 r (0 + i.val) _ cc))
    (fun i cc => (Finset.sum_congr rfl fun x _ => congrArg (x0 (ix2 r x) * ·)
      (load_rows (n := 2) 1 arg3 harg3 x1 _ (by norm_num) i cc x)).trans (glg_of_lt x0 x1 r (1 + i.val) _ cc))
    (fun i cc => (Finset.sum_congr rfl fun x _ => congrArg (x0 (ix2 r x) * ·)
      (load_rows (n := 4) 3 arg3 harg3 x1 _ (by norm_num) i cc x)).trans (glg_of_lt x0 x1 r (3 + i.val) _ cc))
    (fun i cc => (Finset.sum_congr rfl fun x _ => congrArg (x0 (ix2 r x) * ·)
      (load_rows (n := 8) 7 arg3 harg3 x1 _ (by norm_num) i cc x)).trans (glg_of_lt x0 x1 r (7 + i.val) _ cc))
    (fun i cc => (Finset.sum_congr rfl fun x _ => congrArg (x0 (ix2 r x) * ·)
      (load_rows (n := 16) 15 arg3 harg3 x1 _ (by norm_num) i cc x)).trans (glg_of_lt x0 x1 r (15 + i.val) _ cc))
    (fun i cc => (Finset.sum_congr rfl fun x _ => congrArg (x0 (ix2 r x) * ·)
      (load_rows (n := 32) 31 arg3 harg3 x1 _ (by norm_num) i cc x)).trans (glg_of_lt x0 x1 r (31 + i.val) _ cc))
    (fun i cc => (Finset.sum_congr rfl fun x _ => congrArg (x0 (ix2 r x) * ·)
      (load_rows (n := 64) 63 arg3 harg3 x1 _ (by norm_num) i cc x)).trans (glg_of_lt x0 x1 r (63 + i.val) _ cc))
    j

/-- The carried scratch after the first point of a batch tile. -/
theorem sout_A_apply (c : Dev nD) (i : grid0.Coords) (arg2 : Memref sig .tc .vmem S1024x64 .f32) (harg2 : arg2.IsWhole) (arg3 : Memref sig .tc .vmem S127x2x64 .f32) (harg3 : arg3.IsWhole) (arg4 : Memref sig .tc .vmem S1x1x2x64 .f32) (harg4 : arg4.IsWhole) (arg5 : Memref sig .tc .vmem S1x2x2x64 .f32) (harg5 : arg5.IsWhole) (arg6 : Memref sig .tc .vmem S1x4x2x64 .f32) (harg6 : arg6.IsWhole) (arg7 : Memref sig .tc .vmem S1x8x2x64 .f32) (harg7 : arg7.IsWhole) (arg8 : Memref sig .tc .vmem S1x16x2x64 .f32) (harg8 : arg8.IsWhole) (arg9 : Memref sig .tc .vmem S1x32x2x64 .f32) (harg9 : arg9.IsWhole) (arg10 : Memref sig .tc .vmem S1x64x2x64 .f32) (harg10 : arg10.IsWhole) (arg11 : Memref sig .tc .vmem S1x128x2x64 .f32) (harg11 : arg11.IsWhole) (arg12 : Memref sig .tc .vmem S1x256x2x64 .f32) (harg12 : arg12.IsWhole) (arg13 : Memref sig .tc .vmem S1x512x64 .f32) (harg13 : arg13.IsWhole) (arg14 : Memref sig .tc .vmem S1024x64 .f32) (harg14 : arg14.IsWhole) (arg15 : Memref sig .tc .vmem S1024x128 .f32) (harg15 : arg15.IsWhole) (hc0 : cond0_0 i) (hc1 : cond0_1 i) (x0 : Vec Ideal S1024x64 .f32) (x1 : Vec Ideal S127x2x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (x11 : Vec Ideal S1x512x64 .f32)
    (r : Fin 1024) (j : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 (ix2 r j) = pathW (gsplit x0 x1 r) 7 j.val := by
  rw [sout_A_eq, load_whole arg2 harg2 x0 zero2]
  exact gate_loads_apply arg3 harg3 x0 x1 r j

/-- The leaf weights inside the subtree against the subtree's leaf values: the inner sum of the accumulated term. -/
theorem inner_apply (x0 : Vec Ideal S1024x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (x11 : Vec Ideal S1x512x64 .f32) (r : Fin 1024) (v : Fin 64) :
    (∑ l : Fin 512, localCatTerm x2 x3 x4 x5 x6 x7 x8 x9 x10 x0 (ix2 r ⟨srcOf 256 l.val, by have := l.isLt; have := srcOf_lt 256 l.val (by omega); omega⟩)
        * x11 (ix3 (0 : Fin 1) l v))
      = ∑ l : Fin 512, lw (llg x0 x2 x3 x4 x5 x6 x7 x8 x9 x10 r) 9 l.val * x11 (ix3 (0 : Fin 1) l v) := by
  refine Finset.sum_congr rfl fun l _ => congrArg (· * x11 (ix3 (0 : Fin 1) l v)) ?_
  rw [localCatTerm_apply x2 x3 x4 x5 x6 x7 x8 x9 x10 x0 r (llg x0 x2 x3 x4 x5 x6 x7 x8 x9 x10 r)
    (fun i cc => llg0 x0 x2 x3 x4 x5 x6 x7 x8 x9 x10 r i cc)
    (fun i cc => llg1 x0 x2 x3 x4 x5 x6 x7 x8 x9 x10 r i cc)
    (fun i cc => llg2 x0 x2 x3 x4 x5 x6 x7 x8 x9 x10 r i cc)
    (fun i cc => llg3 x0 x2 x3 x4 x5 x6 x7 x8 x9 x10 r i cc)
    (fun i cc => llg4 x0 x2 x3 x4 x5 x6 x7 x8 x9 x10 r i cc)
    (fun i cc => llg5 x0 x2 x3 x4 x5 x6 x7 x8 x9 x10 r i cc)
    (fun i cc => llg6 x0 x2 x3 x4 x5 x6 x7 x8 x9 x10 r i cc)
    (fun i cc => llg7 x0 x2 x3 x4 x5 x6 x7 x8 x9 x10 r i cc)
    (fun i cc => llg8 x0 x2 x3 x4 x5 x6 x7 x8 x9 x10 r i cc)]
  exact catN_srcOf 256 _ _ _ l.val (by have := l.isLt; omega)

theorem zeros_apply (r : Fin 1024) (v : Fin 64) : (k0_pay1 (F := Ideal)) (ix2 r v) = 0 := by
  show Ideal.ofBits .f32 0x00000000#32 = 0
  exact Ideal.ofBits_zero_f32

theorem coord_lt (i : grid0.Coords) : (i 1).val < 128 := (i 1).isLt

/-- The output block after a point that is not the first of its batch tile. -/
theorem out_B_apply (c : Dev nD) (i : grid0.Coords) (arg2 : Memref sig .tc .vmem S1024x64 .f32) (harg2 : arg2.IsWhole) (arg3 : Memref sig .tc .vmem S127x2x64 .f32) (harg3 : arg3.IsWhole) (arg4 : Memref sig .tc .vmem S1x1x2x64 .f32) (harg4 : arg4.IsWhole) (arg5 : Memref sig .tc .vmem S1x2x2x64 .f32) (harg5 : arg5.IsWhole) (arg6 : Memref sig .tc .vmem S1x4x2x64 .f32) (harg6 : arg6.IsWhole) (arg7 : Memref sig .tc .vmem S1x8x2x64 .f32) (harg7 : arg7.IsWhole) (arg8 : Memref sig .tc .vmem S1x16x2x64 .f32) (harg8 : arg8.IsWhole) (arg9 : Memref sig .tc .vmem S1x32x2x64 .f32) (harg9 : arg9.IsWhole) (arg10 : Memref sig .tc .vmem S1x64x2x64 .f32) (harg10 : arg10.IsWhole) (arg11 : Memref sig .tc .vmem S1x128x2x64 .f32) (harg11 : arg11.IsWhole) (arg12 : Memref sig .tc .vmem S1x256x2x64 .f32) (harg12 : arg12.IsWhole) (arg13 : Memref sig .tc .vmem S1x512x64 .f32) (harg13 : arg13.IsWhole) (arg14 : Memref sig .tc .vmem S1024x64 .f32) (harg14 : arg14.IsWhole) (arg15 : Memref sig .tc .vmem S1024x128 .f32) (harg15 : arg15.IsWhole) (hc0 : ¬cond0_0 i) (hc1 : ¬cond0_1 i) (x0 : Vec Ideal S1024x64 .f32) (x1 : Vec Ideal S127x2x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (x11 : Vec Ideal S1x512x64 .f32)
    (xo12 : Vec Ideal S1024x64 .f32) (xs0 : Vec Ideal S1024x128 .f32) (r : Fin 1024) (v : Fin 64) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xo12 xs0 (ix2 r v)
      = xo12 (ix2 r v) + xs0 (ix2 r ⟨(i 1).val, coord_lt i⟩)
          * ∑ l : Fin 512, lw (llg x0 x2 x3 x4 x5 x6 x7 x8 x9 x10 r) 9 l.val * x11 (ix3 (0 : Fin 1) l v) := by
  rw [out_B_eq, outTerm_apply, load_whole arg2 harg2 x0 zero2,
    load_whole arg4 harg4 x2 zero4,
    load_whole arg5 harg5 x3 zero4,
    load_whole arg6 harg6 x4 zero4,
    load_whole arg7 harg7 x5 zero4,
    load_whole arg8 harg8 x6 zero4,
    load_whole arg9 harg9 x7 zero4,
    load_whole arg10 harg10 x8 zero4,
    load_whole arg11 harg11 x9 zero4,
    load_whole arg12 harg12 x10 zero4,
    load_whole arg13 harg13 x11 zero3, load_whole arg15 harg15 xs0 zero2, load_whole arg14 harg14 xo12 zero2,
    inner_apply, mask_sum (fun j => xs0 (ix2 r j)) (i 1).val (coord_lt i)]

/-- The output block after the first point of a batch tile. -/
theorem out_A_apply (c : Dev nD) (i : grid0.Coords) (arg2 : Memref sig .tc .vmem S1024x64 .f32) (harg2 : arg2.IsWhole) (arg3 : Memref sig .tc .vmem S127x2x64 .f32) (harg3 : arg3.IsWhole) (arg4 : Memref sig .tc .vmem S1x1x2x64 .f32) (harg4 : arg4.IsWhole) (arg5 : Memref sig .tc .vmem S1x2x2x64 .f32) (harg5 : arg5.IsWhole) (arg6 : Memref sig .tc .vmem S1x4x2x64 .f32) (harg6 : arg6.IsWhole) (arg7 : Memref sig .tc .vmem S1x8x2x64 .f32) (harg7 : arg7.IsWhole) (arg8 : Memref sig .tc .vmem S1x16x2x64 .f32) (harg8 : arg8.IsWhole) (arg9 : Memref sig .tc .vmem S1x32x2x64 .f32) (harg9 : arg9.IsWhole) (arg10 : Memref sig .tc .vmem S1x64x2x64 .f32) (harg10 : arg10.IsWhole) (arg11 : Memref sig .tc .vmem S1x128x2x64 .f32) (harg11 : arg11.IsWhole) (arg12 : Memref sig .tc .vmem S1x256x2x64 .f32) (harg12 : arg12.IsWhole) (arg13 : Memref sig .tc .vmem S1x512x64 .f32) (harg13 : arg13.IsWhole) (arg14 : Memref sig .tc .vmem S1024x64 .f32) (harg14 : arg14.IsWhole) (arg15 : Memref sig .tc .vmem S1024x128 .f32) (harg15 : arg15.IsWhole) (hc0 : cond0_0 i) (hc1 : cond0_1 i) (x0 : Vec Ideal S1024x64 .f32) (x1 : Vec Ideal S127x2x64 .f32) (x2 : Vec Ideal S1x1x2x64 .f32) (x3 : Vec Ideal S1x2x2x64 .f32) (x4 : Vec Ideal S1x4x2x64 .f32) (x5 : Vec Ideal S1x8x2x64 .f32) (x6 : Vec Ideal S1x16x2x64 .f32) (x7 : Vec Ideal S1x32x2x64 .f32) (x8 : Vec Ideal S1x64x2x64 .f32) (x9 : Vec Ideal S1x128x2x64 .f32) (x10 : Vec Ideal S1x256x2x64 .f32) (x11 : Vec Ideal S1x512x64 .f32)
    (r : Fin 1024) (v : Fin 64) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 (ix2 r v)
      = 0 + pathW (gsplit x0 x1 r) 7 (i 1).val
          * ∑ l : Fin 512, lw (llg x0 x2 x3 x4 x5 x6 x7 x8 x9 x10 r) 9 l.val * x11 (ix3 (0 : Fin 1) l v) := by
  rw [out_A_eq, outTerm_apply, load_whole arg2 harg2 x0 zero2,
    load_whole arg4 harg4 x2 zero4,
    load_whole arg5 harg5 x3 zero4,
    load_whole arg6 harg6 x4 zero4,
    load_whole arg7 harg7 x5 zero4,
    load_whole arg8 harg8 x6 zero4,
    load_whole arg9 harg9 x7 zero4,
    load_whole arg10 harg10 x8 zero4,
    load_whole arg11 harg11 x9 zero4,
    load_whole arg12 harg12 x10 zero4,
    load_whole arg13 harg13 x11 zero3, inner_apply, zeros_apply,
    mask_sum (fun j => gateTerm (View.readAt (Elt Ideal) arg3.view (Rect.unit (s := S127x2x64) ![0, 0, 0] S1x2x64.size inb_S127x2x64_S1x2x64_0_0_0).toLoadRect (harg3.unread x1)) (View.readAt (Elt Ideal) arg3.view (Rect.unit (s := S127x2x64) ![1, 0, 0] S2x2x64.size inb_S127x2x64_S2x2x64_1_0_0).toLoadRect (harg3.unread x1)) (View.readAt (Elt Ideal) arg3.view (Rect.unit (s := S127x2x64) ![3, 0, 0] S4x2x64.size inb_S127x2x64_S4x2x64_3_0_0).toLoadRect (harg3.unread x1)) (View.readAt (Elt Ideal) arg3.view (Rect.unit (s := S127x2x64) ![7, 0, 0] S8x2x64.size inb_S127x2x64_S8x2x64_7_0_0).toLoadRect (harg3.unread x1)) (View.readAt (Elt Ideal) arg3.view (Rect.unit (s := S127x2x64) ![15, 0, 0] S16x2x64.size inb_S127x2x64_S16x2x64_15_0_0).toLoadRect (harg3.unread x1)) (View.readAt (Elt Ideal) arg3.view (Rect.unit (s := S127x2x64) ![31, 0, 0] S32x2x64.size inb_S127x2x64_S32x2x64_31_0_0).toLoadRect (harg3.unread x1)) (View.readAt (Elt Ideal) arg3.view (Rect.unit (s := S127x2x64) ![63, 0, 0] S64x2x64.size inb_S127x2x64_S64x2x64_63_0_0).toLoadRect (harg3.unread x1)) x0 (ix2 r j)) (i 1).val (coord_lt i),
    gate_loads_apply arg3 harg3 x0 x1 r ⟨(i 1).val, coord_lt i⟩]

end Cert.KernelIdeal.Body

end
-- ==== Proof.Windows.lean ====
/-
  The input windows' blocks at a grid point, as entries of the three argument arrays.  Point `t` is batch tile
  `t / 128` and subtree `t % 128`.  The query block is rows `1024 (t / 128) + r` of the queries; the top-key block
  is the first 127 nodes of the key table; local level `l`'s block is the nodes `2^(7+l) - 1 + (t % 128) 2^l + i`
  of the key table; the value block is the leaves `512 (t % 128) + l`.
-/
import proofs.«171282_j44032004719312_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Windows

open Cert.KernelIdeal Cert.KernelIdeal.Gen Idealize.ShloMosaic Idealize.ShloMosaic.TcCoe Idealize.ShloMosaic.StableHlo
open Idealize.ShloMosaic.ValueIdx Idealize.SL.Sem

variable (m : (ℓ : Loc nD τ sig) → Buf (Elt Ideal) ℓ)

/-- The queries, the key table and the leaf values at launch, on core `c`. -/
abbrev qA (c : Dev nD) : FVec Ideal S2048x64 .f32 := m ((c : Thread nD τ).loc main_arg0)
abbrev kA (c : Dev nD) : FVec Ideal S65535x2x64 .f32 := m ((c : Thread nD τ).loc main_arg1)
abbrev xA (c : Dev nD) : FVec Ideal S65536x64 .f32 := m ((c : Thread nD τ).loc main_arg2)

theorem hN : cfg0.N = 256 := N_0

/-- The query block. -/
theorem iblk0_apply (c : Dev nD) (t : Fin cfg0.N) (r : Fin 1024) (x : Fin 64) :
    (iblk m c 0 t : Vec Ideal S1024x64 .f32) (ix2 r x)
      = qA m c (ix2 ⟨1024 * (t.val / 128) + r.val, by have := t.isLt; have := hN; omega⟩ x) := by
  have hi : ∀ t : Fin cfg0.N, win0_0.index t 0 = t.val / 128 ∧ win0_0.index t 1 = 0 :=
    (by decide +kernel : ∀ t : Fin grid0.N, _)
  unfold iblk
  rw [View.read_apply]
  show V m c main_arg0 _ = _
  rw [V_main_arg0]
  refine congrArg (qA m c) (funext fun a => Fin.ext ?_)
  match a with
  | ⟨0, _⟩ =>
    show win0_0.index t 0 * 1024 + 1 * (r : ℕ) = 1024 * (t.val / 128) + (r : ℕ)
    rw [(hi t).1]; omega
  | ⟨1, _⟩ =>
    show win0_0.index t 1 * 64 + 1 * (x : ℕ) = (x : ℕ)
    rw [(hi t).2]; omega

/-- The top keys: the first 127 nodes of the key table. -/
theorem V_v0 (c : Dev nD) : (V m c main_v0 : FVec Ideal S127x2x64 .f32)
    = extractStridedSlice S127x2x64 ![0, 0, 0] (kA m c) slices_S65535x2x64_S127x2x64_0_0_0 := by
  dsimp only [V, hostOps0]; after_results

theorem iblk1_apply (c : Dev nD) (t : Fin cfg0.N) (i : Fin 127) (cc : Fin 2) (x : Fin 64) :
    (iblk m c 1 t : Vec Ideal S127x2x64 .f32) (ix3 i cc x) = kA m c (ix3 ⟨i.val, by have := i.isLt; omega⟩ cc x) := by
  have hi : ∀ t : Fin cfg0.N, win0_1.index t 0 = 0 ∧ win0_1.index t 1 = 0 ∧ win0_1.index t 2 = 0 :=
    (by decide +kernel : ∀ t : Fin grid0.N, _)
  unfold iblk
  rw [View.read_apply]
  show V m c main_v0 _ = _
  rw [V_v0]
  refine extractStridedSlice_apply ![0, 0, 0] (kA m c) _ _ (ix3 ⟨i.val, by have := i.isLt; omega⟩ cc x) fun a => ?_
  match a with
  | ⟨0, _⟩ =>
    show (i : ℕ) = 0 + (win0_1.index t 0 * 127 + 1 * (i : ℕ))
    rw [(hi t).1]; omega
  | ⟨1, _⟩ =>
    show (cc : ℕ) = 0 + (win0_1.index t 1 * 2 + 1 * (cc : ℕ))
    rw [(hi t).2.1]; omega
  | ⟨2, _⟩ =>
    show (x : ℕ) = 0 + (win0_1.index t 2 * 64 + 1 * (x : ℕ))
    rw [(hi t).2.2]; omega

/-- Local level 0's keys: the 128 nodes from position 127 of the key table, as 128 groups of 1. -/
theorem V_v2 (c : Dev nD) : (V m c main_v2 : FVec Ideal S128x1x2x64 .f32)
    = shapeCast S128x1x2x64 (extractStridedSlice S128x2x64 ![127, 0, 0] (kA m c) slices_S65535x2x64_S128x2x64_127_0_0)
        shapeCasts_S128x2x64_S128x1x2x64 := by
  dsimp only [V, hostOps0]; after_results; rfl

theorem iblk2_apply (c : Dev nD) (t : Fin cfg0.N) (i : Fin 1) (cc : Fin 2) (x : Fin 64) :
    (iblk m c 2 t : Vec Ideal S1x1x2x64 .f32) (ix4 (0 : Fin 1) i cc x)
      = kA m c (ix3 ⟨127 + ((t.val % 128) * 1 + i.val), by have := i.isLt; have := Nat.mod_lt t.val (show 0 < 128 by norm_num); omega⟩ cc x) := by
  have hi : ∀ t : Fin cfg0.N, win0_2.index t 0 = t.val % 128 ∧ win0_2.index t 1 = 0 ∧ win0_2.index t 2 = 0 ∧ win0_2.index t 3 = 0 :=
    (by decide +kernel : ∀ t : Fin grid0.N, _)
  have hmod := Nat.mod_lt t.val (show 0 < 128 by norm_num)
  unfold iblk
  rw [View.read_apply]
  show V m c main_v2 _ = _
  rw [V_v2]
  refine (shapeCast_apply _ _ _ (ix3 (⟨(t.val % 128) * 1 + i.val, by have := i.isLt; omega⟩ : Fin 128) cc x) ?_).trans
    (extractStridedSlice_apply ![127, 0, 0] (kA m c) _ _ _ fun a => ?_)
  · rw [Shape.rowMajor_val_three, Shape.rowMajor_val_four]
    show (((t.val % 128) * 1 + (i : ℕ)) * 2 + (cc : ℕ)) * 64 + (x : ℕ)
      = (((win0_2.index t 0 * 1 + 1 * 0) * 1 + (win0_2.index t 1 * 1 + 1 * (i : ℕ))) * 2 + (win0_2.index t 2 * 2 + 1 * (cc : ℕ))) * 64
        + (win0_2.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 1's keys: the 256 nodes from position 255 of the key table, as 128 groups of 2. -/
theorem V_v4 (c : Dev nD) : (V m c main_v4 : FVec Ideal S128x2x2x64 .f32)
    = shapeCast S128x2x2x64 (extractStridedSlice S256x2x64 ![255, 0, 0] (kA m c) slices_S65535x2x64_S256x2x64_255_0_0)
        shapeCasts_S256x2x64_S128x2x2x64 := by
  dsimp only [V, hostOps0]; after_results; rfl

theorem iblk3_apply (c : Dev nD) (t : Fin cfg0.N) (i : Fin 2) (cc : Fin 2) (x : Fin 64) :
    (iblk m c 3 t : Vec Ideal S1x2x2x64 .f32) (ix4 (0 : Fin 1) i cc x)
      = kA m c (ix3 ⟨255 + ((t.val % 128) * 2 + i.val), by have := i.isLt; have := Nat.mod_lt t.val (show 0 < 128 by norm_num); omega⟩ cc x) := by
  have hi : ∀ t : Fin cfg0.N, win0_3.index t 0 = t.val % 128 ∧ win0_3.index t 1 = 0 ∧ win0_3.index t 2 = 0 ∧ win0_3.index t 3 = 0 :=
    (by decide +kernel : ∀ t : Fin grid0.N, _)
  have hmod := Nat.mod_lt t.val (show 0 < 128 by norm_num)
  unfold iblk
  rw [View.read_apply]
  show V m c main_v4 _ = _
  rw [V_v4]
  refine (shapeCast_apply _ _ _ (ix3 (⟨(t.val % 128) * 2 + i.val, by have := i.isLt; omega⟩ : Fin 256) cc x) ?_).trans
    (extractStridedSlice_apply ![255, 0, 0] (kA m c) _ _ _ fun a => ?_)
  · rw [Shape.rowMajor_val_three, Shape.rowMajor_val_four]
    show (((t.val % 128) * 2 + (i : ℕ)) * 2 + (cc : ℕ)) * 64 + (x : ℕ)
      = (((win0_3.index t 0 * 1 + 1 * 0) * 2 + (win0_3.index t 1 * 2 + 1 * (i : ℕ))) * 2 + (win0_3.index t 2 * 2 + 1 * (cc : ℕ))) * 64
        + (win0_3.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 2's keys: the 512 nodes from position 511 of the key table, as 128 groups of 4. -/
theorem V_v6 (c : Dev nD) : (V m c main_v6 : FVec Ideal S128x4x2x64 .f32)
    = shapeCast S128x4x2x64 (extractStridedSlice S512x2x64 ![511, 0, 0] (kA m c) slices_S65535x2x64_S512x2x64_511_0_0)
        shapeCasts_S512x2x64_S128x4x2x64 := by
  dsimp only [V, hostOps0]; after_results; rfl

theorem iblk4_apply (c : Dev nD) (t : Fin cfg0.N) (i : Fin 4) (cc : Fin 2) (x : Fin 64) :
    (iblk m c 4 t : Vec Ideal S1x4x2x64 .f32) (ix4 (0 : Fin 1) i cc x)
      = kA m c (ix3 ⟨511 + ((t.val % 128) * 4 + i.val), by have := i.isLt; have := Nat.mod_lt t.val (show 0 < 128 by norm_num); omega⟩ cc x) := by
  have hi : ∀ t : Fin cfg0.N, win0_4.index t 0 = t.val % 128 ∧ win0_4.index t 1 = 0 ∧ win0_4.index t 2 = 0 ∧ win0_4.index t 3 = 0 :=
    (by decide +kernel : ∀ t : Fin grid0.N, _)
  have hmod := Nat.mod_lt t.val (show 0 < 128 by norm_num)
  unfold iblk
  rw [View.read_apply]
  show V m c main_v6 _ = _
  rw [V_v6]
  refine (shapeCast_apply _ _ _ (ix3 (⟨(t.val % 128) * 4 + i.val, by have := i.isLt; omega⟩ : Fin 512) cc x) ?_).trans
    (extractStridedSlice_apply ![511, 0, 0] (kA m c) _ _ _ fun a => ?_)
  · rw [Shape.rowMajor_val_three, Shape.rowMajor_val_four]
    show (((t.val % 128) * 4 + (i : ℕ)) * 2 + (cc : ℕ)) * 64 + (x : ℕ)
      = (((win0_4.index t 0 * 1 + 1 * 0) * 4 + (win0_4.index t 1 * 4 + 1 * (i : ℕ))) * 2 + (win0_4.index t 2 * 2 + 1 * (cc : ℕ))) * 64
        + (win0_4.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 3's keys: the 1024 nodes from position 1023 of the key table, as 128 groups of 8. -/
theorem V_v8 (c : Dev nD) : (V m c main_v8 : FVec Ideal S128x8x2x64 .f32)
    = shapeCast S128x8x2x64 (extractStridedSlice S1024x2x64 ![1023, 0, 0] (kA m c) slices_S65535x2x64_S1024x2x64_1023_0_0)
        shapeCasts_S1024x2x64_S128x8x2x64 := by
  dsimp only [V, hostOps0]; after_results; rfl

theorem iblk5_apply (c : Dev nD) (t : Fin cfg0.N) (i : Fin 8) (cc : Fin 2) (x : Fin 64) :
    (iblk m c 5 t : Vec Ideal S1x8x2x64 .f32) (ix4 (0 : Fin 1) i cc x)
      = kA m c (ix3 ⟨1023 + ((t.val % 128) * 8 + i.val), by have := i.isLt; have := Nat.mod_lt t.val (show 0 < 128 by norm_num); omega⟩ cc x) := by
  have hi : ∀ t : Fin cfg0.N, win0_5.index t 0 = t.val % 128 ∧ win0_5.index t 1 = 0 ∧ win0_5.index t 2 = 0 ∧ win0_5.index t 3 = 0 :=
    (by decide +kernel : ∀ t : Fin grid0.N, _)
  have hmod := Nat.mod_lt t.val (show 0 < 128 by norm_num)
  unfold iblk
  rw [View.read_apply]
  show V m c main_v8 _ = _
  rw [V_v8]
  refine (shapeCast_apply _ _ _ (ix3 (⟨(t.val % 128) * 8 + i.val, by have := i.isLt; omega⟩ : Fin 1024) cc x) ?_).trans
    (extractStridedSlice_apply ![1023, 0, 0] (kA m c) _ _ _ fun a => ?_)
  · rw [Shape.rowMajor_val_three, Shape.rowMajor_val_four]
    show (((t.val % 128) * 8 + (i : ℕ)) * 2 + (cc : ℕ)) * 64 + (x : ℕ)
      = (((win0_5.index t 0 * 1 + 1 * 0) * 8 + (win0_5.index t 1 * 8 + 1 * (i : ℕ))) * 2 + (win0_5.index t 2 * 2 + 1 * (cc : ℕ))) * 64
        + (win0_5.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 4's keys: the 2048 nodes from position 2047 of the key table, as 128 groups of 16. -/
theorem V_v10 (c : Dev nD) : (V m c main_v10 : FVec Ideal S128x16x2x64 .f32)
    = shapeCast S128x16x2x64 (extractStridedSlice S2048x2x64 ![2047, 0, 0] (kA m c) slices_S65535x2x64_S2048x2x64_2047_0_0)
        shapeCasts_S2048x2x64_S128x16x2x64 := by
  dsimp only [V, hostOps0]; after_results; rfl

theorem iblk6_apply (c : Dev nD) (t : Fin cfg0.N) (i : Fin 16) (cc : Fin 2) (x : Fin 64) :
    (iblk m c 6 t : Vec Ideal S1x16x2x64 .f32) (ix4 (0 : Fin 1) i cc x)
      = kA m c (ix3 ⟨2047 + ((t.val % 128) * 16 + i.val), by have := i.isLt; have := Nat.mod_lt t.val (show 0 < 128 by norm_num); omega⟩ cc x) := by
  have hi : ∀ t : Fin cfg0.N, win0_6.index t 0 = t.val % 128 ∧ win0_6.index t 1 = 0 ∧ win0_6.index t 2 = 0 ∧ win0_6.index t 3 = 0 :=
    (by decide +kernel : ∀ t : Fin grid0.N, _)
  have hmod := Nat.mod_lt t.val (show 0 < 128 by norm_num)
  unfold iblk
  rw [View.read_apply]
  show V m c main_v10 _ = _
  rw [V_v10]
  refine (shapeCast_apply _ _ _ (ix3 (⟨(t.val % 128) * 16 + i.val, by have := i.isLt; omega⟩ : Fin 2048) cc x) ?_).trans
    (extractStridedSlice_apply ![2047, 0, 0] (kA m c) _ _ _ fun a => ?_)
  · rw [Shape.rowMajor_val_three, Shape.rowMajor_val_four]
    show (((t.val % 128) * 16 + (i : ℕ)) * 2 + (cc : ℕ)) * 64 + (x : ℕ)
      = (((win0_6.index t 0 * 1 + 1 * 0) * 16 + (win0_6.index t 1 * 16 + 1 * (i : ℕ))) * 2 + (win0_6.index t 2 * 2 + 1 * (cc : ℕ))) * 64
        + (win0_6.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 5's keys: the 4096 nodes from position 4095 of the key table, as 128 groups of 32. -/
theorem V_v12 (c : Dev nD) : (V m c main_v12 : FVec Ideal S128x32x2x64 .f32)
    = shapeCast S128x32x2x64 (extractStridedSlice S4096x2x64 ![4095, 0, 0] (kA m c) slices_S65535x2x64_S4096x2x64_4095_0_0)
        shapeCasts_S4096x2x64_S128x32x2x64 := by
  dsimp only [V, hostOps0]; after_results; rfl

theorem iblk7_apply (c : Dev nD) (t : Fin cfg0.N) (i : Fin 32) (cc : Fin 2) (x : Fin 64) :
    (iblk m c 7 t : Vec Ideal S1x32x2x64 .f32) (ix4 (0 : Fin 1) i cc x)
      = kA m c (ix3 ⟨4095 + ((t.val % 128) * 32 + i.val), by have := i.isLt; have := Nat.mod_lt t.val (show 0 < 128 by norm_num); omega⟩ cc x) := by
  have hi : ∀ t : Fin cfg0.N, win0_7.index t 0 = t.val % 128 ∧ win0_7.index t 1 = 0 ∧ win0_7.index t 2 = 0 ∧ win0_7.index t 3 = 0 :=
    (by decide +kernel : ∀ t : Fin grid0.N, _)
  have hmod := Nat.mod_lt t.val (show 0 < 128 by norm_num)
  unfold iblk
  rw [View.read_apply]
  show V m c main_v12 _ = _
  rw [V_v12]
  refine (shapeCast_apply _ _ _ (ix3 (⟨(t.val % 128) * 32 + i.val, by have := i.isLt; omega⟩ : Fin 4096) cc x) ?_).trans
    (extractStridedSlice_apply ![4095, 0, 0] (kA m c) _ _ _ fun a => ?_)
  · rw [Shape.rowMajor_val_three, Shape.rowMajor_val_four]
    show (((t.val % 128) * 32 + (i : ℕ)) * 2 + (cc : ℕ)) * 64 + (x : ℕ)
      = (((win0_7.index t 0 * 1 + 1 * 0) * 32 + (win0_7.index t 1 * 32 + 1 * (i : ℕ))) * 2 + (win0_7.index t 2 * 2 + 1 * (cc : ℕ))) * 64
        + (win0_7.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 6's keys: the 8192 nodes from position 8191 of the key table, as 128 groups of 64. -/
theorem V_v14 (c : Dev nD) : (V m c main_v14 : FVec Ideal S128x64x2x64 .f32)
    = shapeCast S128x64x2x64 (extractStridedSlice S8192x2x64 ![8191, 0, 0] (kA m c) slices_S65535x2x64_S8192x2x64_8191_0_0)
        shapeCasts_S8192x2x64_S128x64x2x64 := by
  dsimp only [V, hostOps0]; after_results; rfl

theorem iblk8_apply (c : Dev nD) (t : Fin cfg0.N) (i : Fin 64) (cc : Fin 2) (x : Fin 64) :
    (iblk m c 8 t : Vec Ideal S1x64x2x64 .f32) (ix4 (0 : Fin 1) i cc x)
      = kA m c (ix3 ⟨8191 + ((t.val % 128) * 64 + i.val), by have := i.isLt; have := Nat.mod_lt t.val (show 0 < 128 by norm_num); omega⟩ cc x) := by
  have hi : ∀ t : Fin cfg0.N, win0_8.index t 0 = t.val % 128 ∧ win0_8.index t 1 = 0 ∧ win0_8.index t 2 = 0 ∧ win0_8.index t 3 = 0 :=
    (by decide +kernel : ∀ t : Fin grid0.N, _)
  have hmod := Nat.mod_lt t.val (show 0 < 128 by norm_num)
  unfold iblk
  rw [View.read_apply]
  show V m c main_v14 _ = _
  rw [V_v14]
  refine (shapeCast_apply _ _ _ (ix3 (⟨(t.val % 128) * 64 + i.val, by have := i.isLt; omega⟩ : Fin 8192) cc x) ?_).trans
    (extractStridedSlice_apply ![8191, 0, 0] (kA m c) _ _ _ fun a => ?_)
  · rw [Shape.rowMajor_val_three, Shape.rowMajor_val_four]
    show (((t.val % 128) * 64 + (i : ℕ)) * 2 + (cc : ℕ)) * 64 + (x : ℕ)
      = (((win0_8.index t 0 * 1 + 1 * 0) * 64 + (win0_8.index t 1 * 64 + 1 * (i : ℕ))) * 2 + (win0_8.index t 2 * 2 + 1 * (cc : ℕ))) * 64
        + (win0_8.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 7's keys: the 16384 nodes from position 16383 of the key table, as 128 groups of 128. -/
theorem V_v16 (c : Dev nD) : (V m c main_v16 : FVec Ideal S128x128x2x64 .f32)
    = shapeCast S128x128x2x64 (extractStridedSlice S16384x2x64 ![16383, 0, 0] (kA m c) slices_S65535x2x64_S16384x2x64_16383_0_0)
        shapeCasts_S16384x2x64_S128x128x2x64 := by
  dsimp only [V, hostOps0]; after_results; rfl

theorem iblk9_apply (c : Dev nD) (t : Fin cfg0.N) (i : Fin 128) (cc : Fin 2) (x : Fin 64) :
    (iblk m c 9 t : Vec Ideal S1x128x2x64 .f32) (ix4 (0 : Fin 1) i cc x)
      = kA m c (ix3 ⟨16383 + ((t.val % 128) * 128 + i.val), by have := i.isLt; have := Nat.mod_lt t.val (show 0 < 128 by norm_num); omega⟩ cc x) := by
  have hi : ∀ t : Fin cfg0.N, win0_9.index t 0 = t.val % 128 ∧ win0_9.index t 1 = 0 ∧ win0_9.index t 2 = 0 ∧ win0_9.index t 3 = 0 :=
    (by decide +kernel : ∀ t : Fin grid0.N, _)
  have hmod := Nat.mod_lt t.val (show 0 < 128 by norm_num)
  unfold iblk
  rw [View.read_apply]
  show V m c main_v16 _ = _
  rw [V_v16]
  refine (shapeCast_apply _ _ _ (ix3 (⟨(t.val % 128) * 128 + i.val, by have := i.isLt; omega⟩ : Fin 16384) cc x) ?_).trans
    (extractStridedSlice_apply ![16383, 0, 0] (kA m c) _ _ _ fun a => ?_)
  · rw [Shape.rowMajor_val_three, Shape.rowMajor_val_four]
    show (((t.val % 128) * 128 + (i : ℕ)) * 2 + (cc : ℕ)) * 64 + (x : ℕ)
      = (((win0_9.index t 0 * 1 + 1 * 0) * 128 + (win0_9.index t 1 * 128 + 1 * (i : ℕ))) * 2 + (win0_9.index t 2 * 2 + 1 * (cc : ℕ))) * 64
        + (win0_9.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- Local level 8's keys: the 32768 nodes from position 32767 of the key table, as 128 groups of 256. -/
theorem V_v18 (c : Dev nD) : (V m c main_v18 : FVec Ideal S128x256x2x64 .f32)
    = shapeCast S128x256x2x64 (extractStridedSlice S32768x2x64 ![32767, 0, 0] (kA m c) slices_S65535x2x64_S32768x2x64_32767_0_0)
        shapeCasts_S32768x2x64_S128x256x2x64 := by
  dsimp only [V, hostOps0]; after_results; rfl

theorem iblk10_apply (c : Dev nD) (t : Fin cfg0.N) (i : Fin 256) (cc : Fin 2) (x : Fin 64) :
    (iblk m c 10 t : Vec Ideal S1x256x2x64 .f32) (ix4 (0 : Fin 1) i cc x)
      = kA m c (ix3 ⟨32767 + ((t.val % 128) * 256 + i.val), by have := i.isLt; have := Nat.mod_lt t.val (show 0 < 128 by norm_num); omega⟩ cc x) := by
  have hi : ∀ t : Fin cfg0.N, win0_10.index t 0 = t.val % 128 ∧ win0_10.index t 1 = 0 ∧ win0_10.index t 2 = 0 ∧ win0_10.index t 3 = 0 :=
    (by decide +kernel : ∀ t : Fin grid0.N, _)
  have hmod := Nat.mod_lt t.val (show 0 < 128 by norm_num)
  unfold iblk
  rw [View.read_apply]
  show V m c main_v18 _ = _
  rw [V_v18]
  refine (shapeCast_apply _ _ _ (ix3 (⟨(t.val % 128) * 256 + i.val, by have := i.isLt; omega⟩ : Fin 32768) cc x) ?_).trans
    (extractStridedSlice_apply ![32767, 0, 0] (kA m c) _ _ _ fun a => ?_)
  · rw [Shape.rowMajor_val_three, Shape.rowMajor_val_four]
    show (((t.val % 128) * 256 + (i : ℕ)) * 2 + (cc : ℕ)) * 64 + (x : ℕ)
      = (((win0_10.index t 0 * 1 + 1 * 0) * 256 + (win0_10.index t 1 * 256 + 1 * (i : ℕ))) * 2 + (win0_10.index t 2 * 2 + 1 * (cc : ℕ))) * 64
        + (win0_10.index t 3 * 64 + 1 * (x : ℕ))
    rw [(hi t).1, (hi t).2.1, (hi t).2.2.1, (hi t).2.2.2]
    ring
  · match a with
    | ⟨0, _⟩ => rfl
    | ⟨1, _⟩ => show (cc : ℕ) = 0 + (cc : ℕ); omega
    | ⟨2, _⟩ => show (x : ℕ) = 0 + (x : ℕ); omega

/-- The leaf values as 128 groups of 512. -/
theorem V_v19 (c : Dev nD) : (V m c main_v19 : FVec Ideal S128x512x64 .f32)
    = shapeCast S128x512x64 (xA m c) shapeCasts_S65536x64_S128x512x64 := by
  dsimp only [V, hostOps0]; after_results; rfl

theorem iblk11_apply (c : Dev nD) (t : Fin cfg0.N) (l : Fin 512) (v : Fin 64) :
    (iblk m c 11 t : Vec Ideal S1x512x64 .f32) (ix3 (0 : Fin 1) l v)
      = xA m c (ix2 ⟨512 * (t.val % 128) + l.val, by have := l.isLt; have := Nat.mod_lt t.val (show 0 < 128 by norm_num); omega⟩ v) := by
  have hi : ∀ t : Fin cfg0.N, win0_11.index t 0 = t.val % 128 ∧ win0_11.index t 1 = 0 ∧ win0_11.index t 2 = 0 :=
    (by decide +kernel : ∀ t : Fin grid0.N, _)
  have hmod := Nat.mod_lt t.val (show 0 < 128 by norm_num)
  unfold iblk
  rw [View.read_apply]
  show V m c main_v19 _ = _
  rw [V_v19]
  refine shapeCast_apply _ _ _ _ ?_
  rw [Shape.rowMajor_val_two, Shape.rowMajor_val_three]
  show (512 * (t.val % 128) + (l : ℕ)) * 64 + (v : ℕ)
    = ((win0_11.index t 0 * 1 + 1 * 0) * 512 + (win0_11.index t 1 * 512 + 1 * (l : ℕ))) * 64 + (win0_11.index t 2 * 64 + 1 * (v : ℕ))
  rw [(hi t).1, (hi t).2.1, (hi t).2.2]
  ring

end Cert.KernelIdeal.Windows

end
-- ==== Proof.TreeBridge.lean ====
/-
  From the kernel's per-row quantities to the specification.  The path weights of a level only look at the splits
  of the levels above it; the weights a subtree computes from its own logits are the tree's weights inside that
  subtree; and the sum over the 128 subtrees of (subtree weight) times (weighted leaf values inside the subtree) is
  the specification's sum over all 65536 leaves — by regrouping the sum and distributing the subtree's weight over
  the inner sum, which is where the arguments being real numbers is used.
-/
import proofs.«171282_j44032004719312_2_alg».proof.Proof.LibKernelLevel
import proofs.«171282_j44032004719312_2_alg».proof.Proof.TreeSpec

noncomputable section

namespace TreeBridge

open Finset Idealize.ShloMosaic Idealize.ShloMosaic.ValueIdx TreeWeights KernelLevel TreeSpec

/-- The path weights of level `d` depend only on the splits at the nodes above level `d`. -/
theorem pathW_congr (s1 s2 : ℕ → ℕ → EReal) : ∀ (d j : ℕ), j < 2 ^ d →
    (∀ node c, node < 2 ^ d - 1 → s1 node c = s2 node c) → pathW s1 d j = pathW s2 d j
  | 0, _, _, _ => rfl
  | d + 1, j, hj, h => by
    have hp : 2 ^ (d + 1) = 2 * 2 ^ d := by rw [pow_succ]; ring
    have h1 : 1 ≤ 2 ^ d := Nat.one_le_two_pow
    rw [pathW_succ, pathW_succ, pathW_congr s1 s2 d (j / 2) (by omega) (fun node c hn => h node c (by omega)),
      h (2 ^ d - 1 + j / 2) (j % 2) (by omega)]

/-- The weights a subtree computes from its own logits are the tree's weights inside the subtree, for the levels
    (below `L`) whose logits are the tree's. -/
theorem lw_eq_localW (lg : ℕ → ℕ → ℕ → EReal) (split : ℕ → ℕ → EReal) (P t L : ℕ)
    (h : ∀ l, l < L → ∀ i c, i < 2 ^ l → share2 (lg l i 0) (lg l i 1) c = split (2 ^ (P + l) - 1 + (t * 2 ^ l + i)) c) :
    ∀ l, l ≤ L → ∀ j, j < 2 ^ l → lw lg l j = localW split P t l j
  | 0, _, _, _ => rfl
  | l + 1, hl, j, hj => by
    have hp : 2 ^ (l + 1) = 2 * 2 ^ l := by rw [pow_succ]; ring
    show lw lg l (j / 2) * share2 (lg l (j / 2) 0) (lg l (j / 2) 1) (j % 2) = _
    rw [localW_succ, lw_eq_localW lg split P t L h l (by omega) (j / 2) (by omega), h l (by omega) (j / 2) (j % 2) (by omega)]

/-- Column `v` of the leaf values as a function of the leaf's number (0 past the last leaf). -/
def valN (X : SX.Idx → EReal) (v : Fin 64) (leaf : ℕ) : EReal :=
  if h : leaf < 65536 then X (ix2 (⟨leaf, h⟩ : Fin 65536) v) else 0

theorem valN_isReal (X : SX.Idx → EReal) (hX : ∀ i, IsReal (X i)) (v : Fin 64) (leaf : ℕ) : IsReal (valN X v leaf) := by
  unfold valN; split_ifs
  · exact hX _
  · exact IsReal.zero

/-- The sum over the subtrees of (subtree weight) × (weighted leaf values inside the subtree) is the result. -/
theorem accumulated_eq_result (q : SQ.Idx → EReal) (K : SK.Idx → EReal) (X : SX.Idx → EReal)
    (hq : ∀ i, IsReal (q i)) (hK : ∀ i, IsReal (K i)) (hX : ∀ i, IsReal (X i)) (b : Fin 2048) (v : Fin 64) :
    ∑ s ∈ range 128, pathW (split q K b) 7 s * ∑ l ∈ range 512, localW (split q K b) 7 s 9 l * valN X v (s * 512 + l)
      = result q K X b v := by
  have hs : ∀ node c, IsReal (split q K b node c) := split_isReal q K hq hK b
  have h := sum_leaves_eq (split q K b) (valN X v) 7 9
    (fun t _ => pathW_isReal _ hs 7 t)
    (fun t _ l _ => (localW_isReal _ hs 7 t 9 l).mul (valN_isReal X hX v _))
  have e1 : (2 : ℕ) ^ 7 = 128 := by norm_num
  have e2 : (2 : ℕ) ^ 9 = 512 := by norm_num
  have e3 : (2 : ℕ) ^ (7 + 9) = 65536 := by norm_num
  rw [e1, e2, e3] at h
  rw [← h]
  unfold result
  rw [← Fin.sum_univ_eq_sum_range (fun leaf => pathW (split q K b) (7 + 9) leaf * valN X v leaf) 65536]
  refine Finset.sum_congr rfl fun leaf _ => ?_
  show pathW (split q K b) 16 leaf.val * valN X v leaf.val = _
  unfold valN
  rw [dif_pos leaf.isLt]

end TreeBridge

end
-- ==== Proof.KValue.lean ====
/-
  The kernel's values point by point.  At point `t` (batch tile `t / 128`, subtree `t % 128`) and row `r` of the tile,
  the global row is `1024 (t / 128) + r`; the blocks the body is given are entries of the argument arrays, so the
  row's splits at the top nodes are the specification's splits, the subtree's own weights are the tree's weights
  inside subtree `t % 128`, and the value block is the subtree's leaves.
-/
import proofs.«171282_j44032004719312_2_alg».proof.Proof.Gen.KernelIdeal.Value
import proofs.«171282_j44032004719312_2_alg».proof.Proof.BodySem
import proofs.«171282_j44032004719312_2_alg».proof.Proof.Windows
import proofs.«171282_j44032004719312_2_alg».proof.Proof.TreeBridge

set_option maxRecDepth 16384

noncomputable section

namespace Cert.KernelIdeal.KValue

open Cert.KernelIdeal Cert.KernelIdeal.Gen Cert.KernelIdeal.Body Cert.KernelIdeal.Windows
open Idealize.ShloMosaic Idealize.ShloMosaic.TcCoe Idealize.ShloMosaic.ValueIdx Idealize.SL.Sem
open Finset TreeWeights KernelLevel TreeSpec TreeBridge

variable (m : (ℓ : Loc nD τ sig) → Buf (Elt Ideal) ℓ)

/-- The global row of row `r` of the batch tile of point `t`. -/
def gRow (t : Fin cfg0.N) (r : Fin 1024) : Fin 2048 :=
  ⟨1024 * (t.val / 128) + r.val, by have := t.isLt; have := hN; omega⟩

theorem coords1 : ∀ t : Fin cfg0.N, ((grid0.coords t) 1).val = t.val % 128 :=
  (by decide +kernel : ∀ t : Fin grid0.N, _)

/-- The row's logits against the top keys are the specification's. -/
theorem glg_eq (c : Dev nD) (t : Fin cfg0.N) (r : Fin 1024) (node cc : ℕ) (hnode : node < 127) :
    glg (iblk m c 0 t) (iblk m c 1 t) r node cc = logit (qA m c) (kA m c) (gRow t r) node cc := by
  unfold glg logit
  rw [dif_pos hnode, dif_pos (by omega : node < 65535)]
  refine Finset.sum_congr rfl fun x _ => ?_
  rw [iblk0_apply m c t r x, iblk1_apply m c t ⟨node, hnode⟩ _ x]
  rfl

/-- The subtree weights of the row are the specification's path weights of level 7. -/
theorem gate_point (c : Dev nD) (t : Fin cfg0.N) (r : Fin 1024) (j : ℕ) (hj : j < 128) :
    pathW (gsplit (iblk m c 0 t) (iblk m c 1 t) r) 7 j = pathW (split (qA m c) (kA m c) (gRow t r)) 7 j := by
  refine pathW_congr _ _ 7 j (by norm_num; exact hj) fun node cc hn => ?_
  have hn' : node < 127 := by norm_num at hn; exact hn
  unfold gsplit split
  rw [glg_eq m c t r node 0 hn', glg_eq m c t r node 1 hn']

theorem llg_eq0 (c : Dev nD) (t : Fin cfg0.N) (r : Fin 1024) (i cc : ℕ) (hi : i < 1) :
    llg (iblk m c 0 t) (iblk m c 2 t) (iblk m c 3 t) (iblk m c 4 t) (iblk m c 5 t) (iblk m c 6 t) (iblk m c 7 t) (iblk m c 8 t) (iblk m c 9 t) (iblk m c 10 t) r 0 i cc
      = logit (qA m c) (kA m c) (gRow t r) (2 ^ (7 + 0) - 1 + (t.val % 128 * 2 ^ 0 + i)) cc := by
  have hmod := Nat.mod_lt t.val (show 0 < 128 by norm_num)
  show (if h : i < 1 then _ else _) = _
  unfold logit
  rw [dif_pos hi, dif_pos (by norm_num; omega)]
  refine Finset.sum_congr rfl fun x _ => ?_
  rw [iblk0_apply m c t r x, iblk2_apply m c t ⟨i, hi⟩ _ x]
  refine congrArg (qA m c _ * ·) (congrArg (kA m c) ?_)
  refine congrArg (fun a => ix3 a _ x) (Fin.ext ?_)
  show 127 + (t.val % 128 * 1 + i) = 2 ^ (7 + 0) - 1 + (t.val % 128 * 2 ^ 0 + i)
  norm_num

theorem llg_eq1 (c : Dev nD) (t : Fin cfg0.N) (r : Fin 1024) (i cc : ℕ) (hi : i < 2) :
    llg (iblk m c 0 t) (iblk m c 2 t) (iblk m c 3 t) (iblk m c 4 t) (iblk m c 5 t) (iblk m c 6 t) (iblk m c 7 t) (iblk m c 8 t) (iblk m c 9 t) (iblk m c 10 t) r 1 i cc
      = logit (qA m c) (kA m c) (gRow t r) (2 ^ (7 + 1) - 1 + (t.val % 128 * 2 ^ 1 + i)) cc := by
  have hmod := Nat.mod_lt t.val (show 0 < 128 by norm_num)
  show (if h : i < 2 then _ else _) = _
  unfold logit
  rw [dif_pos hi, dif_pos (by norm_num; omega)]
  refine Finset.sum_congr rfl fun x _ => ?_
  rw [iblk0_apply m c t r x, iblk3_apply m c t ⟨i, hi⟩ _ x]
  refine congrArg (qA m c _ * ·) (congrArg (kA m c) ?_)
  refine congrArg (fun a => ix3 a _ x) (Fin.ext ?_)
  show 255 + (t.val % 128 * 2 + i) = 2 ^ (7 + 1) - 1 + (t.val % 128 * 2 ^ 1 + i)
  norm_num

theorem llg_eq2 (c : Dev nD) (t : Fin cfg0.N) (r : Fin 1024) (i cc : ℕ) (hi : i < 4) :
    llg (iblk m c 0 t) (iblk m c 2 t) (iblk m c 3 t) (iblk m c 4 t) (iblk m c 5 t) (iblk m c 6 t) (iblk m c 7 t) (iblk m c 8 t) (iblk m c 9 t) (iblk m c 10 t) r 2 i cc
      = logit (qA m c) (kA m c) (gRow t r) (2 ^ (7 + 2) - 1 + (t.val % 128 * 2 ^ 2 + i)) cc := by
  have hmod := Nat.mod_lt t.val (show 0 < 128 by norm_num)
  show (if h : i < 4 then _ else _) = _
  unfold logit
  rw [dif_pos hi, dif_pos (by norm_num; omega)]
  refine Finset.sum_congr rfl fun x _ => ?_
  rw [iblk0_apply m c t r x, iblk4_apply m c t ⟨i, hi⟩ _ x]
  refine congrArg (qA m c _ * ·) (congrArg (kA m c) ?_)
  refine congrArg (fun a => ix3 a _ x) (Fin.ext ?_)
  show 511 + (t.val % 128 * 4 + i) = 2 ^ (7 + 2) - 1 + (t.val % 128 * 2 ^ 2 + i)
  norm_num

theorem llg_eq3 (c : Dev nD) (t : Fin cfg0.N) (r : Fin 1024) (i cc : ℕ) (hi : i < 8) :
    llg (iblk m c 0 t) (iblk m c 2 t) (iblk m c 3 t) (iblk m c 4 t) (iblk m c 5 t) (iblk m c 6 t) (iblk m c 7 t) (iblk m c 8 t) (iblk m c 9 t) (iblk m c 10 t) r 3 i cc
      = logit (qA m c) (kA m c) (gRow t r) (2 ^ (7 + 3) - 1 + (t.val % 128 * 2 ^ 3 + i)) cc := by
  have hmod := Nat.mod_lt t.val (show 0 < 128 by norm_num)
  show (if h : i < 8 then _ else _) = _
  unfold logit
  rw [dif_pos hi, dif_pos (by norm_num; omega)]
  refine Finset.sum_congr rfl fun x _ => ?_
  rw [iblk0_apply m c t r x, iblk5_apply m c t ⟨i, hi⟩ _ x]
  refine congrArg (qA m c _ * ·) (congrArg (kA m c) ?_)
  refine congrArg (fun a => ix3 a _ x) (Fin.ext ?_)
  show 1023 + (t.val % 128 * 8 + i) = 2 ^ (7 + 3) - 1 + (t.val % 128 * 2 ^ 3 + i)
  norm_num

theorem llg_eq4 (c : Dev nD) (t : Fin cfg0.N) (r : Fin 1024) (i cc : ℕ) (hi : i < 16) :
    llg (iblk m c 0 t) (iblk m c 2 t) (iblk m c 3 t) (iblk m c 4 t) (iblk m c 5 t) (iblk m c 6 t) (iblk m c 7 t) (iblk m c 8 t) (iblk m c 9 t) (iblk m c 10 t) r 4 i cc
      = logit (qA m c) (kA m c) (gRow t r) (2 ^ (7 + 4) - 1 + (t.val % 128 * 2 ^ 4 + i)) cc := by
  have hmod := Nat.mod_lt t.val (show 0 < 128 by norm_num)
  show (if h : i < 16 then _ else _) = _
  unfold logit
  rw [dif_pos hi, dif_pos (by norm_num; omega)]
  refine Finset.sum_congr rfl fun x _ => ?_
  rw [iblk0_apply m c t r x, iblk6_apply m c t ⟨i, hi⟩ _ x]
  refine congrArg (qA m c _ * ·) (congrArg (kA m c) ?_)
  refine congrArg (fun a => ix3 a _ x) (Fin.ext ?_)
  show 2047 + (t.val % 128 * 16 + i) = 2 ^ (7 + 4) - 1 + (t.val % 128 * 2 ^ 4 + i)
  norm_num

theorem llg_eq5 (c : Dev nD) (t : Fin cfg0.N) (r : Fin 1024) (i cc : ℕ) (hi : i < 32) :
    llg (iblk m c 0 t) (iblk m c 2 t) (iblk m c 3 t) (iblk m c 4 t) (iblk m c 5 t) (iblk m c 6 t) (iblk m c 7 t) (iblk m c 8 t) (iblk m c 9 t) (iblk m c 10 t) r 5 i cc
      = logit (qA m c) (kA m c) (gRow t r) (2 ^ (7 + 5) - 1 + (t.val % 128 * 2 ^ 5 + i)) cc := by
  have hmod := Nat.mod_lt t.val (show 0 < 128 by norm_num)
  show (if h : i < 32 then _ else _) = _
  unfold logit
  rw [dif_pos hi, dif_pos (by norm_num; omega)]
  refine Finset.sum_congr rfl fun x _ => ?_
  rw [iblk0_apply m c t r x, iblk7_apply m c t ⟨i, hi⟩ _ x]
  refine congrArg (qA m c _ * ·) (congrArg (kA m c) ?_)
  refine congrArg (fun a => ix3 a _ x) (Fin.ext ?_)
  show 4095 + (t.val % 128 * 32 + i) = 2 ^ (7 + 5) - 1 + (t.val % 128 * 2 ^ 5 + i)
  norm_num

theorem llg_eq6 (c : Dev nD) (t : Fin cfg0.N) (r : Fin 1024) (i cc : ℕ) (hi : i < 64) :
    llg (iblk m c 0 t) (iblk m c 2 t) (iblk m c 3 t) (iblk m c 4 t) (iblk m c 5 t) (iblk m c 6 t) (iblk m c 7 t) (iblk m c 8 t) (iblk m c 9 t) (iblk m c 10 t) r 6 i cc
      = logit (qA m c) (kA m c) (gRow t r) (2 ^ (7 + 6) - 1 + (t.val % 128 * 2 ^ 6 + i)) cc := by
  have hmod := Nat.mod_lt t.val (show 0 < 128 by norm_num)
  show (if h : i < 64 then _ else _) = _
  unfold logit
  rw [dif_pos hi, dif_pos (by norm_num; omega)]
  refine Finset.sum_congr rfl fun x _ => ?_
  rw [iblk0_apply m c t r x, iblk8_apply m c t ⟨i, hi⟩ _ x]
  refine congrArg (qA m c _ * ·) (congrArg (kA m c) ?_)
  refine congrArg (fun a => ix3 a _ x) (Fin.ext ?_)
  show 8191 + (t.val % 128 * 64 + i) = 2 ^ (7 + 6) - 1 + (t.val % 128 * 2 ^ 6 + i)
  norm_num

theorem llg_eq7 (c : Dev nD) (t : Fin cfg0.N) (r : Fin 1024) (i cc : ℕ) (hi : i < 128) :
    llg (iblk m c 0 t) (iblk m c 2 t) (iblk m c 3 t) (iblk m c 4 t) (iblk m c 5 t) (iblk m c 6 t) (iblk m c 7 t) (iblk m c 8 t) (iblk m c 9 t) (iblk m c 10 t) r 7 i cc
      = logit (qA m c) (kA m c) (gRow t r) (2 ^ (7 + 7) - 1 + (t.val % 128 * 2 ^ 7 + i)) cc := by
  have hmod := Nat.mod_lt t.val (show 0 < 128 by norm_num)
  show (if h : i < 128 then _ else _) = _
  unfold logit
  rw [dif_pos hi, dif_pos (by norm_num; omega)]
  refine Finset.sum_congr rfl fun x _ => ?_
  rw [iblk0_apply m c t r x, iblk9_apply m c t ⟨i, hi⟩ _ x]
  refine congrArg (qA m c _ * ·) (congrArg (kA m c) ?_)
  refine congrArg (fun a => ix3 a _ x) (Fin.ext ?_)
  show 16383 + (t.val % 128 * 128 + i) = 2 ^ (7 + 7) - 1 + (t.val % 128 * 2 ^ 7 + i)
  norm_num

theorem llg_eq8 (c : Dev nD) (t : Fin cfg0.N) (r : Fin 1024) (i cc : ℕ) (hi : i < 256) :
    llg (iblk m c 0 t) (iblk m c 2 t) (iblk m c 3 t) (iblk m c 4 t) (iblk m c 5 t) (iblk m c 6 t) (iblk m c 7 t) (iblk m c 8 t) (iblk m c 9 t) (iblk m c 10 t) r 8 i cc
      = logit (qA m c) (kA m c) (gRow t r) (2 ^ (7 + 8) - 1 + (t.val % 128 * 2 ^ 8 + i)) cc := by
  have hmod := Nat.mod_lt t.val (show 0 < 128 by norm_num)
  show (if h : i < 256 then _ else _) = _
  unfold logit
  rw [dif_pos hi, dif_pos (by norm_num; omega)]
  refine Finset.sum_congr rfl fun x _ => ?_
  rw [iblk0_apply m c t r x, iblk10_apply m c t ⟨i, hi⟩ _ x]
  refine congrArg (qA m c _ * ·) (congrArg (kA m c) ?_)
  refine congrArg (fun a => ix3 a _ x) (Fin.ext ?_)
  show 32767 + (t.val % 128 * 256 + i) = 2 ^ (7 + 8) - 1 + (t.val % 128 * 2 ^ 8 + i)
  norm_num

/-- The row's splits inside subtree `t % 128` are the specification's. -/
theorem lsplit_eq (c : Dev nD) (t : Fin cfg0.N) (r : Fin 1024) :
    ∀ l, l < 9 → ∀ i cc, i < 2 ^ l →
      share2 (llg (iblk m c 0 t) (iblk m c 2 t) (iblk m c 3 t) (iblk m c 4 t) (iblk m c 5 t) (iblk m c 6 t) (iblk m c 7 t) (iblk m c 8 t) (iblk m c 9 t) (iblk m c 10 t) r l i 0) (llg (iblk m c 0 t) (iblk m c 2 t) (iblk m c 3 t) (iblk m c 4 t) (iblk m c 5 t) (iblk m c 6 t) (iblk m c 7 t) (iblk m c 8 t) (iblk m c 9 t) (iblk m c 10 t) r l i 1) cc
        = split (qA m c) (kA m c) (gRow t r) (2 ^ (7 + l) - 1 + (t.val % 128 * 2 ^ l + i)) cc := by
  intro l hl i cc hi
  unfold split
  interval_cases l
  · rw [llg_eq0 m c t r i 0 (by simpa using hi), llg_eq0 m c t r i 1 (by simpa using hi)]
  · rw [llg_eq1 m c t r i 0 (by simpa using hi), llg_eq1 m c t r i 1 (by simpa using hi)]
  · rw [llg_eq2 m c t r i 0 (by simpa using hi), llg_eq2 m c t r i 1 (by simpa using hi)]
  · rw [llg_eq3 m c t r i 0 (by simpa using hi), llg_eq3 m c t r i 1 (by simpa using hi)]
  · rw [llg_eq4 m c t r i 0 (by simpa using hi), llg_eq4 m c t r i 1 (by simpa using hi)]
  · rw [llg_eq5 m c t r i 0 (by simpa using hi), llg_eq5 m c t r i 1 (by simpa using hi)]
  · rw [llg_eq6 m c t r i 0 (by simpa using hi), llg_eq6 m c t r i 1 (by simpa using hi)]
  · rw [llg_eq7 m c t r i 0 (by simpa using hi), llg_eq7 m c t r i 1 (by simpa using hi)]
  · rw [llg_eq8 m c t r i 0 (by simpa using hi), llg_eq8 m c t r i 1 (by simpa using hi)]

/-- The weighted leaf values inside the subtree of point `t`, for row `r` and coordinate `v`. -/
theorem inner_point (c : Dev nD) (t : Fin cfg0.N) (r : Fin 1024) (v : Fin 64) :
    (∑ l : Fin 512, lw (llg (iblk m c 0 t) (iblk m c 2 t) (iblk m c 3 t) (iblk m c 4 t) (iblk m c 5 t) (iblk m c 6 t) (iblk m c 7 t) (iblk m c 8 t) (iblk m c 9 t) (iblk m c 10 t) r) 9 l.val
        * (iblk m c 11 t : Vec Ideal S1x512x64 .f32) (ix3 (0 : Fin 1) l v))
      = ∑ l ∈ range 512, localW (split (qA m c) (kA m c) (gRow t r)) 7 (t.val % 128) 9 l
          * valN (xA m c) v (t.val % 128 * 512 + l) := by
  have hmod := Nat.mod_lt t.val (show 0 < 128 by norm_num)
  rw [← Fin.sum_univ_eq_sum_range (fun l => localW (split (qA m c) (kA m c) (gRow t r)) 7 (t.val % 128) 9 l
    * valN (xA m c) v (t.val % 128 * 512 + l)) 512]
  refine Finset.sum_congr rfl fun l _ => ?_
  rw [lw_eq_localW _ (split (qA m c) (kA m c) (gRow t r)) 7 (t.val % 128) 9 (lsplit_eq m c t r) 9 le_rfl l.val
    (lt_of_lt_of_eq l.isLt (by norm_num)), iblk11_apply m c t l v]
  unfold valN
  rw [dif_pos (by have := l.isLt; omega)]
  refine congrArg (_ * ·) (congrArg (xA m c) (congrArg (fun a => ix2 a v) (Fin.ext ?_)))
  show 512 * (t.val % 128) + l.val = t.val % 128 * 512 + l.val
  ring

/-- Subtree `s`'s contribution to the result at row `b`, coordinate `v`. -/
def contrib (q : SQ.Idx → EReal) (K : SK.Idx → EReal) (X : SX.Idx → EReal) (b : Fin 2048) (v : Fin 64) (s : ℕ) : EReal :=
  pathW (split q K b) 7 s * ∑ l ∈ range 512, localW (split q K b) 7 s 9 l * valN X v (s * 512 + l)

set_option maxHeartbeats 4000000 in
/-- At the first point of a batch tile the carried scratch is set to the tile's subtree weights. -/
theorem pointA_scr (c : Dev nD) (t : Fin cfg0.N) (h0 : t.val % 128 = 0) (r : Fin 1024) (j : Fin 128) :
    (outsAt0 m c t.val t.isLt).2 (ix2 r j) = pathW (split (qA m c) (kA m c) (gRow t r)) 7 j.val := by
  rw [outsAt0_A m c t h0 h0]
  dsimp only
  exact (sout_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans
    (gate_point m c t r j.val j.isLt)

set_option maxHeartbeats 4000000 in
/-- … and the output block to the first subtree's contribution. -/
theorem pointA_out (c : Dev nD) (t : Fin cfg0.N) (h0 : t.val % 128 = 0) (r : Fin 1024) (v : Fin 64) :
    (outsAt0 m c t.val t.isLt).1 (ix2 r v) = contrib (qA m c) (kA m c) (xA m c) (gRow t r) v 0 := by
  rw [outsAt0_A m c t h0 h0]
  dsimp only
  refine (out_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r v).trans ?_
  rw [coords1 t, h0, inner_point m c t r v, gate_point m c t r 0 (by norm_num), zero_add, h0]
  rfl

set_option maxHeartbeats 4000000 in
/-- At any other point the carried scratch is what the point before left. -/
theorem pointB_scr (c : Dev nD) (t : Fin cfg0.N) (h0 : ¬t.val % 128 = 0) :
    (outsAt0 m c t.val t.isLt).2 = (outsAt0 m c (t.val - 1) (Nat.lt_of_le_of_lt (Nat.sub_le _ _) t.isLt)).2 := by
  rw [outsAt0_B m c t h0 h0]
  rfl

set_option maxHeartbeats 4000000 in
/-- … and the output block gains the point's subtree's contribution, weighted by the carried scratch's column. -/
theorem pointB_out (c : Dev nD) (t : Fin cfg0.N) (h0 : ¬t.val % 128 = 0) (r : Fin 1024) (v : Fin 64) :
    (outsAt0 m c t.val t.isLt).1 (ix2 r v)
      = (outsAt0 m c (t.val - 1) (Nat.lt_of_le_of_lt (Nat.sub_le _ _) t.isLt)).1 (ix2 r v)
        + (outsAt0 m c (t.val - 1) (Nat.lt_of_le_of_lt (Nat.sub_le _ _) t.isLt)).2
            (ix2 r ⟨t.val % 128, Nat.mod_lt _ (by norm_num)⟩)
          * ∑ l ∈ range 512, localW (split (qA m c) (kA m c) (gRow t r)) 7 (t.val % 128) 9 l
              * valN (xA m c) v (t.val % 128 * 512 + l) := by
  rw [outsAt0_B m c t h0 h0]
  dsimp only
  refine (out_B_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h0 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (outsAt0 m c (t.val - 1) (Nat.lt_of_le_of_lt (Nat.sub_le _ _) t.isLt)).1
    (outsAt0 m c (t.val - 1) (Nat.lt_of_le_of_lt (Nat.sub_le _ _) t.isLt)).2 r v).trans ?_
  rw [inner_point m c t r v]
  refine congrArg (_ + ·) (congrArg (· * _) (congrArg _ (congrArg (ix2 r) (Fin.ext (coords1 t)))))

theorem gRow_pred (t : Fin cfg0.N) (h : ¬t.val % 128 = 0) (r : Fin 1024) :
    gRow ⟨t.val - 1, Nat.lt_of_le_of_lt (Nat.sub_le _ _) t.isLt⟩ r = gRow t r :=
  Fin.ext (by show 1024 * ((t.val - 1) / 128) + r.val = 1024 * (t.val / 128) + r.val; omega)

/-- After point `n`: the carried scratch holds the batch tile's subtree weights, and the output block the
    contributions of the subtrees `0 … n % 128`. -/
theorem inv (c : Dev nD) : ∀ (n : ℕ) (hn : n < cfg0.N),
    (∀ (r : Fin 1024) (j : Fin 128), (outsAt0 m c n hn).2 (ix2 r j)
        = pathW (split (qA m c) (kA m c) (gRow ⟨n, hn⟩ r)) 7 j.val)
    ∧ (∀ (r : Fin 1024) (v : Fin 64), (outsAt0 m c n hn).1 (ix2 r v)
        = ∑ s ∈ range (n % 128 + 1), contrib (qA m c) (kA m c) (xA m c) (gRow ⟨n, hn⟩ r) v s) := by
  intro n
  induction n with
  | zero =>
    intro hn
    refine ⟨fun r j => pointA_scr m c ⟨0, hn⟩ rfl r j, fun r v => ?_⟩
    rw [show (0 : ℕ) % 128 + 1 = 1 from rfl, Finset.sum_range_one]
    exact pointA_out m c ⟨0, hn⟩ rfl r v
  | succ n ih =>
    intro hn
    obtain ⟨ih2, ih1⟩ := ih (Nat.lt_of_succ_lt hn)
    by_cases h0 : (n + 1) % 128 = 0
    · refine ⟨fun r j => pointA_scr m c ⟨n + 1, hn⟩ h0 r j, fun r v => ?_⟩
      rw [h0, Finset.sum_range_one]
      exact pointA_out m c ⟨n + 1, hn⟩ h0 r v
    · have hmod : (n + 1) % 128 = n % 128 + 1 := by omega
      have hg : ∀ r, gRow ⟨n, Nat.lt_of_succ_lt hn⟩ r = gRow ⟨n + 1, hn⟩ r := fun r => gRow_pred ⟨n + 1, hn⟩ h0 r
      refine ⟨fun r j => ?_, fun r v => ?_⟩
      · rw [congrFun (pointB_scr m c ⟨n + 1, hn⟩ h0) (ix2 r j)]
        exact (ih2 r j).trans (by rw [hg r])
      · rw [pointB_out m c ⟨n + 1, hn⟩ h0 r v]
        show (outsAt0 m c n _).1 (ix2 r v) + (outsAt0 m c n _).2 (ix2 r _) * _ = _
        rw [ih1 r v, ih2 r _, hg r, show range ((n + 1) % 128 + 1) = range (n % 128 + 1 + 1) by rw [hmod],
          Finset.sum_range_succ _ (n % 128 + 1)]
        refine congrArg (fun z : EReal => (∑ s ∈ range (n % 128 + 1),
          contrib (qA m c) (kA m c) (xA m c) (gRow ⟨n + 1, hn⟩ r) v s) + z) ?_
        have e : contrib (qA m c) (kA m c) (xA m c) (gRow ⟨n + 1, hn⟩ r) v (n % 128 + 1)
            = contrib (qA m c) (kA m c) (xA m c) (gRow ⟨n + 1, hn⟩ r) v ((n + 1) % 128) := by rw [hmod]
        rw [e]
        rfl

end Cert.KernelIdeal.KValue

end
-- ==== Proof.KernelRun.lean ====
/-
  The kernel's run, with its result stated by the specification.  The output block of a batch tile is written back
  once, after the tile's last subtree; by then it holds the contributions of all 128 subtrees, which sum to the
  specification's result for the tile's rows (this is where the arguments being real numbers is used).  The two
  tiles' blocks cover the result array.
-/
import proofs.«171282_j44032004719312_2_alg».proof.Proof.KValue

set_option maxRecDepth 16384

noncomputable section

namespace Cert.KernelIdeal.KValue

open Cert.KernelIdeal Cert.KernelIdeal.Gen Cert.KernelIdeal.Body Cert.KernelIdeal.Windows
open Idealize.ShloMosaic Idealize.ShloMosaic.TcCoe Idealize.ShloMosaic.ValueIdx Idealize.SL.Sem
open Idealize.ShloMosaic.Pipeline (Dat)
open Finset TreeWeights KernelLevel TreeSpec TreeBridge

variable (m : (ℓ : Loc nD τ sig) → Buf (Elt Ideal) ℓ)

theorem idx12 : ∀ t : Fin cfg0.N, win0_12.index t 0 = t.val / 128 ∧ win0_12.index t 1 = 0 :=
  (by decide +kernel : ∀ t : Fin grid0.N, _)

/-- What a batch tile's last point writes back is the tile's block of the specification's array. -/
theorem flushed_eq (c : Dev nD) (hq : ∀ i, IsReal (qA m c i)) (hK : ∀ i, IsReal (kA m c i)) (hX : ∀ i, IsReal (xA m c i))
    (t : Fin cfg0.N) (hf : (cfg0.win 12).flush t = true) :
    (dats m 0 c).flushed 12 t
      = ((cfg0.win 12).blk t).view.read (Elt Ideal) (TreeSpec.out (qA m c) (kA m c) (xA m c)) := by
  have h127 : t.val % 128 = 127 := (flush0_12 t).mp hf
  rw [Cert.KernelIdeal.Value.flushed12]
  funext j
  show (outsAt0 m c t.val t.isLt).1 ((cfg0.win 12).xinj (grid0.coords t) j) = _
  rw [View.read_apply]
  have h0 : (j 0).val < 1024 := Nat.lt_of_lt_of_le (j 0).isLt ((cfg0.win 12).xsize_le (grid0.coords t) 0)
  have h1 : (j 1).val < 64 := Nat.lt_of_lt_of_le (j 1).isLt ((cfg0.win 12).xsize_le (grid0.coords t) 1)
  have hx : (cfg0.win 12).xinj (grid0.coords t) j = ix2 (⟨(j 0).val, h0⟩ : Fin 1024) (⟨(j 1).val, h1⟩ : Fin 64) :=
    funext fun a => Fin.ext (by match a with | ⟨0, _⟩ => rfl | ⟨1, _⟩ => rfl)
  have hemb : ((cfg0.win 12).blk t).view.emb j
      = ix2 (gRow t (⟨(j 0).val, h0⟩ : Fin 1024)) (⟨(j 1).val, h1⟩ : Fin 64) := by
    funext a
    apply Fin.ext
    match a with
    | ⟨0, _⟩ =>
      show win0_12.index t 0 * 1024 + 1 * (j 0).val = 1024 * (t.val / 128) + (j 0).val
      rw [(idx12 t).1]; omega
    | ⟨1, _⟩ =>
      show win0_12.index t 1 * 64 + 1 * (j 1).val = (j 1).val
      rw [(idx12 t).2]; omega
  rw [hx, hemb, TreeSpec.out_apply, (inv m c t.val t.isLt).2 _ _, h127, show (127 : ℕ) + 1 = 128 from rfl]
  unfold contrib
  refine (accumulated_eq_result (qA m c) (kA m c) (xA m c) hq hK hX (gRow t ⟨(j 0).val, h0⟩) ⟨(j 1).val, h1⟩).trans ?_
  exact (cast_eq _ _).symm

/-- Every entry of the result array is in the block some batch tile's last point writes back. -/
theorem cover (c : Dev nD) (i : S2048x64.Idx) :
    ∃ t : Fin cfg0.N, (cfg0.win 12).flush t = true ∧ i ∈ ((cfg0.win 12).blk t).view.set := by
  have hi0 : (i 0).val < 2048 := (i 0).isLt
  have hi1 : (i 1).val < 64 := (i 1).isLt
  have hlt : 128 * ((i 0).val / 1024) + 127 < cfg0.N := by rw [hN]; omega
  refine ⟨⟨128 * ((i 0).val / 1024) + 127, hlt⟩, (flush0_12 _).mpr (by show (128 * ((i 0).val / 1024) + 127) % 128 = 127; omega), ?_⟩
  show i ∈ ((View.whole main_v20).slice (win0_12.rect ⟨128 * ((i 0).val / 1024) + 127, hlt⟩)).set
  rw [View.set_slice_whole, Rect.mem_set_unit]
  intro a
  have hx := idx12 ⟨128 * ((i 0).val / 1024) + 127, hlt⟩
  match a with
  | ⟨0, _⟩ =>
    show win0_12.index ⟨128 * ((i 0).val / 1024) + 127, hlt⟩ 0 * 1024 ≤ (i 0).val
      ∧ (i 0).val < win0_12.index ⟨128 * ((i 0).val / 1024) + 127, hlt⟩ 0 * 1024 + 1024
    rw [hx.1]
    show (128 * ((i 0).val / 1024) + 127) / 128 * 1024 ≤ (i 0).val ∧ (i 0).val < (128 * ((i 0).val / 1024) + 127) / 128 * 1024 + 1024
    omega
  | ⟨1, _⟩ =>
    show win0_12.index ⟨128 * ((i 0).val / 1024) + 127, hlt⟩ 1 * 64 ≤ (i 1).val
      ∧ (i 1).val < win0_12.index ⟨128 * ((i 0).val / 1024) + 127, hlt⟩ 1 * 64 + 64
    rw [hx.2]
    omega

/-- The result array after the run is the specification's array of the arguments. -/
theorem final (c : Dev nD) (hq : ∀ i, IsReal (qA m c i)) (hK : ∀ i, IsReal (kA m c i)) (hX : ∀ i, IsReal (xA m c i)) :
    (dats m 0 c).arrAt 12 cfg0.N = TreeSpec.out (qA m c) (kA m c) (xA m c) :=
  (dats m 0 c).arrAt_eq_of_cover 12 _ (fun t hf => flushed_eq m c hq hK hX t hf) (cover c)

/-- The kernel's run: the result at the specification's array of the arguments, the arguments unchanged. -/
theorem run_spec (ρ : Dev nD → PrngReg)
    (hreal : ∀ c : Dev nD, (∀ i, IsReal (qA m c i)) ∧ (∀ i, IsReal (kA m c i)) ∧ (∀ i, IsReal (xA m c i))) :
    θ_run defs (onTc (τ := τ) (main (F := Ideal))) ⟨m, fun _ => 0, ρ⟩ fun r => ∀ c : Dev nD,
      r.2.mem ((c : Thread nD τ).loc main_v20) = TreeSpec.out (qA m c) (kA m c) (xA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hreal c).1 (hreal c).2.1 (hreal c).2.2), (h c).2⟩)
    (Cert.KernelIdeal.Value.run_blocks m ρ)

end Cert.KernelIdeal.KValue

end
-- ==== Proof.Finite.lean ====
/-
  Under the precondition every entry of the three argument arrays is a real number: the precondition is the
  conjunction, over the three arrays, of "every entry's absolute value is below +∞", and an extended real
  whose absolute value is below +∞ is neither infinity.
-/
import proofs.«171282_j44032004719312_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value
import proofs.«171282_j44032004719312_2_alg».proof.Proof.LibTreeWeights

noncomputable section

namespace Cert.Pre_finite_inputs.Finite

open Idealize.ShloMosaic Idealize.ShloMosaic.ValueIdx TreeWeights Cert.Pre_finite_inputs

instance : Subsingleton S_.Idx := ⟨fun a b => funext fun d => d.elim0⟩

/-- An extended real whose absolute value is below +∞ is a real number. -/
theorem isReal_of_abs_lt_top (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- One array's part of the precondition: every entry real. -/
theorem all_real {s : Shape} (a : FVec Ideal s .f32) (hb : S_.BroadcastsInDim s ![]) (axes : List (Fin s.rank))
    (hR : s.ReducesTo axes S_) (hS : 0 < S_.numel)
    (h : Host.reduce IntOp.andi (cmpf .olt (Host.absf a) (broadcastInDim s ![] hb (constant (F := Ideal) S_ .f32 0x7F800000#32)))
      (constantI S_ 1 1#1) hR hS ix0 = 1#1) (i : s.Idx) : IsReal (a i) := by
  have hi := Host.reduce_andi_all _ _ hR hS ix0 h i
  refine isReal_of_abs_lt_top (a i) ?_
  have hbc : broadcastInDim s ![] hb (constant (F := Ideal) S_ .f32 0x7F800000#32) i = Ideal.ofBits .f32 0x7F800000#32 :=
    broadcastInDim_apply ![] hb _ i ix0 (fun a => a.elim0)
  rw [← hbc]
  exact hi

/-- The precondition gives real entries in all three arrays. -/
theorem real_of_pre [Facts] (a0 : FVec Ideal S2048x64 .f32) (a1 : FVec Ideal S65535x2x64 .f32) (a2 : FVec Ideal S65536x64 .f32)
    (h : fn (F := Ideal) a0 a1 a2 = fun _ => 1#1) :
    (∀ i, IsReal (a0 i)) ∧ (∀ i, IsReal (a1 i)) ∧ (∀ i, IsReal (a2 i)) := by
  have h0 := congrFun h ix0
  dsimp only [fn] at h0
  obtain ⟨h01, h2⟩ := IntOp.andi_eq_one.mp h0
  obtain ⟨h0', h1⟩ := IntOp.andi_eq_one.mp h01
  exact ⟨all_real a0 _ _ _ _ h0', all_real a1 _ _ _ _ h1, all_real a2 _ _ _ _ h2⟩

end Cert.Pre_finite_inputs.Finite

end
-- ==== Proof.lean ====
/-
  Hierarchical two-way softmax attention over a complete binary tree of depth 16.

  For a query row b and an internal node with its two child keys, the two children split the node's
  probability by a two-way softmax of the logits <query b, child key>; a leaf's weight is the product of the
  splits along its root-to-leaf path, and the result is the weighted sum of the leaf values.

  The reference walks the 16 levels over the whole tree.  The kernel cuts the tree after level 7: the first
  seven levels give one weight per subtree (128 of them), the last nine levels give, inside each subtree, one
  weight per leaf (512 of them), and the result is accumulated subtree by subtree as
  (subtree weight) * (sum over the subtree's leaves of leaf weight * leaf value).
  A leaf's path weight is the product of its subtree's weight and its weight inside the subtree, so the two
  sides differ by a regrouping of one finite sum and by distributing the subtree weight over the inner sum;
  the latter is where the finiteness of the inputs is used (every weight is then a real number).
-/
import proofs.«171282_j44032004719312_2_alg».proof.Defs
import proofs.«171282_j44032004719312_2_alg».proof.Proof.Gen.Kernel
import proofs.«171282_j44032004719312_2_alg».proof.Proof.Gen.Kernel.Skeleton
import proofs.«171282_j44032004719312_2_alg».proof.Proof.Gen.Kernel.Launch
import proofs.«171282_j44032004719312_2_alg».proof.Proof.Gen.Kernel.Points
import proofs.«171282_j44032004719312_2_alg».proof.Proof.Gen.Kernel.Frame
import proofs.«171282_j44032004719312_2_alg».proof.Proof.Gen.KernelIdeal
import proofs.«171282_j44032004719312_2_alg».proof.Proof.Gen.KernelIdeal.Skeleton
import proofs.«171282_j44032004719312_2_alg».proof.Proof.Gen.KernelIdeal.Launch
import proofs.«171282_j44032004719312_2_alg».proof.Proof.Gen.KernelIdeal.Points
import proofs.«171282_j44032004719312_2_alg».proof.Proof.Gen.KernelIdeal.Frame
import proofs.«171282_j44032004719312_2_alg».proof.Proof.Gen.KernelIdeal.Value
import proofs.«171282_j44032004719312_2_alg».proof.Proof.Gen.ReferenceIdeal
import proofs.«171282_j44032004719312_2_alg».proof.Proof.Gen.ReferenceIdeal.Run
import proofs.«171282_j44032004719312_2_alg».proof.Proof.Gen.Pre_finite_inputs
import proofs.«171282_j44032004719312_2_alg».proof.Proof.RefRun
import proofs.«171282_j44032004719312_2_alg».proof.Proof.KernelRun
import proofs.«171282_j44032004719312_2_alg».proof.Proof.Finite
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference_ideal [Cert.ReferenceIdeal.Facts] [Cert.Pre_finite_inputs.Facts] :
    Cert.frame_ReferenceIdeal := fun m ρ _ =>
  (θ_run Cert.ReferenceIdeal.defs _ _).mono (fun _ h c => (h c).2)
    (Cert.ReferenceIdeal.Value.run (F := Ideal) m ρ)

/-- Both idealized programs end with the specification's array of the arguments: the kernel by the accumulation over
    the subtrees (the precondition makes every argument entry a real number), the reference level by level. -/
theorem algebraic [Cert.KernelIdeal.Facts] [Cert.ReferenceIdeal.Facts] [Cert.Pre_finite_inputs.Facts] :
    Cert.algebraic_KernelIdeal_ReferenceIdeal := by
  intro m ρ m' ρ' hpre hagree
  have hreal := fun c => Cert.Pre_finite_inputs.Finite.real_of_pre _ _ _ (hpre c)
  refine ⟨fun c => TreeSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run_spec m ρ hreal, ?_⟩
  refine (θ_run Cert.ReferenceIdeal.defs _ _).mono (fun _ h c => ⟨(h c).1.trans ?_, (h c).2⟩)
    (Cert.ReferenceIdeal.RefTree.run_spec m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
